-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v275)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v275) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7 : Shape := ⟨2, ![8192, 7]⟩
abbrev S8192x4096 : Shape := ⟨2, ![8192, 4096]⟩
abbrev S_ : Shape := ⟨0, ![]⟩

class Facts : Prop where
  bcast_S_S8192x7 : S_.BroadcastsInDim S8192x7 (![] : Fin 0 → Fin S8192x7.rank)
  reducesTo_S8192x7_S_d0_1 : S8192x7.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  main_v18

def fn {F : FTy → Type} [FloatOps F] (main_arg0 : FVec F S8192x7 .f32) (main_arg1 : FVec F S8192x7 .f32) (main_arg2 : FVec F S8192x4096 .f32) (main_arg3 : FVec F S8192x4096 .f32) : IVec S_ 1 :=
  let main_v0 : FVec F S8192x7 .f32 := Host.absf main_arg0
  let main_cst : FVec F S_ .f32 := constant S_ .f32 0x7F800000#32
  let main_v1 : FVec F S8192x7 .f32 := broadcastInDim S8192x7 ![] bcast_S_S8192x7 main_cst
  let main_v2 : IVec S8192x7 1 := cmpf .olt main_v0 main_v1
  let main_c : IVec S_ 1 := constantI S_ 1 1#1
  let main_v3 : IVec S_ 1 := (fun x v => Host.reduce IntOp.andi x v reducesTo_S8192x7_S_d0_1 h_S_) main_v2 main_c
  let main_v4 : FVec F S8192x7 .f32 := Host.absf main_arg1
  let main_cst_0 : FVec F S_ .f32 := constant S_ .f32 0x7F800000#32
  let main_v5 : FVec F S8192x7 .f32 := broadcastInDim S8192x7 ![] bcast_S_S8192x7 main_cst_0
  let main_v6 : IVec S8192x7 1 := cmpf .olt main_v4 main_v5
  let main_c_1 : IVec S_ 1 := constantI S_ 1 1#1
  let main_v7 : IVec S_ 1 := (fun x v => Host.reduce IntOp.andi x v reducesTo_S8192x7_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_v13 main_v16
-- ==== Kernel.lean ====
abbrev S8192x7 : Shape := ⟨2, ![8192, 7]⟩
abbrev S8192x4096 : Shape := ⟨2, ![8192, 4096]⟩
abbrev S8192x1 : Shape := ⟨2, ![8192, 1]⟩
abbrev S8192 : Shape := ⟨1, ![8192]⟩
abbrev S_ : Shape := ⟨0, ![]⟩
abbrev S512x4096 : Shape := ⟨2, ![512, 4096]⟩
abbrev S512x1 : Shape := ⟨2, ![512, 1]⟩
abbrev S512 : Shape := ⟨1, ![512]⟩

abbrev nBuf : Space → Nat
  | .hbm => 435
  | .vmem => 6
  | .smem => 0
  | _ => 0

abbrev hbmTy0_0 (i : Nat) : BufTy := match i % 128 with
  | 0 => ⟨S8192x7, .f32⟩
  | 1 => ⟨S8192x7, .f32⟩
  | 2 => ⟨S8192x4096, .f32⟩
  | 3 => ⟨S8192x4096, .f32⟩
  | 4 => ⟨S8192x1, .f32⟩
  | 5 => ⟨S8192, .f32⟩
  | 6 => ⟨S8192x1, .f32⟩
  | 7 => ⟨S8192, .f32⟩
  | 8 => ⟨S8192x1, .f32⟩
  | 9 => ⟨S8192, .f32⟩
  | 10 => ⟨S8192x1, .f32⟩
  | 11 => ⟨S8192, .f32⟩
  | 12 => ⟨S8192x1, .f32⟩
  | 13 => ⟨S8192, .f32⟩
  | 14 => ⟨S8192x1, .f32⟩
  | 15 => ⟨S8192, .f32⟩
  | 16 => ⟨S8192x1, .f32⟩
  | 17 => ⟨S8192, .f32⟩
  | 18 => ⟨S_, .f32⟩
  | 19 => ⟨S8192, .f32⟩
  | 20 => ⟨S8192, .f32⟩
  | 21 => ⟨S_, .f32⟩
  | 22 => ⟨S8192, .f32⟩
  | 23 => ⟨S8192, .f32⟩
  | 24 => ⟨S8192, .f32⟩
  | 25 => ⟨S_, .f32⟩
  | 26 => ⟨S8192, .f32⟩
  | 27 => ⟨S8192, .f32⟩
  | 28 => ⟨S8192, .f32⟩
  | 29 => ⟨S_, .f32⟩
  | 30 => ⟨S8192, .f32⟩
  | 31 => ⟨S8192, .f32⟩
  | 32 => ⟨S8192, .f32⟩
  | 33 => ⟨S8192, .f32⟩
  | 34 => ⟨S_, .f32⟩
  | 35 => ⟨S8192, .f32⟩
  | 36 => ⟨S8192, .f32⟩
  | 37 => ⟨S_, .f32⟩
  | 38 => ⟨S8192, .f32⟩
  | 39 => ⟨S8192, .f32⟩
  | 40 => ⟨S8192, .f32⟩
  | 41 => ⟨S8192, .f32⟩
  | 42 => ⟨S_, .f32⟩
  | 43 => ⟨S8192, .f32⟩
  | 44 => ⟨S8192, .f32⟩
  | 45 => ⟨S8192, .f32⟩
  | 46 => ⟨S_, .f32⟩
  | 47 => ⟨S8192, .f32⟩
  | 48 => ⟨S8192, .f32⟩
  | 49 => ⟨S_, .f32⟩
  | 50 => ⟨S8192, .f32⟩
  | 51 => ⟨S8192, .f32⟩
  | 52 => ⟨S8192, .f32⟩
  | 53 => ⟨S8192, .i1⟩
  | 54 => ⟨S_, .f32⟩
  | 55 => ⟨S8192, .f32⟩
  | 56 => ⟨S8192, .f32⟩
  | 57 => ⟨S_, .f32⟩
  | 58 => ⟨S8192, .f32⟩
  | 59 => ⟨S8192, .f32⟩
  | 60 => ⟨S8192, .f32⟩
  | 61 => ⟨S_, .f32⟩
  | 62 => ⟨S8192, .f32⟩
  | 63 => ⟨S8192, .f32⟩
  | 64 => ⟨S8192, .f32⟩
  | 65 => ⟨S8192, .i1⟩
  | 66 => ⟨S8192, .i1⟩
  | 67 => ⟨S8192, .i1⟩
  | 68 => ⟨S8192, .i1⟩
  | 69 => ⟨S8192, .i1⟩
  | 70 => ⟨S_, .f32⟩
  | 71 => ⟨S8192, .f32⟩
  | 72 => ⟨S8192, .f32⟩
  | 73 => ⟨S_, .f32⟩
  | 74 => ⟨S8192, .f32⟩
  | 75 => ⟨S8192, .f32⟩
  | 76 => ⟨S8192, .f32⟩
  | 77 => ⟨S8192, .i1⟩
  | 78 => ⟨S8192, .i1⟩
  | 79 => ⟨S8192, .i1⟩
  | 80 => ⟨S8192, .i1⟩
  | 81 => ⟨S8192, .i1⟩
  | 82 => ⟨S8192, .f32⟩
  | 83 => ⟨S8192, .f32⟩
  | 84 => ⟨S8192, .f32⟩
  | 85 => ⟨S_, .f32⟩
  | 86 => ⟨S8192, .f32⟩
  | 87 => ⟨S8192, .f32⟩
  | 88 => ⟨S8192, .f32⟩
  | 89 => ⟨S_, .f32⟩
  | 90 => ⟨S8192, .f32⟩
  | 91 => ⟨S8192, .i1⟩
  | 92 => ⟨S8192, .i1⟩
  | 93 => ⟨S_, .f32⟩
  | 94 => ⟨S8192, .f32⟩
  | 95 => ⟨S8192, .f32⟩
  | 96 => ⟨S_, .f32⟩
  | 97 => ⟨S8192, .f32⟩
  | 98 => ⟨S8192, .f32⟩
  | 99 => ⟨S8192, .f32⟩
  | 100 => ⟨S_, .f32⟩
  | 101 => ⟨S8192, .f32⟩
  | 102 => ⟨S8192, .f32⟩
  | 103 => ⟨S8192, .f32⟩
  | 104 => ⟨S_, .f32⟩
  | 105 => ⟨S8192, .f32⟩
  | 106 => ⟨S8192, .f32⟩
  | 107 => ⟨S8192, .f32⟩
  | 108 => ⟨S_, .f32⟩
  | 109 => ⟨S8192, .f32⟩
  | 110 => ⟨S8192, .f32⟩
  | 111 => ⟨S8192, .f32⟩
  | 112 => ⟨S_, .f32⟩
  | 113 => ⟨S_, .f32⟩
  | 114 => ⟨S8192, .f32⟩
  | 115 => ⟨S8192, .f32⟩
  | 116 => ⟨S8192, .f32⟩
  | 117 => ⟨S_, .f32⟩
  | 118 => ⟨S_, .f32⟩
  | 119 => ⟨S8192, .f32⟩
  | 120 => ⟨S8192, .f32⟩
  | 121 => ⟨S_, .f32⟩
  | 122 => ⟨S8192, .f32⟩
  | 123 => ⟨S8192, .f32⟩
  | 124 => ⟨S_, .f32⟩
  | 125 => ⟨S_, .f32⟩
  | 126 => ⟨S8192, .f32⟩
  | 127 => ⟨S8192, .f32⟩
  | _ => ⟨S8192x7, .f32⟩

abbrev hbmTy0_1 (i : Nat) : BufTy := match i % 128 with
  | 0 => ⟨S8192, .f32⟩
  | 1 => ⟨S_, .f32⟩
  | 2 => ⟨S_, .f32⟩
  | 3 => ⟨S8192, .f32⟩
  | 4 => ⟨S8192, .f32⟩
  | 5 => ⟨S_, .f32⟩
  | 6 => ⟨S8192, .f32⟩
  | 7 => ⟨S8192, .f32⟩
  | 8 => ⟨S_, .f32⟩
  | 9 => ⟨S_, .f32⟩
  | 10 => ⟨S8192, .f32⟩
  | 11 => ⟨S8192, .f32⟩
  | 12 => ⟨S8192, .f32⟩
  | 13 => ⟨S_, .f32⟩
  | 14 => ⟨S_, .f32⟩
  | 15 => ⟨S8192, .f32⟩
  | 16 => ⟨S8192, .f32⟩
  | 17 => ⟨S_, .f32⟩
  | 18 => ⟨S8192, .f32⟩
  | 19 => ⟨S8192, .f32⟩
  | 20 => ⟨S_, .f32⟩
  | 21 => ⟨S_, .f32⟩
  | 22 => ⟨S8192, .f32⟩
  | 23 => ⟨S8192, .f32⟩
  | 24 => ⟨S8192, .f32⟩
  | 25 => ⟨S_, .f32⟩
  | 26 => ⟨S_, .f32⟩
  | 27 => ⟨S8192, .f32⟩
  | 28 => ⟨S8192, .f32⟩
  | 29 => ⟨S8192x1, .f32⟩
  | 30 => ⟨S8192x1, .f32⟩
  | 31 => ⟨S8192x1, .f32⟩
  | 32 => ⟨S8192x1, .f32⟩
  | 33 => ⟨S8192x1, .f32⟩
  | 34 => ⟨S8192x1, .f32⟩
  | 35 => ⟨S8192x1, .f32⟩
  | 36 => ⟨S8192x7, .f32⟩
  | 37 => ⟨S_, .f32⟩
  | 38 => ⟨S8192, .f32⟩
  | 39 => ⟨S8192, .f32⟩
  | 40 => ⟨S8192, .f32⟩
  | 41 => ⟨S_, .f32⟩
  | 42 => ⟨S8192, .f32⟩
  | 43 => ⟨S8192, .f32⟩
  | 44 => ⟨S8192, .f32⟩
  | 45 => ⟨S_, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .f32⟩
  | 52 => ⟨S_, .f32⟩
  | 53 => ⟨S8192, .f32⟩
  | 54 => ⟨S8192, .f32⟩
  | 55 => ⟨S8192, .f32⟩
  | 56 => ⟨S_, .f32⟩
  | 57 => ⟨S8192, .f32⟩
  | 58 => ⟨S8192, .f32⟩
  | 59 => ⟨S8192, .f32⟩
  | 60 => ⟨S8192, .f32⟩
  | 61 => ⟨S_, .f32⟩
  | 62 => ⟨S_, .f32⟩
  | 63 => ⟨S8192, .f32⟩
  | 64 => ⟨S8192, .f32⟩
  | 65 => ⟨S8192, .f32⟩
  | 66 => ⟨S_, .f32⟩
  | 67 => ⟨S_, .f32⟩
  | 68 => ⟨S8192, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S8192, .f32⟩
  | 76 => ⟨S8192, .f32⟩
  | 77 => ⟨S8192, .f32⟩
  | 78 => ⟨S_, .f32⟩
  | 79 => ⟨S_, .f32⟩
  | 80 => ⟨S8192, .f32⟩
  | 81 => ⟨S8192, .f32⟩
  | 82 => ⟨S_, .f32⟩
  | 83 => ⟨S8192, .f32⟩
  | 84 => ⟨S8192, .f32⟩
  | 85 => ⟨S_, .f32⟩
  | 86 => ⟨S_, .f32⟩
  | 87 => ⟨S8192, .f32⟩
  | 88 => ⟨S8192, .f32⟩
  | 89 => ⟨S8192, .f32⟩
  | 90 => ⟨S_, .f32⟩
  | 91 => ⟨S_, .f32⟩
  | 92 => ⟨S8192, .f32⟩
  | 93 => ⟨S8192, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S8192, .f32⟩
  | 101 => ⟨S_, .f32⟩
  | 102 => ⟨S8192, .f32⟩
  | 103 => ⟨S8192, .f32⟩
  | 104 => ⟨S8192, .f32⟩
  | 105 => ⟨S_, .f32⟩
  | 106 => ⟨S_, .f32⟩
  | 107 => ⟨S8192, .f32⟩
  | 108 => ⟨S8192, .f32⟩
  | 109 => ⟨S8192, .f32⟩
  | 110 => ⟨S_, .f32⟩
  | 111 => ⟨S_, .f32⟩
  | 112 => ⟨S8192, .f32⟩
  | 113 => ⟨S8192, .f32⟩
  | 114 => ⟨S8192x1, .f32⟩
  | 115 => ⟨S8192x1, .f32⟩
  | 116 => ⟨S8192x1, .f32⟩
  | 117 => ⟨S8192x1, .f32⟩
  | 118 => ⟨S8192x1, .f32⟩
  | 119 => ⟨S8192x1, .f32⟩
  | 120 => ⟨S8192x1, .f32⟩
  | 121 => ⟨S8192x7, .f32⟩
  | 122 => ⟨S_, .f32⟩
  | 123 => ⟨S8192, .f32⟩
  | 124 => ⟨S8192, .f32⟩
  | 125 => ⟨S8192, .f32⟩
  | 126 => ⟨S_, .f32⟩
  | 127 => ⟨S8192, .f32⟩
  | _ => ⟨S8192x7, .f32⟩

abbrev hbmTy0_2 (i : Nat) : BufTy := match i % 128 with
  | 0 => ⟨S8192, .f32⟩
  | 1 => ⟨S8192, .f32⟩
  | 2 => ⟨S_, .f32⟩
  | 3 => ⟨S8192, .f32⟩
  | 4 => ⟨S8192, .f32⟩
  | 5 => ⟨S8192, .f32⟩
  | 6 => ⟨S_, .f32⟩
  | 7 => ⟨S8192, .f32⟩
  | 8 => ⟨S8192, .f32⟩
  | 9 => ⟨S8192, .f32⟩
  | 10 => ⟨S_, .f32⟩
  | 11 => ⟨S_, .f32⟩
  | 12 => ⟨S8192, .f32⟩
  | 13 => ⟨S8192, .f32⟩
  | 14 => ⟨S8192, .f32⟩
  | 15 => ⟨S_, .f32⟩
  | 16 => ⟨S_, .f32⟩
  | 17 => ⟨S8192, .f32⟩
  | 18 => ⟨S8192, .f32⟩
  | 19 => ⟨S_, .f32⟩
  | 20 => ⟨S8192, .f32⟩
  | 21 => ⟨S8192, .f32⟩
  | 22 => ⟨S_, .f32⟩
  | 23 => ⟨S_, .f32⟩
  | 24 => ⟨S8192, .f32⟩
  | 25 => ⟨S8192, .f32⟩
  | 26 => ⟨S8192, .f32⟩
  | 27 => ⟨S_, .f32⟩
  | 28 => ⟨S_, .f32⟩
  | 29 => ⟨S8192, .f32⟩
  | 30 => ⟨S8192, .f32⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S8192, .f32⟩
  | 39 => ⟨S_, .f32⟩
  | 40 => ⟨S_, .f32⟩
  | 41 => ⟨S8192, .f32⟩
  | 42 => ⟨S8192, .f32⟩
  | 43 => ⟨S_, .f32⟩
  | 44 => ⟨S8192, .f32⟩
  | 45 => ⟨S8192, .f32⟩
  | 46 => ⟨S_, .f32⟩
  | 47 => ⟨S_, .f32⟩
  | 48 => ⟨S8192, .f32⟩
  | 49 => ⟨S8192, .f32⟩
  | 50 => ⟨S8192, .f32⟩
  | 51 => ⟨S_, .f32⟩
  | 52 => ⟨S_, .f32⟩
  | 53 => ⟨S8192, .f32⟩
  | 54 => ⟨S8192, .f32⟩
  | 55 => ⟨S8192x1, .f32⟩
  | 56 => ⟨S8192x1, .f32⟩
  | 57 => ⟨S8192x1, .f32⟩
  | 58 => ⟨S8192x1, .f32⟩
  | 59 => ⟨S8192x1, .f32⟩
  | 60 => ⟨S8192x1, .f32⟩
  | 61 => ⟨S8192x1, .f32⟩
  | 62 => ⟨S8192x7, .f32⟩
  | 63 => ⟨S_, .f32⟩
  | 64 => ⟨S8192, .f32⟩
  | 65 => ⟨S8192, .f32⟩
  | 66 => ⟨S8192, .f32⟩
  | 67 => ⟨S_, .f32⟩
  | 68 => ⟨S8192, .f32⟩
  | 69 => ⟨S8192, .f32⟩
  | 70 => ⟨S8192, .f32⟩
  | 71 => ⟨S_, .f32⟩
  | 72 => ⟨S8192, .f32⟩
  | 73 => ⟨S8192, .f32⟩
  | 74 => ⟨S_, .f32⟩
  | 75 => ⟨S8192, .f32⟩
  | 76 => ⟨S8192, .f32⟩
  | 77 => ⟨S8192, .f32⟩
  | 78 => ⟨S_, .f32⟩
  | 79 => ⟨S8192, .f32⟩
  | 80 => ⟨S8192, .f32⟩
  | 81 => ⟨S8192, .f32⟩
  | 82 => ⟨S_, .f32⟩
  | 83 => ⟨S8192, .f32⟩
  | 84 => ⟨S8192, .f32⟩
  | 85 => ⟨S_, .f32⟩
  | 86 => ⟨S_, .f32⟩
  | 87 => ⟨S8192, .f32⟩
  | 88 => ⟨S8192, .f32⟩
  | 89 => ⟨S8192, .f32⟩
  | 90 => ⟨S_, .f32⟩
  | 91 => ⟨S_, .f32⟩
  | 92 => ⟨S8192, .f32⟩
  | 93 => ⟨S8192, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S8192, .f32⟩
  | 101 => ⟨S8192, .f32⟩
  | 102 => ⟨S_, .f32⟩
  | 103 => ⟨S_, .f32⟩
  | 104 => ⟨S8192, .f32⟩
  | 105 => ⟨S8192, .f32⟩
  | 106 => ⟨S8192, .f32⟩
  | 107 => ⟨S_, .f32⟩
  | 108 => ⟨S_, .f32⟩
  | 109 => ⟨S8192, .f32⟩
  | 110 => ⟨S8192, .f32⟩
  | 111 => ⟨S_, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .f32⟩
  | 118 => ⟨S8192, .f32⟩
  | 119 => ⟨S_, .f32⟩
  | 120 => ⟨S_, .f32⟩
  | 121 => ⟨S8192, .f32⟩
  | 122 => ⟨S8192, .f32⟩
  | 123 => ⟨S8192, .f32⟩
  | 124 => ⟨S_, .f32⟩
  | 125 => ⟨S_, .f32⟩
  | 126 => ⟨S8192, .f32⟩
  | 127 => ⟨S8192, .f32⟩
  | _ => ⟨S8192x7, .f32⟩

abbrev hbmTy0_3 (i : Nat) : BufTy := match i % 128 with
  | 0 => ⟨S_, .f32⟩
  | 1 => ⟨S8192, .f32⟩
  | 2 => ⟨S8192, .f32⟩
  | 3 => ⟨S8192, .f32⟩
  | 4 => ⟨S_, .f32⟩
  | 5 => ⟨S8192, .f32⟩
  | 6 => ⟨S8192, .f32⟩
  | 7 => ⟨S8192, .f32⟩
  | 8 => ⟨S_, .f32⟩
  | 9 => ⟨S_, .f32⟩
  | 10 => ⟨S8192, .f32⟩
  | 11 => ⟨S8192, .f32⟩
  | 12 => ⟨S8192, .f32⟩
  | 13 => ⟨S_, .f32⟩
  | 14 => ⟨S_, .f32⟩
  | 15 => ⟨S8192, .f32⟩
  | 16 => ⟨S8192, .f32⟩
  | 17 => ⟨S8192x1, .f32⟩
  | 18 => ⟨S8192x1, .f32⟩
  | 19 => ⟨S8192x1, .f32⟩
  | 20 => ⟨S8192x1, .f32⟩
  | 21 => ⟨S8192x1, .f32⟩
  | 22 => ⟨S8192x1, .f32⟩
  | 23 => ⟨S8192x1, .f32⟩
  | 24 => ⟨S8192x7, .f32⟩
  | 25 => ⟨S8192x7, .f32⟩
  | 26 => ⟨S8192x7, .f32⟩
  | 27 => ⟨S8192x7, .f32⟩
  | 28 => ⟨S8192x7, .f32⟩
  | 29 => ⟨S_, .f32⟩
  | 30 => ⟨S8192x7, .f32⟩
  | 31 => ⟨S8192x7, .f32⟩
  | 32 => ⟨S8192x7, .f32⟩
  | 33 => ⟨S8192x7, .f32⟩
  | 34 => ⟨S8192x7, .f32⟩
  | 35 => ⟨S_, .f32⟩
  | 36 => ⟨S8192x7, .f32⟩
  | 37 => ⟨S8192x7, .f32⟩
  | 38 => ⟨S8192x7, .f32⟩
  | 39 => ⟨S8192x7, .f32⟩
  | 40 => ⟨S_, .f32⟩
  | 41 => ⟨S_, .f32⟩
  | 42 => ⟨S_, .f32⟩
  | 43 => ⟨S_, .f32⟩
  | 44 => ⟨S8192x1, .f32⟩
  | 45 => ⟨S8192, .f32⟩
  | 46 => ⟨S_, .f32⟩
  | 47 => ⟨S8192, .f32⟩
  | 48 => ⟨S8192, .f32⟩
  | 49 => ⟨S8192, .f32⟩
  | 50 => ⟨S8192, .f32⟩
  | _ => ⟨S8192x7, .f32⟩

abbrev hbmTy (i : Nat) : BufTy := match i / 128 with
  | 0 => hbmTy0_0 i
  | 1 => hbmTy0_1 i
  | 2 => hbmTy0_2 i
  | 3 => hbmTy0_3 i
  | _ => ⟨S8192x7, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | _, _ => ⟨S8192x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_20 : Ref sig .tc := ⟨.hbm, 112, rfl⟩
abbrev main_call0_v0 : Ref sig .tc := ⟨.hbm, 113, rfl⟩
abbrev main_call0_v1 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_call1_v0 : Ref sig .tc := ⟨.hbm, 118, rfl⟩
abbrev main_call1_v1 : Ref sig .tc := ⟨.hbm, 119, rfl⟩
abbrev main_v89 : Ref sig .tc := ⟨.hbm, 120, rfl⟩
abbrev main_cst_22 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_call2_v0 : Ref sig .tc := ⟨.hbm, 125, rfl⟩
abbrev main_call2_v1 : Ref sig .tc := ⟨.hbm, 126, rfl⟩
abbrev main_v92 : Ref sig .tc := ⟨.hbm, 127, rfl⟩
abbrev main_v93 : Ref sig .tc := ⟨.hbm, 128, rfl⟩
abbrev main_cst_24 : Ref sig .tc := ⟨.hbm, 129, rfl⟩
abbrev main_call3_v0 : Ref sig .tc := ⟨.hbm, 130, rfl⟩
abbrev main_call3_v1 : Ref sig .tc := ⟨.hbm, 131, rfl⟩
abbrev main_v94 : Ref sig .tc := ⟨.hbm, 132, rfl⟩
abbrev main_cst_25 : Ref sig .tc := ⟨.hbm, 133, rfl⟩
abbrev main_v95 : Ref sig .tc := ⟨.hbm, 134, rfl⟩
abbrev main_v96 : Ref sig .tc := ⟨.hbm, 135, rfl⟩
abbrev main_cst_26 : Ref sig .tc := ⟨.hbm, 136, rfl⟩
abbrev main_call4_v0 : Ref sig .tc := ⟨.hbm, 137, rfl⟩
abbrev main_call4_v1 : Ref sig .tc := ⟨.hbm, 138, rfl⟩
abbrev main_v97 : Ref sig .tc := ⟨.hbm, 139, rfl⟩
abbrev main_v98 : Ref sig .tc := ⟨.hbm, 140, rfl⟩
abbrev main_cst_27 : Ref sig .tc := ⟨.hbm, 141, rfl⟩
abbrev main_call5_v0 : Ref sig .tc := ⟨.hbm, 142, rfl⟩
abbrev main_call5_v1 : Ref sig .tc := ⟨.hbm, 143, rfl⟩
abbrev main_v99 : Ref sig .tc := ⟨.hbm, 144, rfl⟩
abbrev main_cst_28 : Ref sig .tc := ⟨.hbm, 145, rfl⟩
abbrev main_v100 : Ref sig .tc := ⟨.hbm, 146, rfl⟩
abbrev main_v101 : Ref sig .tc := ⟨.hbm, 147, rfl⟩
abbrev main_cst_29 : Ref sig .tc := ⟨.hbm, 148, rfl⟩
abbrev main_call6_v0 : Ref sig .tc := ⟨.hbm, 149, rfl⟩
abbrev main_call6_v1 : Ref sig .tc := ⟨.hbm, 150, rfl⟩
abbrev main_v102 : Ref sig .tc := ⟨.hbm, 151, rfl⟩
abbrev main_v103 : Ref sig .tc := ⟨.hbm, 152, rfl⟩
abbrev main_cst_30 : Ref sig .tc := ⟨.hbm, 153, rfl⟩
abbrev main_call7_v0 : Ref sig .tc := ⟨.hbm, 154, rfl⟩
abbrev main_call7_v1 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_31 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_32 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_33 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_34 : Ref sig .tc := ⟨.hbm, 177, rfl⟩
abbrev main_v122 : Ref sig .tc := ⟨.hbm, 178, rfl⟩
abbrev main_v123 : Ref sig .tc := ⟨.hbm, 179, rfl⟩
abbrev main_cst_35 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_36 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_37 : Ref sig .tc := ⟨.hbm, 189, rfl⟩
abbrev main_call8_v0 : Ref sig .tc := ⟨.hbm, 190, rfl⟩
abbrev main_call8_v1 : Ref sig .tc := ⟨.hbm, 191, rfl⟩
abbrev main_v131 : Ref sig .tc := ⟨.hbm, 192, rfl⟩
abbrev main_v132 : Ref sig .tc := ⟨.hbm, 193, rfl⟩
abbrev main_cst_38 : Ref sig .tc := ⟨.hbm, 194, rfl⟩
abbrev main_call9_v0 : Ref sig .tc := ⟨.hbm, 195, rfl⟩
abbrev main_call9_v1 : Ref sig .tc := ⟨.hbm, 196, rfl⟩
abbrev main_v133 : Ref sig .tc := ⟨.hbm, 197, rfl⟩
abbrev main_cst_39 : Ref sig .tc := ⟨.hbm, 198, rfl⟩
abbrev main_v134 : Ref sig .tc := ⟨.hbm, 199, rfl⟩
abbrev main_v135 : Ref sig .tc := ⟨.hbm, 200, rfl⟩
abbrev main_cst_40 : Ref sig .tc := ⟨.hbm, 201, rfl⟩
abbrev main_call10_v0 : Ref sig .tc := ⟨.hbm, 202, rfl⟩
abbrev main_call10_v1 : Ref sig .tc := ⟨.hbm, 203, rfl⟩
abbrev main_v136 : Ref sig .tc := ⟨.hbm, 204, rfl⟩
abbrev main_v137 : Ref sig .tc := ⟨.hbm, 205, rfl⟩
abbrev main_cst_41 : Ref sig .tc := ⟨.hbm, 206, rfl⟩
abbrev main_call11_v0 : Ref sig .tc := ⟨.hbm, 207, rfl⟩
abbrev main_call11_v1 : Ref sig .tc := ⟨.hbm, 208, rfl⟩
abbrev main_v138 : Ref sig .tc := ⟨.hbm, 209, rfl⟩
abbrev main_cst_42 : Ref sig .tc := ⟨.hbm, 210, rfl⟩
abbrev main_v139 : Ref sig .tc := ⟨.hbm, 211, rfl⟩
abbrev main_v140 : Ref sig .tc := ⟨.hbm, 212, rfl⟩
abbrev main_cst_43 : Ref sig .tc := ⟨.hbm, 213, rfl⟩
abbrev main_call12_v0 : Ref sig .tc := ⟨.hbm, 214, rfl⟩
abbrev main_call12_v1 : Ref sig .tc := ⟨.hbm, 215, rfl⟩
abbrev main_v141 : Ref sig .tc := ⟨.hbm, 216, rfl⟩
abbrev main_v142 : Ref sig .tc := ⟨.hbm, 217, rfl⟩
abbrev main_cst_44 : Ref sig .tc := ⟨.hbm, 218, rfl⟩
abbrev main_call13_v0 : Ref sig .tc := ⟨.hbm, 219, rfl⟩
abbrev main_call13_v1 : Ref sig .tc := ⟨.hbm, 220, rfl⟩
abbrev main_v143 : Ref sig .tc := ⟨.hbm, 221, rfl⟩
abbrev main_cst_45 : Ref sig .tc := ⟨.hbm, 222, rfl⟩
abbrev main_v144 : Ref sig .tc := ⟨.hbm, 223, rfl⟩
abbrev main_v145 : Ref sig .tc := ⟨.hbm, 224, rfl⟩
abbrev main_cst_46 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_cst_47 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_48 : Ref sig .tc := ⟨.hbm, 233, rfl⟩
abbrev main_call14_v0 : Ref sig .tc := ⟨.hbm, 234, rfl⟩
abbrev main_call14_v1 : Ref sig .tc := ⟨.hbm, 235, rfl⟩
abbrev main_v152 : Ref sig .tc := ⟨.hbm, 236, rfl⟩
abbrev main_v153 : Ref sig .tc := ⟨.hbm, 237, rfl⟩
abbrev main_cst_49 : Ref sig .tc := ⟨.hbm, 238, rfl⟩
abbrev main_call15_v0 : Ref sig .tc := ⟨.hbm, 239, rfl⟩
abbrev main_call15_v1 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_50 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_cst_51 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_cst_52 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_53 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_cst_54 : Ref sig .tc := ⟨.hbm, 266, rfl⟩
abbrev main_call16_v0 : Ref sig .tc := ⟨.hbm, 267, rfl⟩
abbrev main_call16_v1 : Ref sig .tc := ⟨.hbm, 268, rfl⟩
abbrev main_v175 : Ref sig .tc := ⟨.hbm, 269, rfl⟩
abbrev main_v176 : Ref sig .tc := ⟨.hbm, 270, rfl⟩
abbrev main_cst_55 : Ref sig .tc := ⟨.hbm, 271, rfl⟩
abbrev main_call17_v0 : Ref sig .tc := ⟨.hbm, 272, rfl⟩
abbrev main_call17_v1 : Ref sig .tc := ⟨.hbm, 273, rfl⟩
abbrev main_v177 : Ref sig .tc := ⟨.hbm, 274, rfl⟩
abbrev main_cst_56 : Ref sig .tc := ⟨.hbm, 275, rfl⟩
abbrev main_v178 : Ref sig .tc := ⟨.hbm, 276, rfl⟩
abbrev main_v179 : Ref sig .tc := ⟨.hbm, 277, rfl⟩
abbrev main_cst_57 : Ref sig .tc := ⟨.hbm, 278, rfl⟩
abbrev main_call18_v0 : Ref sig .tc := ⟨.hbm, 279, rfl⟩
abbrev main_call18_v1 : Ref sig .tc := ⟨.hbm, 280, rfl⟩
abbrev main_v180 : Ref sig .tc := ⟨.hbm, 281, rfl⟩
abbrev main_v181 : Ref sig .tc := ⟨.hbm, 282, rfl⟩
abbrev main_cst_58 : Ref sig .tc := ⟨.hbm, 283, rfl⟩
abbrev main_call19_v0 : Ref sig .tc := ⟨.hbm, 284, rfl⟩
abbrev main_call19_v1 : Ref sig .tc := ⟨.hbm, 285, rfl⟩
abbrev main_v182 : Ref sig .tc := ⟨.hbm, 286, rfl⟩
abbrev main_cst_59 : Ref sig .tc := ⟨.hbm, 287, rfl⟩
abbrev main_v183 : Ref sig .tc := ⟨.hbm, 288, rfl⟩
abbrev main_v184 : Ref sig .tc := ⟨.hbm, 289, rfl⟩
abbrev main_cst_60 : Ref sig .tc := ⟨.hbm, 290, rfl⟩
abbrev main_call20_v0 : Ref sig .tc := ⟨.hbm, 291, rfl⟩
abbrev main_call20_v1 : Ref sig .tc := ⟨.hbm, 292, rfl⟩
abbrev main_v185 : Ref sig .tc := ⟨.hbm, 293, rfl⟩
abbrev main_v186 : Ref sig .tc := ⟨.hbm, 294, rfl⟩
abbrev main_cst_61 : Ref sig .tc := ⟨.hbm, 295, rfl⟩
abbrev main_call21_v0 : Ref sig .tc := ⟨.hbm, 296, rfl⟩
abbrev main_call21_v1 : Ref sig .tc := ⟨.hbm, 297, rfl⟩
abbrev main_v187 : Ref sig .tc := ⟨.hbm, 298, rfl⟩
abbrev main_cst_62 : Ref sig .tc := ⟨.hbm, 299, rfl⟩
abbrev main_v188 : Ref sig .tc := ⟨.hbm, 300, rfl⟩
abbrev main_v189 : Ref sig .tc := ⟨.hbm, 301, rfl⟩
abbrev main_cst_63 : Ref sig .tc := ⟨.hbm, 302, rfl⟩
abbrev main_call22_v0 : Ref sig .tc := ⟨.hbm, 303, rfl⟩
abbrev main_call22_v1 : Ref sig .tc := ⟨.hbm, 304, rfl⟩
abbrev main_v190 : Ref sig .tc := ⟨.hbm, 305, rfl⟩
abbrev main_v191 : Ref sig .tc := ⟨.hbm, 306, rfl⟩
abbrev main_cst_64 : Ref sig .tc := ⟨.hbm, 307, rfl⟩
abbrev main_call23_v0 : Ref sig .tc := ⟨.hbm, 308, rfl⟩
abbrev main_call23_v1 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_cst_65 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_cst_66 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_cst_67 : Ref sig .tc := ⟨.hbm, 327, rfl⟩
abbrev main_v207 : Ref sig .tc := ⟨.hbm, 328, rfl⟩
abbrev main_v208 : Ref sig .tc := ⟨.hbm, 329, rfl⟩
abbrev main_cst_68 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_cst_69 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_cst_70 : Ref sig .tc := ⟨.hbm, 338, rfl⟩
abbrev main_v215 : Ref sig .tc := ⟨.hbm, 339, rfl⟩
abbrev main_v216 : Ref sig .tc := ⟨.hbm, 340, rfl⟩
abbrev main_cst_71 : Ref sig .tc := ⟨.hbm, 341, rfl⟩
abbrev main_call24_v0 : Ref sig .tc := ⟨.hbm, 342, rfl⟩
abbrev main_call24_v1 : Ref sig .tc := ⟨.hbm, 343, rfl⟩
abbrev main_v217 : Ref sig .tc := ⟨.hbm, 344, rfl⟩
abbrev main_v218 : Ref sig .tc := ⟨.hbm, 345, rfl⟩
abbrev main_cst_72 : Ref sig .tc := ⟨.hbm, 346, rfl⟩
abbrev main_call25_v0 : Ref sig .tc := ⟨.hbm, 347, rfl⟩
abbrev main_call25_v1 : Ref sig .tc := ⟨.hbm, 348, rfl⟩
abbrev main_v219 : Ref sig .tc := ⟨.hbm, 349, rfl⟩
abbrev main_cst_73 : Ref sig .tc := ⟨.hbm, 350, rfl⟩
abbrev main_v220 : Ref sig .tc := ⟨.hbm, 351, rfl⟩
abbrev main_v221 : Ref sig .tc := ⟨.hbm, 352, rfl⟩
abbrev main_cst_74 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_cst_75 : Ref sig .tc := ⟨.hbm, 358, rfl⟩
abbrev main_call26_v0 : Ref sig .tc := ⟨.hbm, 359, rfl⟩
abbrev main_call26_v1 : Ref sig .tc := ⟨.hbm, 360, rfl⟩
abbrev main_v226 : Ref sig .tc := ⟨.hbm, 361, rfl⟩
abbrev main_v227 : Ref sig .tc := ⟨.hbm, 362, rfl⟩
abbrev main_cst_76 : Ref sig .tc := ⟨.hbm, 363, rfl⟩
abbrev main_call27_v0 : Ref sig .tc := ⟨.hbm, 364, rfl⟩
abbrev main_call27_v1 : Ref sig .tc := ⟨.hbm, 365, rfl⟩
abbrev main_v228 : Ref sig .tc := ⟨.hbm, 366, rfl⟩
abbrev main_cst_77 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_78 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_79 : Ref sig .tc := ⟨.hbm, 375, rfl⟩
abbrev main_call28_v0 : Ref sig .tc := ⟨.hbm, 376, rfl⟩
abbrev main_call28_v1 : Ref sig .tc := ⟨.hbm, 377, rfl⟩
abbrev main_v235 : Ref sig .tc := ⟨.hbm, 378, rfl⟩
abbrev main_v236 : Ref sig .tc := ⟨.hbm, 379, rfl⟩
abbrev main_cst_80 : Ref sig .tc := ⟨.hbm, 380, rfl⟩
abbrev main_call29_v0 : Ref sig .tc := ⟨.hbm, 381, rfl⟩
abbrev main_call29_v1 : Ref sig .tc := ⟨.hbm, 382, rfl⟩
abbrev main_v237 : Ref sig .tc := ⟨.hbm, 383, rfl⟩
abbrev main_cst_81 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_cst_82 : Ref sig .tc := ⟨.hbm, 388, rfl⟩
abbrev main_v241 : Ref sig .tc := ⟨.hbm, 389, rfl⟩
abbrev main_v242 : Ref sig .tc := ⟨.hbm, 390, rfl⟩
abbrev main_v243 : Ref sig .tc := ⟨.hbm, 391, rfl⟩
abbrev main_cst_83 : Ref sig .tc := ⟨.hbm, 392, rfl⟩
abbrev main_call30_v0 : Ref sig .tc := ⟨.hbm, 393, rfl⟩
abbrev main_call30_v1 : Ref sig .tc := ⟨.hbm, 394, rfl⟩
abbrev main_v244 : Ref sig .tc := ⟨.hbm, 395, rfl⟩
abbrev main_v245 : Ref sig .tc := ⟨.hbm, 396, rfl⟩
abbrev main_cst_84 : Ref sig .tc := ⟨.hbm, 397, rfl⟩
abbrev main_call31_v0 : Ref sig .tc := ⟨.hbm, 398, rfl⟩
abbrev main_call31_v1 : Ref sig .tc := ⟨.hbm, 399, rfl⟩
abbrev main_v246 : Ref sig .tc := ⟨.hbm, 400, rfl⟩
abbrev main_v247 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_v251 : Ref sig .tc := ⟨.hbm, 405, rfl⟩
abbrev main_v252 : Ref sig .tc := ⟨.hbm, 406, rfl⟩
abbrev main_v253 : Ref sig .tc := ⟨.hbm, 407, rfl⟩
abbrev main_v254 : Ref sig .tc := ⟨.hbm, 408, rfl⟩
abbrev main_v255 : Ref sig .tc := ⟨.hbm, 409, rfl⟩
abbrev main_v256 : Ref sig .tc := ⟨.hbm, 410, rfl⟩
abbrev main_v257 : Ref sig .tc := ⟨.hbm, 411, rfl⟩
abbrev main_v258 : Ref sig .tc := ⟨.hbm, 412, rfl⟩
abbrev main_cst_85 : Ref sig .tc := ⟨.hbm, 413, rfl⟩
abbrev main_v259 : Ref sig .tc := ⟨.hbm, 414, rfl⟩
abbrev main_v260 : Ref sig .tc := ⟨.hbm, 415, rfl⟩
abbrev main_v261 : Ref sig .tc := ⟨.hbm, 416, rfl⟩
abbrev main_v262 : Ref sig .tc := ⟨.hbm, 417, rfl⟩
abbrev main_v263 : Ref sig .tc := ⟨.hbm, 418, rfl⟩
abbrev main_cst_86 : Ref sig .tc := ⟨.hbm, 419, rfl⟩
abbrev main_v264 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_cst_87 : Ref sig .tc := ⟨.hbm, 424, rfl⟩
abbrev main_v268 : Ref sig .tc := ⟨.hbm, 425, rfl⟩
abbrev main_cst_88 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_89 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_v275 : Ref sig .tc := ⟨.hbm, 434, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8192x7_S8192x1_0_0 : S8192x7.Slices ![0, 0] S8192x1
  shapeCasts_S8192x1_S8192 : S8192x1.ShapeCasts S8192
  slices_S8192x7_S8192x1_0_1 : S8192x7.Slices ![0, 1] S8192x1
  slices_S8192x7_S8192x1_0_2 : S8192x7.Slices ![0, 2] S8192x1
  slices_S8192x7_S8192x1_0_3 : S8192x7.Slices ![0, 3] S8192x1
  slices_S8192x7_S8192x1_0_4 : S8192x7.Slices ![0, 4] S8192x1
  slices_S8192x7_S8192x1_0_5 : S8192x7.Slices ![0, 5] S8192x1
  slices_S8192x7_S8192x1_0_6 : S8192x7.Slices ![0, 6] S8192x1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x1_S8192x1_S8192x1_S8192x1_S8192x7_d1 : Shape.Concatenates [S8192x1, S8192x1, S8192x1, S8192x1, S8192x1, S8192x1, S8192x1] S8192x7 1
  bcast_S_S8192x7 : S_.BroadcastsInDim S8192x7 (![] : Fin 0 → Fin S8192x7.rank)
  reducesTo_S8192x7_S_d0_1 : S8192x7.ReducesTo [0, 1] S_
  h_S_ : 0 < S_.numel
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v270) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x7 : Shape := ⟨2, ![8192, 7]⟩
abbrev S8192x4096 : Shape := ⟨2, ![8192, 4096]⟩
abbrev S8192x1 : Shape := ⟨2, ![8192, 1]⟩
abbrev S8192 : Shape := ⟨1, ![8192]⟩
abbrev S_ : Shape := ⟨0, ![]⟩

abbrev nBuf : Space → Nat
  | .hbm => 440
  | .vmem => 0
  | .smem => 0
  | _ => 0

abbrev hbmTy0_0 (i : Nat) : BufTy := match i % 128 with
  | 0 => ⟨S8192x7, .f32⟩
  | 1 => ⟨S8192x7, .f32⟩
  | 2 => ⟨S8192x4096, .f32⟩
  | 3 => ⟨S8192x4096, .f32⟩
  | 4 => ⟨S8192x1, .f32⟩
  | 5 => ⟨S8192, .f32⟩
  | 6 => ⟨S8192x1, .f32⟩
  | 7 => ⟨S8192, .f32⟩
  | 8 => ⟨S8192x1, .f32⟩
  | 9 => ⟨S8192, .f32⟩
  | 10 => ⟨S8192x1, .f32⟩
  | 11 => ⟨S8192, .f32⟩
  | 12 => ⟨S8192x1, .f32⟩
  | 13 => ⟨S8192, .f32⟩
  | 14 => ⟨S8192x1, .f32⟩
  | 15 => ⟨S8192, .f32⟩
  | 16 => ⟨S8192x1, .f32⟩
  | 17 => ⟨S8192, .f32⟩
  | 18 => ⟨S_, .f32⟩
  | 19 => ⟨S8192, .f32⟩
  | 20 => ⟨S8192, .f32⟩
  | 21 => ⟨S_, .f32⟩
  | 22 => ⟨S8192, .f32⟩
  | 23 => ⟨S8192, .f32⟩
  | 24 => ⟨S8192, .f32⟩
  | 25 => ⟨S_, .f32⟩
  | 26 => ⟨S8192, .f32⟩
  | 27 => ⟨S8192, .f32⟩
  | 28 => ⟨S8192, .f32⟩
  | 29 => ⟨S_, .f32⟩
  | 30 => ⟨S8192, .f32⟩
  | 31 => ⟨S8192, .f32⟩
  | 32 => ⟨S8192, .f32⟩
  | 33 => ⟨S8192, .f32⟩
  | 34 => ⟨S_, .f32⟩
  | 35 => ⟨S8192, .f32⟩
  | 36 => ⟨S8192, .f32⟩
  | 37 => ⟨S_, .f32⟩
  | 38 => ⟨S8192, .f32⟩
  | 39 => ⟨S8192, .f32⟩
  | 40 => ⟨S8192, .f32⟩
  | 41 => ⟨S8192, .f32⟩
  | 42 => ⟨S_, .f32⟩
  | 43 => ⟨S8192, .f32⟩
  | 44 => ⟨S8192, .f32⟩
  | 45 => ⟨S8192, .f32⟩
  | 46 => ⟨S_, .f32⟩
  | 47 => ⟨S8192, .f32⟩
  | 48 => ⟨S8192, .f32⟩
  | 49 => ⟨S_, .f32⟩
  | 50 => ⟨S8192, .f32⟩
  | 51 => ⟨S8192, .f32⟩
  | 52 => ⟨S8192, .f32⟩
  | 53 => ⟨S8192, .i1⟩
  | 54 => ⟨S_, .f32⟩
  | 55 => ⟨S8192, .f32⟩
  | 56 => ⟨S8192, .f32⟩
  | 57 => ⟨S_, .f32⟩
  | 58 => ⟨S8192, .f32⟩
  | 59 => ⟨S8192, .f32⟩
  | 60 => ⟨S8192, .f32⟩
  | 61 => ⟨S_, .f32⟩
  | 62 => ⟨S8192, .f32⟩
  | 63 => ⟨S8192, .f32⟩
  | 64 => ⟨S8192, .f32⟩
  | 65 => ⟨S8192, .i1⟩
  | 66 => ⟨S8192, .i1⟩
  | 67 => ⟨S8192, .i1⟩
  | 68 => ⟨S8192, .i1⟩
  | 69 => ⟨S8192, .i1⟩
  | 70 => ⟨S_, .f32⟩
  | 71 => ⟨S8192, .f32⟩
  | 72 => ⟨S8192, .f32⟩
  | 73 => ⟨S_, .f32⟩
  | 74 => ⟨S8192, .f32⟩
  | 75 => ⟨S8192, .f32⟩
  | 76 => ⟨S8192, .f32⟩
  | 77 => ⟨S8192, .i1⟩
  | 78 => ⟨S8192, .i1⟩
  | 79 => ⟨S8192, .i1⟩
  | 80 => ⟨S8192, .i1⟩
  | 81 => ⟨S8192, .i1⟩
  | 82 => ⟨S8192, .f32⟩
  | 83 => ⟨S8192, .f32⟩
  | 84 => ⟨S8192, .f32⟩
  | 85 => ⟨S_, .f32⟩
  | 86 => ⟨S8192, .f32⟩
  | 87 => ⟨S8192, .f32⟩
  | 88 => ⟨S8192, .f32⟩
  | 89 => ⟨S_, .f32⟩
  | 90 => ⟨S8192, .f32⟩
  | 91 => ⟨S8192, .i1⟩
  | 92 => ⟨S8192, .i1⟩
  | 93 => ⟨S_, .f32⟩
  | 94 => ⟨S8192, .f32⟩
  | 95 => ⟨S8192, .f32⟩
  | 96 => ⟨S_, .f32⟩
  | 97 => ⟨S8192, .f32⟩
  | 98 => ⟨S8192, .f32⟩
  | 99 => ⟨S8192, .f32⟩
  | 100 => ⟨S_, .f32⟩
  | 101 => ⟨S8192, .f32⟩
  | 102 => ⟨S8192, .f32⟩
  | 103 => ⟨S8192, .f32⟩
  | 104 => ⟨S_, .f32⟩
  | 105 => ⟨S8192, .f32⟩
  | 106 => ⟨S8192, .f32⟩
  | 107 => ⟨S8192, .f32⟩
  | 108 => ⟨S_, .f32⟩
  | 109 => ⟨S8192, .f32⟩
  | 110 => ⟨S8192, .f32⟩
  | 111 => ⟨S8192, .f32⟩
  | 112 => ⟨S_, .f32⟩
  | 113 => ⟨S_, .f32⟩
  | 114 => ⟨S8192, .f32⟩
  | 115 => ⟨S8192, .f32⟩
  | 116 => ⟨S8192, .f32⟩
  | 117 => ⟨S_, .f32⟩
  | 118 => ⟨S_, .f32⟩
  | 119 => ⟨S8192, .f32⟩
  | 120 => ⟨S8192, .f32⟩
  | 121 => ⟨S_, .f32⟩
  | 122 => ⟨S8192, .f32⟩
  | 123 => ⟨S8192, .f32⟩
  | 124 => ⟨S_, .f32⟩
  | 125 => ⟨S_, .f32⟩
  | 126 => ⟨S8192, .f32⟩
  | 127 => ⟨S8192, .f32⟩
  | _ => ⟨S8192x7, .f32⟩

abbrev hbmTy0_1 (i : Nat) : BufTy := match i % 128 with
  | 0 => ⟨S8192, .f32⟩
  | 1 => ⟨S_, .f32⟩
  | 2 => ⟨S_, .f32⟩
  | 3 => ⟨S8192, .f32⟩
  | 4 => ⟨S8192, .f32⟩
  | 5 => ⟨S_, .f32⟩
  | 6 => ⟨S8192, .f32⟩
  | 7 => ⟨S8192, .f32⟩
  | 8 => ⟨S_, .f32⟩
  | 9 => ⟨S_, .f32⟩
  | 10 => ⟨S8192, .f32⟩
  | 11 => ⟨S8192, .f32⟩
  | 12 => ⟨S8192, .f32⟩
  | 13 => ⟨S_, .f32⟩
  | 14 => ⟨S_, .f32⟩
  | 15 => ⟨S8192, .f32⟩
  | 16 => ⟨S8192, .f32⟩
  | 17 => ⟨S_, .f32⟩
  | 18 => ⟨S8192, .f32⟩
  | 19 => ⟨S8192, .f32⟩
  | 20 => ⟨S_, .f32⟩
  | 21 => ⟨S_, .f32⟩
  | 22 => ⟨S8192, .f32⟩
  | 23 => ⟨S8192, .f32⟩
  | 24 => ⟨S8192, .f32⟩
  | 25 => ⟨S_, .f32⟩
  | 26 => ⟨S_, .f32⟩
  | 27 => ⟨S8192, .f32⟩
  | 28 => ⟨S8192, .f32⟩
  | 29 => ⟨S8192x1, .f32⟩
  | 30 => ⟨S8192x1, .f32⟩
  | 31 => ⟨S8192x1, .f32⟩
  | 32 => ⟨S8192x1, .f32⟩
  | 33 => ⟨S8192x1, .f32⟩
  | 34 => ⟨S8192x1, .f32⟩
  | 35 => ⟨S8192x1, .f32⟩
  | 36 => ⟨S8192x7, .f32⟩
  | 37 => ⟨S_, .f32⟩
  | 38 => ⟨S8192, .f32⟩
  | 39 => ⟨S8192, .f32⟩
  | 40 => ⟨S8192, .f32⟩
  | 41 => ⟨S_, .f32⟩
  | 42 => ⟨S8192, .f32⟩
  | 43 => ⟨S8192, .f32⟩
  | 44 => ⟨S8192, .f32⟩
  | 45 => ⟨S_, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .f32⟩
  | 52 => ⟨S_, .f32⟩
  | 53 => ⟨S8192, .f32⟩
  | 54 => ⟨S8192, .f32⟩
  | 55 => ⟨S8192, .f32⟩
  | 56 => ⟨S_, .f32⟩
  | 57 => ⟨S8192, .f32⟩
  | 58 => ⟨S8192, .f32⟩
  | 59 => ⟨S8192, .f32⟩
  | 60 => ⟨S8192, .f32⟩
  | 61 => ⟨S_, .f32⟩
  | 62 => ⟨S_, .f32⟩
  | 63 => ⟨S8192, .f32⟩
  | 64 => ⟨S8192, .f32⟩
  | 65 => ⟨S8192, .f32⟩
  | 66 => ⟨S_, .f32⟩
  | 67 => ⟨S_, .f32⟩
  | 68 => ⟨S8192, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S8192, .f32⟩
  | 76 => ⟨S8192, .f32⟩
  | 77 => ⟨S8192, .f32⟩
  | 78 => ⟨S_, .f32⟩
  | 79 => ⟨S_, .f32⟩
  | 80 => ⟨S8192, .f32⟩
  | 81 => ⟨S8192, .f32⟩
  | 82 => ⟨S_, .f32⟩
  | 83 => ⟨S8192, .f32⟩
  | 84 => ⟨S8192, .f32⟩
  | 85 => ⟨S_, .f32⟩
  | 86 => ⟨S_, .f32⟩
  | 87 => ⟨S8192, .f32⟩
  | 88 => ⟨S8192, .f32⟩
  | 89 => ⟨S8192, .f32⟩
  | 90 => ⟨S_, .f32⟩
  | 91 => ⟨S_, .f32⟩
  | 92 => ⟨S8192, .f32⟩
  | 93 => ⟨S8192, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S8192, .f32⟩
  | 101 => ⟨S_, .f32⟩
  | 102 => ⟨S8192, .f32⟩
  | 103 => ⟨S8192, .f32⟩
  | 104 => ⟨S8192, .f32⟩
  | 105 => ⟨S_, .f32⟩
  | 106 => ⟨S_, .f32⟩
  | 107 => ⟨S8192, .f32⟩
  | 108 => ⟨S8192, .f32⟩
  | 109 => ⟨S8192, .f32⟩
  | 110 => ⟨S_, .f32⟩
  | 111 => ⟨S_, .f32⟩
  | 112 => ⟨S8192, .f32⟩
  | 113 => ⟨S8192, .f32⟩
  | 114 => ⟨S8192x1, .f32⟩
  | 115 => ⟨S8192x1, .f32⟩
  | 116 => ⟨S8192x1, .f32⟩
  | 117 => ⟨S8192x1, .f32⟩
  | 118 => ⟨S8192x1, .f32⟩
  | 119 => ⟨S8192x1, .f32⟩
  | 120 => ⟨S8192x1, .f32⟩
  | 121 => ⟨S8192x7, .f32⟩
  | 122 => ⟨S_, .f32⟩
  | 123 => ⟨S8192, .f32⟩
  | 124 => ⟨S8192, .f32⟩
  | 125 => ⟨S8192, .f32⟩
  | 126 => ⟨S_, .f32⟩
  | 127 => ⟨S8192, .f32⟩
  | _ => ⟨S8192x7, .f32⟩

abbrev hbmTy0_2 (i : Nat) : BufTy := match i % 128 with
  | 0 => ⟨S8192, .f32⟩
  | 1 => ⟨S8192, .f32⟩
  | 2 => ⟨S_, .f32⟩
  | 3 => ⟨S8192, .f32⟩
  | 4 => ⟨S8192, .f32⟩
  | 5 => ⟨S8192, .f32⟩
  | 6 => ⟨S_, .f32⟩
  | 7 => ⟨S8192, .f32⟩
  | 8 => ⟨S8192, .f32⟩
  | 9 => ⟨S8192, .f32⟩
  | 10 => ⟨S_, .f32⟩
  | 11 => ⟨S_, .f32⟩
  | 12 => ⟨S8192, .f32⟩
  | 13 => ⟨S8192, .f32⟩
  | 14 => ⟨S8192, .f32⟩
  | 15 => ⟨S_, .f32⟩
  | 16 => ⟨S_, .f32⟩
  | 17 => ⟨S8192, .f32⟩
  | 18 => ⟨S8192, .f32⟩
  | 19 => ⟨S_, .f32⟩
  | 20 => ⟨S8192, .f32⟩
  | 21 => ⟨S8192, .f32⟩
  | 22 => ⟨S_, .f32⟩
  | 23 => ⟨S_, .f32⟩
  | 24 => ⟨S8192, .f32⟩
  | 25 => ⟨S8192, .f32⟩
  | 26 => ⟨S8192, .f32⟩
  | 27 => ⟨S_, .f32⟩
  | 28 => ⟨S_, .f32⟩
  | 29 => ⟨S8192, .f32⟩
  | 30 => ⟨S8192, .f32⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S8192, .f32⟩
  | 39 => ⟨S_, .f32⟩
  | 40 => ⟨S_, .f32⟩
  | 41 => ⟨S8192, .f32⟩
  | 42 => ⟨S8192, .f32⟩
  | 43 => ⟨S_, .f32⟩
  | 44 => ⟨S8192, .f32⟩
  | 45 => ⟨S8192, .f32⟩
  | 46 => ⟨S_, .f32⟩
  | 47 => ⟨S_, .f32⟩
  | 48 => ⟨S8192, .f32⟩
  | 49 => ⟨S8192, .f32⟩
  | 50 => ⟨S8192, .f32⟩
  | 51 => ⟨S_, .f32⟩
  | 52 => ⟨S_, .f32⟩
  | 53 => ⟨S8192, .f32⟩
  | 54 => ⟨S8192, .f32⟩
  | 55 => ⟨S8192x1, .f32⟩
  | 56 => ⟨S8192x1, .f32⟩
  | 57 => ⟨S8192x1, .f32⟩
  | 58 => ⟨S8192x1, .f32⟩
  | 59 => ⟨S8192x1, .f32⟩
  | 60 => ⟨S8192x1, .f32⟩
  | 61 => ⟨S8192x1, .f32⟩
  | 62 => ⟨S8192x7, .f32⟩
  | 63 => ⟨S_, .f32⟩
  | 64 => ⟨S8192, .f32⟩
  | 65 => ⟨S8192, .f32⟩
  | 66 => ⟨S8192, .f32⟩
  | 67 => ⟨S_, .f32⟩
  | 68 => ⟨S8192, .f32⟩
  | 69 => ⟨S8192, .f32⟩
  | 70 => ⟨S8192, .f32⟩
  | 71 => ⟨S_, .f32⟩
  | 72 => ⟨S8192, .f32⟩
  | 73 => ⟨S8192, .f32⟩
  | 74 => ⟨S_, .f32⟩
  | 75 => ⟨S8192, .f32⟩
  | 76 => ⟨S8192, .f32⟩
  | 77 => ⟨S8192, .f32⟩
  | 78 => ⟨S_, .f32⟩
  | 79 => ⟨S8192, .f32⟩
  | 80 => ⟨S8192, .f32⟩
  | 81 => ⟨S8192, .f32⟩
  | 82 => ⟨S_, .f32⟩
  | 83 => ⟨S8192, .f32⟩
  | 84 => ⟨S8192, .f32⟩
  | 85 => ⟨S_, .f32⟩
  | 86 => ⟨S_, .f32⟩
  | 87 => ⟨S8192, .f32⟩
  | 88 => ⟨S8192, .f32⟩
  | 89 => ⟨S8192, .f32⟩
  | 90 => ⟨S_, .f32⟩
  | 91 => ⟨S_, .f32⟩
  | 92 => ⟨S8192, .f32⟩
  | 93 => ⟨S8192, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S8192, .f32⟩
  | 101 => ⟨S8192, .f32⟩
  | 102 => ⟨S_, .f32⟩
  | 103 => ⟨S_, .f32⟩
  | 104 => ⟨S8192, .f32⟩
  | 105 => ⟨S8192, .f32⟩
  | 106 => ⟨S8192, .f32⟩
  | 107 => ⟨S_, .f32⟩
  | 108 => ⟨S_, .f32⟩
  | 109 => ⟨S8192, .f32⟩
  | 110 => ⟨S8192, .f32⟩
  | 111 => ⟨S_, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .f32⟩
  | 118 => ⟨S8192, .f32⟩
  | 119 => ⟨S_, .f32⟩
  | 120 => ⟨S_, .f32⟩
  | 121 => ⟨S8192, .f32⟩
  | 122 => ⟨S8192, .f32⟩
  | 123 => ⟨S8192, .f32⟩
  | 124 => ⟨S_, .f32⟩
  | 125 => ⟨S_, .f32⟩
  | 126 => ⟨S8192, .f32⟩
  | 127 => ⟨S8192, .f32⟩
  | _ => ⟨S8192x7, .f32⟩

abbrev hbmTy0_3 (i : Nat) : BufTy := match i % 128 with
  | 0 => ⟨S_, .f32⟩
  | 1 => ⟨S8192, .f32⟩
  | 2 => ⟨S8192, .f32⟩
  | 3 => ⟨S8192, .f32⟩
  | 4 => ⟨S_, .f32⟩
  | 5 => ⟨S8192, .f32⟩
  | 6 => ⟨S8192, .f32⟩
  | 7 => ⟨S8192, .f32⟩
  | 8 => ⟨S_, .f32⟩
  | 9 => ⟨S_, .f32⟩
  | 10 => ⟨S8192, .f32⟩
  | 11 => ⟨S8192, .f32⟩
  | 12 => ⟨S8192, .f32⟩
  | 13 => ⟨S_, .f32⟩
  | 14 => ⟨S_, .f32⟩
  | 15 => ⟨S8192, .f32⟩
  | 16 => ⟨S8192, .f32⟩
  | 17 => ⟨S8192x1, .f32⟩
  | 18 => ⟨S8192x1, .f32⟩
  | 19 => ⟨S8192x1, .f32⟩
  | 20 => ⟨S8192x1, .f32⟩
  | 21 => ⟨S8192x1, .f32⟩
  | 22 => ⟨S8192x1, .f32⟩
  | 23 => ⟨S8192x1, .f32⟩
  | 24 => ⟨S8192x7, .f32⟩
  | 25 => ⟨S8192x7, .f32⟩
  | 26 => ⟨S8192x7, .f32⟩
  | 27 => ⟨S8192x7, .f32⟩
  | 28 => ⟨S8192x7, .f32⟩
  | 29 => ⟨S_, .f32⟩
  | 30 => ⟨S8192x7, .f32⟩
  | 31 => ⟨S8192x7, .f32⟩
  | 32 => ⟨S8192x7, .f32⟩
  | 33 => ⟨S8192x7, .f32⟩
  | 34 => ⟨S8192x7, .f32⟩
  | 35 => ⟨S_, .f32⟩
  | 36 => ⟨S8192x7, .f32⟩
  | 37 => ⟨S8192x7, .f32⟩
  | 38 => ⟨S8192x7, .f32⟩
  | 39 => ⟨S8192x7, .f32⟩
  | 40 => ⟨S_, .f32⟩
  | 41 => ⟨S_, .f32⟩
  | 42 => ⟨S_, .f32⟩
  | 43 => ⟨S_, .f32⟩
  | 44 => ⟨S8192x4096, .f32⟩
  | 45 => ⟨S8192x4096, .f32⟩
  | 46 => ⟨S_, .f32⟩
  | 47 => ⟨S8192, .f32⟩
  | 48 => ⟨S_, .f32⟩
  | 49 => ⟨S8192, .f32⟩
  | 50 => ⟨S8192, .f32⟩
  | 51 => ⟨S_, .f32⟩
  | 52 => ⟨S8192, .f32⟩
  | 53 => ⟨S8192, .f32⟩
  | 54 => ⟨S8192, .f32⟩
  | 55 => ⟨S8192, .f32⟩
  | _ => ⟨S8192x7, .f32⟩

abbrev hbmTy (i : Nat) : BufTy := match i / 128 with
  | 0 => hbmTy0_0 i
  | 1 => hbmTy0_1 i
  | 2 => hbmTy0_2 i
  | 3 => hbmTy0_3 i
  | _ => ⟨S8192x7, .f32⟩

abbrev bufTy : (tb : Table) → Fin (tcTables nBuf tb) → BufTy
  | .hbm, ⟨i, _⟩ => hbmTy i
  | _, _ => ⟨S8192x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_20 : Ref sig .tc := ⟨.hbm, 112, rfl⟩
abbrev main_call0_v0 : Ref sig .tc := ⟨.hbm, 113, rfl⟩
abbrev main_call0_v1 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_call1_v0 : Ref sig .tc := ⟨.hbm, 118, rfl⟩
abbrev main_call1_v1 : Ref sig .tc := ⟨.hbm, 119, rfl⟩
abbrev main_v89 : Ref sig .tc := ⟨.hbm, 120, rfl⟩
abbrev main_cst_22 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_call2_v0 : Ref sig .tc := ⟨.hbm, 125, rfl⟩
abbrev main_call2_v1 : Ref sig .tc := ⟨.hbm, 126, rfl⟩
abbrev main_v92 : Ref sig .tc := ⟨.hbm, 127, rfl⟩
abbrev main_v93 : Ref sig .tc := ⟨.hbm, 128, rfl⟩
abbrev main_cst_24 : Ref sig .tc := ⟨.hbm, 129, rfl⟩
abbrev main_call3_v0 : Ref sig .tc := ⟨.hbm, 130, rfl⟩
abbrev main_call3_v1 : Ref sig .tc := ⟨.hbm, 131, rfl⟩
abbrev main_v94 : Ref sig .tc := ⟨.hbm, 132, rfl⟩
abbrev main_cst_25 : Ref sig .tc := ⟨.hbm, 133, rfl⟩
abbrev main_v95 : Ref sig .tc := ⟨.hbm, 134, rfl⟩
abbrev main_v96 : Ref sig .tc := ⟨.hbm, 135, rfl⟩
abbrev main_cst_26 : Ref sig .tc := ⟨.hbm, 136, rfl⟩
abbrev main_call4_v0 : Ref sig .tc := ⟨.hbm, 137, rfl⟩
abbrev main_call4_v1 : Ref sig .tc := ⟨.hbm, 138, rfl⟩
abbrev main_v97 : Ref sig .tc := ⟨.hbm, 139, rfl⟩
abbrev main_v98 : Ref sig .tc := ⟨.hbm, 140, rfl⟩
abbrev main_cst_27 : Ref sig .tc := ⟨.hbm, 141, rfl⟩
abbrev main_call5_v0 : Ref sig .tc := ⟨.hbm, 142, rfl⟩
abbrev main_call5_v1 : Ref sig .tc := ⟨.hbm, 143, rfl⟩
abbrev main_v99 : Ref sig .tc := ⟨.hbm, 144, rfl⟩
abbrev main_cst_28 : Ref sig .tc := ⟨.hbm, 145, rfl⟩
abbrev main_v100 : Ref sig .tc := ⟨.hbm, 146, rfl⟩
abbrev main_v101 : Ref sig .tc := ⟨.hbm, 147, rfl⟩
abbrev main_cst_29 : Ref sig .tc := ⟨.hbm, 148, rfl⟩
abbrev main_call6_v0 : Ref sig .tc := ⟨.hbm, 149, rfl⟩
abbrev main_call6_v1 : Ref sig .tc := ⟨.hbm, 150, rfl⟩
abbrev main_v102 : Ref sig .tc := ⟨.hbm, 151, rfl⟩
abbrev main_v103 : Ref sig .tc := ⟨.hbm, 152, rfl⟩
abbrev main_cst_30 : Ref sig .tc := ⟨.hbm, 153, rfl⟩
abbrev main_call7_v0 : Ref sig .tc := ⟨.hbm, 154, rfl⟩
abbrev main_call7_v1 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_31 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_32 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_33 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_34 : Ref sig .tc := ⟨.hbm, 177, rfl⟩
abbrev main_v122 : Ref sig .tc := ⟨.hbm, 178, rfl⟩
abbrev main_v123 : Ref sig .tc := ⟨.hbm, 179, rfl⟩
abbrev main_cst_35 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_36 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_37 : Ref sig .tc := ⟨.hbm, 189, rfl⟩
abbrev main_call8_v0 : Ref sig .tc := ⟨.hbm, 190, rfl⟩
abbrev main_call8_v1 : Ref sig .tc := ⟨.hbm, 191, rfl⟩
abbrev main_v131 : Ref sig .tc := ⟨.hbm, 192, rfl⟩
abbrev main_v132 : Ref sig .tc := ⟨.hbm, 193, rfl⟩
abbrev main_cst_38 : Ref sig .tc := ⟨.hbm, 194, rfl⟩
abbrev main_call9_v0 : Ref sig .tc := ⟨.hbm, 195, rfl⟩
abbrev main_call9_v1 : Ref sig .tc := ⟨.hbm, 196, rfl⟩
abbrev main_v133 : Ref sig .tc := ⟨.hbm, 197, rfl⟩
abbrev main_cst_39 : Ref sig .tc := ⟨.hbm, 198, rfl⟩
abbrev main_v134 : Ref sig .tc := ⟨.hbm, 199, rfl⟩
abbrev main_v135 : Ref sig .tc := ⟨.hbm, 200, rfl⟩
abbrev main_cst_40 : Ref sig .tc := ⟨.hbm, 201, rfl⟩
abbrev main_call10_v0 : Ref sig .tc := ⟨.hbm, 202, rfl⟩
abbrev main_call10_v1 : Ref sig .tc := ⟨.hbm, 203, rfl⟩
abbrev main_v136 : Ref sig .tc := ⟨.hbm, 204, rfl⟩
abbrev main_v137 : Ref sig .tc := ⟨.hbm, 205, rfl⟩
abbrev main_cst_41 : Ref sig .tc := ⟨.hbm, 206, rfl⟩
abbrev main_call11_v0 : Ref sig .tc := ⟨.hbm, 207, rfl⟩
abbrev main_call11_v1 : Ref sig .tc := ⟨.hbm, 208, rfl⟩
abbrev main_v138 : Ref sig .tc := ⟨.hbm, 209, rfl⟩
abbrev main_cst_42 : Ref sig .tc := ⟨.hbm, 210, rfl⟩
abbrev main_v139 : Ref sig .tc := ⟨.hbm, 211, rfl⟩
abbrev main_v140 : Ref sig .tc := ⟨.hbm, 212, rfl⟩
abbrev main_cst_43 : Ref sig .tc := ⟨.hbm, 213, rfl⟩
abbrev main_call12_v0 : Ref sig .tc := ⟨.hbm, 214, rfl⟩
abbrev main_call12_v1 : Ref sig .tc := ⟨.hbm, 215, rfl⟩
abbrev main_v141 : Ref sig .tc := ⟨.hbm, 216, rfl⟩
abbrev main_v142 : Ref sig .tc := ⟨.hbm, 217, rfl⟩
abbrev main_cst_44 : Ref sig .tc := ⟨.hbm, 218, rfl⟩
abbrev main_call13_v0 : Ref sig .tc := ⟨.hbm, 219, rfl⟩
abbrev main_call13_v1 : Ref sig .tc := ⟨.hbm, 220, rfl⟩
abbrev main_v143 : Ref sig .tc := ⟨.hbm, 221, rfl⟩
abbrev main_cst_45 : Ref sig .tc := ⟨.hbm, 222, rfl⟩
abbrev main_v144 : Ref sig .tc := ⟨.hbm, 223, rfl⟩
abbrev main_v145 : Ref sig .tc := ⟨.hbm, 224, rfl⟩
abbrev main_cst_46 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_cst_47 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_48 : Ref sig .tc := ⟨.hbm, 233, rfl⟩
abbrev main_call14_v0 : Ref sig .tc := ⟨.hbm, 234, rfl⟩
abbrev main_call14_v1 : Ref sig .tc := ⟨.hbm, 235, rfl⟩
abbrev main_v152 : Ref sig .tc := ⟨.hbm, 236, rfl⟩
abbrev main_v153 : Ref sig .tc := ⟨.hbm, 237, rfl⟩
abbrev main_cst_49 : Ref sig .tc := ⟨.hbm, 238, rfl⟩
abbrev main_call15_v0 : Ref sig .tc := ⟨.hbm, 239, rfl⟩
abbrev main_call15_v1 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_50 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_cst_51 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_cst_52 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_53 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_cst_54 : Ref sig .tc := ⟨.hbm, 266, rfl⟩
abbrev main_call16_v0 : Ref sig .tc := ⟨.hbm, 267, rfl⟩
abbrev main_call16_v1 : Ref sig .tc := ⟨.hbm, 268, rfl⟩
abbrev main_v175 : Ref sig .tc := ⟨.hbm, 269, rfl⟩
abbrev main_v176 : Ref sig .tc := ⟨.hbm, 270, rfl⟩
abbrev main_cst_55 : Ref sig .tc := ⟨.hbm, 271, rfl⟩
abbrev main_call17_v0 : Ref sig .tc := ⟨.hbm, 272, rfl⟩
abbrev main_call17_v1 : Ref sig .tc := ⟨.hbm, 273, rfl⟩
abbrev main_v177 : Ref sig .tc := ⟨.hbm, 274, rfl⟩
abbrev main_cst_56 : Ref sig .tc := ⟨.hbm, 275, rfl⟩
abbrev main_v178 : Ref sig .tc := ⟨.hbm, 276, rfl⟩
abbrev main_v179 : Ref sig .tc := ⟨.hbm, 277, rfl⟩
abbrev main_cst_57 : Ref sig .tc := ⟨.hbm, 278, rfl⟩
abbrev main_call18_v0 : Ref sig .tc := ⟨.hbm, 279, rfl⟩
abbrev main_call18_v1 : Ref sig .tc := ⟨.hbm, 280, rfl⟩
abbrev main_v180 : Ref sig .tc := ⟨.hbm, 281, rfl⟩
abbrev main_v181 : Ref sig .tc := ⟨.hbm, 282, rfl⟩
abbrev main_cst_58 : Ref sig .tc := ⟨.hbm, 283, rfl⟩
abbrev main_call19_v0 : Ref sig .tc := ⟨.hbm, 284, rfl⟩
abbrev main_call19_v1 : Ref sig .tc := ⟨.hbm, 285, rfl⟩
abbrev main_v182 : Ref sig .tc := ⟨.hbm, 286, rfl⟩
abbrev main_cst_59 : Ref sig .tc := ⟨.hbm, 287, rfl⟩
abbrev main_v183 : Ref sig .tc := ⟨.hbm, 288, rfl⟩
abbrev main_v184 : Ref sig .tc := ⟨.hbm, 289, rfl⟩
abbrev main_cst_60 : Ref sig .tc := ⟨.hbm, 290, rfl⟩
abbrev main_call20_v0 : Ref sig .tc := ⟨.hbm, 291, rfl⟩
abbrev main_call20_v1 : Ref sig .tc := ⟨.hbm, 292, rfl⟩
abbrev main_v185 : Ref sig .tc := ⟨.hbm, 293, rfl⟩
abbrev main_v186 : Ref sig .tc := ⟨.hbm, 294, rfl⟩
abbrev main_cst_61 : Ref sig .tc := ⟨.hbm, 295, rfl⟩
abbrev main_call21_v0 : Ref sig .tc := ⟨.hbm, 296, rfl⟩
abbrev main_call21_v1 : Ref sig .tc := ⟨.hbm, 297, rfl⟩
abbrev main_v187 : Ref sig .tc := ⟨.hbm, 298, rfl⟩
abbrev main_cst_62 : Ref sig .tc := ⟨.hbm, 299, rfl⟩
abbrev main_v188 : Ref sig .tc := ⟨.hbm, 300, rfl⟩
abbrev main_v189 : Ref sig .tc := ⟨.hbm, 301, rfl⟩
abbrev main_cst_63 : Ref sig .tc := ⟨.hbm, 302, rfl⟩
abbrev main_call22_v0 : Ref sig .tc := ⟨.hbm, 303, rfl⟩
abbrev main_call22_v1 : Ref sig .tc := ⟨.hbm, 304, rfl⟩
abbrev main_v190 : Ref sig .tc := ⟨.hbm, 305, rfl⟩
abbrev main_v191 : Ref sig .tc := ⟨.hbm, 306, rfl⟩
abbrev main_cst_64 : Ref sig .tc := ⟨.hbm, 307, rfl⟩
abbrev main_call23_v0 : Ref sig .tc := ⟨.hbm, 308, rfl⟩
abbrev main_call23_v1 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_cst_65 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_cst_66 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_cst_67 : Ref sig .tc := ⟨.hbm, 327, rfl⟩
abbrev main_v207 : Ref sig .tc := ⟨.hbm, 328, rfl⟩
abbrev main_v208 : Ref sig .tc := ⟨.hbm, 329, rfl⟩
abbrev main_cst_68 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_cst_69 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_cst_70 : Ref sig .tc := ⟨.hbm, 338, rfl⟩
abbrev main_v215 : Ref sig .tc := ⟨.hbm, 339, rfl⟩
abbrev main_v216 : Ref sig .tc := ⟨.hbm, 340, rfl⟩
abbrev main_cst_71 : Ref sig .tc := ⟨.hbm, 341, rfl⟩
abbrev main_call24_v0 : Ref sig .tc := ⟨.hbm, 342, rfl⟩
abbrev main_call24_v1 : Ref sig .tc := ⟨.hbm, 343, rfl⟩
abbrev main_v217 : Ref sig .tc := ⟨.hbm, 344, rfl⟩
abbrev main_v218 : Ref sig .tc := ⟨.hbm, 345, rfl⟩
abbrev main_cst_72 : Ref sig .tc := ⟨.hbm, 346, rfl⟩
abbrev main_call25_v0 : Ref sig .tc := ⟨.hbm, 347, rfl⟩
abbrev main_call25_v1 : Ref sig .tc := ⟨.hbm, 348, rfl⟩
abbrev main_v219 : Ref sig .tc := ⟨.hbm, 349, rfl⟩
abbrev main_cst_73 : Ref sig .tc := ⟨.hbm, 350, rfl⟩
abbrev main_v220 : Ref sig .tc := ⟨.hbm, 351, rfl⟩
abbrev main_v221 : Ref sig .tc := ⟨.hbm, 352, rfl⟩
abbrev main_cst_74 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_cst_75 : Ref sig .tc := ⟨.hbm, 358, rfl⟩
abbrev main_call26_v0 : Ref sig .tc := ⟨.hbm, 359, rfl⟩
abbrev main_call26_v1 : Ref sig .tc := ⟨.hbm, 360, rfl⟩
abbrev main_v226 : Ref sig .tc := ⟨.hbm, 361, rfl⟩
abbrev main_v227 : Ref sig .tc := ⟨.hbm, 362, rfl⟩
abbrev main_cst_76 : Ref sig .tc := ⟨.hbm, 363, rfl⟩
abbrev main_call27_v0 : Ref sig .tc := ⟨.hbm, 364, rfl⟩
abbrev main_call27_v1 : Ref sig .tc := ⟨.hbm, 365, rfl⟩
abbrev main_v228 : Ref sig .tc := ⟨.hbm, 366, rfl⟩
abbrev main_cst_77 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_78 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_79 : Ref sig .tc := ⟨.hbm, 375, rfl⟩
abbrev main_call28_v0 : Ref sig .tc := ⟨.hbm, 376, rfl⟩
abbrev main_call28_v1 : Ref sig .tc := ⟨.hbm, 377, rfl⟩
abbrev main_v235 : Ref sig .tc := ⟨.hbm, 378, rfl⟩
abbrev main_v236 : Ref sig .tc := ⟨.hbm, 379, rfl⟩
abbrev main_cst_80 : Ref sig .tc := ⟨.hbm, 380, rfl⟩
abbrev main_call29_v0 : Ref sig .tc := ⟨.hbm, 381, rfl⟩
abbrev main_call29_v1 : Ref sig .tc := ⟨.hbm, 382, rfl⟩
abbrev main_v237 : Ref sig .tc := ⟨.hbm, 383, rfl⟩
abbrev main_cst_81 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_cst_82 : Ref sig .tc := ⟨.hbm, 388, rfl⟩
abbrev main_v241 : Ref sig .tc := ⟨.hbm, 389, rfl⟩
abbrev main_v242 : Ref sig .tc := ⟨.hbm, 390, rfl⟩
abbrev main_v243 : Ref sig .tc := ⟨.hbm, 391, rfl⟩
abbrev main_cst_83 : Ref sig .tc := ⟨.hbm, 392, rfl⟩
abbrev main_call30_v0 : Ref sig .tc := ⟨.hbm, 393, rfl⟩
abbrev main_call30_v1 : Ref sig .tc := ⟨.hbm, 394, rfl⟩
abbrev main_v244 : Ref sig .tc := ⟨.hbm, 395, rfl⟩
abbrev main_v245 : Ref sig .tc := ⟨.hbm, 396, rfl⟩
abbrev main_cst_84 : Ref sig .tc := ⟨.hbm, 397, rfl⟩
abbrev main_call31_v0 : Ref sig .tc := ⟨.hbm, 398, rfl⟩
abbrev main_call31_v1 : Ref sig .tc := ⟨.hbm, 399, rfl⟩
abbrev main_v246 : Ref sig .tc := ⟨.hbm, 400, rfl⟩
abbrev main_v247 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_v251 : Ref sig .tc := ⟨.hbm, 405, rfl⟩
abbrev main_v252 : Ref sig .tc := ⟨.hbm, 406, rfl⟩
abbrev main_v253 : Ref sig .tc := ⟨.hbm, 407, rfl⟩
abbrev main_v254 : Ref sig .tc := ⟨.hbm, 408, rfl⟩
abbrev main_v255 : Ref sig .tc := ⟨.hbm, 409, rfl⟩
abbrev main_v256 : Ref sig .tc := ⟨.hbm, 410, rfl⟩
abbrev main_v257 : Ref sig .tc := ⟨.hbm, 411, rfl⟩
abbrev main_v258 : Ref sig .tc := ⟨.hbm, 412, rfl⟩
abbrev main_cst_85 : Ref sig .tc := ⟨.hbm, 413, rfl⟩
abbrev main_v259 : Ref sig .tc := ⟨.hbm, 414, rfl⟩
abbrev main_v260 : Ref sig .tc := ⟨.hbm, 415, rfl⟩
abbrev main_v261 : Ref sig .tc := ⟨.hbm, 416, rfl⟩
abbrev main_v262 : Ref sig .tc := ⟨.hbm, 417, rfl⟩
abbrev main_v263 : Ref sig .tc := ⟨.hbm, 418, rfl⟩
abbrev main_cst_86 : Ref sig .tc := ⟨.hbm, 419, rfl⟩
abbrev main_v264 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_cst_87 : Ref sig .tc := ⟨.hbm, 424, rfl⟩
abbrev main_v268 : Ref sig .tc := ⟨.hbm, 425, rfl⟩
abbrev main_cst_88 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_89 : Ref sig .tc := ⟨.hbm, 430, rfl⟩
abbrev main_v272 : Ref sig .tc := ⟨.hbm, 431, rfl⟩
abbrev main_cst_90 : Ref sig .tc := ⟨.hbm, 432, rfl⟩
abbrev main_v273 : Ref sig .tc := ⟨.hbm, 433, rfl⟩
abbrev main_v274 : Ref sig .tc := ⟨.hbm, 434, rfl⟩
abbrev main_cst_91 : Ref sig .tc := ⟨.hbm, 435, rfl⟩
abbrev main_v275 : Ref sig .tc := ⟨.hbm, 436, rfl⟩
abbrev main_v276 : Ref sig .tc := ⟨.hbm, 437, rfl⟩
abbrev main_v277 : Ref sig .tc := ⟨.hbm, 438, rfl⟩
abbrev main_v278 : Ref sig .tc := ⟨.hbm, 439, rfl⟩

abbrev nD : Nat := 1
abbrev τ : Topo := Topo.v7x

variable {F : FTy → Type} [FloatOps F]

class Facts₀ : Prop where
  slices_S8192x7_S8192x1_0_0 : S8192x7.Slices ![0, 0] S8192x1
  shapeCasts_S8192x1_S8192 : S8192x1.ShapeCasts S8192
  slices_S8192x7_S8192x1_0_1 : S8192x7.Slices ![0, 1] S8192x1
  slices_S8192x7_S8192x1_0_2 : S8192x7.Slices ![0, 2] S8192x1
  slices_S8192x7_S8192x1_0_3 : S8192x7.Slices ![0, 3] S8192x1
  slices_S8192x7_S8192x1_0_4 : S8192x7.Slices ![0, 4] S8192x1
  slices_S8192x7_S8192x1_0_5 : S8192x7.Slices ![0, 5] S8192x1
  slices_S8192x7_S8192x1_0_6 : S8192x7.Slices ![0, 6] S8192x1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x1_S8192x1_S8192x1_S8192x1_S8192x7_d1 : Shape.Concatenates [S8192x1, S8192x1, S8192x1, S8192x1, S8192x1, S8192x1, S8192x1] S8192x7 1
  bcast_S_S8192x7 : S_.BroadcastsInDim S8192x7 (![] : Fin 0 → Fin S8192x7.rank)
  reducesTo_S8192x7_S_d0_1 : S8192x7.ReducesTo [0, 1] S_
  h_S_ : 0 < S_.numel
  reducesTo_S8192x4096_S8192_d1 : S8192x4096.ReducesTo [1] S8192

variable [Facts₀]

class Facts : Prop extends Facts₀ where

variable [Facts]
-- ==== Proof.RegionDataBits.lean ====
/-
  What the one region of this program works on, stated once for both readings of the float type.
  The program is: 360 host operations computing the prior term from the two [8192, 7] arrays (65 straight
  stretches, each call of the outlined `where` a stretch of its own), the region — a grid of 16 points, point `t`
  reading rows 512·t … 512·t + 511 of the two [8192, 4096] arrays and writing rows 512·t … of an [8192, 1] column —,
  and six host operations after it. Here: the contents of every buffer when the region is entered, each window's
  block at a point, what the body leaves in the output's staging buffer (its one store, of the whole block), and the
  pipeline's proof data over these.
-/
import proofs.«129664_j48773648614415_1_alg».proof.Proof.Gen.Kernel.Launch
import proofs.«129664_j48773648614415_1_alg».proof.Proof.Gen.Kernel.Skeleton
import proofs.«129664_j48773648614415_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The host stretches before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]

/-- Core `c`'s buffer contents when the region is entered: the launch contents after every host operation before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 512 × 4096 staging buffer, and the whole of a 512 × 1 one: the body's three accesses. -/
abbrev rIn : Rect S512x4096 := Rect.unit (s := S512x4096) ![0, 0] S512x4096.size inb_S512x4096_S512x4096_0_0
abbrev rOut : Rect S512x1 := Rect.unit (s := S512x1) ![0, 0] S512x1.size inb_S512x1_S512x1_0_0

/-- The output's staging buffer after the body, from the two input blocks: its one store, of the row means of the
    squared differences, over the whole buffer. -/
def out2 (x0 x1 : Vec F S512x4096 .f32) : Vec F S512x1 .f32 :=
  View.canon [⟨rOut, k0_pay1 (View.ld x0 rIn) (View.ld x1 rIn)⟩]

/-- The proof data of the pipeline on core `c`: the arrays as the region finds them; after the body at point `t`
    each input's buffer still at its block and the output's at `out2` of the two input blocks; nothing of the
    kernel's own in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = out2 (iblk m c 0 t) (iblk m c 1 t) := by dsimp only [dats]

end Cert.Kernel.Hand

end
-- ==== Proof.FrameRunBits.lean ====
/-
  The frame run of the program around its one region, for either reading of the float type.
  The program is 65 straight stretches of host operations, the region (a grid of 16 points over blocks of 512 rows),
  and one more stretch of six host operations. Here: no host operation allocates a buffer or writes an argument
  array, so the region finds the four arguments as launched; the program reduces to the region continued by the last
  stretch; at every point the two inputs' staging buffers hold the point's blocks and the body — two whole loads, one
  unused load of the output's buffer, one whole store of the row means of the squared differences — leaves the inputs
  as found and the output's buffer at `out2` of the two blocks; hence the run of the whole program, and from its
  post that the four argument arrays end as launched.
-/
import proofs.«129664_j48773648614415_1_alg».proof.Proof.RegionDataBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## No host operation allocates -/

theorem fresh_0 : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh_1 : (hostOps0_1 : List (HloOp τ sig (Elt F))).Forall fun op => op.fresh = ∅ :=
  ⟨rfl, rfl, rfl⟩
theorem fresh_2 : (hostOps0_2 : List (HloOp τ sig (Elt F))).Forall fun op => op.fresh = ∅ :=
  ⟨rfl, rfl⟩
theorem fresh_3 : (hostOps0_3 : List (HloOp τ sig (Elt F))).Forall fun op => op.fresh = ∅ :=
  ⟨rfl, rfl, rfl⟩
theorem fresh_4 : (hostOps0_4 : List (HloOp τ sig (Elt F))).Forall fun op => op.fresh = ∅ :=
  ⟨rfl, rfl, rfl, rfl⟩
theorem fresh_5 : (hostOps0_5 : List (HloOp τ sig (Elt F))).Forall fun op => op.fresh = ∅ :=
  ⟨rfl, rfl, rfl⟩
theorem fresh_6 : (hostOps0_6 : List (HloOp τ sig (Elt F))).Forall fun op => op.fresh = ∅ :=
  ⟨rfl, rfl⟩
theorem fresh_7 : (hostOps0_7 : List (HloOp τ sig (Elt F))).Forall fun op => op.fresh = ∅ :=
  ⟨rfl, rfl, rfl⟩
theorem fresh_8 : (hostOps0_8 : List (HloOp τ sig (Elt F))).Forall fun op => op.fresh = ∅ :=
  ⟨rfl, rfl, rfl, rfl⟩
theorem fresh_9 : (hostOps0_9 : List (HloOp τ sig (Elt F))).Forall fun op => op.fresh = ∅ :=
  ⟨rfl, rfl, rfl⟩
theorem fresh_10 : (hostOps0_10 : List (HloOp τ sig (Elt F))).Forall fun op => op.fresh = ∅ :=
  ⟨rfl, rfl⟩
theorem fresh_11 : (hostOps0_11 : List (HloOp τ sig (Elt F))).Forall fun op => op.fresh = ∅ :=
  ⟨rfl, rfl, rfl⟩
theorem fresh_12 : (hostOps0_12 : List (HloOp τ sig (Elt F))).Forall fun op => op.fresh = ∅ :=
  ⟨rfl, rfl, rfl, rfl⟩
theorem fresh_13 : (hostOps0_13 : List (HloOp τ sig (Elt F))).Forall fun op => op.fresh = ∅ :=
  ⟨rfl, rfl, rfl⟩
theorem fresh_14 : (hostOps0_14 : List (HloOp τ sig (Elt F))).Forall fun op => op.fresh = ∅ :=
  ⟨rfl, rfl⟩
theorem fresh_15 : (hostOps0_15 : List (HloOp τ sig (Elt F))).Forall fun op => op.fresh = ∅ :=
  ⟨rfl, rfl, rfl⟩
theorem fresh_16 : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh_17 : (hostOps0_17 : List (HloOp τ sig (Elt F))).Forall fun op => op.fresh = ∅ :=
  ⟨rfl, rfl, rfl⟩
theorem fresh_18 : (hostOps0_18 : List (HloOp τ sig (Elt F))).Forall fun op => op.fresh = ∅ :=
  ⟨rfl, rfl⟩
theorem fresh_19 : (hostOps0_19 : List (HloOp τ sig (Elt F))).Forall fun op => op.fresh = ∅ :=
  ⟨rfl, rfl, rfl⟩
theorem fresh_20 : (hostOps0_20 : List (HloOp τ sig (Elt F))).Forall fun op => op.fresh = ∅ :=
  ⟨rfl, rfl, rfl, rfl⟩
theorem fresh_21 : (hostOps0_21 : List (HloOp τ sig (Elt F))).Forall fun op => op.fresh = ∅ :=
  ⟨rfl, rfl, rfl⟩
theorem fresh_22 : (hostOps0_22 : List (HloOp τ sig (Elt F))).Forall fun op => op.fresh = ∅ :=
  ⟨rfl, rfl⟩
theorem fresh_23 : (hostOps0_23 : List (HloOp τ sig (Elt F))).Forall fun op => op.fresh = ∅ :=
  ⟨rfl, rfl, rfl⟩
theorem fresh_24 : (hostOps0_24 : List (HloOp τ sig (Elt F))).Forall fun op => op.fresh = ∅ :=
  ⟨rfl, rfl, rfl, rfl⟩
theorem fresh_25 : (hostOps0_25 : List (HloOp τ sig (Elt F))).Forall fun op => op.fresh = ∅ :=
  ⟨rfl, rfl, rfl⟩
theorem fresh_26 : (hostOps0_26 : List (HloOp τ sig (Elt F))).Forall fun op => op.fresh = ∅ :=
  ⟨rfl, rfl⟩
theorem fresh_27 : (hostOps0_27 : List (HloOp τ sig (Elt F))).Forall fun op => op.fresh = ∅ :=
  ⟨rfl, rfl, rfl⟩
theorem fresh_28 : (hostOps0_28 : List (HloOp τ sig (Elt F))).Forall fun op => op.fresh = ∅ :=
  ⟨rfl, rfl, rfl, rfl, rfl, rfl, rfl, rfl, rfl, rfl, rfl, rfl⟩
theorem fresh_29 : (hostOps0_29 : List (HloOp τ sig (Elt F))).Forall fun op => op.fresh = ∅ :=
  ⟨rfl, rfl, rfl⟩
theorem fresh_30 : (hostOps0_30 : List (HloOp τ sig (Elt F))).Forall fun op => op.fresh = ∅ :=
  ⟨rfl, rfl⟩
theorem fresh_31 : (hostOps0_31 : List (HloOp τ sig (Elt F))).Forall fun op => op.fresh = ∅ :=
  ⟨rfl, rfl, rfl⟩
theorem fresh_32 : (hostOps0_32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem fresh_33 : (hostOps0_33 : List (HloOp τ sig (Elt F))).Forall fun op => op.fresh = ∅ :=
  ⟨rfl, rfl, rfl⟩
theorem fresh_34 : (hostOps0_34 : List (HloOp τ sig (Elt F))).Forall fun op => op.fresh = ∅ :=
  ⟨rfl, rfl⟩
theorem fresh_35 : (hostOps0_35 : List (HloOp τ sig (Elt F))).Forall fun op => op.fresh = ∅ :=
  ⟨rfl, rfl, rfl⟩
theorem fresh_36 : (hostOps0_36 : List (HloOp τ sig (Elt F))).Forall fun op => op.fresh = ∅ :=
  ⟨rfl, rfl, rfl, rfl⟩
theorem fresh_37 : (hostOps0_37 : List (HloOp τ sig (Elt F))).Forall fun op => op.fresh = ∅ :=
  ⟨rfl, rfl, rfl⟩
theorem fresh_38 : (hostOps0_38 : List (HloOp τ sig (Elt F))).Forall fun op => op.fresh = ∅ :=
  ⟨rfl, rfl⟩
theorem fresh_39 : (hostOps0_39 : List (HloOp τ sig (Elt F))).Forall fun op => op.fresh = ∅ :=
  ⟨rfl, rfl, rfl⟩
theorem fresh_40 : (hostOps0_40 : List (HloOp τ sig (Elt F))).Forall fun op => op.fresh = ∅ :=
  ⟨rfl, rfl, rfl, rfl⟩
theorem fresh_41 : (hostOps0_41 : List (HloOp τ sig (Elt F))).Forall fun op => op.fresh = ∅ :=
  ⟨rfl, rfl, rfl⟩
theorem fresh_42 : (hostOps0_42 : List (HloOp τ sig (Elt F))).Forall fun op => op.fresh = ∅ :=
  ⟨rfl, rfl⟩
theorem fresh_43 : (hostOps0_43 : List (HloOp τ sig (Elt F))).Forall fun op => op.fresh = ∅ :=
  ⟨rfl, rfl, rfl⟩
theorem fresh_44 : (hostOps0_44 : List (HloOp τ sig (Elt F))).Forall fun op => op.fresh = ∅ :=
  ⟨rfl, rfl, rfl, rfl⟩
theorem fresh_45 : (hostOps0_45 : List (HloOp τ sig (Elt F))).Forall fun op => op.fresh = ∅ :=
  ⟨rfl, rfl, rfl⟩
theorem fresh_46 : (hostOps0_46 : List (HloOp τ sig (Elt F))).Forall fun op => op.fresh = ∅ :=
  ⟨rfl, rfl⟩
theorem fresh_47 : (hostOps0_47 : List (HloOp τ sig (Elt F))).Forall fun op => op.fresh = ∅ :=
  ⟨rfl, rfl, rfl⟩
theorem fresh_48 : (hostOps0_48 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh_49 : (hostOps0_49 : List (HloOp τ sig (Elt F))).Forall fun op => op.fresh = ∅ :=
  ⟨rfl, rfl, rfl⟩
theorem fresh_50 : (hostOps0_50 : List (HloOp τ sig (Elt F))).Forall fun op => op.fresh = ∅ :=
  ⟨rfl, rfl⟩
theorem fresh_51 : (hostOps0_51 : List (HloOp τ sig (Elt F))).Forall fun op => op.fresh = ∅ :=
  ⟨rfl, rfl, rfl⟩
theorem fresh_52 : (hostOps0_52 : List (HloOp τ sig (Elt F))).Forall fun op => op.fresh = ∅ :=
  ⟨rfl, rfl, rfl, rfl, rfl, rfl, rfl, rfl, rfl⟩
theorem fresh_53 : (hostOps0_53 : List (HloOp τ sig (Elt F))).Forall fun op => op.fresh = ∅ :=
  ⟨rfl, rfl, rfl⟩
theorem fresh_54 : (hostOps0_54 : List (HloOp τ sig (Elt F))).Forall fun op => op.fresh = ∅ :=
  ⟨rfl, rfl⟩
theorem fresh_55 : (hostOps0_55 : List (HloOp τ sig (Elt F))).Forall fun op => op.fresh = ∅ :=
  ⟨rfl, rfl, rfl⟩
theorem fresh_56 : (hostOps0_56 : List (HloOp τ sig (Elt F))).Forall fun op => op.fresh = ∅ :=
  ⟨rfl, rfl, rfl, rfl, rfl, rfl, rfl, rfl, rfl⟩
theorem fresh_57 : (hostOps0_57 : List (HloOp τ sig (Elt F))).Forall fun op => op.fresh = ∅ :=
  ⟨rfl, rfl, rfl⟩
theorem fresh_58 : (hostOps0_58 : List (HloOp τ sig (Elt F))).Forall fun op => op.fresh = ∅ :=
  ⟨rfl, rfl⟩
theorem fresh_59 : (hostOps0_59 : List (HloOp τ sig (Elt F))).Forall fun op => op.fresh = ∅ :=
  ⟨rfl, rfl, rfl⟩
theorem fresh_60 : (hostOps0_60 : List (HloOp τ sig (Elt F))).Forall fun op => op.fresh = ∅ :=
  ⟨rfl, rfl, rfl, rfl, rfl, rfl, rfl, rfl, rfl⟩
theorem fresh_61 : (hostOps0_61 : List (HloOp τ sig (Elt F))).Forall fun op => op.fresh = ∅ :=
  ⟨rfl, rfl, rfl⟩
theorem fresh_62 : (hostOps0_62 : List (HloOp τ sig (Elt F))).Forall fun op => op.fresh = ∅ :=
  ⟨rfl, rfl⟩
theorem fresh_63 : (hostOps0_63 : List (HloOp τ sig (Elt F))).Forall fun op => op.fresh = ∅ :=
  ⟨rfl, rfl, rfl⟩
theorem fresh_64 : (hostOps0_64 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem fresh_tail : (hostOps1 : List (HloOp τ sig (Elt F))).Forall fun op => op.fresh = ∅ :=
  ⟨rfl, rfl, rfl, rfl, rfl, rfl⟩

/-- Every stretch before the region touches TensorCore references only. -/
theorem pre_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩

/-- And allocates nothing. -/
theorem pre_fresh : (preOps (F := F)).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26, fresh_27, fresh_28, fresh_29, fresh_30, fresh_31, fresh_32, fresh_33, fresh_34, fresh_35, fresh_36, fresh_37, fresh_38, fresh_39, fresh_40, fresh_41, fresh_42, fresh_43, fresh_44, fresh_45, fresh_46, fresh_47, fresh_48, fresh_49, fresh_50, fresh_51, fresh_52, fresh_53, fresh_54, fresh_55, fresh_56, fresh_57, fresh_58, fresh_59, fresh_60, fresh_61, fresh_62, fresh_63, fresh_64⟩

/-- The program is the stretches before the region, the region, and the one stretch after it: on the launch contents it
    reduces to the region, continued by that last stretch, on the contents the earlier stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] pre_sub pre_fresh main_chain

/-! ## The argument arrays are written by no host operation -/

/-- An operation that writes none of the program's four argument arrays. -/
def KeepsArgs (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes

theorem keeps_0 : (hostOps0 : List (HloOp τ sig (Elt F))).Forall KeepsArgs := by
  simp only [hostOps0, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_1 : (hostOps0_1 : List (HloOp τ sig (Elt F))).Forall KeepsArgs := by
  simp only [hostOps0_1, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_2 : (hostOps0_2 : List (HloOp τ sig (Elt F))).Forall KeepsArgs := by
  simp only [hostOps0_2, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_3 : (hostOps0_3 : List (HloOp τ sig (Elt F))).Forall KeepsArgs := by
  simp only [hostOps0_3, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_4 : (hostOps0_4 : List (HloOp τ sig (Elt F))).Forall KeepsArgs := by
  simp only [hostOps0_4, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_5 : (hostOps0_5 : List (HloOp τ sig (Elt F))).Forall KeepsArgs := by
  simp only [hostOps0_5, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_6 : (hostOps0_6 : List (HloOp τ sig (Elt F))).Forall KeepsArgs := by
  simp only [hostOps0_6, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_7 : (hostOps0_7 : List (HloOp τ sig (Elt F))).Forall KeepsArgs := by
  simp only [hostOps0_7, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_8 : (hostOps0_8 : List (HloOp τ sig (Elt F))).Forall KeepsArgs := by
  simp only [hostOps0_8, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_9 : (hostOps0_9 : List (HloOp τ sig (Elt F))).Forall KeepsArgs := by
  simp only [hostOps0_9, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_10 : (hostOps0_10 : List (HloOp τ sig (Elt F))).Forall KeepsArgs := by
  simp only [hostOps0_10, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_11 : (hostOps0_11 : List (HloOp τ sig (Elt F))).Forall KeepsArgs := by
  simp only [hostOps0_11, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_12 : (hostOps0_12 : List (HloOp τ sig (Elt F))).Forall KeepsArgs := by
  simp only [hostOps0_12, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_13 : (hostOps0_13 : List (HloOp τ sig (Elt F))).Forall KeepsArgs := by
  simp only [hostOps0_13, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_14 : (hostOps0_14 : List (HloOp τ sig (Elt F))).Forall KeepsArgs := by
  simp only [hostOps0_14, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_15 : (hostOps0_15 : List (HloOp τ sig (Elt F))).Forall KeepsArgs := by
  simp only [hostOps0_15, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_16 : (hostOps0_16 : List (HloOp τ sig (Elt F))).Forall KeepsArgs := by
  simp only [hostOps0_16, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_17 : (hostOps0_17 : List (HloOp τ sig (Elt F))).Forall KeepsArgs := by
  simp only [hostOps0_17, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_18 : (hostOps0_18 : List (HloOp τ sig (Elt F))).Forall KeepsArgs := by
  simp only [hostOps0_18, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_19 : (hostOps0_19 : List (HloOp τ sig (Elt F))).Forall KeepsArgs := by
  simp only [hostOps0_19, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_20 : (hostOps0_20 : List (HloOp τ sig (Elt F))).Forall KeepsArgs := by
  simp only [hostOps0_20, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_21 : (hostOps0_21 : List (HloOp τ sig (Elt F))).Forall KeepsArgs := by
  simp only [hostOps0_21, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_22 : (hostOps0_22 : List (HloOp τ sig (Elt F))).Forall KeepsArgs := by
  simp only [hostOps0_22, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_23 : (hostOps0_23 : List (HloOp τ sig (Elt F))).Forall KeepsArgs := by
  simp only [hostOps0_23, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_24 : (hostOps0_24 : List (HloOp τ sig (Elt F))).Forall KeepsArgs := by
  simp only [hostOps0_24, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_25 : (hostOps0_25 : List (HloOp τ sig (Elt F))).Forall KeepsArgs := by
  simp only [hostOps0_25, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_26 : (hostOps0_26 : List (HloOp τ sig (Elt F))).Forall KeepsArgs := by
  simp only [hostOps0_26, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_27 : (hostOps0_27 : List (HloOp τ sig (Elt F))).Forall KeepsArgs := by
  simp only [hostOps0_27, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_28 : (hostOps0_28 : List (HloOp τ sig (Elt F))).Forall KeepsArgs := by
  simp only [hostOps0_28, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_29 : (hostOps0_29 : List (HloOp τ sig (Elt F))).Forall KeepsArgs := by
  simp only [hostOps0_29, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_30 : (hostOps0_30 : List (HloOp τ sig (Elt F))).Forall KeepsArgs := by
  simp only [hostOps0_30, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_31 : (hostOps0_31 : List (HloOp τ sig (Elt F))).Forall KeepsArgs := by
  simp only [hostOps0_31, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_32 : (hostOps0_32 : List (HloOp τ sig (Elt F))).Forall KeepsArgs := by
  simp only [hostOps0_32, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_33 : (hostOps0_33 : List (HloOp τ sig (Elt F))).Forall KeepsArgs := by
  simp only [hostOps0_33, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_34 : (hostOps0_34 : List (HloOp τ sig (Elt F))).Forall KeepsArgs := by
  simp only [hostOps0_34, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_35 : (hostOps0_35 : List (HloOp τ sig (Elt F))).Forall KeepsArgs := by
  simp only [hostOps0_35, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_36 : (hostOps0_36 : List (HloOp τ sig (Elt F))).Forall KeepsArgs := by
  simp only [hostOps0_36, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_37 : (hostOps0_37 : List (HloOp τ sig (Elt F))).Forall KeepsArgs := by
  simp only [hostOps0_37, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_38 : (hostOps0_38 : List (HloOp τ sig (Elt F))).Forall KeepsArgs := by
  simp only [hostOps0_38, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_39 : (hostOps0_39 : List (HloOp τ sig (Elt F))).Forall KeepsArgs := by
  simp only [hostOps0_39, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_40 : (hostOps0_40 : List (HloOp τ sig (Elt F))).Forall KeepsArgs := by
  simp only [hostOps0_40, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_41 : (hostOps0_41 : List (HloOp τ sig (Elt F))).Forall KeepsArgs := by
  simp only [hostOps0_41, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_42 : (hostOps0_42 : List (HloOp τ sig (Elt F))).Forall KeepsArgs := by
  simp only [hostOps0_42, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_43 : (hostOps0_43 : List (HloOp τ sig (Elt F))).Forall KeepsArgs := by
  simp only [hostOps0_43, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_44 : (hostOps0_44 : List (HloOp τ sig (Elt F))).Forall KeepsArgs := by
  simp only [hostOps0_44, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_45 : (hostOps0_45 : List (HloOp τ sig (Elt F))).Forall KeepsArgs := by
  simp only [hostOps0_45, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_46 : (hostOps0_46 : List (HloOp τ sig (Elt F))).Forall KeepsArgs := by
  simp only [hostOps0_46, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_47 : (hostOps0_47 : List (HloOp τ sig (Elt F))).Forall KeepsArgs := by
  simp only [hostOps0_47, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_48 : (hostOps0_48 : List (HloOp τ sig (Elt F))).Forall KeepsArgs := by
  simp only [hostOps0_48, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_49 : (hostOps0_49 : List (HloOp τ sig (Elt F))).Forall KeepsArgs := by
  simp only [hostOps0_49, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_50 : (hostOps0_50 : List (HloOp τ sig (Elt F))).Forall KeepsArgs := by
  simp only [hostOps0_50, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_51 : (hostOps0_51 : List (HloOp τ sig (Elt F))).Forall KeepsArgs := by
  simp only [hostOps0_51, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_52 : (hostOps0_52 : List (HloOp τ sig (Elt F))).Forall KeepsArgs := by
  simp only [hostOps0_52, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_53 : (hostOps0_53 : List (HloOp τ sig (Elt F))).Forall KeepsArgs := by
  simp only [hostOps0_53, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_54 : (hostOps0_54 : List (HloOp τ sig (Elt F))).Forall KeepsArgs := by
  simp only [hostOps0_54, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_55 : (hostOps0_55 : List (HloOp τ sig (Elt F))).Forall KeepsArgs := by
  simp only [hostOps0_55, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_56 : (hostOps0_56 : List (HloOp τ sig (Elt F))).Forall KeepsArgs := by
  simp only [hostOps0_56, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_57 : (hostOps0_57 : List (HloOp τ sig (Elt F))).Forall KeepsArgs := by
  simp only [hostOps0_57, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_58 : (hostOps0_58 : List (HloOp τ sig (Elt F))).Forall KeepsArgs := by
  simp only [hostOps0_58, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_59 : (hostOps0_59 : List (HloOp τ sig (Elt F))).Forall KeepsArgs := by
  simp only [hostOps0_59, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_60 : (hostOps0_60 : List (HloOp τ sig (Elt F))).Forall KeepsArgs := by
  simp only [hostOps0_60, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_61 : (hostOps0_61 : List (HloOp τ sig (Elt F))).Forall KeepsArgs := by
  simp only [hostOps0_61, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_62 : (hostOps0_62 : List (HloOp τ sig (Elt F))).Forall KeepsArgs := by
  simp only [hostOps0_62, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_63 : (hostOps0_63 : List (HloOp τ sig (Elt F))).Forall KeepsArgs := by
  simp only [hostOps0_63, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_64 : (hostOps0_64 : List (HloOp τ sig (Elt F))).Forall KeepsArgs := by
  simp only [hostOps0_64, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_tail : (hostOps1 : List (HloOp τ sig (Elt F))).Forall KeepsArgs := by
  simp only [hostOps1, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)

/-- Each operation writes its own result buffer only, and no result buffer is an argument: stretch by stretch, -/
theorem pre_keeps : (preOps (F := F)).Forall fun ops => ops.Forall KeepsArgs :=
  ⟨keeps_0, keeps_1, keeps_2, keeps_3, keeps_4, keeps_5, keeps_6, keeps_7, keeps_8, keeps_9, keeps_10, keeps_11, keeps_12, keeps_13, keeps_14, keeps_15, keeps_16, keeps_17, keeps_18, keeps_19, keeps_20, keeps_21, keeps_22, keeps_23, keeps_24, keeps_25, keeps_26, keeps_27, keeps_28, keeps_29, keeps_30, keeps_31, keeps_32, keeps_33, keeps_34, keeps_35, keeps_36, keeps_37, keeps_38, keeps_39, keeps_40, keeps_41, keeps_42, keeps_43, keeps_44, keeps_45, keeps_46, keeps_47, keeps_48, keeps_49, keeps_50, keeps_51, keeps_52, keeps_53, keeps_54, keeps_55, keeps_56, keeps_57, keeps_58, keeps_59, keeps_60, keeps_61, keeps_62, keeps_63, keeps_64⟩

/-- and so over all of them in a row. -/
theorem flat_keeps : ∀ op ∈ List.flatten (preOps (F := F)), KeepsArgs op := fun op hop => by
  obtain ⟨ops, hops, hin⟩ := List.mem_flatten.mp hop
  exact (List.forall_iff_forall_mem.mp ((List.forall_iff_forall_mem.mp pre_keeps) ops hops)) op hin

/-- The region finds each argument array as launched. -/
theorem V_main_arg0 (c : Dev nD) : V m c main_arg0 = m ((c : Thread nD τ).loc main_arg0) :=
  StableHlo.after_of_forall_not_mem (b := Proc.devRef .tc main_arg0) _ _ (fun op hop => (flat_keeps op hop).1)
theorem V_main_arg1 (c : Dev nD) : V m c main_arg1 = m ((c : Thread nD τ).loc main_arg1) :=
  StableHlo.after_of_forall_not_mem (b := Proc.devRef .tc main_arg1) _ _ (fun op hop => (flat_keeps op hop).2.1)
theorem V_main_arg2 (c : Dev nD) : V m c main_arg2 = m ((c : Thread nD τ).loc main_arg2) :=
  StableHlo.after_of_forall_not_mem (b := Proc.devRef .tc main_arg2) _ _ (fun op hop => (flat_keeps op hop).2.2.1)
theorem V_main_arg3 (c : Dev nD) : V m c main_arg3 = m ((c : Thread nD τ).loc main_arg3) :=
  StableHlo.after_of_forall_not_mem (b := Proc.devRef .tc main_arg3) _ _ (fun op hop => (flat_keeps op hop).2.2.2)

/-! ## The stretch after the region -/

/-- Its operations touch the pipeline's arrays and the buffers that bypass it only: each names unscoped TensorCore
    references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp fresh_tail) op hop

/-- None writes an array of the pipeline: the six result buffers are none of the two inputs and the output column. -/
theorem tail_keeps_arrays : (hostOps1 : List (HloOp τ sig (Elt F))).Forall fun op =>
    ∀ w, Proc.devRef (τ := τ) .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp tail_keeps_arrays) op hop

/-- The first two arguments are no window's array, and the last stretch does not write them: they end as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (by
      rw [List.flatten_cons, List.flatten_nil, List.append_nil]
      exact fun op hop => ((List.forall_iff_forall_mem.mp keeps_tail) op hop).1),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (by
      rw [List.flatten_cons, List.flatten_nil, List.append_nil]
      exact fun op hop => ((List.forall_iff_forall_mem.mp keeps_tail) op hop).2.1),
    Pipeline.withArrays_of_ne _ c (V0 m c) _ main_arg1 (by exact (by decide : ∀ w, Pipeline.arrRef spec0 w ≠ main_arg1))]
  exact V_main_arg1 m c

/-! ## The inputs' staging buffers at a point -/

/-- The staging buffer of the first input holds, at every point, the block of rows that point reads — whatever it held
    before: the window is fetched whole at every point and the body leaves it as it found it. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The same for the second input. -/
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body on its three buffers -/

/-- The body's one store is of the whole 512 × 1 buffer, so it covers it. -/
theorem cover_out (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

set_option maxHeartbeats 1000000 in
/-- The body, on the two inputs' buffers at contents `x0`, `x1` and the output's at anything: it loads both inputs
    whole, loads the output's buffer once (a value it never uses), stores the row means of the squared differences
    over the whole output buffer, and returns; the inputs' buffers are as they were and the output's holds
    `out2 x0 x1`. -/
theorem sound_kernel (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S512x1 .f32) (harg3 : arg3.IsWhole)
    (x0 x1 : Vec F S512x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__mse_kernel i arg1 harg1 arg2 harg2 arg3 harg3) K := by
  simp only [cc0__mse_kernel_eq_skeleton]; unfold cc0__mse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- What the body is entered with at point `t`: the invariant, what is owed, and each window's current staging buffer — -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what is owed are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run, and the frame -/

-- matching the library's conclusion against this statement goes through plain definitions in the types of the
-- parameters still to be determined
set_option backward.isDefEq.respectTransparency.types false in
/-- At the compiled mesh, for any float reading and any launch memory with zero counters: every weakly fair execution
    of the program on the TensorCores terminates, and at its end every array of the pipeline holds what the proof data
    give after the last point, and every other unscoped buffer what the stretch after the region leaves from the
    region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end as launched. The two [8192, 7] arrays are no window's array: they end at what the last
    stretch leaves, which is what the region found, which is the launch contents. The two [8192, 4096] arrays are the
    input windows' arrays: an input window's array ends as the region found it, again the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩) (run_main m ρ)

end Cert.Kernel.Hand

end
-- ==== Proof.RegionDataIdeal.lean ====
/-
  What the one region of this program works on, stated once for both readings of the float type.
  The program is: 360 host operations computing the prior term from the two [8192, 7] arrays (65 straight
  stretches, each call of the outlined `where` a stretch of its own), the region — a grid of 16 points, point `t`
  reading rows 512·t … 512·t + 511 of the two [8192, 4096] arrays and writing rows 512·t … of an [8192, 1] column —,
  and six host operations after it. Here: the contents of every buffer when the region is entered, each window's
  block at a point, what the body leaves in the output's staging buffer (its one store, of the whole block), and the
  pipeline's proof data over these.
-/
import proofs.«129664_j48773648614415_1_alg».proof.Proof.Gen.KernelIdeal.Launch
import proofs.«129664_j48773648614415_1_alg».proof.Proof.Gen.KernelIdeal.Skeleton
import proofs.«129664_j48773648614415_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The host stretches before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]

/-- Core `c`'s buffer contents when the region is entered: the launch contents after every host operation before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 512 × 4096 staging buffer, and the whole of a 512 × 1 one: the body's three accesses. -/
abbrev rIn : Rect S512x4096 := Rect.unit (s := S512x4096) ![0, 0] S512x4096.size inb_S512x4096_S512x4096_0_0
abbrev rOut : Rect S512x1 := Rect.unit (s := S512x1) ![0, 0] S512x1.size inb_S512x1_S512x1_0_0

/-- The output's staging buffer after the body, from the two input blocks: its one store, of the row means of the
    squared differences, over the whole buffer. -/
def out2 (x0 x1 : Vec F S512x4096 .f32) : Vec F S512x1 .f32 :=
  View.canon [⟨rOut, k0_pay1 (View.ld x0 rIn) (View.ld x1 rIn)⟩]

/-- The proof data of the pipeline on core `c`: the arrays as the region finds them; after the body at point `t`
    each input's buffer still at its block and the output's at `out2` of the two input blocks; nothing of the
    kernel's own in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = out2 (iblk m c 0 t) (iblk m c 1 t) := by dsimp only [dats]

end Cert.KernelIdeal.Hand

end
-- ==== Proof.FrameRunIdeal.lean ====
/-
  The frame run of the program around its one region, for either reading of the float type.
  The program is 65 straight stretches of host operations, the region (a grid of 16 points over blocks of 512 rows),
  and one more stretch of six host operations. Here: no host operation allocates a buffer or writes an argument
  array, so the region finds the four arguments as launched; the program reduces to the region continued by the last
  stretch; at every point the two inputs' staging buffers hold the point's blocks and the body — two whole loads, one
  unused load of the output's buffer, one whole store of the row means of the squared differences — leaves the inputs
  as found and the output's buffer at `out2` of the two blocks; hence the run of the whole program, and from its
  post that the four argument arrays end as launched.
-/
import proofs.«129664_j48773648614415_1_alg».proof.Proof.RegionDataIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## No host operation allocates -/

theorem fresh_0 : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh_1 : (hostOps0_1 : List (HloOp τ sig (Elt F))).Forall fun op => op.fresh = ∅ :=
  ⟨rfl, rfl, rfl⟩
theorem fresh_2 : (hostOps0_2 : List (HloOp τ sig (Elt F))).Forall fun op => op.fresh = ∅ :=
  ⟨rfl, rfl⟩
theorem fresh_3 : (hostOps0_3 : List (HloOp τ sig (Elt F))).Forall fun op => op.fresh = ∅ :=
  ⟨rfl, rfl, rfl⟩
theorem fresh_4 : (hostOps0_4 : List (HloOp τ sig (Elt F))).Forall fun op => op.fresh = ∅ :=
  ⟨rfl, rfl, rfl, rfl⟩
theorem fresh_5 : (hostOps0_5 : List (HloOp τ sig (Elt F))).Forall fun op => op.fresh = ∅ :=
  ⟨rfl, rfl, rfl⟩
theorem fresh_6 : (hostOps0_6 : List (HloOp τ sig (Elt F))).Forall fun op => op.fresh = ∅ :=
  ⟨rfl, rfl⟩
theorem fresh_7 : (hostOps0_7 : List (HloOp τ sig (Elt F))).Forall fun op => op.fresh = ∅ :=
  ⟨rfl, rfl, rfl⟩
theorem fresh_8 : (hostOps0_8 : List (HloOp τ sig (Elt F))).Forall fun op => op.fresh = ∅ :=
  ⟨rfl, rfl, rfl, rfl⟩
theorem fresh_9 : (hostOps0_9 : List (HloOp τ sig (Elt F))).Forall fun op => op.fresh = ∅ :=
  ⟨rfl, rfl, rfl⟩
theorem fresh_10 : (hostOps0_10 : List (HloOp τ sig (Elt F))).Forall fun op => op.fresh = ∅ :=
  ⟨rfl, rfl⟩
theorem fresh_11 : (hostOps0_11 : List (HloOp τ sig (Elt F))).Forall fun op => op.fresh = ∅ :=
  ⟨rfl, rfl, rfl⟩
theorem fresh_12 : (hostOps0_12 : List (HloOp τ sig (Elt F))).Forall fun op => op.fresh = ∅ :=
  ⟨rfl, rfl, rfl, rfl⟩
theorem fresh_13 : (hostOps0_13 : List (HloOp τ sig (Elt F))).Forall fun op => op.fresh = ∅ :=
  ⟨rfl, rfl, rfl⟩
theorem fresh_14 : (hostOps0_14 : List (HloOp τ sig (Elt F))).Forall fun op => op.fresh = ∅ :=
  ⟨rfl, rfl⟩
theorem fresh_15 : (hostOps0_15 : List (HloOp τ sig (Elt F))).Forall fun op => op.fresh = ∅ :=
  ⟨rfl, rfl, rfl⟩
theorem fresh_16 : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh_17 : (hostOps0_17 : List (HloOp τ sig (Elt F))).Forall fun op => op.fresh = ∅ :=
  ⟨rfl, rfl, rfl⟩
theorem fresh_18 : (hostOps0_18 : List (HloOp τ sig (Elt F))).Forall fun op => op.fresh = ∅ :=
  ⟨rfl, rfl⟩
theorem fresh_19 : (hostOps0_19 : List (HloOp τ sig (Elt F))).Forall fun op => op.fresh = ∅ :=
  ⟨rfl, rfl, rfl⟩
theorem fresh_20 : (hostOps0_20 : List (HloOp τ sig (Elt F))).Forall fun op => op.fresh = ∅ :=
  ⟨rfl, rfl, rfl, rfl⟩
theorem fresh_21 : (hostOps0_21 : List (HloOp τ sig (Elt F))).Forall fun op => op.fresh = ∅ :=
  ⟨rfl, rfl, rfl⟩
theorem fresh_22 : (hostOps0_22 : List (HloOp τ sig (Elt F))).Forall fun op => op.fresh = ∅ :=
  ⟨rfl, rfl⟩
theorem fresh_23 : (hostOps0_23 : List (HloOp τ sig (Elt F))).Forall fun op => op.fresh = ∅ :=
  ⟨rfl, rfl, rfl⟩
theorem fresh_24 : (hostOps0_24 : List (HloOp τ sig (Elt F))).Forall fun op => op.fresh = ∅ :=
  ⟨rfl, rfl, rfl, rfl⟩
theorem fresh_25 : (hostOps0_25 : List (HloOp τ sig (Elt F))).Forall fun op => op.fresh = ∅ :=
  ⟨rfl, rfl, rfl⟩
theorem fresh_26 : (hostOps0_26 : List (HloOp τ sig (Elt F))).Forall fun op => op.fresh = ∅ :=
  ⟨rfl, rfl⟩
theorem fresh_27 : (hostOps0_27 : List (HloOp τ sig (Elt F))).Forall fun op => op.fresh = ∅ :=
  ⟨rfl, rfl, rfl⟩
theorem fresh_28 : (hostOps0_28 : List (HloOp τ sig (Elt F))).Forall fun op => op.fresh = ∅ :=
  ⟨rfl, rfl, rfl, rfl, rfl, rfl, rfl, rfl, rfl, rfl, rfl, rfl⟩
theorem fresh_29 : (hostOps0_29 : List (HloOp τ sig (Elt F))).Forall fun op => op.fresh = ∅ :=
  ⟨rfl, rfl, rfl⟩
theorem fresh_30 : (hostOps0_30 : List (HloOp τ sig (Elt F))).Forall fun op => op.fresh = ∅ :=
  ⟨rfl, rfl⟩
theorem fresh_31 : (hostOps0_31 : List (HloOp τ sig (Elt F))).Forall fun op => op.fresh = ∅ :=
  ⟨rfl, rfl, rfl⟩
theorem fresh_32 : (hostOps0_32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem fresh_33 : (hostOps0_33 : List (HloOp τ sig (Elt F))).Forall fun op => op.fresh = ∅ :=
  ⟨rfl, rfl, rfl⟩
theorem fresh_34 : (hostOps0_34 : List (HloOp τ sig (Elt F))).Forall fun op => op.fresh = ∅ :=
  ⟨rfl, rfl⟩
theorem fresh_35 : (hostOps0_35 : List (HloOp τ sig (Elt F))).Forall fun op => op.fresh = ∅ :=
  ⟨rfl, rfl, rfl⟩
theorem fresh_36 : (hostOps0_36 : List (HloOp τ sig (Elt F))).Forall fun op => op.fresh = ∅ :=
  ⟨rfl, rfl, rfl, rfl⟩
theorem fresh_37 : (hostOps0_37 : List (HloOp τ sig (Elt F))).Forall fun op => op.fresh = ∅ :=
  ⟨rfl, rfl, rfl⟩
theorem fresh_38 : (hostOps0_38 : List (HloOp τ sig (Elt F))).Forall fun op => op.fresh = ∅ :=
  ⟨rfl, rfl⟩
theorem fresh_39 : (hostOps0_39 : List (HloOp τ sig (Elt F))).Forall fun op => op.fresh = ∅ :=
  ⟨rfl, rfl, rfl⟩
theorem fresh_40 : (hostOps0_40 : List (HloOp τ sig (Elt F))).Forall fun op => op.fresh = ∅ :=
  ⟨rfl, rfl, rfl, rfl⟩
theorem fresh_41 : (hostOps0_41 : List (HloOp τ sig (Elt F))).Forall fun op => op.fresh = ∅ :=
  ⟨rfl, rfl, rfl⟩
theorem fresh_42 : (hostOps0_42 : List (HloOp τ sig (Elt F))).Forall fun op => op.fresh = ∅ :=
  ⟨rfl, rfl⟩
theorem fresh_43 : (hostOps0_43 : List (HloOp τ sig (Elt F))).Forall fun op => op.fresh = ∅ :=
  ⟨rfl, rfl, rfl⟩
theorem fresh_44 : (hostOps0_44 : List (HloOp τ sig (Elt F))).Forall fun op => op.fresh = ∅ :=
  ⟨rfl, rfl, rfl, rfl⟩
theorem fresh_45 : (hostOps0_45 : List (HloOp τ sig (Elt F))).Forall fun op => op.fresh = ∅ :=
  ⟨rfl, rfl, rfl⟩
theorem fresh_46 : (hostOps0_46 : List (HloOp τ sig (Elt F))).Forall fun op => op.fresh = ∅ :=
  ⟨rfl, rfl⟩
theorem fresh_47 : (hostOps0_47 : List (HloOp τ sig (Elt F))).Forall fun op => op.fresh = ∅ :=
  ⟨rfl, rfl, rfl⟩
theorem fresh_48 : (hostOps0_48 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh_49 : (hostOps0_49 : List (HloOp τ sig (Elt F))).Forall fun op => op.fresh = ∅ :=
  ⟨rfl, rfl, rfl⟩
theorem fresh_50 : (hostOps0_50 : List (HloOp τ sig (Elt F))).Forall fun op => op.fresh = ∅ :=
  ⟨rfl, rfl⟩
theorem fresh_51 : (hostOps0_51 : List (HloOp τ sig (Elt F))).Forall fun op => op.fresh = ∅ :=
  ⟨rfl, rfl, rfl⟩
theorem fresh_52 : (hostOps0_52 : List (HloOp τ sig (Elt F))).Forall fun op => op.fresh = ∅ :=
  ⟨rfl, rfl, rfl, rfl, rfl, rfl, rfl, rfl, rfl⟩
theorem fresh_53 : (hostOps0_53 : List (HloOp τ sig (Elt F))).Forall fun op => op.fresh = ∅ :=
  ⟨rfl, rfl, rfl⟩
theorem fresh_54 : (hostOps0_54 : List (HloOp τ sig (Elt F))).Forall fun op => op.fresh = ∅ :=
  ⟨rfl, rfl⟩
theorem fresh_55 : (hostOps0_55 : List (HloOp τ sig (Elt F))).Forall fun op => op.fresh = ∅ :=
  ⟨rfl, rfl, rfl⟩
theorem fresh_56 : (hostOps0_56 : List (HloOp τ sig (Elt F))).Forall fun op => op.fresh = ∅ :=
  ⟨rfl, rfl, rfl, rfl, rfl, rfl, rfl, rfl, rfl⟩
theorem fresh_57 : (hostOps0_57 : List (HloOp τ sig (Elt F))).Forall fun op => op.fresh = ∅ :=
  ⟨rfl, rfl, rfl⟩
theorem fresh_58 : (hostOps0_58 : List (HloOp τ sig (Elt F))).Forall fun op => op.fresh = ∅ :=
  ⟨rfl, rfl⟩
theorem fresh_59 : (hostOps0_59 : List (HloOp τ sig (Elt F))).Forall fun op => op.fresh = ∅ :=
  ⟨rfl, rfl, rfl⟩
theorem fresh_60 : (hostOps0_60 : List (HloOp τ sig (Elt F))).Forall fun op => op.fresh = ∅ :=
  ⟨rfl, rfl, rfl, rfl, rfl, rfl, rfl, rfl, rfl⟩
theorem fresh_61 : (hostOps0_61 : List (HloOp τ sig (Elt F))).Forall fun op => op.fresh = ∅ :=
  ⟨rfl, rfl, rfl⟩
theorem fresh_62 : (hostOps0_62 : List (HloOp τ sig (Elt F))).Forall fun op => op.fresh = ∅ :=
  ⟨rfl, rfl⟩
theorem fresh_63 : (hostOps0_63 : List (HloOp τ sig (Elt F))).Forall fun op => op.fresh = ∅ :=
  ⟨rfl, rfl, rfl⟩
theorem fresh_64 : (hostOps0_64 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem fresh_tail : (hostOps1 : List (HloOp τ sig (Elt F))).Forall fun op => op.fresh = ∅ :=
  ⟨rfl, rfl, rfl, rfl, rfl, rfl⟩

/-- Every stretch before the region touches TensorCore references only. -/
theorem pre_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩

/-- And allocates nothing. -/
theorem pre_fresh : (preOps (F := F)).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26, fresh_27, fresh_28, fresh_29, fresh_30, fresh_31, fresh_32, fresh_33, fresh_34, fresh_35, fresh_36, fresh_37, fresh_38, fresh_39, fresh_40, fresh_41, fresh_42, fresh_43, fresh_44, fresh_45, fresh_46, fresh_47, fresh_48, fresh_49, fresh_50, fresh_51, fresh_52, fresh_53, fresh_54, fresh_55, fresh_56, fresh_57, fresh_58, fresh_59, fresh_60, fresh_61, fresh_62, fresh_63, fresh_64⟩

/-- The program is the stretches before the region, the region, and the one stretch after it: on the launch contents it
    reduces to the region, continued by that last stretch, on the contents the earlier stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] pre_sub pre_fresh main_chain

/-! ## The argument arrays are written by no host operation -/

/-- An operation that writes none of the program's four argument arrays. -/
def KeepsArgs (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes

theorem keeps_0 : (hostOps0 : List (HloOp τ sig (Elt F))).Forall KeepsArgs := by
  simp only [hostOps0, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_1 : (hostOps0_1 : List (HloOp τ sig (Elt F))).Forall KeepsArgs := by
  simp only [hostOps0_1, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_2 : (hostOps0_2 : List (HloOp τ sig (Elt F))).Forall KeepsArgs := by
  simp only [hostOps0_2, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_3 : (hostOps0_3 : List (HloOp τ sig (Elt F))).Forall KeepsArgs := by
  simp only [hostOps0_3, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_4 : (hostOps0_4 : List (HloOp τ sig (Elt F))).Forall KeepsArgs := by
  simp only [hostOps0_4, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_5 : (hostOps0_5 : List (HloOp τ sig (Elt F))).Forall KeepsArgs := by
  simp only [hostOps0_5, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_6 : (hostOps0_6 : List (HloOp τ sig (Elt F))).Forall KeepsArgs := by
  simp only [hostOps0_6, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_7 : (hostOps0_7 : List (HloOp τ sig (Elt F))).Forall KeepsArgs := by
  simp only [hostOps0_7, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_8 : (hostOps0_8 : List (HloOp τ sig (Elt F))).Forall KeepsArgs := by
  simp only [hostOps0_8, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_9 : (hostOps0_9 : List (HloOp τ sig (Elt F))).Forall KeepsArgs := by
  simp only [hostOps0_9, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_10 : (hostOps0_10 : List (HloOp τ sig (Elt F))).Forall KeepsArgs := by
  simp only [hostOps0_10, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_11 : (hostOps0_11 : List (HloOp τ sig (Elt F))).Forall KeepsArgs := by
  simp only [hostOps0_11, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_12 : (hostOps0_12 : List (HloOp τ sig (Elt F))).Forall KeepsArgs := by
  simp only [hostOps0_12, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_13 : (hostOps0_13 : List (HloOp τ sig (Elt F))).Forall KeepsArgs := by
  simp only [hostOps0_13, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_14 : (hostOps0_14 : List (HloOp τ sig (Elt F))).Forall KeepsArgs := by
  simp only [hostOps0_14, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_15 : (hostOps0_15 : List (HloOp τ sig (Elt F))).Forall KeepsArgs := by
  simp only [hostOps0_15, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_16 : (hostOps0_16 : List (HloOp τ sig (Elt F))).Forall KeepsArgs := by
  simp only [hostOps0_16, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_17 : (hostOps0_17 : List (HloOp τ sig (Elt F))).Forall KeepsArgs := by
  simp only [hostOps0_17, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_18 : (hostOps0_18 : List (HloOp τ sig (Elt F))).Forall KeepsArgs := by
  simp only [hostOps0_18, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_19 : (hostOps0_19 : List (HloOp τ sig (Elt F))).Forall KeepsArgs := by
  simp only [hostOps0_19, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_20 : (hostOps0_20 : List (HloOp τ sig (Elt F))).Forall KeepsArgs := by
  simp only [hostOps0_20, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_21 : (hostOps0_21 : List (HloOp τ sig (Elt F))).Forall KeepsArgs := by
  simp only [hostOps0_21, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_22 : (hostOps0_22 : List (HloOp τ sig (Elt F))).Forall KeepsArgs := by
  simp only [hostOps0_22, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_23 : (hostOps0_23 : List (HloOp τ sig (Elt F))).Forall KeepsArgs := by
  simp only [hostOps0_23, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_24 : (hostOps0_24 : List (HloOp τ sig (Elt F))).Forall KeepsArgs := by
  simp only [hostOps0_24, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_25 : (hostOps0_25 : List (HloOp τ sig (Elt F))).Forall KeepsArgs := by
  simp only [hostOps0_25, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_26 : (hostOps0_26 : List (HloOp τ sig (Elt F))).Forall KeepsArgs := by
  simp only [hostOps0_26, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_27 : (hostOps0_27 : List (HloOp τ sig (Elt F))).Forall KeepsArgs := by
  simp only [hostOps0_27, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_28 : (hostOps0_28 : List (HloOp τ sig (Elt F))).Forall KeepsArgs := by
  simp only [hostOps0_28, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_29 : (hostOps0_29 : List (HloOp τ sig (Elt F))).Forall KeepsArgs := by
  simp only [hostOps0_29, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_30 : (hostOps0_30 : List (HloOp τ sig (Elt F))).Forall KeepsArgs := by
  simp only [hostOps0_30, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_31 : (hostOps0_31 : List (HloOp τ sig (Elt F))).Forall KeepsArgs := by
  simp only [hostOps0_31, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_32 : (hostOps0_32 : List (HloOp τ sig (Elt F))).Forall KeepsArgs := by
  simp only [hostOps0_32, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_33 : (hostOps0_33 : List (HloOp τ sig (Elt F))).Forall KeepsArgs := by
  simp only [hostOps0_33, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_34 : (hostOps0_34 : List (HloOp τ sig (Elt F))).Forall KeepsArgs := by
  simp only [hostOps0_34, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_35 : (hostOps0_35 : List (HloOp τ sig (Elt F))).Forall KeepsArgs := by
  simp only [hostOps0_35, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_36 : (hostOps0_36 : List (HloOp τ sig (Elt F))).Forall KeepsArgs := by
  simp only [hostOps0_36, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_37 : (hostOps0_37 : List (HloOp τ sig (Elt F))).Forall KeepsArgs := by
  simp only [hostOps0_37, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_38 : (hostOps0_38 : List (HloOp τ sig (Elt F))).Forall KeepsArgs := by
  simp only [hostOps0_38, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_39 : (hostOps0_39 : List (HloOp τ sig (Elt F))).Forall KeepsArgs := by
  simp only [hostOps0_39, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_40 : (hostOps0_40 : List (HloOp τ sig (Elt F))).Forall KeepsArgs := by
  simp only [hostOps0_40, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_41 : (hostOps0_41 : List (HloOp τ sig (Elt F))).Forall KeepsArgs := by
  simp only [hostOps0_41, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_42 : (hostOps0_42 : List (HloOp τ sig (Elt F))).Forall KeepsArgs := by
  simp only [hostOps0_42, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_43 : (hostOps0_43 : List (HloOp τ sig (Elt F))).Forall KeepsArgs := by
  simp only [hostOps0_43, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_44 : (hostOps0_44 : List (HloOp τ sig (Elt F))).Forall KeepsArgs := by
  simp only [hostOps0_44, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_45 : (hostOps0_45 : List (HloOp τ sig (Elt F))).Forall KeepsArgs := by
  simp only [hostOps0_45, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_46 : (hostOps0_46 : List (HloOp τ sig (Elt F))).Forall KeepsArgs := by
  simp only [hostOps0_46, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_47 : (hostOps0_47 : List (HloOp τ sig (Elt F))).Forall KeepsArgs := by
  simp only [hostOps0_47, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_48 : (hostOps0_48 : List (HloOp τ sig (Elt F))).Forall KeepsArgs := by
  simp only [hostOps0_48, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_49 : (hostOps0_49 : List (HloOp τ sig (Elt F))).Forall KeepsArgs := by
  simp only [hostOps0_49, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_50 : (hostOps0_50 : List (HloOp τ sig (Elt F))).Forall KeepsArgs := by
  simp only [hostOps0_50, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_51 : (hostOps0_51 : List (HloOp τ sig (Elt F))).Forall KeepsArgs := by
  simp only [hostOps0_51, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_52 : (hostOps0_52 : List (HloOp τ sig (Elt F))).Forall KeepsArgs := by
  simp only [hostOps0_52, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_53 : (hostOps0_53 : List (HloOp τ sig (Elt F))).Forall KeepsArgs := by
  simp only [hostOps0_53, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_54 : (hostOps0_54 : List (HloOp τ sig (Elt F))).Forall KeepsArgs := by
  simp only [hostOps0_54, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_55 : (hostOps0_55 : List (HloOp τ sig (Elt F))).Forall KeepsArgs := by
  simp only [hostOps0_55, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_56 : (hostOps0_56 : List (HloOp τ sig (Elt F))).Forall KeepsArgs := by
  simp only [hostOps0_56, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_57 : (hostOps0_57 : List (HloOp τ sig (Elt F))).Forall KeepsArgs := by
  simp only [hostOps0_57, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_58 : (hostOps0_58 : List (HloOp τ sig (Elt F))).Forall KeepsArgs := by
  simp only [hostOps0_58, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_59 : (hostOps0_59 : List (HloOp τ sig (Elt F))).Forall KeepsArgs := by
  simp only [hostOps0_59, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_60 : (hostOps0_60 : List (HloOp τ sig (Elt F))).Forall KeepsArgs := by
  simp only [hostOps0_60, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_61 : (hostOps0_61 : List (HloOp τ sig (Elt F))).Forall KeepsArgs := by
  simp only [hostOps0_61, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_62 : (hostOps0_62 : List (HloOp τ sig (Elt F))).Forall KeepsArgs := by
  simp only [hostOps0_62, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_63 : (hostOps0_63 : List (HloOp τ sig (Elt F))).Forall KeepsArgs := by
  simp only [hostOps0_63, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_64 : (hostOps0_64 : List (HloOp τ sig (Elt F))).Forall KeepsArgs := by
  simp only [hostOps0_64, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)
theorem keeps_tail : (hostOps1 : List (HloOp τ sig (Elt F))).Forall KeepsArgs := by
  simp only [hostOps1, List.Forall, KeepsArgs, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)

/-- Each operation writes its own result buffer only, and no result buffer is an argument: stretch by stretch, -/
theorem pre_keeps : (preOps (F := F)).Forall fun ops => ops.Forall KeepsArgs :=
  ⟨keeps_0, keeps_1, keeps_2, keeps_3, keeps_4, keeps_5, keeps_6, keeps_7, keeps_8, keeps_9, keeps_10, keeps_11, keeps_12, keeps_13, keeps_14, keeps_15, keeps_16, keeps_17, keeps_18, keeps_19, keeps_20, keeps_21, keeps_22, keeps_23, keeps_24, keeps_25, keeps_26, keeps_27, keeps_28, keeps_29, keeps_30, keeps_31, keeps_32, keeps_33, keeps_34, keeps_35, keeps_36, keeps_37, keeps_38, keeps_39, keeps_40, keeps_41, keeps_42, keeps_43, keeps_44, keeps_45, keeps_46, keeps_47, keeps_48, keeps_49, keeps_50, keeps_51, keeps_52, keeps_53, keeps_54, keeps_55, keeps_56, keeps_57, keeps_58, keeps_59, keeps_60, keeps_61, keeps_62, keeps_63, keeps_64⟩

/-- and so over all of them in a row. -/
theorem flat_keeps : ∀ op ∈ List.flatten (preOps (F := F)), KeepsArgs op := fun op hop => by
  obtain ⟨ops, hops, hin⟩ := List.mem_flatten.mp hop
  exact (List.forall_iff_forall_mem.mp ((List.forall_iff_forall_mem.mp pre_keeps) ops hops)) op hin

/-- The region finds each argument array as launched. -/
theorem V_main_arg0 (c : Dev nD) : V m c main_arg0 = m ((c : Thread nD τ).loc main_arg0) :=
  StableHlo.after_of_forall_not_mem (b := Proc.devRef .tc main_arg0) _ _ (fun op hop => (flat_keeps op hop).1)
theorem V_main_arg1 (c : Dev nD) : V m c main_arg1 = m ((c : Thread nD τ).loc main_arg1) :=
  StableHlo.after_of_forall_not_mem (b := Proc.devRef .tc main_arg1) _ _ (fun op hop => (flat_keeps op hop).2.1)
theorem V_main_arg2 (c : Dev nD) : V m c main_arg2 = m ((c : Thread nD τ).loc main_arg2) :=
  StableHlo.after_of_forall_not_mem (b := Proc.devRef .tc main_arg2) _ _ (fun op hop => (flat_keeps op hop).2.2.1)
theorem V_main_arg3 (c : Dev nD) : V m c main_arg3 = m ((c : Thread nD τ).loc main_arg3) :=
  StableHlo.after_of_forall_not_mem (b := Proc.devRef .tc main_arg3) _ _ (fun op hop => (flat_keeps op hop).2.2.2)

/-! ## The stretch after the region -/

/-- Its operations touch the pipeline's arrays and the buffers that bypass it only: each names unscoped TensorCore
    references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp fresh_tail) op hop

/-- None writes an array of the pipeline: the six result buffers are none of the two inputs and the output column. -/
theorem tail_keeps_arrays : (hostOps1 : List (HloOp τ sig (Elt F))).Forall fun op =>
    ∀ w, Proc.devRef (τ := τ) .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp tail_keeps_arrays) op hop

/-- The first two arguments are no window's array, and the last stretch does not write them: they end as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (by
      rw [List.flatten_cons, List.flatten_nil, List.append_nil]
      exact fun op hop => ((List.forall_iff_forall_mem.mp keeps_tail) op hop).1),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (by
      rw [List.flatten_cons, List.flatten_nil, List.append_nil]
      exact fun op hop => ((List.forall_iff_forall_mem.mp keeps_tail) op hop).2.1),
    Pipeline.withArrays_of_ne _ c (V0 m c) _ main_arg1 (by exact (by decide : ∀ w, Pipeline.arrRef spec0 w ≠ main_arg1))]
  exact V_main_arg1 m c

/-! ## The inputs' staging buffers at a point -/

/-- The staging buffer of the first input holds, at every point, the block of rows that point reads — whatever it held
    before: the window is fetched whole at every point and the body leaves it as it found it. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The same for the second input. -/
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body on its three buffers -/

/-- The body's one store is of the whole 512 × 1 buffer, so it covers it. -/
theorem cover_out (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

set_option maxHeartbeats 1000000 in
/-- The body, on the two inputs' buffers at contents `x0`, `x1` and the output's at anything: it loads both inputs
    whole, loads the output's buffer once (a value it never uses), stores the row means of the squared differences
    over the whole output buffer, and returns; the inputs' buffers are as they were and the output's holds
    `out2 x0 x1`. -/
theorem sound_kernel (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S512x1 .f32) (harg3 : arg3.IsWhole)
    (x0 x1 : Vec F S512x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__mse_kernel i arg1 harg1 arg2 harg2 arg3 harg3) K := by
  simp only [cc0__mse_kernel_eq_skeleton]; unfold cc0__mse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- What the body is entered with at point `t`: the invariant, what is owed, and each window's current staging buffer — -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what is owed are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run, and the frame -/

-- matching the library's conclusion against this statement goes through plain definitions in the types of the
-- parameters still to be determined
set_option backward.isDefEq.respectTransparency.types false in
/-- At the compiled mesh, for any float reading and any launch memory with zero counters: every weakly fair execution
    of the program on the TensorCores terminates, and at its end every array of the pipeline holds what the proof data
    give after the last point, and every other unscoped buffer what the stretch after the region leaves from the
    region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end as launched. The two [8192, 7] arrays are no window's array: they end at what the last
    stretch leaves, which is what the region found, which is the launch contents. The two [8192, 4096] arrays are the
    input windows' arrays: an input window's array ends as the region found it, again the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩) (run_main m ρ)

end Cert.KernelIdeal.Hand

end
-- ==== Proof.ColumnValue.lean ====
/-
  The value of the output column at the extended reals. The kernel's body, at one grid point, takes the two
  512 × 4096 blocks it loaded, subtracts them, squares the difference, sums each row over its 4096 lanes, and
  divides the row sums by 4096; the pipeline writes the 512 × 1 result back as rows 512·t … 512·t + 511 of an
  8192 × 1 column. Here: that body read at one index; the column as ONE function of the two whole arrays; and
  the proof that after the last grid point the column's array is that function.
-/
import proofs.«129664_j48773648614415_1_alg».proof.Proof.RegionDataIdeal
import Idealize.ShloMosaic.Lib.Pipeline.Value
import Idealize.ShloMosaic.Lib.ValueIdx
import Idealize.ShloMosaic.PureOps.Ideal.Laws

noncomputable section

namespace Cert.KernelIdeal.ColumnValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The body's payload at an index -/

/-- The index the lane reduction inserts: row `p` of the reduced vector with lane `k` put back is entry `(p, k)`
    of the block. -/
theorem lift_row (p : Fin 512) (k : Fin 4096) :
    reduces_S512x4096_S512.lift (ix1 p) k = ix2 p k := by
  funext a
  match a with
  | ⟨0, _⟩ => exact Fin.ext rfl
  | ⟨1, _⟩ => exact Fin.ext rfl

/-- A vector of 512 entries recast as a 512 × 1 column reads, at `(p, u)`, the vector's entry `p`: both sit at
    row-major position `p`. -/
theorem column_cast_apply {α : Type} (x : S512.Idx → α) (p : Fin 512) (u : Fin 1) :
    shapeCast S512x1 x shapeCasts_S512_S512x1 (ix2 p u) = x (ix1 p) :=
  shapeCast_apply x shapeCasts_S512_S512x1 _ _ (by
    have hu : u.val = 0 := by omega
    rw [Shape.rowMajor_val_two, Shape.rowMajor_val_one]
    show p.val = p.val * 1 + u.val
    rw [hu, Nat.mul_one, Nat.add_zero])

/-- The lane sum of a block at row `p`: the sum over the 4096 lanes of the block's entries in that row. -/
theorem lane_sum_apply (src : FVec Ideal S512x4096 .f32) (hφ : FKind.Formats .f32)
    (hacc : (0x00000000#32 : BitVec 32) = 0x00000000#32) (p : Fin 512) :
    multiReduction (F := Ideal) .add [1] S512 src 0x00000000#32 reduces_S512x4096_S512 hφ hacc (ix1 p)
      = ∑ k : Fin 4096, src (ix2 p k) := by
  refine (Ideal.multiReduction_add_single src 0x00000000#32 reduces_S512x4096_S512 hφ hacc (ix1 p)).trans ?_
  exact Finset.sum_congr rfl fun k _ => congrArg src (lift_row p k)

/-- THE BODY AT AN INDEX: entry `(p, 0)` of what the body stores is the sum over row `p`'s 4096 lanes of the squared
    difference of the two loaded blocks, divided by the constant 4096. -/
theorem pay_apply (x0 x1 : Vec Ideal S512x4096 .f32) (p : Fin 512) (u : Fin 1) :
    k0_pay1 (F := Ideal) x0 x1 (ix2 p u)
      = Ideal.div (∑ k : Fin 4096, (x0 (ix2 p k) - x1 (ix2 p k)) * (x0 (ix2 p k) - x1 (ix2 p k)))
          (Ideal.ofBits .f32 0x45800000#32) := by
  unfold k0_pay1
  rw [divf_apply, broadcast_apply, column_cast_apply, lane_sum_apply]
  rfl

/-! ## The column as one function of the two arrays -/

/-- Row `i 0`'s mean of squared differences, as the kernel computes it on the extended reals: the sum over the row's
    4096 entries of the squared difference of the two arrays, divided by the constant 4096 (the word `0x45800000`). -/
def rowMse (a b : S8192x4096.Idx → EReal) : S8192x1.Idx → EReal := fun i =>
  Ideal.div
    (∑ k : Fin 4096, (a (ix2 (⟨(i 0).val, idx2_lt0 i⟩ : Fin 8192) k) - b (ix2 (⟨(i 0).val, idx2_lt0 i⟩ : Fin 8192) k))
        * (a (ix2 (⟨(i 0).val, idx2_lt0 i⟩ : Fin 8192) k) - b (ix2 (⟨(i 0).val, idx2_lt0 i⟩ : Fin 8192) k)))
    (Ideal.ofBits .f32 0x45800000#32)

/-- The same with the lane sum started from zero, the form a host reduction with initial value `0` takes. -/
theorem rowMse_zero_add (a b : S8192x4096.Idx → EReal) (i : S8192x1.Idx) :
    rowMse a b i = Ideal.div
      (0 + ∑ k : Fin 4096, (a (ix2 (⟨(i 0).val, idx2_lt0 i⟩ : Fin 8192) k) - b (ix2 (⟨(i 0).val, idx2_lt0 i⟩ : Fin 8192) k))
          * (a (ix2 (⟨(i 0).val, idx2_lt0 i⟩ : Fin 8192) k) - b (ix2 (⟨(i 0).val, idx2_lt0 i⟩ : Fin 8192) k)))
      (Ideal.ofBits .f32 0x45800000#32) := by
  rw [zero_add]; rfl

/-! ## From the blocks to the array -/

variable (m : (ℓ : Loc nD τ sig) → Buf (Elt Ideal) ℓ)

theorem zero_offsets : (![0, 0] : Fin 2 → Nat) = fun _ => 0 := funext fun a => by fin_cases a <;> rfl

/-- The printed index maps, decided over the sixteen grid points: at point `t` every window is on block row `t`,
    block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A grid point's number is below 16. -/
theorem point_lt (t : Fin cfg0.N) : t.val < 16 := by
  have h : cfg0.N = 16 := N_0
  have := t.isLt
  omega

/-- Row `p` of the blocks at point `t` is row `512·t + p` of the arrays. -/
def rowAt (t : Fin cfg0.N) (p : Fin 512) : Fin 8192 := ⟨t.val * 512 + p.val, by have := point_lt t; have := p.isLt; omega⟩

/-- Entry `(p, k)` of the first input's block at point `t`, read off any contents `A` of its array, is `A` at
    `(512·t + p, k)`. -/
theorem read_block0 (A : S8192x4096.Idx → EReal) (t : Fin cfg0.N) (p : Fin 512) (k : Fin 4096) :
    (((cfg0.win 0).blk t).view.read (Elt Ideal) A : Vec Ideal S512x4096 .f32) (ix2 p k) = A (ix2 (rowAt t p) k) := by
  obtain ⟨e0, e1, -, -, -, -⟩ := block_index t
  rw [View.read_apply]
  show A _ = A _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- The same for the second input's block. -/
theorem read_block1 (A : S8192x4096.Idx → EReal) (t : Fin cfg0.N) (p : Fin 512) (k : Fin 4096) :
    (((cfg0.win 1).blk t).view.read (Elt Ideal) A : Vec Ideal S512x4096 .f32) (ix2 p k) = A (ix2 (rowAt t p) k) := by
  obtain ⟨-, -, e2, e3, -, -⟩ := block_index t
  rw [View.read_apply]
  show A _ = A _
  congr 1
  funext a
  apply Fin.ext
  match a with
  | ⟨0, _⟩ => show win0_1.index t (0 : Fin 2) * 512 + 1 * p.val = t.val * 512 + p.val; rw [e2]; omega
  | ⟨1, _⟩ => show win0_1.index t (1 : Fin 2) * 4096 + 1 * k.val = k.val; rw [e3]; omega

/-- Entry `(p, u)` of the output's block at point `t` sits at row `512·t + p` of the column. -/
theorem out_block_row (t : Fin cfg0.N) (p : Fin 512) (u : Fin 1) :
    ((((cfg0.win 2).blk t).view.emb (ix2 p u) : S8192x1.Idx) 0).val = t.val * 512 + p.val := by
  obtain ⟨-, -, -, -, e4, -⟩ := block_index t
  show win0_2.index t (0 : Fin 2) * 512 + 1 * p.val = t.val * 512 + p.val
  rw [e4]; omega

/-- The body over the two input blocks at point `t`, read off any contents `A`, `B` of the two arrays, is at entry
    `(p, u)` the row mean of `A` and `B` at the row of the column where the output's block puts that entry. -/
theorem body_of_blocks (A B : S8192x4096.Idx → EReal) (t : Fin cfg0.N) (p : Fin 512) (u : Fin 1) :
    k0_pay1 (F := Ideal) (((cfg0.win 0).blk t).view.read (Elt Ideal) A) (((cfg0.win 1).blk t).view.read (Elt Ideal) B) (ix2 p u)
      = rowMse A B (((cfg0.win 2).blk t).view.emb (ix2 p u)) := by
  have hr : (⟨((((cfg0.win 2).blk t).view.emb (ix2 p u) : S8192x1.Idx) 0).val,
      idx2_lt0 (((cfg0.win 2).blk t).view.emb (ix2 p u) : S8192x1.Idx)⟩ : Fin 8192) = rowAt t p :=
    Fin.ext (out_block_row t p u)
  rw [pay_apply]
  unfold rowMse
  rw [hr]
  refine congrArg (fun s => Ideal.div s _) (Finset.sum_congr rfl fun k _ => ?_)
  rw [read_block0, read_block1]

/-- WHAT POINT `t` WRITES BACK is block `t` of the column of row means: the body's one store covers the staging
    buffer, and each entry of it is the row mean over the two input blocks' row, which is a row of the arrays. -/
theorem flushed_eq (c : Dev nD) (t : Fin cfg0.N) :
    (dats (F := Ideal) m 0 c).flushed 2 t
      = ((cfg0.win 2).blk t).view.read (Elt Ideal) (rowMse (V m c main_arg2) (V m c main_arg3)) := by
  show (cfg0.win 2).cut (grid0.coords t) ((dats (F := Ideal) m 0 c).after 2 t) = _
  rw [after_2]
  unfold out2
  rw [View.canon_unit_zero zero_offsets]
  simp only [View.ld_unit_zero (S := S512x4096) zero_offsets]
  refine funext fun (j : S512x1.Idx) => ?_
  obtain ⟨p, u, rfl⟩ : ∃ (p : Fin 512) (u : Fin 1), j = ix2 p u := ⟨j 0, j 1, eq_ix2 j⟩
  exact body_of_blocks (V m c main_arg2) (V m c main_arg3) t p u

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v270).slice (win0_2.rect t)).set ↔ _
  rw [View.set_slice_whole, Rect.mem_set_unit]
  exact Iff.rfl

/-- THE BLOCKS TILE THE COLUMN: row `r` is in the block of point `r / 512`, which writes back. -/
theorem cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 16 := N_0
  have ht : (i 0).val / 512 < cfg0.N := by rw [hN]; omega
  obtain ⟨-, -, -, -, e4, e5⟩ := block_index ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1 ≤ (i 1).val
      ∧ (i 1).val < win0_2.index ⟨(i 0).val / 512, ht⟩ (1 : Fin 2) * 1 + 1
    rw [e5]; omega

/-- THE COLUMN AFTER THE LAST POINT: the row means of the squared differences of the two arrays as the region finds
    them. -/
theorem final2 (c : Dev nD) :
    (dats (F := Ideal) m 0 c).arrAt 2 cfg0.N = rowMse (V m c main_arg2) (V m c main_arg3) :=
  (dats (F := Ideal) m 0 c).arrAt_eq_of_cover 2 (rowMse (V m c main_arg2) (V m c main_arg3))
    (fun t _ => flushed_eq m c t) cover

end Cert.KernelIdeal.ColumnValue

end
-- ==== Proof.KernelResult.lean ====
/-
  What the kernel's program leaves in its result buffer, at the extended reals. After the region the six host
  operations recast the [8192, 1] column of row means as a vector, divide it by the constant 0.02 and add the prior
  term broadcast; the column is the region's output array (ColumnValue.final2) and the prior term's buffer, which no
  window stages, is as the region found it.
-/
import proofs.«129664_j48773648614415_1_alg».proof.Proof.ColumnValue
import Idealize.ShloMosaic.Lib.StableHlo.Run

set_option maxRecDepth 16384

noncomputable section

namespace Cert.KernelIdeal.Result

open Cert.KernelIdeal Cert.KernelIdeal.Gen Cert.KernelIdeal.Hand Cert.KernelIdeal.ColumnValue
open Idealize.ShloMosaic Idealize.ShloMosaic.TcCoe Idealize.SL.Sem Idealize.ShloMosaic.StableHlo

/-- The result buffer after the host operations that follow the region: (column of row means as a vector) / 0.02
    plus the prior term. -/
theorem result_eq (m : (ℓ : Loc nD τ sig) → Buf (Elt Ideal) ℓ) (c : Dev nD) :
    Pipeline.afterTail₀ cfgs (dats (F := Ideal) m) 0 (V0 m) [hostOps1] c main_v275
      = addf (F := Ideal) (Host.divf (F := Ideal) (shapeCast S8192 (rowMse (V m c main_arg2) (V m c main_arg3)) shapeCasts_S8192x1_S8192)
            (broadcastInDim S8192 ![] bcast_S_S8192 (constant (F := Ideal) S_ .f32 0x3CA3D70A#32)))
          (broadcastInDim S8192 ![] bcast_S_S8192 (V m c main_v269)) := by
  unfold Pipeline.afterTail₀
  show StableHlo.after hostOps1 _ (Proc.devRef .tc main_v275) = _
  after_results
  rw [Pipeline.withArrays_of_ne spec0 c (V0 m c) _ main_v269 (by decide)]
  have hW : Pipeline.withArrays (cfgs 0).spec c (V0 m c) (fun w => (dats (F := Ideal) m 0 c).arrAt w (cfgs 0).N)
        (Proc.devRef .tc main_v270) = rowMse (V m c main_arg2) (V m c main_arg3) :=
    (Pipeline.withArrays_arr spec0 launch0.win.arr_inj c (V0 m c) _ 2).trans (final2 m c)
  rw [hW]
  rfl

end Cert.KernelIdeal.Result

end
-- ==== Proof.KernelRun.lean ====
/-
  The kernel program's run at the extended reals with its result buffer named: the frame run's post gives every buffer
  no window stages at what the host operations after the region leave in it — the result buffer among them — and the
  four argument arrays unchanged (two bypass the region, two are input windows' arrays, which end as they began).
-/
import proofs.«129664_j48773648614415_1_alg».proof.Proof.FrameRunIdeal
import proofs.«129664_j48773648614415_1_alg».proof.Proof.KernelResult

set_option maxRecDepth 16384

noncomputable section

namespace Cert.KernelIdeal.Result

open Cert.KernelIdeal Cert.KernelIdeal.Gen Cert.KernelIdeal.Hand
open Idealize.ShloMosaic Idealize.ShloMosaic.TcCoe Idealize.SL.Sem

/-- Every weakly fair execution terminates with the result buffer at the tail's value and the arguments unchanged. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v275)
          = Pipeline.afterTail₀ cfgs (dats (F := Ideal) m) 0 (V0 m) [hostOps1] c main_v275
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v275 (Pipeline.mem_restRefs_of main_v275 (by decide) (by decide)),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩) (run_main m ρ)

end Cert.KernelIdeal.Result

end
-- ==== Proof.RefOps.lean ====
/-
  The reference program's host operations, window by window, as lists: window K of its @main is the straight line
  of the operations of `opsK` (a call of the outlined `where` stands as its three operations over that call's buffers).
  Windows 0 to 5 compute the prior term from the two [8192, 7] arrays; window 6 the row means of squared differences
  of the two [8192, 4096] arrays, their quotient by 0.02 and the sum with the prior.
-/
import proofs.«129664_j48773648614415_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Window 0: 60 operations. -/
abbrev ops0 : List (HloOp τ sig (Elt F)) :=
  [ StableHlo.unary main_arg0 main_v0 ((extractStridedSlice S8192x1 ![0, 0] · slices_S8192x7_S8192x1_0_0) : (⟨S8192x7, .f32⟩ : BufTy).Contents (Elt F) → (⟨S8192x1, .f32⟩ : BufTy).Contents (Elt F)),
    StableHlo.reshape main_v0 main_v1 rfl shapeCasts_S8192x1_S8192,
    StableHlo.unary main_arg0 main_v2 ((extractStridedSlice S8192x1 ![0, 1] · slices_S8192x7_S8192x1_0_1) : (⟨S8192x7, .f32⟩ : BufTy).Contents (Elt F) → (⟨S8192x1, .f32⟩ : BufTy).Contents (Elt F)),
    StableHlo.reshape main_v2 main_v3 rfl shapeCasts_S8192x1_S8192,
    StableHlo.unary main_arg0 main_v4 ((extractStridedSlice S8192x1 ![0, 2] · slices_S8192x7_S8192x1_0_2) : (⟨S8192x7, .f32⟩ : BufTy).Contents (Elt F) → (⟨S8192x1, .f32⟩ : BufTy).Contents (Elt F)),
    StableHlo.reshape main_v4 main_v5 rfl shapeCasts_S8192x1_S8192,
    StableHlo.unary main_arg0 main_v6 ((extractStridedSlice S8192x1 ![0, 3] · slices_S8192x7_S8192x1_0_3) : (⟨S8192x7, .f32⟩ : BufTy).Contents (Elt F) → (⟨S8192x1, .f32⟩ : BufTy).Contents (Elt F)),
    StableHlo.reshape main_v6 main_v7 rfl shapeCasts_S8192x1_S8192,
    StableHlo.unary main_arg0 main_v8 ((extractStridedSlice S8192x1 ![0, 4] · slices_S8192x7_S8192x1_0_4) : (⟨S8192x7, .f32⟩ : BufTy).Contents (Elt F) → (⟨S8192x1, .f32⟩ : BufTy).Contents (Elt F)),
    StableHlo.reshape main_v8 main_v9 rfl shapeCasts_S8192x1_S8192,
    StableHlo.unary main_arg0 main_v10 ((extractStridedSlice S8192x1 ![0, 5] · slices_S8192x7_S8192x1_0_5) : (⟨S8192x7, .f32⟩ : BufTy).Contents (Elt F) → (⟨S8192x1, .f32⟩ : BufTy).Contents (Elt F)),
    StableHlo.reshape main_v10 main_v11 rfl shapeCasts_S8192x1_S8192,
    StableHlo.unary main_arg0 main_v12 ((extractStridedSlice S8192x1 ![0, 6] · slices_S8192x7_S8192x1_0_6) : (⟨S8192x7, .f32⟩ : BufTy).Contents (Elt F) → (⟨S8192x1, .f32⟩ : BufTy).Contents (Elt F)),
    StableHlo.reshape main_v12 main_v13 rfl shapeCasts_S8192x1_S8192,
    StableHlo.nullary main_cst (constant S_ .f32 0x40000000#32),
    StableHlo.unary main_cst main_v14 (broadcastInDim S8192 ![] bcast_S_S8192 : (⟨S_, .f32⟩ : BufTy).Contents (Elt F) → (⟨S8192, .f32⟩ : BufTy).Contents (Elt F)),
    StableHlo.binary main_v14 main_v5 main_v15 (mulf : (⟨S8192, .f32⟩ : BufTy).Contents (Elt F) → (⟨S8192, .f32⟩ : BufTy).Contents (Elt F) → (⟨S8192, .f32⟩ : BufTy).Contents (Elt F)),
    StableHlo.nullary main_cst_0 (constant S_ .f32 0x40000000#32),
    StableHlo.unary main_cst_0 main_v16 (broadcastInDim S8192 ![] bcast_S_S8192 : (⟨S_, .f32⟩ : BufTy).Contents (Elt F) → (⟨S8192, .f32⟩ : BufTy).Contents (Elt F)),
    StableHlo.binary main_v16 main_v9 main_v17 (mulf : (⟨S8192, .f32⟩ : BufTy).Contents (Elt F) → (⟨S8192, .f32⟩ : BufTy).Contents (Elt F) → (⟨S8192, .f32⟩ : BufTy).Contents (Elt F)),
    StableHlo.binary main_v15 main_v17 main_v18 (addf : (⟨S8192, .f32⟩ : BufTy).Contents (Elt F) → (⟨S8192, .f32⟩ : BufTy).Contents (Elt F) → (⟨S8192, .f32⟩ : BufTy).Contents (Elt F)),
    StableHlo.nullary main_cst_1 (constant S_ .f32 0x40400000#32),
    StableHlo.unary main_cst_1 main_v19 (broadcastInDim S8192 ![] bcast_S_S8192 : (⟨S_, .f32⟩ : BufTy).Contents (Elt F) → (⟨S8192, .f32⟩ : BufTy).Contents (Elt F)),
    StableHlo.binary main_v19 main_v13 main_v20 (mulf : (⟨S8192, .f32⟩ : BufTy).Contents (Elt F) → (⟨S8192, .f32⟩ : BufTy).Contents (Elt F) → (⟨S8192, .f32⟩ : BufTy).Contents (Elt F)),
    StableHlo.binary main_v18 main_v20 main_v21 (addf : (⟨S8192, .f32⟩ : BufTy).Contents (Elt F) → (⟨S8192, .f32⟩ : BufTy).Contents (Elt F) → (⟨S8192, .f32⟩ : BufTy).Contents (Elt F)),
    StableHlo.nullary main_cst_2 (constant S_ .f32 0x40800000#32),
    StableHlo.unary main_cst_2 main_v22 (broadcastInDim S8192 ![] bcast_S_S8192 : (⟨S_, .f32⟩ : BufTy).Contents (Elt F) → (⟨S8192, .f32⟩ : BufTy).Contents (Elt F)),
    StableHlo.binary main_v22 main_v11 main_v23 (mulf : (⟨S8192, .f32⟩ : BufTy).Contents (Elt F) → (⟨S8192, .f32⟩ : BufTy).Contents (Elt F) → (⟨S8192, .f32⟩ : BufTy).Contents (Elt F)),
    StableHlo.binary main_v21 main_v23 main_v24 (addf : (⟨S8192, .f32⟩ : BufTy).Contents (Elt F) → (⟨S8192, .f32⟩ : BufTy).Contents (Elt F) → (⟨S8192, .f32⟩ : BufTy).Contents (Elt F)),
    StableHlo.binary main_v7 main_v11 main_v25 (addf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x40000000#32),
    StableHlo.unary main_cst_3 main_v26 (broadcastInDim S8192 ![] bcast_S_S8192 : (⟨S_, .f32⟩ : BufTy).Contents (Elt F) → (⟨S8192, .f32⟩ : BufTy).Contents (Elt F)),
    StableHlo.binary main_v26 main_v1 main_v27 (mulf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x40000000#32),
    StableHlo.unary main_cst_4 main_v28 (broadcastInDim S8192 ![] bcast_S_S8192 : (⟨S_, .f32⟩ : BufTy).Contents (Elt F) → (⟨S8192, .f32⟩ : BufTy).Contents (Elt F)),
    StableHlo.binary main_v28 main_v7 main_v29 (mulf : (⟨S8192, .f32⟩ : BufTy).Contents (Elt F) → (⟨S8192, .f32⟩ : BufTy).Contents (Elt F) → (⟨S8192, .f32⟩ : BufTy).Contents (Elt F)),
    StableHlo.binary main_v27 main_v29 main_v30 (addf : (⟨S8192, .f32⟩ : BufTy).Contents (Elt F) → (⟨S8192, .f32⟩ : BufTy).Contents (Elt F) → (⟨S8192, .f32⟩ : BufTy).Contents (Elt F)),
    StableHlo.binary main_v30 main_v9 main_v31 (addf : (⟨S8192, .f32⟩ : BufTy).Contents (Elt F) → (⟨S8192, .f32⟩ : BufTy).Contents (Elt F) → (⟨S8192, .f32⟩ : BufTy).Contents (Elt F)),
    StableHlo.nullary main_cst_5 (constant S_ .f32 0x40000000#32),
    StableHlo.unary main_cst_5 main_v32 (broadcastInDim S8192 ![] bcast_S_S8192 : (⟨S_, .f32⟩ : BufTy).Contents (Elt F) → (⟨S8192, .f32⟩ : BufTy).Contents (Elt F)),
    StableHlo.binary main_v32 main_v3 main_v33 (mulf : (⟨S8192, .f32⟩ : BufTy).Contents (Elt F) → (⟨S8192, .f32⟩ : BufTy).Contents (Elt F) → (⟨S8192, .f32⟩ : BufTy).Contents (Elt F)),
    StableHlo.binary main_v33 main_v13 main_v34 (addf : (⟨S8192, .f32⟩ : BufTy).Contents (Elt F) → (⟨S8192, .f32⟩ : BufTy).Contents (Elt F) → (⟨S8192, .f32⟩ : BufTy).Contents (Elt F)),
    StableHlo.nullary main_cst_6 (constant S_ .f32 0x40000000#32),
    StableHlo.unary main_cst_6 main_v35 (broadcastInDim S8192 ![] bcast_S_S8192 : (⟨S_, .f32⟩ : BufTy).Contents (Elt F) → (⟨S8192, .f32⟩ : BufTy).Contents (Elt F)),
    StableHlo.binary main_v35 main_v31 main_v36 (mulf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x40800000#32),
    StableHlo.unary main_cst_7 main_v37 (broadcastInDim S8192 ![] bcast_S_S8192 : (⟨S_, .f32⟩ : BufTy).Contents (Elt F) → (⟨S8192, .f32⟩ : BufTy).Contents (Elt F)),
    StableHlo.binary main_v37 main_v25 main_v38 (mulf : (⟨S8192, .f32⟩ : BufTy).Contents (Elt F) → (⟨S8192, .f32⟩ : BufTy).Contents (Elt F) → (⟨S8192, .f32⟩ : BufTy).Contents (Elt F)),
    StableHlo.binary main_v36 main_v38 main_v39 (addf : (⟨S8192, .f32⟩ : BufTy).Contents (Elt F) → (⟨S8192, .f32⟩ : BufTy).Contents (Elt F) → (⟨S8192, .f32⟩ : BufTy).Contents (Elt F)),
    StableHlo.binary main_v24 main_v39 main_v40 (cmpf .ogt : (⟨S8192, .f32⟩ : BufTy).Contents (Elt F) → (⟨S8192, .f32⟩ : BufTy).Contents (Elt F) → (⟨S8192, .i1⟩ : BufTy).Contents (Elt F)),
    StableHlo.nullary main_cst_8 (constant S_ .f32 0x40400000#32),
    StableHlo.unary main_cst_8 main_v41 (broadcastInDim S8192 ![] bcast_S_S8192 : (⟨S_, .f32⟩ : BufTy).Contents (Elt F) → (⟨S8192, .f32⟩ : BufTy).Contents (Elt F)),
    StableHlo.binary main_v41 main_v34 main_v42 (mulf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x40000000#32),
    StableHlo.unary main_cst_9 main_v43 (broadcastInDim S8192 ![] bcast_S_S8192 : (⟨S_, .f32⟩ : BufTy).Contents (Elt F) → (⟨S8192, .f32⟩ : BufTy).Contents (Elt F)),
    StableHlo.binary main_v43 main_v31 main_v44 (mulf : (⟨S8192, .f32⟩ : BufTy).Contents (Elt F) → (⟨S8192, .f32⟩ : BufTy).Contents (Elt F) → (⟨S8192, .f32⟩ : BufTy).Contents (Elt F)),
    StableHlo.binary main_v24 main_v44 main_v45 (subf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x40800000#32),
    StableHlo.unary main_cst_10 main_v46 (broadcastInDim S8192 ![] bcast_S_S8192 : (⟨S_, .f32⟩ : BufTy).Contents (Elt F) → (⟨S8192, .f32⟩ : BufTy).Contents (Elt F)),
    StableHlo.binary main_v46 main_v25 main_v47 (mulf : (⟨S8192, .f32⟩ : BufTy).Contents (Elt F) → (⟨S8192, .f32⟩ : BufTy).Contents (Elt F) → (⟨S8192, .f32⟩ : BufTy).Contents (Elt F)) ]
set_option maxRecDepth 8192 in
/-- Each operation of window 0 touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

set_option maxRecDepth 8192 in
set_option maxHeartbeats 40000000 in
/-- Window 1: 66 operations. -/
abbrev ops1 : List (HloOp τ sig (Elt F)) :=
  [ StableHlo.binary main_v45 main_v47 main_v48 (subf : (⟨S8192, .f32⟩ : BufTy).Contents (Elt F) → (⟨S8192, .f32⟩ : BufTy).Contents (Elt F) → (⟨S8192, .f32⟩ : BufTy).Contents (Elt F)),
    StableHlo.binary main_v42 main_v48 main_v49 (cmpf .olt : (⟨S8192, .f32⟩ : BufTy).Contents (Elt F) → (⟨S8192, .f32⟩ : BufTy).Contents (Elt F) → (⟨S8192, .i1⟩ : BufTy).Contents (Elt F)),
    StableHlo.binary main_v40 main_v49 main_v50 (andi : (⟨S8192, .i1⟩ : BufTy).Contents (Elt F) → (⟨S8192, .i1⟩ : BufTy).Contents (Elt F) → (⟨S8192, .i1⟩ : BufTy).Contents (Elt F)),
    StableHlo.unary main_v50 main_v51 (noti : (⟨S8192, .i1⟩ : BufTy).Contents (Elt F) → (⟨S8192, .i1⟩ : BufTy).Contents (Elt F)),
    StableHlo.binary main_v40 main_v51 main_v52 (andi : (⟨S8192, .i1⟩ : BufTy).Contents (Elt F) → (⟨S8192, .i1⟩ : BufTy).Contents (Elt F) → (⟨S8192, .i1⟩ : BufTy).Contents (Elt F)),
    StableHlo.unary main_v40 main_v53 (noti : (⟨S8192, .i1⟩ : BufTy).Contents (Elt F) → (⟨S8192, .i1⟩ : BufTy).Contents (Elt F)),
    StableHlo.nullary main_cst_11 (constant S_ .f32 0x40000000#32),
    StableHlo.unary main_cst_11 main_v54 (broadcastInDim S8192 ![] bcast_S_S8192 : (⟨S_, .f32⟩ : BufTy).Contents (Elt F) → (⟨S8192, .f32⟩ : BufTy).Contents (Elt F)),
    StableHlo.binary main_v54 main_v31 main_v55 (mulf : (⟨S8192, .f32⟩ : BufTy).Contents (Elt F) → (⟨S8192, .f32⟩ : BufTy).Contents (Elt F) → (⟨S8192, .f32⟩ : BufTy).Contents (Elt F)),
    StableHlo.nullary main_cst_12 (constant S_ .f32 0x40800000#32),
    StableHlo.unary main_cst_12 main_v56 (broadcastInDim S8192 ![] bcast_S_S8192 : (⟨S_, .f32⟩ : BufTy).Contents (Elt F) → (⟨S8192, .f32⟩ : BufTy).Contents (Elt F)),
    StableHlo.binary main_v56 main_v25 main_v57 (mulf : (⟨S8192, .f32⟩ : BufTy).Contents (Elt F) → (⟨S8192, .f32⟩ : BufTy).Contents (Elt F) → (⟨S8192, .f32⟩ : BufTy).Contents (Elt F)),
    StableHlo.binary main_v24 main_v57 main_v58 (addf : (⟨S8192, .f32⟩ : BufTy).Contents (Elt F) → (⟨S8192, .f32⟩ : BufTy).Contents (Elt F) → (⟨S8192, .f32⟩ : BufTy).Contents (Elt F)),
    StableHlo.binary main_v55 main_v58 main_v59 (cmpf .ogt : (⟨S8192, .f32⟩ : BufTy).Contents (Elt F) → (⟨S8192, .f32⟩ : BufTy).Contents (Elt F) → (⟨S8192, .i1⟩ : BufTy).Contents (Elt F)),
    StableHlo.binary main_v53 main_v59 main_v60 (andi : (⟨S8192, .i1⟩ : BufTy).Contents (Elt F) → (⟨S8192, .i1⟩ : BufTy).Contents (Elt F) → (⟨S8192, .i1⟩ : BufTy).Contents (Elt F)),
    StableHlo.unary main_v40 main_v61 (noti : (⟨S8192, .i1⟩ : BufTy).Contents (Elt F) → (⟨S8192, .i1⟩ : BufTy).Contents (Elt F)),
    StableHlo.unary main_v60 main_v62 (noti : (⟨S8192, .i1⟩ : BufTy).Contents (Elt F) → (⟨S8192, .i1⟩ : BufTy).Contents (Elt F)),
    StableHlo.binary main_v61 main_v62 main_v63 (andi : (⟨S8192, .i1⟩ : BufTy).Contents (Elt F) → (⟨S8192, .i1⟩ : BufTy).Contents (Elt F) → (⟨S8192, .i1⟩ : BufTy).Contents (Elt F)),
    StableHlo.binary main_v24 main_v25 main_v64 (addf : (⟨S8192, .f32⟩ : BufTy).Contents (Elt F) → (⟨S8192, .f32⟩ : BufTy).Contents (Elt F) → (⟨S8192, .f32⟩ : BufTy).Contents (Elt F)),
    StableHlo.binary main_v64 main_v31 main_v65 (addf : (⟨S8192, .f32⟩ : BufTy).Contents (Elt F) → (⟨S8192, .f32⟩ : BufTy).Contents (Elt F) → (⟨S8192, .f32⟩ : BufTy).Contents (Elt F)),
    StableHlo.binary main_v65 main_v34 main_v66 (addf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x3F800000#32),
    StableHlo.unary main_cst_13 main_v67 (broadcastInDim S8192 ![] bcast_S_S8192 : (⟨S_, .f32⟩ : BufTy).Contents (Elt F) → (⟨S8192, .f32⟩ : BufTy).Contents (Elt F)),
    StableHlo.binary main_v66 main_v67 main_v68 (subf : (⟨S8192, .f32⟩ : BufTy).Contents (Elt F) → (⟨S8192, .f32⟩ : BufTy).Contents (Elt F) → (⟨S8192, .f32⟩ : BufTy).Contents (Elt F)),
    StableHlo.unary main_v68 main_v69 (Host.absf : (⟨S8192, .f32⟩ : BufTy).Contents (Elt F) → (⟨S8192, .f32⟩ : BufTy).Contents (Elt F)),
    StableHlo.nullary main_cst_14 (constant S_ .f32 0x3A83126F#32),
    StableHlo.unary main_cst_14 main_v70 (broadcastInDim S8192 ![] bcast_S_S8192 : (⟨S_, .f32⟩ : BufTy).Contents (Elt F) → (⟨S8192, .f32⟩ : BufTy).Contents (Elt F)),
    StableHlo.binary main_v69 main_v70 main_v71 (cmpf .olt : (⟨S8192, .f32⟩ : BufTy).Contents (Elt F) → (⟨S8192, .f32⟩ : BufTy).Contents (Elt F) → (⟨S8192, .i1⟩ : BufTy).Contents (Elt F)),
    StableHlo.binary main_v63 main_v71 main_v72 (andi : (⟨S8192, .i1⟩ : BufTy).Contents (Elt F) → (⟨S8192, .i1⟩ : BufTy).Contents (Elt F) → (⟨S8192, .i1⟩ : BufTy).Contents (Elt F)),
    StableHlo.nullary main_cst_15 (constant S_ .f32 0x00000000#32),
    StableHlo.unary main_cst_15 main_v73 (broadcastInDim S8192 ![] bcast_S_S8192 : (⟨S_, .f32⟩ : BufTy).Contents (Elt F) → (⟨S8192, .f32⟩ : BufTy).Contents (Elt F)),
    StableHlo.binary main_v24 main_v34 main_v74 (subf : (⟨S8192, .f32⟩ : BufTy).Contents (Elt F) → (⟨S8192, .f32⟩ : BufTy).Contents (Elt F) → (⟨S8192, .f32⟩ : BufTy).Contents (Elt F)),
    StableHlo.nullary main_cst_16 (constant S_ .f32 0x40000000#32),
    StableHlo.unary main_cst_16 main_v75 (broadcastInDim S8192 ![] bcast_S_S8192 : (⟨S_, .f32⟩ : BufTy).Contents (Elt F) → (⟨S8192, .f32⟩ : BufTy).Contents (Elt F)),
    StableHlo.binary main_v75 main_v25 main_v76 (mulf : (⟨S8192, .f32⟩ : BufTy).Contents (Elt F) → (⟨S8192, .f32⟩ : BufTy).Contents (Elt F) → (⟨S8192, .f32⟩ : BufTy).Contents (Elt F)),
    StableHlo.binary main_v74 main_v76 main_v77 (subf : (⟨S8192, .f32⟩ : BufTy).Contents (Elt F) → (⟨S8192, .f32⟩ : BufTy).Contents (Elt F) → (⟨S8192, .f32⟩ : BufTy).Contents (Elt F)),
    StableHlo.nullary main_cst_17 (constant S_ .f32 0x40000000#32),
    StableHlo.unary main_cst_17 main_v78 (broadcastInDim S8192 ![] bcast_S_S8192 : (⟨S_, .f32⟩ : BufTy).Contents (Elt F) → (⟨S8192, .f32⟩ : BufTy).Contents (Elt F)),
    StableHlo.binary main_v78 main_v31 main_v79 (mulf : (⟨S8192, .f32⟩ : BufTy).Contents (Elt F) → (⟨S8192, .f32⟩ : BufTy).Contents (Elt F) → (⟨S8192, .f32⟩ : BufTy).Contents (Elt F)),
    StableHlo.binary main_v24 main_v79 main_v80 (subf : (⟨S8192, .f32⟩ : BufTy).Contents (Elt F) → (⟨S8192, .f32⟩ : BufTy).Contents (Elt F) → (⟨S8192, .f32⟩ : BufTy).Contents (Elt F)),
    StableHlo.nullary main_cst_18 (constant S_ .f32 0x40800000#32),
    StableHlo.unary main_cst_18 main_v81 (broadcastInDim S8192 ![] bcast_S_S8192 : (⟨S_, .f32⟩ : BufTy).Contents (Elt F) → (⟨S8192, .f32⟩ : BufTy).Contents (Elt F)),
    StableHlo.binary main_v81 main_v25 main_v82 (mulf : (⟨S8192, .f32⟩ : BufTy).Contents (Elt F) → (⟨S8192, .f32⟩ : BufTy).Contents (Elt F) → (⟨S8192, .f32⟩ : BufTy).Contents (Elt F)),
    StableHlo.binary main_v80 main_v82 main_v83 (subf : (⟨S8192, .f32⟩ : BufTy).Contents (Elt F) → (⟨S8192, .f32⟩ : BufTy).Contents (Elt F) → (⟨S8192, .f32⟩ : BufTy).Contents (Elt F)),
    StableHlo.nullary main_cst_19 (constant S_ .f32 0x40400000#32),
    StableHlo.unary main_cst_19 main_v84 (broadcastInDim S8192 ![] bcast_S_S8192 : (⟨S_, .f32⟩ : BufTy).Contents (Elt F) → (⟨S8192, .f32⟩ : BufTy).Contents (Elt F)),
    StableHlo.binary main_v84 main_v34 main_v85 (mulf : (⟨S8192, .f32⟩ : BufTy).Contents (Elt F) → (⟨S8192, .f32⟩ : BufTy).Contents (Elt F) → (⟨S8192, .f32⟩ : BufTy).Contents (Elt F)),
    StableHlo.binary main_v83 main_v85 main_v86 (subf : (⟨S8192, .f32⟩ : BufTy).Contents (Elt F) → (⟨S8192, .f32⟩ : BufTy).Contents (Elt F) → (⟨S8192, .f32⟩ : BufTy).Contents (Elt F)),
    StableHlo.nullary main_cst_20 (constant S_ .f32 0x3F800000#32),
    StableHlo.TRef.unary (.of main_cst_20 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call0_v1 : StableHlo.TRef sig ⟨S8192, .f32⟩) (.of main_v87 : StableHlo.TRef sig ⟨S8192, .f32⟩) select,
    StableHlo.binary main_v86 main_v87 main_v88 (Host.divf : (⟨S8192, .f32⟩ : BufTy).Contents (Elt F) → (⟨S8192, .f32⟩ : BufTy).Contents (Elt F) → (⟨S8192, .f32⟩ : BufTy).Contents (Elt F)),
    StableHlo.nullary main_cst_21 (constant S_ .f32 0x00000000#32),
    StableHlo.TRef.unary (.of main_cst_21 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8192, .f32⟩) (broadcastInDim S8192 ![] bcast_S_S8192),
    StableHlo.TRef.ternary (.of main_v50 : StableHlo.TRef sig ⟨S8192, .i1⟩) (.of main_v88 : StableHlo.TRef sig ⟨S8192, .f32⟩) (.of main_call1_v1 : StableHlo.TRef sig ⟨S8192, .f32⟩) (.of main_v89 : StableHlo.TRef sig ⟨S8192, .f32⟩) select,
    StableHlo.nullary main_cst_22 (constant S_ .f32 0x40000000#32),
    StableHlo.unary main_cst_22 main_v90 (broadcastInDim S8192 ![] bcast_S_S8192 : (⟨S_, .f32⟩ : BufTy).Contents (Elt F) → (⟨S8192, .f32⟩ : BufTy).Contents (Elt F)),
    StableHlo.binary main_v90 main_v31 main_v91 (mulf : (⟨S8192, .f32⟩ : BufTy).Contents (Elt F) → (⟨S8192, .f32⟩ : BufTy).Contents (Elt F) → (⟨S8192, .f32⟩ : BufTy).Contents (Elt F)),
    StableHlo.nullary main_cst_23 (constant S_ .f32 0x3F800000#32),
    StableHlo.TRef.unary (.of main_cst_23 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call2_v1 : StableHlo.TRef sig ⟨S8192, .f32⟩) (.of main_v92 : StableHlo.TRef sig ⟨S8192, .f32⟩) select,
    StableHlo.binary main_v91 main_v92 main_v93 (Host.divf : (⟨S8192, .f32⟩ : BufTy).Contents (Elt F) → (⟨S8192, .f32⟩ : BufTy).Contents (Elt F) → (⟨S8192, .f32⟩ : BufTy).Contents (Elt F)),
    StableHlo.nullary main_cst_24 (constant S_ .f32 0x00000000#32) ]
set_option maxRecDepth 8192 in
/-- Each operation of window 1 touches TensorCore references only. -/
theorem ops1_sub : (ops1 : List (HloOp τ sig (Elt F))).Forall fun op => op.bufs ⊆ tcRefs τ sig :=
  ⟨binary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub ..⟩

set_option maxRecDepth 8192 in
set_option maxHeartbeats 40000000 in
/-- Window 2: 76 operations. -/
abbrev ops2 : List (HloOp τ sig (Elt F)) :=
  [ StableHlo.TRef.unary (.of main_cst_24 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8192, .f32⟩) (broadcastInDim S8192 ![] bcast_S_S8192),
    StableHlo.TRef.ternary (.of main_v50 : StableHlo.TRef sig ⟨S8192, .i1⟩) (.of main_v93 : StableHlo.TRef sig ⟨S8192, .f32⟩) (.of main_call3_v1 : StableHlo.TRef sig ⟨S8192, .f32⟩) (.of main_v94 : StableHlo.TRef sig ⟨S8192, .f32⟩) select,
    StableHlo.nullary main_cst_25 (constant S_ .f32 0x40000000#32),
    StableHlo.unary main_cst_25 main_v95 (broadcastInDim S8192 ![] bcast_S_S8192 : (⟨S_, .f32⟩ : BufTy).Contents (Elt F) → (⟨S8192, .f32⟩ : BufTy).Contents (Elt F)),
    StableHlo.binary main_v95 main_v25 main_v96 (mulf : (⟨S8192, .f32⟩ : BufTy).Contents (Elt F) → (⟨S8192, .f32⟩ : BufTy).Contents (Elt F) → (⟨S8192, .f32⟩ : BufTy).Contents (Elt F)),
    StableHlo.nullary main_cst_26 (constant S_ .f32 0x3F800000#32),
    StableHlo.TRef.unary (.of main_cst_26 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call4_v1 : StableHlo.TRef sig ⟨S8192, .f32⟩) (.of main_v97 : StableHlo.TRef sig ⟨S8192, .f32⟩) select,
    StableHlo.binary main_v96 main_v97 main_v98 (Host.divf : (⟨S8192, .f32⟩ : BufTy).Contents (Elt F) → (⟨S8192, .f32⟩ : BufTy).Contents (Elt F) → (⟨S8192, .f32⟩ : BufTy).Contents (Elt F)),
    StableHlo.nullary main_cst_27 (constant S_ .f32 0x00000000#32),
    StableHlo.TRef.unary (.of main_cst_27 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S8192, .f32⟩) (broadcastInDim S8192 ![] bcast_S_S8192),
    StableHlo.TRef.ternary (.of main_v50 : StableHlo.TRef sig ⟨S8192, .i1⟩) (.of main_v98 : StableHlo.TRef sig ⟨S8192, .f32⟩) (.of main_call5_v1 : StableHlo.TRef sig ⟨S8192, .f32⟩) (.of main_v99 : StableHlo.TRef sig ⟨S8192, .f32⟩) select,
    StableHlo.nullary main_cst_28 (constant S_ .f32 0x40000000#32),
    StableHlo.unary main_cst_28 main_v100 (broadcastInDim S8192 ![] bcast_S_S8192 : (⟨S_, .f32⟩ : BufTy).Contents (Elt F) → (⟨S8192, .f32⟩ : BufTy).Contents (Elt F)),
    StableHlo.binary main_v100 main_v34 main_v101 (mulf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x3F800000#32),
    StableHlo.TRef.unary (.of main_cst_29 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call6_v1 : StableHlo.TRef sig ⟨S8192, .f32⟩) (.of main_v102 : StableHlo.TRef sig ⟨S8192, .f32⟩) select,
    StableHlo.binary main_v101 main_v102 main_v103 (Host.divf : (⟨S8192, .f32⟩ : BufTy).Contents (Elt F) → (⟨S8192, .f32⟩ : BufTy).Contents (Elt F) → (⟨S8192, .f32⟩ : BufTy).Contents (Elt F)),
    StableHlo.nullary main_cst_30 (constant S_ .f32 0x00000000#32),
    StableHlo.TRef.unary (.of main_cst_30 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S8192, .f32⟩) (broadcastInDim S8192 ![] bcast_S_S8192),
    StableHlo.TRef.ternary (.of main_v50 : StableHlo.TRef sig ⟨S8192, .i1⟩) (.of main_v103 : StableHlo.TRef sig ⟨S8192, .f32⟩) (.of main_call7_v1 : StableHlo.TRef sig ⟨S8192, .f32⟩) (.of main_v104 : StableHlo.TRef sig ⟨S8192, .f32⟩) select,
    StableHlo.unary main_v73 main_v105 (broadcastInDim S8192x1 ![0] bcast_S8192_S8192x1_0 : (⟨S8192, .f32⟩ : BufTy).Contents (Elt F) → (⟨S8192x1, .f32⟩ : BufTy).Contents (Elt F)),
    StableHlo.unary main_v73 main_v106 (broadcastInDim S8192x1 ![0] bcast_S8192_S8192x1_0 : (⟨S8192, .f32⟩ : BufTy).Contents (Elt F) → (⟨S8192x1, .f32⟩ : BufTy).Contents (Elt F)),
    StableHlo.unary main_v89 main_v107 (broadcastInDim S8192x1 ![0] bcast_S8192_S8192x1_0 : (⟨S8192, .f32⟩ : BufTy).Contents (Elt F) → (⟨S8192x1, .f32⟩ : BufTy).Contents (Elt F)),
    StableHlo.unary main_v73 main_v108 (broadcastInDim S8192x1 ![0] bcast_S8192_S8192x1_0 : (⟨S8192, .f32⟩ : BufTy).Contents (Elt F) → (⟨S8192x1, .f32⟩ : BufTy).Contents (Elt F)),
    StableHlo.unary main_v94 main_v109 (broadcastInDim S8192x1 ![0] bcast_S8192_S8192x1_0 : (⟨S8192, .f32⟩ : BufTy).Contents (Elt F) → (⟨S8192x1, .f32⟩ : BufTy).Contents (Elt F)),
    StableHlo.unary main_v99 main_v110 (broadcastInDim S8192x1 ![0] bcast_S8192_S8192x1_0 : (⟨S8192, .f32⟩ : BufTy).Contents (Elt F) → (⟨S8192x1, .f32⟩ : BufTy).Contents (Elt F)),
    StableHlo.unary main_v104 main_v111 (broadcastInDim S8192x1 ![0] bcast_S8192_S8192x1_0 : (⟨S8192, .f32⟩ : BufTy).Contents (Elt F) → (⟨S8192x1, .f32⟩ : BufTy).Contents (Elt F)),
    StableHlo.nary ![main_v105, main_v106, main_v107, main_v108, main_v109, main_v110, main_v111] main_v112 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_31 (constant S_ .f32 0x40000000#32),
    StableHlo.unary main_cst_31 main_v113 (broadcastInDim S8192 ![] bcast_S_S8192 : (⟨S_, .f32⟩ : BufTy).Contents (Elt F) → (⟨S8192, .f32⟩ : BufTy).Contents (Elt F)),
    StableHlo.binary main_v113 main_v25 main_v114 (mulf : (⟨S8192, .f32⟩ : BufTy).Contents (Elt F) → (⟨S8192, .f32⟩ : BufTy).Contents (Elt F) → (⟨S8192, .f32⟩ : BufTy).Contents (Elt F)),
    StableHlo.binary main_v24 main_v114 main_v115 (addf : (⟨S8192, .f32⟩ : BufTy).Contents (Elt F) → (⟨S8192, .f32⟩ : BufTy).Contents (Elt F) → (⟨S8192, .f32⟩ : BufTy).Contents (Elt F)),
    StableHlo.nullary main_cst_32 (constant S_ .f32 0x40400000#32),
    StableHlo.unary main_cst_32 main_v116 (broadcastInDim S8192 ![] bcast_S_S8192 : (⟨S_, .f32⟩ : BufTy).Contents (Elt F) → (⟨S8192, .f32⟩ : BufTy).Contents (Elt F)),
    StableHlo.binary main_v116 main_v34 main_v117 (mulf : (⟨S8192, .f32⟩ : BufTy).Contents (Elt F) → (⟨S8192, .f32⟩ : BufTy).Contents (Elt F) → (⟨S8192, .f32⟩ : BufTy).Contents (Elt F)),
    StableHlo.binary main_v115 main_v117 main_v118 (addf : (⟨S8192, .f32⟩ : BufTy).Contents (Elt F) → (⟨S8192, .f32⟩ : BufTy).Contents (Elt F) → (⟨S8192, .f32⟩ : BufTy).Contents (Elt F)),
    StableHlo.nullary main_cst_33 (constant S_ .f32 0x40800000#32),
    StableHlo.unary main_cst_33 main_v119 (broadcastInDim S8192 ![] bcast_S_S8192 : (⟨S_, .f32⟩ : BufTy).Contents (Elt F) → (⟨S8192, .f32⟩ : BufTy).Contents (Elt F)),
    StableHlo.binary main_v119 main_v31 main_v120 (mulf : (⟨S8192, .f32⟩ : BufTy).Contents (Elt F) → (⟨S8192, .f32⟩ : BufTy).Contents (Elt F) → (⟨S8192, .f32⟩ : BufTy).Contents (Elt F)),
    StableHlo.binary main_v118 main_v120 main_v121 (addf : (⟨S8192, .f32⟩ : BufTy).Contents (Elt F) → (⟨S8192, .f32⟩ : BufTy).Contents (Elt F) → (⟨S8192, .f32⟩ : BufTy).Contents (Elt F)),
    StableHlo.nullary main_cst_34 (constant S_ .f32 0x40400000#32),
    StableHlo.unary main_cst_34 main_v122 (broadcastInDim S8192 ![] bcast_S_S8192 : (⟨S_, .f32⟩ : BufTy).Contents (Elt F) → (⟨S8192, .f32⟩ : BufTy).Contents (Elt F)),
    StableHlo.binary main_v122 main_v34 main_v123 (mulf : (⟨S8192, .f32⟩ : BufTy).Contents (Elt F) → (⟨S8192, .f32⟩ : BufTy).Contents (Elt F) → (⟨S8192, .f32⟩ : BufTy).Contents (Elt F)),
    StableHlo.nullary main_cst_35 (constant S_ .f32 0x40800000#32),
    StableHlo.unary main_cst_35 main_v124 (broadcastInDim S8192 ![] bcast_S_S8192 : (⟨S_, .f32⟩ : BufTy).Contents (Elt F) → (⟨S8192, .f32⟩ : BufTy).Contents (Elt F)),
    StableHlo.binary main_v124 main_v25 main_v125 (mulf : (⟨S8192, .f32⟩ : BufTy).Contents (Elt F) → (⟨S8192, .f32⟩ : BufTy).Contents (Elt F) → (⟨S8192, .f32⟩ : BufTy).Contents (Elt F)),
    StableHlo.binary main_v123 main_v125 main_v126 (addf : (⟨S8192, .f32⟩ : BufTy).Contents (Elt F) → (⟨S8192, .f32⟩ : BufTy).Contents (Elt F) → (⟨S8192, .f32⟩ : BufTy).Contents (Elt F)),
    StableHlo.nullary main_cst_36 (constant S_ .f32 0x40000000#32),
    StableHlo.unary main_cst_36 main_v127 (broadcastInDim S8192 ![] bcast_S_S8192 : (⟨S_, .f32⟩ : BufTy).Contents (Elt F) → (⟨S8192, .f32⟩ : BufTy).Contents (Elt F)),
    StableHlo.binary main_v127 main_v31 main_v128 (mulf : (⟨S8192, .f32⟩ : BufTy).Contents (Elt F) → (⟨S8192, .f32⟩ : BufTy).Contents (Elt F) → (⟨S8192, .f32⟩ : BufTy).Contents (Elt F)),
    StableHlo.binary main_v126 main_v128 main_v129 (addf : (⟨S8192, .f32⟩ : BufTy).Contents (Elt F) → (⟨S8192, .f32⟩ : BufTy).Contents (Elt F) → (⟨S8192, .f32⟩ : BufTy).Contents (Elt F)),
    StableHlo.binary main_v129 main_v24 main_v130 (subf : (⟨S8192, .f32⟩ : BufTy).Contents (Elt F) → (⟨S8192, .f32⟩ : BufTy).Contents (Elt F) → (⟨S8192, .f32⟩ : BufTy).Contents (Elt F)),
    StableHlo.nullary main_cst_37 (constant S_ .f32 0x3F800000#32),
    StableHlo.TRef.unary (.of main_cst_37 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call8_v1 : StableHlo.TRef sig ⟨S8192, .f32⟩) (.of main_v131 : StableHlo.TRef sig ⟨S8192, .f32⟩) select,
    StableHlo.binary main_v130 main_v131 main_v132 (Host.divf : (⟨S8192, .f32⟩ : BufTy).Contents (Elt F) → (⟨S8192, .f32⟩ : BufTy).Contents (Elt F) → (⟨S8192, .f32⟩ : BufTy).Contents (Elt F)),
    StableHlo.nullary main_cst_38 (constant S_ .f32 0x00000000#32),
    StableHlo.TRef.unary (.of main_cst_38 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S8192, .f32⟩) (broadcastInDim S8192 ![] bcast_S_S8192),
    StableHlo.TRef.ternary (.of main_v52 : StableHlo.TRef sig ⟨S8192, .i1⟩) (.of main_v132 : StableHlo.TRef sig ⟨S8192, .f32⟩) (.of main_call9_v1 : StableHlo.TRef sig ⟨S8192, .f32⟩) (.of main_v133 : StableHlo.TRef sig ⟨S8192, .f32⟩) select,
    StableHlo.nullary main_cst_39 (constant S_ .f32 0x40C00000#32),
    StableHlo.unary main_cst_39 main_v134 (broadcastInDim S8192 ![] bcast_S_S8192 : (⟨S_, .f32⟩ : BufTy).Contents (Elt F) → (⟨S8192, .f32⟩ : BufTy).Contents (Elt F)),
    StableHlo.binary main_v134 main_v31 main_v135 (mulf : (⟨S8192, .f32⟩ : BufTy).Contents (Elt F) → (⟨S8192, .f32⟩ : BufTy).Contents (Elt F) → (⟨S8192, .f32⟩ : BufTy).Contents (Elt F)),
    StableHlo.nullary main_cst_40 (constant S_ .f32 0x3F800000#32),
    StableHlo.TRef.unary (.of main_cst_40 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call10_v1 : StableHlo.TRef sig ⟨S8192, .f32⟩) (.of main_v136 : StableHlo.TRef sig ⟨S8192, .f32⟩) select,
    StableHlo.binary main_v135 main_v136 main_v137 (Host.divf : (⟨S8192, .f32⟩ : BufTy).Contents (Elt F) → (⟨S8192, .f32⟩ : BufTy).Contents (Elt F) → (⟨S8192, .f32⟩ : BufTy).Contents (Elt F)) ]
set_option maxRecDepth 8192 in
/-- Each operation of window 2 touches TensorCore references only. -/
theorem ops2_sub : (ops2 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub ..⟩

set_option maxRecDepth 8192 in
set_option maxHeartbeats 40000000 in
/-- Window 3: 76 operations. -/
abbrev ops3 : List (HloOp τ sig (Elt F)) :=
  [ StableHlo.nullary main_cst_41 (constant S_ .f32 0x00000000#32),
    StableHlo.TRef.unary (.of main_cst_41 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S8192, .f32⟩) (broadcastInDim S8192 ![] bcast_S_S8192),
    StableHlo.TRef.ternary (.of main_v52 : StableHlo.TRef sig ⟨S8192, .i1⟩) (.of main_v137 : StableHlo.TRef sig ⟨S8192, .f32⟩) (.of main_call11_v1 : StableHlo.TRef sig ⟨S8192, .f32⟩) (.of main_v138 : StableHlo.TRef sig ⟨S8192, .f32⟩) select,
    StableHlo.nullary main_cst_42 (constant S_ .f32 0x40C00000#32),
    StableHlo.unary main_cst_42 main_v139 (broadcastInDim S8192 ![] bcast_S_S8192 : (⟨S_, .f32⟩ : BufTy).Contents (Elt F) → (⟨S8192, .f32⟩ : BufTy).Contents (Elt F)),
    StableHlo.binary main_v139 main_v25 main_v140 (mulf : (⟨S8192, .f32⟩ : BufTy).Contents (Elt F) → (⟨S8192, .f32⟩ : BufTy).Contents (Elt F) → (⟨S8192, .f32⟩ : BufTy).Contents (Elt F)),
    StableHlo.nullary main_cst_43 (constant S_ .f32 0x3F800000#32),
    StableHlo.TRef.unary (.of main_cst_43 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call12_v1 : StableHlo.TRef sig ⟨S8192, .f32⟩) (.of main_v141 : StableHlo.TRef sig ⟨S8192, .f32⟩) select,
    StableHlo.binary main_v140 main_v141 main_v142 (Host.divf : (⟨S8192, .f32⟩ : BufTy).Contents (Elt F) → (⟨S8192, .f32⟩ : BufTy).Contents (Elt F) → (⟨S8192, .f32⟩ : BufTy).Contents (Elt F)),
    StableHlo.nullary main_cst_44 (constant S_ .f32 0x00000000#32),
    StableHlo.TRef.unary (.of main_cst_44 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S8192, .f32⟩) (broadcastInDim S8192 ![] bcast_S_S8192),
    StableHlo.TRef.ternary (.of main_v52 : StableHlo.TRef sig ⟨S8192, .i1⟩) (.of main_v142 : StableHlo.TRef sig ⟨S8192, .f32⟩) (.of main_call13_v1 : StableHlo.TRef sig ⟨S8192, .f32⟩) (.of main_v143 : StableHlo.TRef sig ⟨S8192, .f32⟩) select,
    StableHlo.nullary main_cst_45 (constant S_ .f32 0x40000000#32),
    StableHlo.unary main_cst_45 main_v144 (broadcastInDim S8192 ![] bcast_S_S8192 : (⟨S_, .f32⟩ : BufTy).Contents (Elt F) → (⟨S8192, .f32⟩ : BufTy).Contents (Elt F)),
    StableHlo.binary main_v144 main_v24 main_v145 (mulf : (⟨S8192, .f32⟩ : BufTy).Contents (Elt F) → (⟨S8192, .f32⟩ : BufTy).Contents (Elt F) → (⟨S8192, .f32⟩ : BufTy).Contents (Elt F)),
    StableHlo.nullary main_cst_46 (constant S_ .f32 0x41000000#32),
    StableHlo.unary main_cst_46 main_v146 (broadcastInDim S8192 ![] bcast_S_S8192 : (⟨S_, .f32⟩ : BufTy).Contents (Elt F) → (⟨S8192, .f32⟩ : BufTy).Contents (Elt F)),
    StableHlo.binary main_v146 main_v25 main_v147 (mulf : (⟨S8192, .f32⟩ : BufTy).Contents (Elt F) → (⟨S8192, .f32⟩ : BufTy).Contents (Elt F) → (⟨S8192, .f32⟩ : BufTy).Contents (Elt F)),
    StableHlo.binary main_v145 main_v147 main_v148 (subf : (⟨S8192, .f32⟩ : BufTy).Contents (Elt F) → (⟨S8192, .f32⟩ : BufTy).Contents (Elt F) → (⟨S8192, .f32⟩ : BufTy).Contents (Elt F)),
    StableHlo.nullary main_cst_47 (constant S_ .f32 0x40800000#32),
    StableHlo.unary main_cst_47 main_v149 (broadcastInDim S8192 ![] bcast_S_S8192 : (⟨S_, .f32⟩ : BufTy).Contents (Elt F) → (⟨S8192, .f32⟩ : BufTy).Contents (Elt F)),
    StableHlo.binary main_v149 main_v31 main_v150 (mulf : (⟨S8192, .f32⟩ : BufTy).Contents (Elt F) → (⟨S8192, .f32⟩ : BufTy).Contents (Elt F) → (⟨S8192, .f32⟩ : BufTy).Contents (Elt F)),
    StableHlo.binary main_v148 main_v150 main_v151 (subf : (⟨S8192, .f32⟩ : BufTy).Contents (Elt F) → (⟨S8192, .f32⟩ : BufTy).Contents (Elt F) → (⟨S8192, .f32⟩ : BufTy).Contents (Elt F)),
    StableHlo.nullary main_cst_48 (constant S_ .f32 0x3F800000#32),
    StableHlo.TRef.unary (.of main_cst_48 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call14_v1 : StableHlo.TRef sig ⟨S8192, .f32⟩) (.of main_v152 : StableHlo.TRef sig ⟨S8192, .f32⟩) select,
    StableHlo.binary main_v151 main_v152 main_v153 (Host.divf : (⟨S8192, .f32⟩ : BufTy).Contents (Elt F) → (⟨S8192, .f32⟩ : BufTy).Contents (Elt F) → (⟨S8192, .f32⟩ : BufTy).Contents (Elt F)),
    StableHlo.nullary main_cst_49 (constant S_ .f32 0x00000000#32),
    StableHlo.TRef.unary (.of main_cst_49 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S8192, .f32⟩) (broadcastInDim S8192 ![] bcast_S_S8192),
    StableHlo.TRef.ternary (.of main_v52 : StableHlo.TRef sig ⟨S8192, .i1⟩) (.of main_v153 : StableHlo.TRef sig ⟨S8192, .f32⟩) (.of main_call15_v1 : StableHlo.TRef sig ⟨S8192, .f32⟩) (.of main_v154 : StableHlo.TRef sig ⟨S8192, .f32⟩) select,
    StableHlo.unary main_v73 main_v155 (broadcastInDim S8192x1 ![0] bcast_S8192_S8192x1_0 : (⟨S8192, .f32⟩ : BufTy).Contents (Elt F) → (⟨S8192x1, .f32⟩ : BufTy).Contents (Elt F)),
    StableHlo.unary main_v133 main_v156 (broadcastInDim S8192x1 ![0] bcast_S8192_S8192x1_0 : (⟨S8192, .f32⟩ : BufTy).Contents (Elt F) → (⟨S8192x1, .f32⟩ : BufTy).Contents (Elt F)),
    StableHlo.unary main_v73 main_v157 (broadcastInDim S8192x1 ![0] bcast_S8192_S8192x1_0 : (⟨S8192, .f32⟩ : BufTy).Contents (Elt F) → (⟨S8192x1, .f32⟩ : BufTy).Contents (Elt F)),
    StableHlo.unary main_v73 main_v158 (broadcastInDim S8192x1 ![0] bcast_S8192_S8192x1_0 : (⟨S8192, .f32⟩ : BufTy).Contents (Elt F) → (⟨S8192x1, .f32⟩ : BufTy).Contents (Elt F)),
    StableHlo.unary main_v138 main_v159 (broadcastInDim S8192x1 ![0] bcast_S8192_S8192x1_0 : (⟨S8192, .f32⟩ : BufTy).Contents (Elt F) → (⟨S8192x1, .f32⟩ : BufTy).Contents (Elt F)),
    StableHlo.unary main_v143 main_v160 (broadcastInDim S8192x1 ![0] bcast_S8192_S8192x1_0 : (⟨S8192, .f32⟩ : BufTy).Contents (Elt F) → (⟨S8192x1, .f32⟩ : BufTy).Contents (Elt F)),
    StableHlo.unary main_v154 main_v161 (broadcastInDim S8192x1 ![0] bcast_S8192_S8192x1_0 : (⟨S8192, .f32⟩ : BufTy).Contents (Elt F) → (⟨S8192x1, .f32⟩ : BufTy).Contents (Elt F)),
    StableHlo.nary ![main_v155, main_v156, main_v157, main_v158, main_v159, main_v160, main_v161] main_v162 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_50 (constant S_ .f32 0x40000000#32),
    StableHlo.unary main_cst_50 main_v163 (broadcastInDim S8192 ![] bcast_S_S8192 : (⟨S_, .f32⟩ : BufTy).Contents (Elt F) → (⟨S8192, .f32⟩ : BufTy).Contents (Elt F)),
    StableHlo.binary main_v163 main_v31 main_v164 (mulf : (⟨S8192, .f32⟩ : BufTy).Contents (Elt F) → (⟨S8192, .f32⟩ : BufTy).Contents (Elt F) → (⟨S8192, .f32⟩ : BufTy).Contents (Elt F)),
    StableHlo.binary main_v24 main_v164 main_v165 (addf : (⟨S8192, .f32⟩ : BufTy).Contents (Elt F) → (⟨S8192, .f32⟩ : BufTy).Contents (Elt F) → (⟨S8192, .f32⟩ : BufTy).Contents (Elt F)),
    StableHlo.nullary main_cst_51 (constant S_ .f32 0x40000000#32),
    StableHlo.unary main_cst_51 main_v166 (broadcastInDim S8192 ![] bcast_S_S8192 : (⟨S_, .f32⟩ : BufTy).Contents (Elt F) → (⟨S8192, .f32⟩ : BufTy).Contents (Elt F)),
    StableHlo.binary main_v166 main_v34 main_v167 (mulf : (⟨S8192, .f32⟩ : BufTy).Contents (Elt F) → (⟨S8192, .f32⟩ : BufTy).Contents (Elt F) → (⟨S8192, .f32⟩ : BufTy).Contents (Elt F)),
    StableHlo.binary main_v165 main_v167 main_v168 (addf : (⟨S8192, .f32⟩ : BufTy).Contents (Elt F) → (⟨S8192, .f32⟩ : BufTy).Contents (Elt F) → (⟨S8192, .f32⟩ : BufTy).Contents (Elt F)),
    StableHlo.nullary main_cst_52 (constant S_ .f32 0x40000000#32),
    StableHlo.unary main_cst_52 main_v169 (broadcastInDim S8192 ![] bcast_S_S8192 : (⟨S_, .f32⟩ : BufTy).Contents (Elt F) → (⟨S8192, .f32⟩ : BufTy).Contents (Elt F)),
    StableHlo.binary main_v169 main_v31 main_v170 (mulf : (⟨S8192, .f32⟩ : BufTy).Contents (Elt F) → (⟨S8192, .f32⟩ : BufTy).Contents (Elt F) → (⟨S8192, .f32⟩ : BufTy).Contents (Elt F)),
    StableHlo.binary main_v170 main_v24 main_v171 (subf : (⟨S8192, .f32⟩ : BufTy).Contents (Elt F) → (⟨S8192, .f32⟩ : BufTy).Contents (Elt F) → (⟨S8192, .f32⟩ : BufTy).Contents (Elt F)),
    StableHlo.nullary main_cst_53 (constant S_ .f32 0x40800000#32),
    StableHlo.unary main_cst_53 main_v172 (broadcastInDim S8192 ![] bcast_S_S8192 : (⟨S_, .f32⟩ : BufTy).Contents (Elt F) → (⟨S8192, .f32⟩ : BufTy).Contents (Elt F)),
    StableHlo.binary main_v172 main_v25 main_v173 (mulf : (⟨S8192, .f32⟩ : BufTy).Contents (Elt F) → (⟨S8192, .f32⟩ : BufTy).Contents (Elt F) → (⟨S8192, .f32⟩ : BufTy).Contents (Elt F)),
    StableHlo.binary main_v171 main_v173 main_v174 (subf : (⟨S8192, .f32⟩ : BufTy).Contents (Elt F) → (⟨S8192, .f32⟩ : BufTy).Contents (Elt F) → (⟨S8192, .f32⟩ : BufTy).Contents (Elt F)),
    StableHlo.nullary main_cst_54 (constant S_ .f32 0x3F800000#32),
    StableHlo.TRef.unary (.of main_cst_54 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call16_v1 : StableHlo.TRef sig ⟨S8192, .f32⟩) (.of main_v175 : StableHlo.TRef sig ⟨S8192, .f32⟩) select,
    StableHlo.binary main_v174 main_v175 main_v176 (Host.divf : (⟨S8192, .f32⟩ : BufTy).Contents (Elt F) → (⟨S8192, .f32⟩ : BufTy).Contents (Elt F) → (⟨S8192, .f32⟩ : BufTy).Contents (Elt F)),
    StableHlo.nullary main_cst_55 (constant S_ .f32 0x00000000#32),
    StableHlo.TRef.unary (.of main_cst_55 : StableHlo.TRef sig ⟨S_, .f32⟩) (.of main_call17_v0 : StableHlo.TRef sig ⟨S_, .f32⟩) id,
    StableHlo.TRef.unary (.of main_call17_v0 : StableHlo.TRef sig ⟨S_, .f32⟩) (.of main_call17_v1 : StableHlo.TRef sig ⟨S8192, .f32⟩) (broadcastInDim S8192 ![] bcast_S_S8192),
    StableHlo.TRef.ternary (.of main_v60 : StableHlo.TRef sig ⟨S8192, .i1⟩) (.of main_v176 : StableHlo.TRef sig ⟨S8192, .f32⟩) (.of main_call17_v1 : StableHlo.TRef sig ⟨S8192, .f32⟩) (.of main_v177 : StableHlo.TRef sig ⟨S8192, .f32⟩) select,
    StableHlo.nullary main_cst_56 (constant S_ .f32 0x40000000#32),
    StableHlo.unary main_cst_56 main_v178 (broadcastInDim S8192 ![] bcast_S_S8192 : (⟨S_, .f32⟩ : BufTy).Contents (Elt F) → (⟨S8192, .f32⟩ : BufTy).Contents (Elt F)),
    StableHlo.binary main_v178 main_v34 main_v179 (mulf : (⟨S8192, .f32⟩ : BufTy).Contents (Elt F) → (⟨S8192, .f32⟩ : BufTy).Contents (Elt F) → (⟨S8192, .f32⟩ : BufTy).Contents (Elt F)),
    StableHlo.nullary main_cst_57 (constant S_ .f32 0x3F800000#32),
    StableHlo.TRef.unary (.of main_cst_57 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call18_v1 : StableHlo.TRef sig ⟨S8192, .f32⟩) (.of main_v180 : StableHlo.TRef sig ⟨S8192, .f32⟩) select ]
set_option maxRecDepth 8192 in
/-- Each operation of window 3 touches TensorCore references only. -/
theorem ops3_sub : (ops3 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub ..⟩

set_option maxRecDepth 8192 in
set_option maxHeartbeats 40000000 in
/-- Window 4: 74 operations. -/
abbrev ops4 : List (HloOp τ sig (Elt F)) :=
  [ StableHlo.binary main_v179 main_v180 main_v181 (Host.divf : (⟨S8192, .f32⟩ : BufTy).Contents (Elt F) → (⟨S8192, .f32⟩ : BufTy).Contents (Elt F) → (⟨S8192, .f32⟩ : BufTy).Contents (Elt F)),
    StableHlo.nullary main_cst_58 (constant S_ .f32 0x00000000#32),
    StableHlo.TRef.unary (.of main_cst_58 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S8192, .f32⟩) (broadcastInDim S8192 ![] bcast_S_S8192),
    StableHlo.TRef.ternary (.of main_v60 : StableHlo.TRef sig ⟨S8192, .i1⟩) (.of main_v181 : StableHlo.TRef sig ⟨S8192, .f32⟩) (.of main_call19_v1 : StableHlo.TRef sig ⟨S8192, .f32⟩) (.of main_v182 : StableHlo.TRef sig ⟨S8192, .f32⟩) select,
    StableHlo.nullary main_cst_59 (constant S_ .f32 0x40800000#32),
    StableHlo.unary main_cst_59 main_v183 (broadcastInDim S8192 ![] bcast_S_S8192 : (⟨S_, .f32⟩ : BufTy).Contents (Elt F) → (⟨S8192, .f32⟩ : BufTy).Contents (Elt F)),
    StableHlo.binary main_v183 main_v25 main_v184 (mulf : (⟨S8192, .f32⟩ : BufTy).Contents (Elt F) → (⟨S8192, .f32⟩ : BufTy).Contents (Elt F) → (⟨S8192, .f32⟩ : BufTy).Contents (Elt F)),
    StableHlo.nullary main_cst_60 (constant S_ .f32 0x3F800000#32),
    StableHlo.TRef.unary (.of main_cst_60 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call20_v1 : StableHlo.TRef sig ⟨S8192, .f32⟩) (.of main_v185 : StableHlo.TRef sig ⟨S8192, .f32⟩) select,
    StableHlo.binary main_v184 main_v185 main_v186 (Host.divf : (⟨S8192, .f32⟩ : BufTy).Contents (Elt F) → (⟨S8192, .f32⟩ : BufTy).Contents (Elt F) → (⟨S8192, .f32⟩ : BufTy).Contents (Elt F)),
    StableHlo.nullary main_cst_61 (constant S_ .f32 0x00000000#32),
    StableHlo.TRef.unary (.of main_cst_61 : StableHlo.TRef sig ⟨S_, .f32⟩) (.of main_call21_v0 : StableHlo.TRef sig ⟨S_, .f32⟩) id,
    StableHlo.TRef.unary (.of main_call21_v0 : StableHlo.TRef sig ⟨S_, .f32⟩) (.of main_call21_v1 : StableHlo.TRef sig ⟨S8192, .f32⟩) (broadcastInDim S8192 ![] bcast_S_S8192),
    StableHlo.TRef.ternary (.of main_v60 : StableHlo.TRef sig ⟨S8192, .i1⟩) (.of main_v186 : StableHlo.TRef sig ⟨S8192, .f32⟩) (.of main_call21_v1 : StableHlo.TRef sig ⟨S8192, .f32⟩) (.of main_v187 : StableHlo.TRef sig ⟨S8192, .f32⟩) select,
    StableHlo.nullary main_cst_62 (constant S_ .f32 0x40000000#32),
    StableHlo.unary main_cst_62 main_v188 (broadcastInDim S8192 ![] bcast_S_S8192 : (⟨S_, .f32⟩ : BufTy).Contents (Elt F) → (⟨S8192, .f32⟩ : BufTy).Contents (Elt F)),
    StableHlo.binary main_v188 main_v24 main_v189 (mulf : (⟨S8192, .f32⟩ : BufTy).Contents (Elt F) → (⟨S8192, .f32⟩ : BufTy).Contents (Elt F) → (⟨S8192, .f32⟩ : BufTy).Contents (Elt F)),
    StableHlo.nullary main_cst_63 (constant S_ .f32 0x3F800000#32),
    StableHlo.TRef.unary (.of main_cst_63 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call22_v1 : StableHlo.TRef sig ⟨S8192, .f32⟩) (.of main_v190 : StableHlo.TRef sig ⟨S8192, .f32⟩) select,
    StableHlo.binary main_v189 main_v190 main_v191 (Host.divf : (⟨S8192, .f32⟩ : BufTy).Contents (Elt F) → (⟨S8192, .f32⟩ : BufTy).Contents (Elt F) → (⟨S8192, .f32⟩ : BufTy).Contents (Elt F)),
    StableHlo.nullary main_cst_64 (constant S_ .f32 0x00000000#32),
    StableHlo.TRef.unary (.of main_cst_64 : StableHlo.TRef sig ⟨S_, .f32⟩) (.of main_call23_v0 : StableHlo.TRef sig ⟨S_, .f32⟩) id,
    StableHlo.TRef.unary (.of main_call23_v0 : StableHlo.TRef sig ⟨S_, .f32⟩) (.of main_call23_v1 : StableHlo.TRef sig ⟨S8192, .f32⟩) (broadcastInDim S8192 ![] bcast_S_S8192),
    StableHlo.TRef.ternary (.of main_v60 : StableHlo.TRef sig ⟨S8192, .i1⟩) (.of main_v191 : StableHlo.TRef sig ⟨S8192, .f32⟩) (.of main_call23_v1 : StableHlo.TRef sig ⟨S8192, .f32⟩) (.of main_v192 : StableHlo.TRef sig ⟨S8192, .f32⟩) select,
    StableHlo.unary main_v177 main_v193 (broadcastInDim S8192x1 ![0] bcast_S8192_S8192x1_0 : (⟨S8192, .f32⟩ : BufTy).Contents (Elt F) → (⟨S8192x1, .f32⟩ : BufTy).Contents (Elt F)),
    StableHlo.unary main_v182 main_v194 (broadcastInDim S8192x1 ![0] bcast_S8192_S8192x1_0 : (⟨S8192, .f32⟩ : BufTy).Contents (Elt F) → (⟨S8192x1, .f32⟩ : BufTy).Contents (Elt F)),
    StableHlo.unary main_v73 main_v195 (broadcastInDim S8192x1 ![0] bcast_S8192_S8192x1_0 : (⟨S8192, .f32⟩ : BufTy).Contents (Elt F) → (⟨S8192x1, .f32⟩ : BufTy).Contents (Elt F)),
    StableHlo.unary main_v187 main_v196 (broadcastInDim S8192x1 ![0] bcast_S8192_S8192x1_0 : (⟨S8192, .f32⟩ : BufTy).Contents (Elt F) → (⟨S8192x1, .f32⟩ : BufTy).Contents (Elt F)),
    StableHlo.unary main_v192 main_v197 (broadcastInDim S8192x1 ![0] bcast_S8192_S8192x1_0 : (⟨S8192, .f32⟩ : BufTy).Contents (Elt F) → (⟨S8192x1, .f32⟩ : BufTy).Contents (Elt F)),
    StableHlo.unary main_v73 main_v198 (broadcastInDim S8192x1 ![0] bcast_S8192_S8192x1_0 : (⟨S8192, .f32⟩ : BufTy).Contents (Elt F) → (⟨S8192x1, .f32⟩ : BufTy).Contents (Elt F)),
    StableHlo.unary main_v73 main_v199 (broadcastInDim S8192x1 ![0] bcast_S8192_S8192x1_0 : (⟨S8192, .f32⟩ : BufTy).Contents (Elt F) → (⟨S8192x1, .f32⟩ : BufTy).Contents (Elt F)),
    StableHlo.nary ![main_v193, main_v194, main_v195, main_v196, main_v197, main_v198, main_v199] main_v200 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_65 (constant S_ .f32 0x40000000#32),
    StableHlo.unary main_cst_65 main_v201 (broadcastInDim S8192 ![] bcast_S_S8192 : (⟨S_, .f32⟩ : BufTy).Contents (Elt F) → (⟨S8192, .f32⟩ : BufTy).Contents (Elt F)),
    StableHlo.binary main_v201 main_v31 main_v202 (mulf : (⟨S8192, .f32⟩ : BufTy).Contents (Elt F) → (⟨S8192, .f32⟩ : BufTy).Contents (Elt F) → (⟨S8192, .f32⟩ : BufTy).Contents (Elt F)),
    StableHlo.binary main_v24 main_v202 main_v203 (addf : (⟨S8192, .f32⟩ : BufTy).Contents (Elt F) → (⟨S8192, .f32⟩ : BufTy).Contents (Elt F) → (⟨S8192, .f32⟩ : BufTy).Contents (Elt F)),
    StableHlo.nullary main_cst_66 (constant S_ .f32 0x40000000#32),
    StableHlo.unary main_cst_66 main_v204 (broadcastInDim S8192 ![] bcast_S_S8192 : (⟨S_, .f32⟩ : BufTy).Contents (Elt F) → (⟨S8192, .f32⟩ : BufTy).Contents (Elt F)),
    StableHlo.binary main_v204 main_v34 main_v205 (mulf : (⟨S8192, .f32⟩ : BufTy).Contents (Elt F) → (⟨S8192, .f32⟩ : BufTy).Contents (Elt F) → (⟨S8192, .f32⟩ : BufTy).Contents (Elt F)),
    StableHlo.binary main_v203 main_v205 main_v206 (addf : (⟨S8192, .f32⟩ : BufTy).Contents (Elt F) → (⟨S8192, .f32⟩ : BufTy).Contents (Elt F) → (⟨S8192, .f32⟩ : BufTy).Contents (Elt F)),
    StableHlo.nullary main_cst_67 (constant S_ .f32 0x40000000#32),
    StableHlo.unary main_cst_67 main_v207 (broadcastInDim S8192 ![] bcast_S_S8192 : (⟨S_, .f32⟩ : BufTy).Contents (Elt F) → (⟨S8192, .f32⟩ : BufTy).Contents (Elt F)),
    StableHlo.binary main_v207 main_v24 main_v208 (mulf : (⟨S8192, .f32⟩ : BufTy).Contents (Elt F) → (⟨S8192, .f32⟩ : BufTy).Contents (Elt F) → (⟨S8192, .f32⟩ : BufTy).Contents (Elt F)),
    StableHlo.nullary main_cst_68 (constant S_ .f32 0x40800000#32),
    StableHlo.unary main_cst_68 main_v209 (broadcastInDim S8192 ![] bcast_S_S8192 : (⟨S_, .f32⟩ : BufTy).Contents (Elt F) → (⟨S8192, .f32⟩ : BufTy).Contents (Elt F)),
    StableHlo.binary main_v209 main_v31 main_v210 (mulf : (⟨S8192, .f32⟩ : BufTy).Contents (Elt F) → (⟨S8192, .f32⟩ : BufTy).Contents (Elt F) → (⟨S8192, .f32⟩ : BufTy).Contents (Elt F)),
    StableHlo.binary main_v208 main_v210 main_v211 (addf : (⟨S8192, .f32⟩ : BufTy).Contents (Elt F) → (⟨S8192, .f32⟩ : BufTy).Contents (Elt F) → (⟨S8192, .f32⟩ : BufTy).Contents (Elt F)),
    StableHlo.nullary main_cst_69 (constant S_ .f32 0x40800000#32),
    StableHlo.unary main_cst_69 main_v212 (broadcastInDim S8192 ![] bcast_S_S8192 : (⟨S_, .f32⟩ : BufTy).Contents (Elt F) → (⟨S8192, .f32⟩ : BufTy).Contents (Elt F)),
    StableHlo.binary main_v212 main_v34 main_v213 (mulf : (⟨S8192, .f32⟩ : BufTy).Contents (Elt F) → (⟨S8192, .f32⟩ : BufTy).Contents (Elt F) → (⟨S8192, .f32⟩ : BufTy).Contents (Elt F)),
    StableHlo.binary main_v211 main_v213 main_v214 (addf : (⟨S8192, .f32⟩ : BufTy).Contents (Elt F) → (⟨S8192, .f32⟩ : BufTy).Contents (Elt F) → (⟨S8192, .f32⟩ : BufTy).Contents (Elt F)),
    StableHlo.nullary main_cst_70 (constant S_ .f32 0x40000000#32),
    StableHlo.unary main_cst_70 main_v215 (broadcastInDim S8192 ![] bcast_S_S8192 : (⟨S_, .f32⟩ : BufTy).Contents (Elt F) → (⟨S8192, .f32⟩ : BufTy).Contents (Elt F)),
    StableHlo.binary main_v215 main_v34 main_v216 (mulf : (⟨S8192, .f32⟩ : BufTy).Contents (Elt F) → (⟨S8192, .f32⟩ : BufTy).Contents (Elt F) → (⟨S8192, .f32⟩ : BufTy).Contents (Elt F)),
    StableHlo.nullary main_cst_71 (constant S_ .f32 0x3F800000#32),
    StableHlo.TRef.unary (.of main_cst_71 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S8192, .f32⟩) (broadcastInDim S8192 ![] bcast_S_S8192),
    StableHlo.TRef.ternary (.of main_v72 : StableHlo.TRef sig ⟨S8192, .i1⟩) (.of main_v206 : StableHlo.TRef sig ⟨S8192, .f32⟩) (.of main_call24_v1 : StableHlo.TRef sig ⟨S8192, .f32⟩) (.of main_v217 : StableHlo.TRef sig ⟨S8192, .f32⟩) select,
    StableHlo.binary main_v216 main_v217 main_v218 (Host.divf : (⟨S8192, .f32⟩ : BufTy).Contents (Elt F) → (⟨S8192, .f32⟩ : BufTy).Contents (Elt F) → (⟨S8192, .f32⟩ : BufTy).Contents (Elt F)),
    StableHlo.nullary main_cst_72 (constant S_ .f32 0x00000000#32),
    StableHlo.TRef.unary (.of main_cst_72 : StableHlo.TRef sig ⟨S_, .f32⟩) (.of main_call25_v0 : StableHlo.TRef sig ⟨S_, .f32⟩) id,
    StableHlo.TRef.unary (.of main_call25_v0 : StableHlo.TRef sig ⟨S_, .f32⟩) (.of main_call25_v1 : StableHlo.TRef sig ⟨S8192, .f32⟩) (broadcastInDim S8192 ![] bcast_S_S8192),
    StableHlo.TRef.ternary (.of main_v72 : StableHlo.TRef sig ⟨S8192, .i1⟩) (.of main_v218 : StableHlo.TRef sig ⟨S8192, .f32⟩) (.of main_call25_v1 : StableHlo.TRef sig ⟨S8192, .f32⟩) (.of main_v219 : StableHlo.TRef sig ⟨S8192, .f32⟩) select,
    StableHlo.nullary main_cst_73 (constant S_ .f32 0x40000000#32),
    StableHlo.unary main_cst_73 main_v220 (broadcastInDim S8192 ![] bcast_S_S8192 : (⟨S_, .f32⟩ : BufTy).Contents (Elt F) → (⟨S8192, .f32⟩ : BufTy).Contents (Elt F)),
    StableHlo.binary main_v220 main_v31 main_v221 (mulf : (⟨S8192, .f32⟩ : BufTy).Contents (Elt F) → (⟨S8192, .f32⟩ : BufTy).Contents (Elt F) → (⟨S8192, .f32⟩ : BufTy).Contents (Elt F)),
    StableHlo.nullary main_cst_74 (constant S_ .f32 0x40800000#32),
    StableHlo.unary main_cst_74 main_v222 (broadcastInDim S8192 ![] bcast_S_S8192 : (⟨S_, .f32⟩ : BufTy).Contents (Elt F) → (⟨S8192, .f32⟩ : BufTy).Contents (Elt F)),
    StableHlo.binary main_v222 main_v25 main_v223 (mulf : (⟨S8192, .f32⟩ : BufTy).Contents (Elt F) → (⟨S8192, .f32⟩ : BufTy).Contents (Elt F) → (⟨S8192, .f32⟩ : BufTy).Contents (Elt F)) ]
set_option maxRecDepth 8192 in
/-- Each operation of window 4 touches TensorCore references only. -/
theorem ops4_sub : (ops4 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

set_option maxRecDepth 8192 in
set_option maxHeartbeats 40000000 in
/-- Window 5: 72 operations. -/
abbrev ops5 : List (HloOp τ sig (Elt F)) :=
  [ StableHlo.binary main_v221 main_v223 main_v224 (addf : (⟨S8192, .f32⟩ : BufTy).Contents (Elt F) → (⟨S8192, .f32⟩ : BufTy).Contents (Elt F) → (⟨S8192, .f32⟩ : BufTy).Contents (Elt F)),
    StableHlo.binary main_v224 main_v24 main_v225 (subf : (⟨S8192, .f32⟩ : BufTy).Contents (Elt F) → (⟨S8192, .f32⟩ : BufTy).Contents (Elt F) → (⟨S8192, .f32⟩ : BufTy).Contents (Elt F)),
    StableHlo.nullary main_cst_75 (constant S_ .f32 0x3F800000#32),
    StableHlo.TRef.unary (.of main_cst_75 : StableHlo.TRef sig ⟨S_, .f32⟩) (.of main_call26_v0 : StableHlo.TRef sig ⟨S_, .f32⟩) id,
    StableHlo.TRef.unary (.of main_call26_v0 : StableHlo.TRef sig ⟨S_, .f32⟩) (.of main_call26_v1 : StableHlo.TRef sig ⟨S8192, .f32⟩) (broadcastInDim S8192 ![] bcast_S_S8192),
    StableHlo.TRef.ternary (.of main_v72 : StableHlo.TRef sig ⟨S8192, .i1⟩) (.of main_v214 : StableHlo.TRef sig ⟨S8192, .f32⟩) (.of main_call26_v1 : StableHlo.TRef sig ⟨S8192, .f32⟩) (.of main_v226 : StableHlo.TRef sig ⟨S8192, .f32⟩) select,
    StableHlo.binary main_v225 main_v226 main_v227 (Host.divf : (⟨S8192, .f32⟩ : BufTy).Contents (Elt F) → (⟨S8192, .f32⟩ : BufTy).Contents (Elt F) → (⟨S8192, .f32⟩ : BufTy).Contents (Elt F)),
    StableHlo.nullary main_cst_76 (constant S_ .f32 0x00000000#32),
    StableHlo.TRef.unary (.of main_cst_76 : StableHlo.TRef sig ⟨S_, .f32⟩) (.of main_call27_v0 : StableHlo.TRef sig ⟨S_, .f32⟩) id,
    StableHlo.TRef.unary (.of main_call27_v0 : StableHlo.TRef sig ⟨S_, .f32⟩) (.of main_call27_v1 : StableHlo.TRef sig ⟨S8192, .f32⟩) (broadcastInDim S8192 ![] bcast_S_S8192),
    StableHlo.TRef.ternary (.of main_v72 : StableHlo.TRef sig ⟨S8192, .i1⟩) (.of main_v227 : StableHlo.TRef sig ⟨S8192, .f32⟩) (.of main_call27_v1 : StableHlo.TRef sig ⟨S8192, .f32⟩) (.of main_v228 : StableHlo.TRef sig ⟨S8192, .f32⟩) select,
    StableHlo.nullary main_cst_77 (constant S_ .f32 0x40000000#32),
    StableHlo.unary main_cst_77 main_v229 (broadcastInDim S8192 ![] bcast_S_S8192 : (⟨S_, .f32⟩ : BufTy).Contents (Elt F) → (⟨S8192, .f32⟩ : BufTy).Contents (Elt F)),
    StableHlo.binary main_v229 main_v31 main_v230 (mulf : (⟨S8192, .f32⟩ : BufTy).Contents (Elt F) → (⟨S8192, .f32⟩ : BufTy).Contents (Elt F) → (⟨S8192, .f32⟩ : BufTy).Contents (Elt F)),
    StableHlo.binary main_v24 main_v230 main_v231 (addf : (⟨S8192, .f32⟩ : BufTy).Contents (Elt F) → (⟨S8192, .f32⟩ : BufTy).Contents (Elt F) → (⟨S8192, .f32⟩ : BufTy).Contents (Elt F)),
    StableHlo.nullary main_cst_78 (constant S_ .f32 0x40800000#32),
    StableHlo.unary main_cst_78 main_v232 (broadcastInDim S8192 ![] bcast_S_S8192 : (⟨S_, .f32⟩ : BufTy).Contents (Elt F) → (⟨S8192, .f32⟩ : BufTy).Contents (Elt F)),
    StableHlo.binary main_v232 main_v25 main_v233 (mulf : (⟨S8192, .f32⟩ : BufTy).Contents (Elt F) → (⟨S8192, .f32⟩ : BufTy).Contents (Elt F) → (⟨S8192, .f32⟩ : BufTy).Contents (Elt F)),
    StableHlo.binary main_v231 main_v233 main_v234 (subf : (⟨S8192, .f32⟩ : BufTy).Contents (Elt F) → (⟨S8192, .f32⟩ : BufTy).Contents (Elt F) → (⟨S8192, .f32⟩ : BufTy).Contents (Elt F)),
    StableHlo.nullary main_cst_79 (constant S_ .f32 0x3F800000#32),
    StableHlo.TRef.unary (.of main_cst_79 : StableHlo.TRef sig ⟨S_, .f32⟩) (.of main_call28_v0 : StableHlo.TRef sig ⟨S_, .f32⟩) id,
    StableHlo.TRef.unary (.of main_call28_v0 : StableHlo.TRef sig ⟨S_, .f32⟩) (.of main_call28_v1 : StableHlo.TRef sig ⟨S8192, .f32⟩) (broadcastInDim S8192 ![] bcast_S_S8192),
    StableHlo.TRef.ternary (.of main_v72 : StableHlo.TRef sig ⟨S8192, .i1⟩) (.of main_v206 : StableHlo.TRef sig ⟨S8192, .f32⟩) (.of main_call28_v1 : StableHlo.TRef sig ⟨S8192, .f32⟩) (.of main_v235 : StableHlo.TRef sig ⟨S8192, .f32⟩) select,
    StableHlo.binary main_v234 main_v235 main_v236 (Host.divf : (⟨S8192, .f32⟩ : BufTy).Contents (Elt F) → (⟨S8192, .f32⟩ : BufTy).Contents (Elt F) → (⟨S8192, .f32⟩ : BufTy).Contents (Elt F)),
    StableHlo.nullary main_cst_80 (constant S_ .f32 0x00000000#32),
    StableHlo.TRef.unary (.of main_cst_80 : StableHlo.TRef sig ⟨S_, .f32⟩) (.of main_call29_v0 : StableHlo.TRef sig ⟨S_, .f32⟩) id,
    StableHlo.TRef.unary (.of main_call29_v0 : StableHlo.TRef sig ⟨S_, .f32⟩) (.of main_call29_v1 : StableHlo.TRef sig ⟨S8192, .f32⟩) (broadcastInDim S8192 ![] bcast_S_S8192),
    StableHlo.TRef.ternary (.of main_v72 : StableHlo.TRef sig ⟨S8192, .i1⟩) (.of main_v236 : StableHlo.TRef sig ⟨S8192, .f32⟩) (.of main_call29_v1 : StableHlo.TRef sig ⟨S8192, .f32⟩) (.of main_v237 : StableHlo.TRef sig ⟨S8192, .f32⟩) select,
    StableHlo.nullary main_cst_81 (constant S_ .f32 0x40000000#32),
    StableHlo.unary main_cst_81 main_v238 (broadcastInDim S8192 ![] bcast_S_S8192 : (⟨S_, .f32⟩ : BufTy).Contents (Elt F) → (⟨S8192, .f32⟩ : BufTy).Contents (Elt F)),
    StableHlo.binary main_v238 main_v31 main_v239 (mulf : (⟨S8192, .f32⟩ : BufTy).Contents (Elt F) → (⟨S8192, .f32⟩ : BufTy).Contents (Elt F) → (⟨S8192, .f32⟩ : BufTy).Contents (Elt F)),
    StableHlo.binary main_v24 main_v239 main_v240 (subf : (⟨S8192, .f32⟩ : BufTy).Contents (Elt F) → (⟨S8192, .f32⟩ : BufTy).Contents (Elt F) → (⟨S8192, .f32⟩ : BufTy).Contents (Elt F)),
    StableHlo.nullary main_cst_82 (constant S_ .f32 0x40800000#32),
    StableHlo.unary main_cst_82 main_v241 (broadcastInDim S8192 ![] bcast_S_S8192 : (⟨S_, .f32⟩ : BufTy).Contents (Elt F) → (⟨S8192, .f32⟩ : BufTy).Contents (Elt F)),
    StableHlo.binary main_v241 main_v25 main_v242 (mulf : (⟨S8192, .f32⟩ : BufTy).Contents (Elt F) → (⟨S8192, .f32⟩ : BufTy).Contents (Elt F) → (⟨S8192, .f32⟩ : BufTy).Contents (Elt F)),
    StableHlo.binary main_v240 main_v242 main_v243 (addf : (⟨S8192, .f32⟩ : BufTy).Contents (Elt F) → (⟨S8192, .f32⟩ : BufTy).Contents (Elt F) → (⟨S8192, .f32⟩ : BufTy).Contents (Elt F)),
    StableHlo.nullary main_cst_83 (constant S_ .f32 0x3F800000#32),
    StableHlo.TRef.unary (.of main_cst_83 : StableHlo.TRef sig ⟨S_, .f32⟩) (.of main_call30_v0 : StableHlo.TRef sig ⟨S_, .f32⟩) id,
    StableHlo.TRef.unary (.of main_call30_v0 : StableHlo.TRef sig ⟨S_, .f32⟩) (.of main_call30_v1 : StableHlo.TRef sig ⟨S8192, .f32⟩) (broadcastInDim S8192 ![] bcast_S_S8192),
    StableHlo.TRef.ternary (.of main_v72 : StableHlo.TRef sig ⟨S8192, .i1⟩) (.of main_v214 : StableHlo.TRef sig ⟨S8192, .f32⟩) (.of main_call30_v1 : StableHlo.TRef sig ⟨S8192, .f32⟩) (.of main_v244 : StableHlo.TRef sig ⟨S8192, .f32⟩) select,
    StableHlo.binary main_v243 main_v244 main_v245 (Host.divf : (⟨S8192, .f32⟩ : BufTy).Contents (Elt F) → (⟨S8192, .f32⟩ : BufTy).Contents (Elt F) → (⟨S8192, .f32⟩ : BufTy).Contents (Elt F)),
    StableHlo.nullary main_cst_84 (constant S_ .f32 0x00000000#32),
    StableHlo.TRef.unary (.of main_cst_84 : StableHlo.TRef sig ⟨S_, .f32⟩) (.of main_call31_v0 : StableHlo.TRef sig ⟨S_, .f32⟩) id,
    StableHlo.TRef.unary (.of main_call31_v0 : StableHlo.TRef sig ⟨S_, .f32⟩) (.of main_call31_v1 : StableHlo.TRef sig ⟨S8192, .f32⟩) (broadcastInDim S8192 ![] bcast_S_S8192),
    StableHlo.TRef.ternary (.of main_v72 : StableHlo.TRef sig ⟨S8192, .i1⟩) (.of main_v245 : StableHlo.TRef sig ⟨S8192, .f32⟩) (.of main_call31_v1 : StableHlo.TRef sig ⟨S8192, .f32⟩) (.of main_v246 : StableHlo.TRef sig ⟨S8192, .f32⟩) select,
    StableHlo.unary main_v73 main_v247 (broadcastInDim S8192x1 ![0] bcast_S8192_S8192x1_0 : (⟨S8192, .f32⟩ : BufTy).Contents (Elt F) → (⟨S8192x1, .f32⟩ : BufTy).Contents (Elt F)),
    StableHlo.unary main_v219 main_v248 (broadcastInDim S8192x1 ![0] bcast_S8192_S8192x1_0 : (⟨S8192, .f32⟩ : BufTy).Contents (Elt F) → (⟨S8192x1, .f32⟩ : BufTy).Contents (Elt F)),
    StableHlo.unary main_v73 main_v249 (broadcastInDim S8192x1 ![0] bcast_S8192_S8192x1_0 : (⟨S8192, .f32⟩ : BufTy).Contents (Elt F) → (⟨S8192x1, .f32⟩ : BufTy).Contents (Elt F)),
    StableHlo.unary main_v228 main_v250 (broadcastInDim S8192x1 ![0] bcast_S8192_S8192x1_0 : (⟨S8192, .f32⟩ : BufTy).Contents (Elt F) → (⟨S8192x1, .f32⟩ : BufTy).Contents (Elt F)),
    StableHlo.unary main_v237 main_v251 (broadcastInDim S8192x1 ![0] bcast_S8192_S8192x1_0 : (⟨S8192, .f32⟩ : BufTy).Contents (Elt F) → (⟨S8192x1, .f32⟩ : BufTy).Contents (Elt F)),
    StableHlo.unary main_v246 main_v252 (broadcastInDim S8192x1 ![0] bcast_S8192_S8192x1_0 : (⟨S8192, .f32⟩ : BufTy).Contents (Elt F) → (⟨S8192x1, .f32⟩ : BufTy).Contents (Elt F)),
    StableHlo.unary main_v73 main_v253 (broadcastInDim S8192x1 ![0] bcast_S8192_S8192x1_0 : (⟨S8192, .f32⟩ : BufTy).Contents (Elt F) → (⟨S8192x1, .f32⟩ : BufTy).Contents (Elt F)),
    StableHlo.nary ![main_v247, main_v248, main_v249, main_v250, main_v251, main_v252, main_v253] main_v254 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.binary main_v112 main_v162 main_v255 (addf : (⟨S8192x7, .f32⟩ : BufTy).Contents (Elt F) → (⟨S8192x7, .f32⟩ : BufTy).Contents (Elt F) → (⟨S8192x7, .f32⟩ : BufTy).Contents (Elt F)),
    StableHlo.binary main_v255 main_v200 main_v256 (addf : (⟨S8192x7, .f32⟩ : BufTy).Contents (Elt F) → (⟨S8192x7, .f32⟩ : BufTy).Contents (Elt F) → (⟨S8192x7, .f32⟩ : BufTy).Contents (Elt F)),
    StableHlo.binary main_v256 main_v254 main_v257 (addf : (⟨S8192x7, .f32⟩ : BufTy).Contents (Elt F) → (⟨S8192x7, .f32⟩ : BufTy).Contents (Elt F) → (⟨S8192x7, .f32⟩ : BufTy).Contents (Elt F)),
    StableHlo.unary main_arg1 main_v258 (Host.log : (⟨S8192x7, .f32⟩ : BufTy).Contents (Elt F) → (⟨S8192x7, .f32⟩ : BufTy).Contents (Elt F)),
    StableHlo.nullary main_cst_85 (constant S_ .f32 0x3F6B3F8E#32),
    StableHlo.unary main_cst_85 main_v259 (broadcastInDim S8192x7 ![] bcast_S_S8192x7 : (⟨S_, .f32⟩ : BufTy).Contents (Elt F) → (⟨S8192x7, .f32⟩ : BufTy).Contents (Elt F)),
    StableHlo.binary main_v259 main_v258 main_v260 (addf : (⟨S8192x7, .f32⟩ : BufTy).Contents (Elt F) → (⟨S8192x7, .f32⟩ : BufTy).Contents (Elt F) → (⟨S8192x7, .f32⟩ : BufTy).Contents (Elt F)),
    StableHlo.binary main_arg0 main_v257 main_v261 (subf : (⟨S8192x7, .f32⟩ : BufTy).Contents (Elt F) → (⟨S8192x7, .f32⟩ : BufTy).Contents (Elt F) → (⟨S8192x7, .f32⟩ : BufTy).Contents (Elt F)),
    StableHlo.binary main_v261 main_v261 main_v262 (mulf : (⟨S8192x7, .f32⟩ : BufTy).Contents (Elt F) → (⟨S8192x7, .f32⟩ : BufTy).Contents (Elt F) → (⟨S8192x7, .f32⟩ : BufTy).Contents (Elt F)),
    StableHlo.binary main_arg1 main_arg1 main_v263 (mulf : (⟨S8192x7, .f32⟩ : BufTy).Contents (Elt F) → (⟨S8192x7, .f32⟩ : BufTy).Contents (Elt F) → (⟨S8192x7, .f32⟩ : BufTy).Contents (Elt F)),
    StableHlo.nullary main_cst_86 (constant S_ .f32 0x40000000#32),
    StableHlo.unary main_cst_86 main_v264 (broadcastInDim S8192x7 ![] bcast_S_S8192x7 : (⟨S_, .f32⟩ : BufTy).Contents (Elt F) → (⟨S8192x7, .f32⟩ : BufTy).Contents (Elt F)),
    StableHlo.binary main_v264 main_v263 main_v265 (mulf : (⟨S8192x7, .f32⟩ : BufTy).Contents (Elt F) → (⟨S8192x7, .f32⟩ : BufTy).Contents (Elt F) → (⟨S8192x7, .f32⟩ : BufTy).Contents (Elt F)),
    StableHlo.binary main_v262 main_v265 main_v266 (Host.divf : (⟨S8192x7, .f32⟩ : BufTy).Contents (Elt F) → (⟨S8192x7, .f32⟩ : BufTy).Contents (Elt F) → (⟨S8192x7, .f32⟩ : BufTy).Contents (Elt F)),
    StableHlo.binary main_v260 main_v266 main_v267 (addf : (⟨S8192x7, .f32⟩ : BufTy).Contents (Elt F) → (⟨S8192x7, .f32⟩ : BufTy).Contents (Elt F) → (⟨S8192x7, .f32⟩ : BufTy).Contents (Elt F)),
    StableHlo.nullary main_cst_87 (constant S_ .f32 0x00000000#32),
    StableHlo.binary main_v267 main_cst_87 main_v268 ((fun x v => Host.reduceAdd x v reducesTo_S8192x7_S_d0_1 h_S_) : (⟨S8192x7, .f32⟩ : BufTy).Contents (Elt F) → (⟨S_, .f32⟩ : BufTy).Contents (Elt F) → (⟨S_, .f32⟩ : BufTy).Contents (Elt F)),
    StableHlo.nullary main_cst_88 (constant S_ .f32 0x46000000#32),
    StableHlo.binary main_v268 main_cst_88 main_v269 (Host.divf : (⟨S_, .f32⟩ : BufTy).Contents (Elt F) → (⟨S_, .f32⟩ : BufTy).Contents (Elt F) → (⟨S_, .f32⟩ : BufTy).Contents (Elt F)) ]
set_option maxRecDepth 8192 in
/-- Each operation of window 5 touches TensorCore references only. -/
theorem ops5_sub : (ops5 : List (HloOp τ sig (Elt F))).Forall fun op => op.bufs ⊆ tcRefs τ sig :=
  ⟨binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., unary_bufs_sub .., unary_bufs_sub .., unary_bufs_sub .., unary_bufs_sub .., unary_bufs_sub .., unary_bufs_sub .., nary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., nullary_bufs_sub .., binary_bufs_sub ..⟩

set_option maxRecDepth 8192 in
set_option maxHeartbeats 40000000 in
/-- Window 6: 12 operations. -/
abbrev ops6 : List (HloOp τ sig (Elt F)) :=
  [ StableHlo.binary main_arg2 main_arg3 main_v270 (subf : (⟨S8192x4096, .f32⟩ : BufTy).Contents (Elt F) → (⟨S8192x4096, .f32⟩ : BufTy).Contents (Elt F) → (⟨S8192x4096, .f32⟩ : BufTy).Contents (Elt F)),
    StableHlo.binary main_v270 main_v270 main_v271 (mulf : (⟨S8192x4096, .f32⟩ : BufTy).Contents (Elt F) → (⟨S8192x4096, .f32⟩ : BufTy).Contents (Elt F) → (⟨S8192x4096, .f32⟩ : BufTy).Contents (Elt F)),
    StableHlo.nullary main_cst_89 (constant S_ .f32 0x00000000#32),
    StableHlo.binary main_v271 main_cst_89 main_v272 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.nullary main_cst_90 (constant S_ .f32 0x45800000#32),
    StableHlo.unary main_cst_90 main_v273 (broadcastInDim S8192 ![] bcast_S_S8192 : (⟨S_, .f32⟩ : BufTy).Contents (Elt F) → (⟨S8192, .f32⟩ : BufTy).Contents (Elt F)),
    StableHlo.binary main_v272 main_v273 main_v274 (Host.divf : (⟨S8192, .f32⟩ : BufTy).Contents (Elt F) → (⟨S8192, .f32⟩ : BufTy).Contents (Elt F) → (⟨S8192, .f32⟩ : BufTy).Contents (Elt F)),
    StableHlo.nullary main_cst_91 (constant S_ .f32 0x3CA3D70A#32),
    StableHlo.unary main_cst_91 main_v275 (broadcastInDim S8192 ![] bcast_S_S8192 : (⟨S_, .f32⟩ : BufTy).Contents (Elt F) → (⟨S8192, .f32⟩ : BufTy).Contents (Elt F)),
    StableHlo.binary main_v274 main_v275 main_v276 (Host.divf : (⟨S8192, .f32⟩ : BufTy).Contents (Elt F) → (⟨S8192, .f32⟩ : BufTy).Contents (Elt F) → (⟨S8192, .f32⟩ : BufTy).Contents (Elt F)),
    StableHlo.unary main_v269 main_v277 (broadcastInDim S8192 ![] bcast_S_S8192 : (⟨S_, .f32⟩ : BufTy).Contents (Elt F) → (⟨S8192, .f32⟩ : BufTy).Contents (Elt F)),
    StableHlo.binary main_v276 main_v277 main_v278 (addf : (⟨S8192, .f32⟩ : BufTy).Contents (Elt F) → (⟨S8192, .f32⟩ : BufTy).Contents (Elt F) → (⟨S8192, .f32⟩ : BufTy).Contents (Elt F)) ]
set_option maxRecDepth 8192 in
/-- Each operation of window 6 touches TensorCore references only. -/
theorem ops6_sub : (ops6 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub ..⟩

end Cert.ReferenceIdeal.Hand

end
-- ==== Proof.RefRun.lean ====
/-
  The reference program's run. Its @main is seven windows run one after the other, each the straight line of its
  operations (RefOps), so the whole is one straight line of 436 host operations on a signature that scopes nothing:
  every weakly fair execution terminates and leaves each buffer at the fold of the operations' results over the launch
  contents. The fold over a concatenation is the fold over the second list from the fold over the first, which is how
  the prior (windows 0 to 5) and the rest (window 6) are read apart.
-/
import proofs.«129664_j48773648614415_1_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each window is the line of its operations -/

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl
set_option maxRecDepth 8192 in
set_option maxHeartbeats 4000000 in
theorem part3_eq (c : Dev nD) : main_part3 (F := F) c = seq ops3 := rfl
set_option maxRecDepth 8192 in
set_option maxHeartbeats 4000000 in
theorem part4_eq (c : Dev nD) : main_part4 (F := F) c = seq ops4 := rfl
set_option maxRecDepth 8192 in
set_option maxHeartbeats 4000000 in
theorem part5_eq (c : Dev nD) : main_part5 (F := F) c = seq ops5 := rfl
set_option maxRecDepth 8192 in
set_option maxHeartbeats 4000000 in
theorem part6_eq (c : Dev nD) : main_part6 (F := F) c = seq ops6 := rfl

/-- The operations that compute the prior term: windows 0 to 5. -/
abbrev priorOps : List (HloOp τ sig (Elt F)) := ops0 ++ (ops1 ++ (ops2 ++ (ops3 ++ (ops4 ++ ops5))))

/-- All of @main's operations, in order. -/
abbrev allOps : List (HloOp τ sig (Elt F)) := priorOps ++ ops6

/-- @main is the line of all its operations. -/
theorem main_eq (c : Dev nD) : main (F := F) c = seq allOps := by
  show (main_part0 (F := F) c >>= fun _ => main_part1 (F := F) c >>= fun _ => main_part2 (F := F) c >>= fun _ =>
    main_part3 (F := F) c >>= fun _ => main_part4 (F := F) c >>= fun _ => main_part5 (F := F) c >>= fun _ => main_part6 (F := F) c) = _
  rw [part0_eq, part1_eq, part2_eq, part3_eq, part4_eq, part5_eq, part6_eq]
  simp only [allOps, priorOps, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} : ∀ {l₁ l₂ : List α}, l₁.Forall p → l₂.Forall p → (l₁ ++ l₂).Forall p := by
  intro l₁ l₂ h₁ h₂
  rw [List.forall_iff_forall_mem] at *
  intro x hx
  rcases List.mem_append.mp hx with h | h
  · exact h₁ x h
  · exact h₂ x h

theorem allOps_sub : (allOps : List (HloOp τ sig (Elt F))).Forall fun op => op.bufs ⊆ tcRefs τ sig :=
  forall_append (forall_append ops0_sub (forall_append ops1_sub (forall_append ops2_sub (forall_append ops3_sub
    (forall_append ops4_sub ops5_sub))))) ops6_sub

/-! ## No operation allocates -/

set_option maxRecDepth 8192 in
theorem ops0_fresh : (ops0 : List (HloOp τ sig (Elt F))).Forall fun op => op.fresh = ∅ := by
  simp only [List.Forall]; repeat' constructor
set_option maxRecDepth 8192 in
theorem ops1_fresh : (ops1 : List (HloOp τ sig (Elt F))).Forall fun op => op.fresh = ∅ := by
  simp only [List.Forall]; repeat' constructor
set_option maxRecDepth 8192 in
theorem ops2_fresh : (ops2 : List (HloOp τ sig (Elt F))).Forall fun op => op.fresh = ∅ := by
  simp only [List.Forall]; repeat' constructor
set_option maxRecDepth 8192 in
theorem ops3_fresh : (ops3 : List (HloOp τ sig (Elt F))).Forall fun op => op.fresh = ∅ := by
  simp only [List.Forall]; repeat' constructor
set_option maxRecDepth 8192 in
theorem ops4_fresh : (ops4 : List (HloOp τ sig (Elt F))).Forall fun op => op.fresh = ∅ := by
  simp only [List.Forall]; repeat' constructor
set_option maxRecDepth 8192 in
theorem ops5_fresh : (ops5 : List (HloOp τ sig (Elt F))).Forall fun op => op.fresh = ∅ := by
  simp only [List.Forall]; repeat' constructor
set_option maxRecDepth 8192 in
theorem ops6_fresh : (ops6 : List (HloOp τ sig (Elt F))).Forall fun op => op.fresh = ∅ := by
  simp only [List.Forall]; repeat' constructor

theorem allOps_fresh : ∀ op ∈ (allOps : List (HloOp τ sig (Elt F))), op.fresh = ∅ :=
  List.forall_iff_forall_mem.mp (forall_append (forall_append ops0_fresh (forall_append ops1_fresh (forall_append ops2_fresh
    (forall_append ops3_fresh (forall_append ops4_fresh ops5_fresh))))) ops6_fresh)

/-! ## The run -/

/-- From any memory with zero counters every weakly fair execution of the reference terminates, each buffer ending at the
    fold of the 436 operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after allOps (launchContents m d) (Proc.devRef .tc b) :=
  run_seq scopedRefs_eq scopedSems_eq defs main (fun _ => allOps) main_eq (fun _ => allOps_sub) m ρ (fun _ => allOps_fresh)

/-- The fold over all the operations is the fold over window 6 from the fold over the prior's. -/
theorem after_allOps (V : Valuation τ sig (Elt F)) : after allOps V = after ops6 (after priorOps V) :=
  StableHlo.after_append priorOps ops6 V

end Cert.ReferenceIdeal.Hand

end
-- ==== Proof.RefValue.lean ====
/-
  What the reference's run leaves: no operation writes an argument array, so the four arguments end as launched
  (the frame); and the result buffer holds window 6's operations applied to the arguments and to the prior term,
  the prior term being the fold of windows 0 to 5 read at its buffer:
    result = ( rowsum((a₂ - a₃)·(a₂ - a₃)) / 4096 ) / 0.02 + prior.
-/
import proofs.«129664_j48773648614415_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## No window writes an argument -/

set_option maxRecDepth 8192 in
set_option maxHeartbeats 4000000 in
theorem ops0_keeps (V : Valuation τ sig (Elt F)) :
    after ops0 V (Proc.devRef .tc main_arg0) = V (Proc.devRef .tc main_arg0)
    ∧ after ops0 V (Proc.devRef .tc main_arg1) = V (Proc.devRef .tc main_arg1)
    ∧ after ops0 V (Proc.devRef .tc main_arg2) = V (Proc.devRef .tc main_arg2)
    ∧ after ops0 V (Proc.devRef .tc main_arg3) = V (Proc.devRef .tc main_arg3) := by
  refine ⟨?_, ?_, ?_, ?_⟩ <;> (after_results_simp <;> try rfl)

set_option maxRecDepth 8192 in
set_option maxHeartbeats 4000000 in
theorem ops1_keeps (V : Valuation τ sig (Elt F)) :
    after ops1 V (Proc.devRef .tc main_arg0) = V (Proc.devRef .tc main_arg0)
    ∧ after ops1 V (Proc.devRef .tc main_arg1) = V (Proc.devRef .tc main_arg1)
    ∧ after ops1 V (Proc.devRef .tc main_arg2) = V (Proc.devRef .tc main_arg2)
    ∧ after ops1 V (Proc.devRef .tc main_arg3) = V (Proc.devRef .tc main_arg3) := by
  refine ⟨?_, ?_, ?_, ?_⟩ <;> (after_results_simp <;> try rfl)

set_option maxRecDepth 8192 in
set_option maxHeartbeats 4000000 in
theorem ops2_keeps (V : Valuation τ sig (Elt F)) :
    after ops2 V (Proc.devRef .tc main_arg0) = V (Proc.devRef .tc main_arg0)
    ∧ after ops2 V (Proc.devRef .tc main_arg1) = V (Proc.devRef .tc main_arg1)
    ∧ after ops2 V (Proc.devRef .tc main_arg2) = V (Proc.devRef .tc main_arg2)
    ∧ after ops2 V (Proc.devRef .tc main_arg3) = V (Proc.devRef .tc main_arg3) := by
  refine ⟨?_, ?_, ?_, ?_⟩ <;> (after_results_simp <;> try rfl)

set_option maxRecDepth 8192 in
set_option maxHeartbeats 4000000 in
theorem ops3_keeps (V : Valuation τ sig (Elt F)) :
    after ops3 V (Proc.devRef .tc main_arg0) = V (Proc.devRef .tc main_arg0)
    ∧ after ops3 V (Proc.devRef .tc main_arg1) = V (Proc.devRef .tc main_arg1)
    ∧ after ops3 V (Proc.devRef .tc main_arg2) = V (Proc.devRef .tc main_arg2)
    ∧ after ops3 V (Proc.devRef .tc main_arg3) = V (Proc.devRef .tc main_arg3) := by
  refine ⟨?_, ?_, ?_, ?_⟩ <;> (after_results_simp <;> try rfl)

set_option maxRecDepth 8192 in
set_option maxHeartbeats 4000000 in
theorem ops4_keeps (V : Valuation τ sig (Elt F)) :
    after ops4 V (Proc.devRef .tc main_arg0) = V (Proc.devRef .tc main_arg0)
    ∧ after ops4 V (Proc.devRef .tc main_arg1) = V (Proc.devRef .tc main_arg1)
    ∧ after ops4 V (Proc.devRef .tc main_arg2) = V (Proc.devRef .tc main_arg2)
    ∧ after ops4 V (Proc.devRef .tc main_arg3) = V (Proc.devRef .tc main_arg3) := by
  refine ⟨?_, ?_, ?_, ?_⟩ <;> (after_results_simp <;> try rfl)

set_option maxRecDepth 8192 in
set_option maxHeartbeats 4000000 in
theorem ops5_keeps (V : Valuation τ sig (Elt F)) :
    after ops5 V (Proc.devRef .tc main_arg0) = V (Proc.devRef .tc main_arg0)
    ∧ after ops5 V (Proc.devRef .tc main_arg1) = V (Proc.devRef .tc main_arg1)
    ∧ after ops5 V (Proc.devRef .tc main_arg2) = V (Proc.devRef .tc main_arg2)
    ∧ after ops5 V (Proc.devRef .tc main_arg3) = V (Proc.devRef .tc main_arg3) := by
  refine ⟨?_, ?_, ?_, ?_⟩ <;> (after_results_simp <;> try rfl)

set_option maxRecDepth 8192 in
set_option maxHeartbeats 4000000 in
theorem ops6_keeps (V : Valuation τ sig (Elt F)) :
    after ops6 V (Proc.devRef .tc main_arg0) = V (Proc.devRef .tc main_arg0)
    ∧ after ops6 V (Proc.devRef .tc main_arg1) = V (Proc.devRef .tc main_arg1)
    ∧ after ops6 V (Proc.devRef .tc main_arg2) = V (Proc.devRef .tc main_arg2)
    ∧ after ops6 V (Proc.devRef .tc main_arg3) = V (Proc.devRef .tc main_arg3) := by
  refine ⟨?_, ?_, ?_, ?_⟩ <;> (after_results_simp <;> try rfl)

/-- The prior's operations leave the four arguments as they found them. -/
theorem priorOps_keeps (V : Valuation τ sig (Elt F)) :
    after priorOps V (Proc.devRef .tc main_arg0) = V (Proc.devRef .tc main_arg0)
    ∧ after priorOps V (Proc.devRef .tc main_arg1) = V (Proc.devRef .tc main_arg1)
    ∧ after priorOps V (Proc.devRef .tc main_arg2) = V (Proc.devRef .tc main_arg2)
    ∧ after priorOps V (Proc.devRef .tc main_arg3) = V (Proc.devRef .tc main_arg3) := by
  simp only [priorOps, StableHlo.after_append]
  refine ⟨?_, ?_, ?_, ?_⟩
  · rw [(ops5_keeps _).1, (ops4_keeps _).1, (ops3_keeps _).1, (ops2_keeps _).1, (ops1_keeps _).1, (ops0_keeps _).1]
  · rw [(ops5_keeps _).2.1, (ops4_keeps _).2.1, (ops3_keeps _).2.1, (ops2_keeps _).2.1, (ops1_keeps _).2.1, (ops0_keeps _).2.1]
  · rw [(ops5_keeps _).2.2.1, (ops4_keeps _).2.2.1, (ops3_keeps _).2.2.1, (ops2_keeps _).2.2.1, (ops1_keeps _).2.2.1, (ops0_keeps _).2.2.1]
  · rw [(ops5_keeps _).2.2.2, (ops4_keeps _).2.2.2, (ops3_keeps _).2.2.2, (ops2_keeps _).2.2.2, (ops1_keeps _).2.2.2, (ops0_keeps _).2.2.2]

/-- So do all of @main's. -/
theorem allOps_keeps (V : Valuation τ sig (Elt F)) :
    after allOps V (Proc.devRef .tc main_arg0) = V (Proc.devRef .tc main_arg0)
    ∧ after allOps V (Proc.devRef .tc main_arg1) = V (Proc.devRef .tc main_arg1)
    ∧ after allOps V (Proc.devRef .tc main_arg2) = V (Proc.devRef .tc main_arg2)
    ∧ after allOps V (Proc.devRef .tc main_arg3) = V (Proc.devRef .tc main_arg3) := by
  rw [after_allOps]
  exact ⟨(ops6_keeps _).1.trans (priorOps_keeps V).1, (ops6_keeps _).2.1.trans (priorOps_keeps V).2.1,
    (ops6_keeps _).2.2.1.trans (priorOps_keeps V).2.2.1, (ops6_keeps _).2.2.2.trans (priorOps_keeps V).2.2.2⟩

/-! ## The frame -/

/-- The reference terminates and its argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0).trans (allOps_keeps (launchContents m c)).1, (h c main_arg1).trans (allOps_keeps (launchContents m c)).2.1,
      (h c main_arg2).trans (allOps_keeps (launchContents m c)).2.2.1, (h c main_arg3).trans (allOps_keeps (launchContents m c)).2.2.2⟩)
    (run m ρ)

/-! ## The result -/

/-- The prior term as the reference computes it: the fold of windows 0 to 5 over the launch contents, read at its buffer. -/
def prior (m : (ℓ : Loc nD τ sig) → Buf (Elt F) ℓ) (c : Dev nD) : Buf (Elt F) ((c.tc : Thread nD τ).loc main_v269) :=
  after priorOps (launchContents m c) (Proc.devRef .tc main_v269)

set_option maxHeartbeats 4000000 in
/-- The result buffer after the run: the row sums of the squared differences over 4096, over 0.02, plus the prior. -/
theorem result_eq (m : (ℓ : Loc nD τ sig) → Buf (Elt F) ℓ) (c : Dev nD) :
    after allOps (launchContents m c) (Proc.devRef .tc main_v278)
      = addf (Host.divf (Host.divf
            (Host.reduceAdd (mulf (subf (m ((c.tc : Thread nD τ).loc main_arg2)) (m ((c.tc : Thread nD τ).loc main_arg3)))
                (subf (m ((c.tc : Thread nD τ).loc main_arg2)) (m ((c.tc : Thread nD τ).loc main_arg3))))
              (constant S_ .f32 0x00000000#32) reducesTo_S8192x4096_S8192_d1 h_S_)
            (broadcastInDim S8192 ![] bcast_S_S8192 (constant S_ .f32 0x45800000#32)))
          (broadcastInDim S8192 ![] bcast_S_S8192 (constant S_ .f32 0x3CA3D70A#32)))
        (broadcastInDim S8192 ![] bcast_S_S8192 (prior m c)) := by
  rw [after_allOps]
  have h2 := (priorOps_keeps (launchContents m c)).2.2.1
  have h3 := (priorOps_keeps (launchContents m c)).2.2.2
  unfold prior
  generalize after priorOps (launchContents m c) = W at h2 h3 ⊢
  after_results_simp
  rw [h2, h3]

end Cert.ReferenceIdeal.Hand

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibHostRowSum.lean ====
/-
  The host's sum along axis 1 of an [a, b] array, read at a row, at the ideal values: at row r it is the initial
  value plus the sum over d of the entries (r, d).
-/
import Idealize.ShloMosaic.Lib.ValueIdx
import Idealize.ShloMosaic.PureOps.Ideal.Laws

noncomputable section

open scoped BigOperators

namespace Idealize.ShloMosaic.HostRowSum

open Idealize.ShloMosaic Idealize.ShloMosaic.ValueIdx

/-- The host's sum along axis 1 of an [a, b] array from an initial value, at row r: the initial value plus the sum of
    row r. -/
theorem hostRowsum_apply {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (r : Fin a) :
    Ideal.hostReduceAdd h' x init (ix1 r) = init + ∑ d : Fin b, x (ix2 r d) := by
  refine (Ideal.hostReduceAdd_single h' h x init (ix1 r)).trans ?_
  refine congrArg (init + ·) (Finset.sum_congr rfl fun d _ => congrArg x (funext fun ax => Fin.ext ?_))
  match ax with
  | ⟨0, _⟩ => rfl
  | ⟨1, _⟩ => rfl

/-- The host's reduce-add as the programs spell it (the initial value a rank-0 array), along axis 1 of an [a, b] array,
    at row r. -/
theorem hostReduceAdd_rows_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) x init h' hu (ix1 r) = init (Shape.Idx.first hu) + ∑ d : Fin b, x (ix2 r d) :=
  hostRowsum_apply x (init (Shape.Idx.first hu)) h' h r

end Idealize.ShloMosaic.HostRowSum

end
-- ==== Proof.MseBridge.lean ====
/-
  The two programs' mean of squared differences are one function. The kernel's output column, read as a vector, has at
  row r the sum over the row's 4096 entries of (a₂ - a₃)·(a₂ - a₃), divided by the constant 4096; the reference takes the
  host's sum along axis 1 of (a₂ - a₃)·(a₂ - a₃) from the initial value 0 and divides by the same constant broadcast. On
  the extended reals 0 + s = s, so the two agree entry by entry with no finiteness needed.
-/
import proofs.«129664_j48773648614415_1_alg».proof.Proof.ColumnValue
import proofs.«129664_j48773648614415_1_alg».proof.Proof.LibSumsAtIndex
import proofs.«129664_j48773648614415_1_alg».proof.Proof.LibHostRowSum

noncomputable section

namespace Cert.Proof.Mse

open Idealize.ShloMosaic Idealize.ShloMosaic.ValueIdx
open Cert.KernelIdeal.ColumnValue (rowMse rowMse_zero_add)

/-- The column of row means recast as a vector is the host's row sum of the squared differences over 4096. -/
theorem column_eq (a2 a3 : FVec Ideal ⟨2, ![8192, 4096]⟩ .f32)
    (hc : (⟨2, ![8192, 1]⟩ : Shape).ShapeCasts ⟨1, ![8192]⟩)
    (hr : (⟨2, ![8192, 4096]⟩ : Shape).ReducesTo [1] ⟨1, ![8192]⟩) (h0 : 0 < (⟨0, ![]⟩ : Shape).numel)
    (hb : (⟨0, ![]⟩ : Shape).BroadcastsInDim ⟨1, ![8192]⟩ (![] : Fin 0 → Fin 1)) :
    shapeCast ⟨1, ![8192]⟩ (rowMse a2 a3) hc
      = Host.divf (F := Ideal)
          (Host.reduceAdd (F := Ideal) (mulf (subf a2 a3) (subf a2 a3)) (constant ⟨0, ![]⟩ .f32 0x00000000#32) hr h0)
          (broadcastInDim ⟨1, ![8192]⟩ ![] hb (constant (F := Ideal) ⟨0, ![]⟩ .f32 0x45800000#32)) := by
  funext j
  obtain ⟨r, rfl⟩ : ∃ r : Fin 8192, j = ix1 r := ⟨j 0, eq_ix1 j⟩
  rw [SumsAtIndex.shapeCast_a1_a_apply, rowMse_zero_add]
  show _ = Ideal.div (Host.reduceAdd (F := Ideal) (mulf (subf a2 a3) (subf a2 a3)) (constant ⟨0, ![]⟩ .f32 0x00000000#32) hr h0 (ix1 r))
    (Ideal.ofBits .f32 0x45800000#32)
  rw [HostRowSum.hostReduceAdd_rows_apply _ _ hr (by decide) h0 r]
  show _ = Ideal.div (Ideal.ofBits .f32 0x00000000#32 + _) _
  rw [Ideal.ofBits_zero_f32]
  rfl

end Cert.Proof.Mse

end
-- ==== Proof.KerSegs.lean ====
/-
  The kernel program's host operations before its region, cut into the same consecutive segments as the reference's
  prior operations: the 65 stretches flattened are the segments in order.
-/
import proofs.«129664_j48773648614415_1_alg».proof.Proof.RegionDataIdeal
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Segment 0: 40 operations. -/
abbrev kseg0 : List (HloOp τ sig (Elt F)) :=
  [ StableHlo.unary main_arg0 main_v0 ((extractStridedSlice S8192x1 ![0, 0] · slices_S8192x7_S8192x1_0_0) : (⟨S8192x7, .f32⟩ : BufTy).Contents (Elt F) → (⟨S8192x1, .f32⟩ : BufTy).Contents (Elt F)),
    StableHlo.reshape main_v0 main_v1 rfl shapeCasts_S8192x1_S8192,
    StableHlo.unary main_arg0 main_v2 ((extractStridedSlice S8192x1 ![0, 1] · slices_S8192x7_S8192x1_0_1) : (⟨S8192x7, .f32⟩ : BufTy).Contents (Elt F) → (⟨S8192x1, .f32⟩ : BufTy).Contents (Elt F)),
    StableHlo.reshape main_v2 main_v3 rfl shapeCasts_S8192x1_S8192,
    StableHlo.unary main_arg0 main_v4 ((extractStridedSlice S8192x1 ![0, 2] · slices_S8192x7_S8192x1_0_2) : (⟨S8192x7, .f32⟩ : BufTy).Contents (Elt F) → (⟨S8192x1, .f32⟩ : BufTy).Contents (Elt F)),
    StableHlo.reshape main_v4 main_v5 rfl shapeCasts_S8192x1_S8192,
    StableHlo.unary main_arg0 main_v6 ((extractStridedSlice S8192x1 ![0, 3] · slices_S8192x7_S8192x1_0_3) : (⟨S8192x7, .f32⟩ : BufTy).Contents (Elt F) → (⟨S8192x1, .f32⟩ : BufTy).Contents (Elt F)),
    StableHlo.reshape main_v6 main_v7 rfl shapeCasts_S8192x1_S8192,
    StableHlo.unary main_arg0 main_v8 ((extractStridedSlice S8192x1 ![0, 4] · slices_S8192x7_S8192x1_0_4) : (⟨S8192x7, .f32⟩ : BufTy).Contents (Elt F) → (⟨S8192x1, .f32⟩ : BufTy).Contents (Elt F)),
    StableHlo.reshape main_v8 main_v9 rfl shapeCasts_S8192x1_S8192,
    StableHlo.unary main_arg0 main_v10 ((extractStridedSlice S8192x1 ![0, 5] · slices_S8192x7_S8192x1_0_5) : (⟨S8192x7, .f32⟩ : BufTy).Contents (Elt F) → (⟨S8192x1, .f32⟩ : BufTy).Contents (Elt F)),
    StableHlo.reshape main_v10 main_v11 rfl shapeCasts_S8192x1_S8192,
    StableHlo.unary main_arg0 main_v12 ((extractStridedSlice S8192x1 ![0, 6] · slices_S8192x7_S8192x1_0_6) : (⟨S8192x7, .f32⟩ : BufTy).Contents (Elt F) → (⟨S8192x1, .f32⟩ : BufTy).Contents (Elt F)),
    StableHlo.reshape main_v12 main_v13 rfl shapeCasts_S8192x1_S8192,
    StableHlo.nullary main_cst (constant S_ .f32 0x40000000#32),
    StableHlo.unary main_cst main_v14 (broadcastInDim S8192 ![] bcast_S_S8192 : (⟨S_, .f32⟩ : BufTy).Contents (Elt F) → (⟨S8192, .f32⟩ : BufTy).Contents (Elt F)),
    StableHlo.binary main_v14 main_v5 main_v15 (mulf : (⟨S8192, .f32⟩ : BufTy).Contents (Elt F) → (⟨S8192, .f32⟩ : BufTy).Contents (Elt F) → (⟨S8192, .f32⟩ : BufTy).Contents (Elt F)),
    StableHlo.nullary main_cst_0 (constant S_ .f32 0x40000000#32),
    StableHlo.unary main_cst_0 main_v16 (broadcastInDim S8192 ![] bcast_S_S8192 : (⟨S_, .f32⟩ : BufTy).Contents (Elt F) → (⟨S8192, .f32⟩ : BufTy).Contents (Elt F)),
    StableHlo.binary main_v16 main_v9 main_v17 (mulf : (⟨S8192, .f32⟩ : BufTy).Contents (Elt F) → (⟨S8192, .f32⟩ : BufTy).Contents (Elt F) → (⟨S8192, .f32⟩ : BufTy).Contents (Elt F)),
    StableHlo.binary main_v15 main_v17 main_v18 (addf : (⟨S8192, .f32⟩ : BufTy).Contents (Elt F) → (⟨S8192, .f32⟩ : BufTy).Contents (Elt F) → (⟨S8192, .f32⟩ : BufTy).Contents (Elt F)),
    StableHlo.nullary main_cst_1 (constant S_ .f32 0x40400000#32),
    StableHlo.unary main_cst_1 main_v19 (broadcastInDim S8192 ![] bcast_S_S8192 : (⟨S_, .f32⟩ : BufTy).Contents (Elt F) → (⟨S8192, .f32⟩ : BufTy).Contents (Elt F)),
    StableHlo.binary main_v19 main_v13 main_v20 (mulf : (⟨S8192, .f32⟩ : BufTy).Contents (Elt F) → (⟨S8192, .f32⟩ : BufTy).Contents (Elt F) → (⟨S8192, .f32⟩ : BufTy).Contents (Elt F)),
    StableHlo.binary main_v18 main_v20 main_v21 (addf : (⟨S8192, .f32⟩ : BufTy).Contents (Elt F) → (⟨S8192, .f32⟩ : BufTy).Contents (Elt F) → (⟨S8192, .f32⟩ : BufTy).Contents (Elt F)),
    StableHlo.nullary main_cst_2 (constant S_ .f32 0x40800000#32),
    StableHlo.unary main_cst_2 main_v22 (broadcastInDim S8192 ![] bcast_S_S8192 : (⟨S_, .f32⟩ : BufTy).Contents (Elt F) → (⟨S8192, .f32⟩ : BufTy).Contents (Elt F)),
    StableHlo.binary main_v22 main_v11 main_v23 (mulf : (⟨S8192, .f32⟩ : BufTy).Contents (Elt F) → (⟨S8192, .f32⟩ : BufTy).Contents (Elt F) → (⟨S8192, .f32⟩ : BufTy).Contents (Elt F)),
    StableHlo.binary main_v21 main_v23 main_v24 (addf : (⟨S8192, .f32⟩ : BufTy).Contents (Elt F) → (⟨S8192, .f32⟩ : BufTy).Contents (Elt F) → (⟨S8192, .f32⟩ : BufTy).Contents (Elt F)),
    StableHlo.binary main_v7 main_v11 main_v25 (addf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x40000000#32),
    StableHlo.unary main_cst_3 main_v26 (broadcastInDim S8192 ![] bcast_S_S8192 : (⟨S_, .f32⟩ : BufTy).Contents (Elt F) → (⟨S8192, .f32⟩ : BufTy).Contents (Elt F)),
    StableHlo.binary main_v26 main_v1 main_v27 (mulf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x40000000#32),
    StableHlo.unary main_cst_4 main_v28 (broadcastInDim S8192 ![] bcast_S_S8192 : (⟨S_, .f32⟩ : BufTy).Contents (Elt F) → (⟨S8192, .f32⟩ : BufTy).Contents (Elt F)),
    StableHlo.binary main_v28 main_v7 main_v29 (mulf : (⟨S8192, .f32⟩ : BufTy).Contents (Elt F) → (⟨S8192, .f32⟩ : BufTy).Contents (Elt F) → (⟨S8192, .f32⟩ : BufTy).Contents (Elt F)),
    StableHlo.binary main_v27 main_v29 main_v30 (addf : (⟨S8192, .f32⟩ : BufTy).Contents (Elt F) → (⟨S8192, .f32⟩ : BufTy).Contents (Elt F) → (⟨S8192, .f32⟩ : BufTy).Contents (Elt F)),
    StableHlo.binary main_v30 main_v9 main_v31 (addf : (⟨S8192, .f32⟩ : BufTy).Contents (Elt F) → (⟨S8192, .f32⟩ : BufTy).Contents (Elt F) → (⟨S8192, .f32⟩ : BufTy).Contents (Elt F)),
    StableHlo.nullary main_cst_5 (constant S_ .f32 0x40000000#32),
    StableHlo.unary main_cst_5 main_v32 (broadcastInDim S8192 ![] bcast_S_S8192 : (⟨S_, .f32⟩ : BufTy).Contents (Elt F) → (⟨S8192, .f32⟩ : BufTy).Contents (Elt F)) ]

set_option maxRecDepth 8192 in
set_option maxHeartbeats 40000000 in
/-- Segment 1: 40 operations. -/
abbrev kseg1 : List (HloOp τ sig (Elt F)) :=
  [ StableHlo.binary main_v32 main_v3 main_v33 (mulf : (⟨S8192, .f32⟩ : BufTy).Contents (Elt F) → (⟨S8192, .f32⟩ : BufTy).Contents (Elt F) → (⟨S8192, .f32⟩ : BufTy).Contents (Elt F)),
    StableHlo.binary main_v33 main_v13 main_v34 (addf : (⟨S8192, .f32⟩ : BufTy).Contents (Elt F) → (⟨S8192, .f32⟩ : BufTy).Contents (Elt F) → (⟨S8192, .f32⟩ : BufTy).Contents (Elt F)),
    StableHlo.nullary main_cst_6 (constant S_ .f32 0x40000000#32),
    StableHlo.unary main_cst_6 main_v35 (broadcastInDim S8192 ![] bcast_S_S8192 : (⟨S_, .f32⟩ : BufTy).Contents (Elt F) → (⟨S8192, .f32⟩ : BufTy).Contents (Elt F)),
    StableHlo.binary main_v35 main_v31 main_v36 (mulf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x40800000#32),
    StableHlo.unary main_cst_7 main_v37 (broadcastInDim S8192 ![] bcast_S_S8192 : (⟨S_, .f32⟩ : BufTy).Contents (Elt F) → (⟨S8192, .f32⟩ : BufTy).Contents (Elt F)),
    StableHlo.binary main_v37 main_v25 main_v38 (mulf : (⟨S8192, .f32⟩ : BufTy).Contents (Elt F) → (⟨S8192, .f32⟩ : BufTy).Contents (Elt F) → (⟨S8192, .f32⟩ : BufTy).Contents (Elt F)),
    StableHlo.binary main_v36 main_v38 main_v39 (addf : (⟨S8192, .f32⟩ : BufTy).Contents (Elt F) → (⟨S8192, .f32⟩ : BufTy).Contents (Elt F) → (⟨S8192, .f32⟩ : BufTy).Contents (Elt F)),
    StableHlo.binary main_v24 main_v39 main_v40 (cmpf .ogt : (⟨S8192, .f32⟩ : BufTy).Contents (Elt F) → (⟨S8192, .f32⟩ : BufTy).Contents (Elt F) → (⟨S8192, .i1⟩ : BufTy).Contents (Elt F)),
    StableHlo.nullary main_cst_8 (constant S_ .f32 0x40400000#32),
    StableHlo.unary main_cst_8 main_v41 (broadcastInDim S8192 ![] bcast_S_S8192 : (⟨S_, .f32⟩ : BufTy).Contents (Elt F) → (⟨S8192, .f32⟩ : BufTy).Contents (Elt F)),
    StableHlo.binary main_v41 main_v34 main_v42 (mulf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x40000000#32),
    StableHlo.unary main_cst_9 main_v43 (broadcastInDim S8192 ![] bcast_S_S8192 : (⟨S_, .f32⟩ : BufTy).Contents (Elt F) → (⟨S8192, .f32⟩ : BufTy).Contents (Elt F)),
    StableHlo.binary main_v43 main_v31 main_v44 (mulf : (⟨S8192, .f32⟩ : BufTy).Contents (Elt F) → (⟨S8192, .f32⟩ : BufTy).Contents (Elt F) → (⟨S8192, .f32⟩ : BufTy).Contents (Elt F)),
    StableHlo.binary main_v24 main_v44 main_v45 (subf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x40800000#32),
    StableHlo.unary main_cst_10 main_v46 (broadcastInDim S8192 ![] bcast_S_S8192 : (⟨S_, .f32⟩ : BufTy).Contents (Elt F) → (⟨S8192, .f32⟩ : BufTy).Contents (Elt F)),
    StableHlo.binary main_v46 main_v25 main_v47 (mulf : (⟨S8192, .f32⟩ : BufTy).Contents (Elt F) → (⟨S8192, .f32⟩ : BufTy).Contents (Elt F) → (⟨S8192, .f32⟩ : BufTy).Contents (Elt F)),
    StableHlo.binary main_v45 main_v47 main_v48 (subf : (⟨S8192, .f32⟩ : BufTy).Contents (Elt F) → (⟨S8192, .f32⟩ : BufTy).Contents (Elt F) → (⟨S8192, .f32⟩ : BufTy).Contents (Elt F)),
    StableHlo.binary main_v42 main_v48 main_v49 (cmpf .olt : (⟨S8192, .f32⟩ : BufTy).Contents (Elt F) → (⟨S8192, .f32⟩ : BufTy).Contents (Elt F) → (⟨S8192, .i1⟩ : BufTy).Contents (Elt F)),
    StableHlo.binary main_v40 main_v49 main_v50 (andi : (⟨S8192, .i1⟩ : BufTy).Contents (Elt F) → (⟨S8192, .i1⟩ : BufTy).Contents (Elt F) → (⟨S8192, .i1⟩ : BufTy).Contents (Elt F)),
    StableHlo.unary main_v50 main_v51 (noti : (⟨S8192, .i1⟩ : BufTy).Contents (Elt F) → (⟨S8192, .i1⟩ : BufTy).Contents (Elt F)),
    StableHlo.binary main_v40 main_v51 main_v52 (andi : (⟨S8192, .i1⟩ : BufTy).Contents (Elt F) → (⟨S8192, .i1⟩ : BufTy).Contents (Elt F) → (⟨S8192, .i1⟩ : BufTy).Contents (Elt F)),
    StableHlo.unary main_v40 main_v53 (noti : (⟨S8192, .i1⟩ : BufTy).Contents (Elt F) → (⟨S8192, .i1⟩ : BufTy).Contents (Elt F)),
    StableHlo.nullary main_cst_11 (constant S_ .f32 0x40000000#32),
    StableHlo.unary main_cst_11 main_v54 (broadcastInDim S8192 ![] bcast_S_S8192 : (⟨S_, .f32⟩ : BufTy).Contents (Elt F) → (⟨S8192, .f32⟩ : BufTy).Contents (Elt F)),
    StableHlo.binary main_v54 main_v31 main_v55 (mulf : (⟨S8192, .f32⟩ : BufTy).Contents (Elt F) → (⟨S8192, .f32⟩ : BufTy).Contents (Elt F) → (⟨S8192, .f32⟩ : BufTy).Contents (Elt F)),
    StableHlo.nullary main_cst_12 (constant S_ .f32 0x40800000#32),
    StableHlo.unary main_cst_12 main_v56 (broadcastInDim S8192 ![] bcast_S_S8192 : (⟨S_, .f32⟩ : BufTy).Contents (Elt F) → (⟨S8192, .f32⟩ : BufTy).Contents (Elt F)),
    StableHlo.binary main_v56 main_v25 main_v57 (mulf : (⟨S8192, .f32⟩ : BufTy).Contents (Elt F) → (⟨S8192, .f32⟩ : BufTy).Contents (Elt F) → (⟨S8192, .f32⟩ : BufTy).Contents (Elt F)),
    StableHlo.binary main_v24 main_v57 main_v58 (addf : (⟨S8192, .f32⟩ : BufTy).Contents (Elt F) → (⟨S8192, .f32⟩ : BufTy).Contents (Elt F) → (⟨S8192, .f32⟩ : BufTy).Contents (Elt F)),
    StableHlo.binary main_v55 main_v58 main_v59 (cmpf .ogt : (⟨S8192, .f32⟩ : BufTy).Contents (Elt F) → (⟨S8192, .f32⟩ : BufTy).Contents (Elt F) → (⟨S8192, .i1⟩ : BufTy).Contents (Elt F)),
    StableHlo.binary main_v53 main_v59 main_v60 (andi : (⟨S8192, .i1⟩ : BufTy).Contents (Elt F) → (⟨S8192, .i1⟩ : BufTy).Contents (Elt F) → (⟨S8192, .i1⟩ : BufTy).Contents (Elt F)),
    StableHlo.unary main_v40 main_v61 (noti : (⟨S8192, .i1⟩ : BufTy).Contents (Elt F) → (⟨S8192, .i1⟩ : BufTy).Contents (Elt F)),
    StableHlo.unary main_v60 main_v62 (noti : (⟨S8192, .i1⟩ : BufTy).Contents (Elt F) → (⟨S8192, .i1⟩ : BufTy).Contents (Elt F)),
    StableHlo.binary main_v61 main_v62 main_v63 (andi : (⟨S8192, .i1⟩ : BufTy).Contents (Elt F) → (⟨S8192, .i1⟩ : BufTy).Contents (Elt F) → (⟨S8192, .i1⟩ : BufTy).Contents (Elt F)),
    StableHlo.binary main_v24 main_v25 main_v64 (addf : (⟨S8192, .f32⟩ : BufTy).Contents (Elt F) → (⟨S8192, .f32⟩ : BufTy).Contents (Elt F) → (⟨S8192, .f32⟩ : BufTy).Contents (Elt F)),
    StableHlo.binary main_v64 main_v31 main_v65 (addf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 2: 40 operations. -/
abbrev kseg2 : List (HloOp τ sig (Elt F)) :=
  [ StableHlo.binary main_v65 main_v34 main_v66 (addf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x3F800000#32),
    StableHlo.unary main_cst_13 main_v67 (broadcastInDim S8192 ![] bcast_S_S8192 : (⟨S_, .f32⟩ : BufTy).Contents (Elt F) → (⟨S8192, .f32⟩ : BufTy).Contents (Elt F)),
    StableHlo.binary main_v66 main_v67 main_v68 (subf : (⟨S8192, .f32⟩ : BufTy).Contents (Elt F) → (⟨S8192, .f32⟩ : BufTy).Contents (Elt F) → (⟨S8192, .f32⟩ : BufTy).Contents (Elt F)),
    StableHlo.unary main_v68 main_v69 (Host.absf : (⟨S8192, .f32⟩ : BufTy).Contents (Elt F) → (⟨S8192, .f32⟩ : BufTy).Contents (Elt F)),
    StableHlo.nullary main_cst_14 (constant S_ .f32 0x3A83126F#32),
    StableHlo.unary main_cst_14 main_v70 (broadcastInDim S8192 ![] bcast_S_S8192 : (⟨S_, .f32⟩ : BufTy).Contents (Elt F) → (⟨S8192, .f32⟩ : BufTy).Contents (Elt F)),
    StableHlo.binary main_v69 main_v70 main_v71 (cmpf .olt : (⟨S8192, .f32⟩ : BufTy).Contents (Elt F) → (⟨S8192, .f32⟩ : BufTy).Contents (Elt F) → (⟨S8192, .i1⟩ : BufTy).Contents (Elt F)),
    StableHlo.binary main_v63 main_v71 main_v72 (andi : (⟨S8192, .i1⟩ : BufTy).Contents (Elt F) → (⟨S8192, .i1⟩ : BufTy).Contents (Elt F) → (⟨S8192, .i1⟩ : BufTy).Contents (Elt F)),
    StableHlo.nullary main_cst_15 (constant S_ .f32 0x00000000#32),
    StableHlo.unary main_cst_15 main_v73 (broadcastInDim S8192 ![] bcast_S_S8192 : (⟨S_, .f32⟩ : BufTy).Contents (Elt F) → (⟨S8192, .f32⟩ : BufTy).Contents (Elt F)),
    StableHlo.binary main_v24 main_v34 main_v74 (subf : (⟨S8192, .f32⟩ : BufTy).Contents (Elt F) → (⟨S8192, .f32⟩ : BufTy).Contents (Elt F) → (⟨S8192, .f32⟩ : BufTy).Contents (Elt F)),
    StableHlo.nullary main_cst_16 (constant S_ .f32 0x40000000#32),
    StableHlo.unary main_cst_16 main_v75 (broadcastInDim S8192 ![] bcast_S_S8192 : (⟨S_, .f32⟩ : BufTy).Contents (Elt F) → (⟨S8192, .f32⟩ : BufTy).Contents (Elt F)),
    StableHlo.binary main_v75 main_v25 main_v76 (mulf : (⟨S8192, .f32⟩ : BufTy).Contents (Elt F) → (⟨S8192, .f32⟩ : BufTy).Contents (Elt F) → (⟨S8192, .f32⟩ : BufTy).Contents (Elt F)),
    StableHlo.binary main_v74 main_v76 main_v77 (subf : (⟨S8192, .f32⟩ : BufTy).Contents (Elt F) → (⟨S8192, .f32⟩ : BufTy).Contents (Elt F) → (⟨S8192, .f32⟩ : BufTy).Contents (Elt F)),
    StableHlo.nullary main_cst_17 (constant S_ .f32 0x40000000#32),
    StableHlo.unary main_cst_17 main_v78 (broadcastInDim S8192 ![] bcast_S_S8192 : (⟨S_, .f32⟩ : BufTy).Contents (Elt F) → (⟨S8192, .f32⟩ : BufTy).Contents (Elt F)),
    StableHlo.binary main_v78 main_v31 main_v79 (mulf : (⟨S8192, .f32⟩ : BufTy).Contents (Elt F) → (⟨S8192, .f32⟩ : BufTy).Contents (Elt F) → (⟨S8192, .f32⟩ : BufTy).Contents (Elt F)),
    StableHlo.binary main_v24 main_v79 main_v80 (subf : (⟨S8192, .f32⟩ : BufTy).Contents (Elt F) → (⟨S8192, .f32⟩ : BufTy).Contents (Elt F) → (⟨S8192, .f32⟩ : BufTy).Contents (Elt F)),
    StableHlo.nullary main_cst_18 (constant S_ .f32 0x40800000#32),
    StableHlo.unary main_cst_18 main_v81 (broadcastInDim S8192 ![] bcast_S_S8192 : (⟨S_, .f32⟩ : BufTy).Contents (Elt F) → (⟨S8192, .f32⟩ : BufTy).Contents (Elt F)),
    StableHlo.binary main_v81 main_v25 main_v82 (mulf : (⟨S8192, .f32⟩ : BufTy).Contents (Elt F) → (⟨S8192, .f32⟩ : BufTy).Contents (Elt F) → (⟨S8192, .f32⟩ : BufTy).Contents (Elt F)),
    StableHlo.binary main_v80 main_v82 main_v83 (subf : (⟨S8192, .f32⟩ : BufTy).Contents (Elt F) → (⟨S8192, .f32⟩ : BufTy).Contents (Elt F) → (⟨S8192, .f32⟩ : BufTy).Contents (Elt F)),
    StableHlo.nullary main_cst_19 (constant S_ .f32 0x40400000#32),
    StableHlo.unary main_cst_19 main_v84 (broadcastInDim S8192 ![] bcast_S_S8192 : (⟨S_, .f32⟩ : BufTy).Contents (Elt F) → (⟨S8192, .f32⟩ : BufTy).Contents (Elt F)),
    StableHlo.binary main_v84 main_v34 main_v85 (mulf : (⟨S8192, .f32⟩ : BufTy).Contents (Elt F) → (⟨S8192, .f32⟩ : BufTy).Contents (Elt F) → (⟨S8192, .f32⟩ : BufTy).Contents (Elt F)),
    StableHlo.binary main_v83 main_v85 main_v86 (subf : (⟨S8192, .f32⟩ : BufTy).Contents (Elt F) → (⟨S8192, .f32⟩ : BufTy).Contents (Elt F) → (⟨S8192, .f32⟩ : BufTy).Contents (Elt F)),
    StableHlo.nullary main_cst_20 (constant S_ .f32 0x3F800000#32),
    StableHlo.TRef.unary (.of main_cst_20 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call0_v1 : StableHlo.TRef sig ⟨S8192, .f32⟩) (.of main_v87 : StableHlo.TRef sig ⟨S8192, .f32⟩) select,
    StableHlo.binary main_v86 main_v87 main_v88 (Host.divf : (⟨S8192, .f32⟩ : BufTy).Contents (Elt F) → (⟨S8192, .f32⟩ : BufTy).Contents (Elt F) → (⟨S8192, .f32⟩ : BufTy).Contents (Elt F)),
    StableHlo.nullary main_cst_21 (constant S_ .f32 0x00000000#32),
    StableHlo.TRef.unary (.of main_cst_21 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8192, .f32⟩) (broadcastInDim S8192 ![] bcast_S_S8192),
    StableHlo.TRef.ternary (.of main_v50 : StableHlo.TRef sig ⟨S8192, .i1⟩) (.of main_v88 : StableHlo.TRef sig ⟨S8192, .f32⟩) (.of main_call1_v1 : StableHlo.TRef sig ⟨S8192, .f32⟩) (.of main_v89 : StableHlo.TRef sig ⟨S8192, .f32⟩) select,
    StableHlo.nullary main_cst_22 (constant S_ .f32 0x40000000#32),
    StableHlo.unary main_cst_22 main_v90 (broadcastInDim S8192 ![] bcast_S_S8192 : (⟨S_, .f32⟩ : BufTy).Contents (Elt F) → (⟨S8192, .f32⟩ : BufTy).Contents (Elt F)),
    StableHlo.binary main_v90 main_v31 main_v91 (mulf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 3: 40 operations. -/
abbrev kseg3 : List (HloOp τ sig (Elt F)) :=
  [ StableHlo.nullary main_cst_23 (constant S_ .f32 0x3F800000#32),
    StableHlo.TRef.unary (.of main_cst_23 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call2_v1 : StableHlo.TRef sig ⟨S8192, .f32⟩) (.of main_v92 : StableHlo.TRef sig ⟨S8192, .f32⟩) select,
    StableHlo.binary main_v91 main_v92 main_v93 (Host.divf : (⟨S8192, .f32⟩ : BufTy).Contents (Elt F) → (⟨S8192, .f32⟩ : BufTy).Contents (Elt F) → (⟨S8192, .f32⟩ : BufTy).Contents (Elt F)),
    StableHlo.nullary main_cst_24 (constant S_ .f32 0x00000000#32),
    StableHlo.TRef.unary (.of main_cst_24 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8192, .f32⟩) (broadcastInDim S8192 ![] bcast_S_S8192),
    StableHlo.TRef.ternary (.of main_v50 : StableHlo.TRef sig ⟨S8192, .i1⟩) (.of main_v93 : StableHlo.TRef sig ⟨S8192, .f32⟩) (.of main_call3_v1 : StableHlo.TRef sig ⟨S8192, .f32⟩) (.of main_v94 : StableHlo.TRef sig ⟨S8192, .f32⟩) select,
    StableHlo.nullary main_cst_25 (constant S_ .f32 0x40000000#32),
    StableHlo.unary main_cst_25 main_v95 (broadcastInDim S8192 ![] bcast_S_S8192 : (⟨S_, .f32⟩ : BufTy).Contents (Elt F) → (⟨S8192, .f32⟩ : BufTy).Contents (Elt F)),
    StableHlo.binary main_v95 main_v25 main_v96 (mulf : (⟨S8192, .f32⟩ : BufTy).Contents (Elt F) → (⟨S8192, .f32⟩ : BufTy).Contents (Elt F) → (⟨S8192, .f32⟩ : BufTy).Contents (Elt F)),
    StableHlo.nullary main_cst_26 (constant S_ .f32 0x3F800000#32),
    StableHlo.TRef.unary (.of main_cst_26 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call4_v1 : StableHlo.TRef sig ⟨S8192, .f32⟩) (.of main_v97 : StableHlo.TRef sig ⟨S8192, .f32⟩) select,
    StableHlo.binary main_v96 main_v97 main_v98 (Host.divf : (⟨S8192, .f32⟩ : BufTy).Contents (Elt F) → (⟨S8192, .f32⟩ : BufTy).Contents (Elt F) → (⟨S8192, .f32⟩ : BufTy).Contents (Elt F)),
    StableHlo.nullary main_cst_27 (constant S_ .f32 0x00000000#32),
    StableHlo.TRef.unary (.of main_cst_27 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S8192, .f32⟩) (broadcastInDim S8192 ![] bcast_S_S8192),
    StableHlo.TRef.ternary (.of main_v50 : StableHlo.TRef sig ⟨S8192, .i1⟩) (.of main_v98 : StableHlo.TRef sig ⟨S8192, .f32⟩) (.of main_call5_v1 : StableHlo.TRef sig ⟨S8192, .f32⟩) (.of main_v99 : StableHlo.TRef sig ⟨S8192, .f32⟩) select,
    StableHlo.nullary main_cst_28 (constant S_ .f32 0x40000000#32),
    StableHlo.unary main_cst_28 main_v100 (broadcastInDim S8192 ![] bcast_S_S8192 : (⟨S_, .f32⟩ : BufTy).Contents (Elt F) → (⟨S8192, .f32⟩ : BufTy).Contents (Elt F)),
    StableHlo.binary main_v100 main_v34 main_v101 (mulf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x3F800000#32),
    StableHlo.TRef.unary (.of main_cst_29 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call6_v1 : StableHlo.TRef sig ⟨S8192, .f32⟩) (.of main_v102 : StableHlo.TRef sig ⟨S8192, .f32⟩) select,
    StableHlo.binary main_v101 main_v102 main_v103 (Host.divf : (⟨S8192, .f32⟩ : BufTy).Contents (Elt F) → (⟨S8192, .f32⟩ : BufTy).Contents (Elt F) → (⟨S8192, .f32⟩ : BufTy).Contents (Elt F)),
    StableHlo.nullary main_cst_30 (constant S_ .f32 0x00000000#32),
    StableHlo.TRef.unary (.of main_cst_30 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S8192, .f32⟩) (broadcastInDim S8192 ![] bcast_S_S8192),
    StableHlo.TRef.ternary (.of main_v50 : StableHlo.TRef sig ⟨S8192, .i1⟩) (.of main_v103 : StableHlo.TRef sig ⟨S8192, .f32⟩) (.of main_call7_v1 : StableHlo.TRef sig ⟨S8192, .f32⟩) (.of main_v104 : StableHlo.TRef sig ⟨S8192, .f32⟩) select,
    StableHlo.unary main_v73 main_v105 (broadcastInDim S8192x1 ![0] bcast_S8192_S8192x1_0 : (⟨S8192, .f32⟩ : BufTy).Contents (Elt F) → (⟨S8192x1, .f32⟩ : BufTy).Contents (Elt F)),
    StableHlo.unary main_v73 main_v106 (broadcastInDim S8192x1 ![0] bcast_S8192_S8192x1_0 : (⟨S8192, .f32⟩ : BufTy).Contents (Elt F) → (⟨S8192x1, .f32⟩ : BufTy).Contents (Elt F)),
    StableHlo.unary main_v89 main_v107 (broadcastInDim S8192x1 ![0] bcast_S8192_S8192x1_0 : (⟨S8192, .f32⟩ : BufTy).Contents (Elt F) → (⟨S8192x1, .f32⟩ : BufTy).Contents (Elt F)),
    StableHlo.unary main_v73 main_v108 (broadcastInDim S8192x1 ![0] bcast_S8192_S8192x1_0 : (⟨S8192, .f32⟩ : BufTy).Contents (Elt F) → (⟨S8192x1, .f32⟩ : BufTy).Contents (Elt F)),
    StableHlo.unary main_v94 main_v109 (broadcastInDim S8192x1 ![0] bcast_S8192_S8192x1_0 : (⟨S8192, .f32⟩ : BufTy).Contents (Elt F) → (⟨S8192x1, .f32⟩ : BufTy).Contents (Elt F)),
    StableHlo.unary main_v99 main_v110 (broadcastInDim S8192x1 ![0] bcast_S8192_S8192x1_0 : (⟨S8192, .f32⟩ : BufTy).Contents (Elt F) → (⟨S8192x1, .f32⟩ : BufTy).Contents (Elt F)),
    StableHlo.unary main_v104 main_v111 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 4: 42 operations. -/
abbrev kseg4 : List (HloOp τ sig (Elt F)) :=
  [ StableHlo.nary ![main_v105, main_v106, main_v107, main_v108, main_v109, main_v110, main_v111] main_v112 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_31 (constant S_ .f32 0x40000000#32),
    StableHlo.unary main_cst_31 main_v113 (broadcastInDim S8192 ![] bcast_S_S8192 : (⟨S_, .f32⟩ : BufTy).Contents (Elt F) → (⟨S8192, .f32⟩ : BufTy).Contents (Elt F)),
    StableHlo.binary main_v113 main_v25 main_v114 (mulf : (⟨S8192, .f32⟩ : BufTy).Contents (Elt F) → (⟨S8192, .f32⟩ : BufTy).Contents (Elt F) → (⟨S8192, .f32⟩ : BufTy).Contents (Elt F)),
    StableHlo.binary main_v24 main_v114 main_v115 (addf : (⟨S8192, .f32⟩ : BufTy).Contents (Elt F) → (⟨S8192, .f32⟩ : BufTy).Contents (Elt F) → (⟨S8192, .f32⟩ : BufTy).Contents (Elt F)),
    StableHlo.nullary main_cst_32 (constant S_ .f32 0x40400000#32),
    StableHlo.unary main_cst_32 main_v116 (broadcastInDim S8192 ![] bcast_S_S8192 : (⟨S_, .f32⟩ : BufTy).Contents (Elt F) → (⟨S8192, .f32⟩ : BufTy).Contents (Elt F)),
    StableHlo.binary main_v116 main_v34 main_v117 (mulf : (⟨S8192, .f32⟩ : BufTy).Contents (Elt F) → (⟨S8192, .f32⟩ : BufTy).Contents (Elt F) → (⟨S8192, .f32⟩ : BufTy).Contents (Elt F)),
    StableHlo.binary main_v115 main_v117 main_v118 (addf : (⟨S8192, .f32⟩ : BufTy).Contents (Elt F) → (⟨S8192, .f32⟩ : BufTy).Contents (Elt F) → (⟨S8192, .f32⟩ : BufTy).Contents (Elt F)),
    StableHlo.nullary main_cst_33 (constant S_ .f32 0x40800000#32),
    StableHlo.unary main_cst_33 main_v119 (broadcastInDim S8192 ![] bcast_S_S8192 : (⟨S_, .f32⟩ : BufTy).Contents (Elt F) → (⟨S8192, .f32⟩ : BufTy).Contents (Elt F)),
    StableHlo.binary main_v119 main_v31 main_v120 (mulf : (⟨S8192, .f32⟩ : BufTy).Contents (Elt F) → (⟨S8192, .f32⟩ : BufTy).Contents (Elt F) → (⟨S8192, .f32⟩ : BufTy).Contents (Elt F)),
    StableHlo.binary main_v118 main_v120 main_v121 (addf : (⟨S8192, .f32⟩ : BufTy).Contents (Elt F) → (⟨S8192, .f32⟩ : BufTy).Contents (Elt F) → (⟨S8192, .f32⟩ : BufTy).Contents (Elt F)),
    StableHlo.nullary main_cst_34 (constant S_ .f32 0x40400000#32),
    StableHlo.unary main_cst_34 main_v122 (broadcastInDim S8192 ![] bcast_S_S8192 : (⟨S_, .f32⟩ : BufTy).Contents (Elt F) → (⟨S8192, .f32⟩ : BufTy).Contents (Elt F)),
    StableHlo.binary main_v122 main_v34 main_v123 (mulf : (⟨S8192, .f32⟩ : BufTy).Contents (Elt F) → (⟨S8192, .f32⟩ : BufTy).Contents (Elt F) → (⟨S8192, .f32⟩ : BufTy).Contents (Elt F)),
    StableHlo.nullary main_cst_35 (constant S_ .f32 0x40800000#32),
    StableHlo.unary main_cst_35 main_v124 (broadcastInDim S8192 ![] bcast_S_S8192 : (⟨S_, .f32⟩ : BufTy).Contents (Elt F) → (⟨S8192, .f32⟩ : BufTy).Contents (Elt F)),
    StableHlo.binary main_v124 main_v25 main_v125 (mulf : (⟨S8192, .f32⟩ : BufTy).Contents (Elt F) → (⟨S8192, .f32⟩ : BufTy).Contents (Elt F) → (⟨S8192, .f32⟩ : BufTy).Contents (Elt F)),
    StableHlo.binary main_v123 main_v125 main_v126 (addf : (⟨S8192, .f32⟩ : BufTy).Contents (Elt F) → (⟨S8192, .f32⟩ : BufTy).Contents (Elt F) → (⟨S8192, .f32⟩ : BufTy).Contents (Elt F)),
    StableHlo.nullary main_cst_36 (constant S_ .f32 0x40000000#32),
    StableHlo.unary main_cst_36 main_v127 (broadcastInDim S8192 ![] bcast_S_S8192 : (⟨S_, .f32⟩ : BufTy).Contents (Elt F) → (⟨S8192, .f32⟩ : BufTy).Contents (Elt F)),
    StableHlo.binary main_v127 main_v31 main_v128 (mulf : (⟨S8192, .f32⟩ : BufTy).Contents (Elt F) → (⟨S8192, .f32⟩ : BufTy).Contents (Elt F) → (⟨S8192, .f32⟩ : BufTy).Contents (Elt F)),
    StableHlo.binary main_v126 main_v128 main_v129 (addf : (⟨S8192, .f32⟩ : BufTy).Contents (Elt F) → (⟨S8192, .f32⟩ : BufTy).Contents (Elt F) → (⟨S8192, .f32⟩ : BufTy).Contents (Elt F)),
    StableHlo.binary main_v129 main_v24 main_v130 (subf : (⟨S8192, .f32⟩ : BufTy).Contents (Elt F) → (⟨S8192, .f32⟩ : BufTy).Contents (Elt F) → (⟨S8192, .f32⟩ : BufTy).Contents (Elt F)),
    StableHlo.nullary main_cst_37 (constant S_ .f32 0x3F800000#32),
    StableHlo.TRef.unary (.of main_cst_37 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call8_v1 : StableHlo.TRef sig ⟨S8192, .f32⟩) (.of main_v131 : StableHlo.TRef sig ⟨S8192, .f32⟩) select,
    StableHlo.binary main_v130 main_v131 main_v132 (Host.divf : (⟨S8192, .f32⟩ : BufTy).Contents (Elt F) → (⟨S8192, .f32⟩ : BufTy).Contents (Elt F) → (⟨S8192, .f32⟩ : BufTy).Contents (Elt F)),
    StableHlo.nullary main_cst_38 (constant S_ .f32 0x00000000#32),
    StableHlo.TRef.unary (.of main_cst_38 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S8192, .f32⟩) (broadcastInDim S8192 ![] bcast_S_S8192),
    StableHlo.TRef.ternary (.of main_v52 : StableHlo.TRef sig ⟨S8192, .i1⟩) (.of main_v132 : StableHlo.TRef sig ⟨S8192, .f32⟩) (.of main_call9_v1 : StableHlo.TRef sig ⟨S8192, .f32⟩) (.of main_v133 : StableHlo.TRef sig ⟨S8192, .f32⟩) select,
    StableHlo.nullary main_cst_39 (constant S_ .f32 0x40C00000#32),
    StableHlo.unary main_cst_39 main_v134 (broadcastInDim S8192 ![] bcast_S_S8192 : (⟨S_, .f32⟩ : BufTy).Contents (Elt F) → (⟨S8192, .f32⟩ : BufTy).Contents (Elt F)),
    StableHlo.binary main_v134 main_v31 main_v135 (mulf : (⟨S8192, .f32⟩ : BufTy).Contents (Elt F) → (⟨S8192, .f32⟩ : BufTy).Contents (Elt F) → (⟨S8192, .f32⟩ : BufTy).Contents (Elt F)),
    StableHlo.nullary main_cst_40 (constant S_ .f32 0x3F800000#32),
    StableHlo.TRef.unary (.of main_cst_40 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call10_v1 : StableHlo.TRef sig ⟨S8192, .f32⟩) (.of main_v136 : StableHlo.TRef sig ⟨S8192, .f32⟩) select,
    StableHlo.binary main_v135 main_v136 main_v137 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 5: 43 operations. -/
abbrev kseg5 : List (HloOp τ sig (Elt F)) :=
  [ StableHlo.nullary main_cst_41 (constant S_ .f32 0x00000000#32),
    StableHlo.TRef.unary (.of main_cst_41 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S8192, .f32⟩) (broadcastInDim S8192 ![] bcast_S_S8192),
    StableHlo.TRef.ternary (.of main_v52 : StableHlo.TRef sig ⟨S8192, .i1⟩) (.of main_v137 : StableHlo.TRef sig ⟨S8192, .f32⟩) (.of main_call11_v1 : StableHlo.TRef sig ⟨S8192, .f32⟩) (.of main_v138 : StableHlo.TRef sig ⟨S8192, .f32⟩) select,
    StableHlo.nullary main_cst_42 (constant S_ .f32 0x40C00000#32),
    StableHlo.unary main_cst_42 main_v139 (broadcastInDim S8192 ![] bcast_S_S8192 : (⟨S_, .f32⟩ : BufTy).Contents (Elt F) → (⟨S8192, .f32⟩ : BufTy).Contents (Elt F)),
    StableHlo.binary main_v139 main_v25 main_v140 (mulf : (⟨S8192, .f32⟩ : BufTy).Contents (Elt F) → (⟨S8192, .f32⟩ : BufTy).Contents (Elt F) → (⟨S8192, .f32⟩ : BufTy).Contents (Elt F)),
    StableHlo.nullary main_cst_43 (constant S_ .f32 0x3F800000#32),
    StableHlo.TRef.unary (.of main_cst_43 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call12_v1 : StableHlo.TRef sig ⟨S8192, .f32⟩) (.of main_v141 : StableHlo.TRef sig ⟨S8192, .f32⟩) select,
    StableHlo.binary main_v140 main_v141 main_v142 (Host.divf : (⟨S8192, .f32⟩ : BufTy).Contents (Elt F) → (⟨S8192, .f32⟩ : BufTy).Contents (Elt F) → (⟨S8192, .f32⟩ : BufTy).Contents (Elt F)),
    StableHlo.nullary main_cst_44 (constant S_ .f32 0x00000000#32),
    StableHlo.TRef.unary (.of main_cst_44 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S8192, .f32⟩) (broadcastInDim S8192 ![] bcast_S_S8192),
    StableHlo.TRef.ternary (.of main_v52 : StableHlo.TRef sig ⟨S8192, .i1⟩) (.of main_v142 : StableHlo.TRef sig ⟨S8192, .f32⟩) (.of main_call13_v1 : StableHlo.TRef sig ⟨S8192, .f32⟩) (.of main_v143 : StableHlo.TRef sig ⟨S8192, .f32⟩) select,
    StableHlo.nullary main_cst_45 (constant S_ .f32 0x40000000#32),
    StableHlo.unary main_cst_45 main_v144 (broadcastInDim S8192 ![] bcast_S_S8192 : (⟨S_, .f32⟩ : BufTy).Contents (Elt F) → (⟨S8192, .f32⟩ : BufTy).Contents (Elt F)),
    StableHlo.binary main_v144 main_v24 main_v145 (mulf : (⟨S8192, .f32⟩ : BufTy).Contents (Elt F) → (⟨S8192, .f32⟩ : BufTy).Contents (Elt F) → (⟨S8192, .f32⟩ : BufTy).Contents (Elt F)),
    StableHlo.nullary main_cst_46 (constant S_ .f32 0x41000000#32),
    StableHlo.unary main_cst_46 main_v146 (broadcastInDim S8192 ![] bcast_S_S8192 : (⟨S_, .f32⟩ : BufTy).Contents (Elt F) → (⟨S8192, .f32⟩ : BufTy).Contents (Elt F)),
    StableHlo.binary main_v146 main_v25 main_v147 (mulf : (⟨S8192, .f32⟩ : BufTy).Contents (Elt F) → (⟨S8192, .f32⟩ : BufTy).Contents (Elt F) → (⟨S8192, .f32⟩ : BufTy).Contents (Elt F)),
    StableHlo.binary main_v145 main_v147 main_v148 (subf : (⟨S8192, .f32⟩ : BufTy).Contents (Elt F) → (⟨S8192, .f32⟩ : BufTy).Contents (Elt F) → (⟨S8192, .f32⟩ : BufTy).Contents (Elt F)),
    StableHlo.nullary main_cst_47 (constant S_ .f32 0x40800000#32),
    StableHlo.unary main_cst_47 main_v149 (broadcastInDim S8192 ![] bcast_S_S8192 : (⟨S_, .f32⟩ : BufTy).Contents (Elt F) → (⟨S8192, .f32⟩ : BufTy).Contents (Elt F)),
    StableHlo.binary main_v149 main_v31 main_v150 (mulf : (⟨S8192, .f32⟩ : BufTy).Contents (Elt F) → (⟨S8192, .f32⟩ : BufTy).Contents (Elt F) → (⟨S8192, .f32⟩ : BufTy).Contents (Elt F)),
    StableHlo.binary main_v148 main_v150 main_v151 (subf : (⟨S8192, .f32⟩ : BufTy).Contents (Elt F) → (⟨S8192, .f32⟩ : BufTy).Contents (Elt F) → (⟨S8192, .f32⟩ : BufTy).Contents (Elt F)),
    StableHlo.nullary main_cst_48 (constant S_ .f32 0x3F800000#32),
    StableHlo.TRef.unary (.of main_cst_48 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call14_v1 : StableHlo.TRef sig ⟨S8192, .f32⟩) (.of main_v152 : StableHlo.TRef sig ⟨S8192, .f32⟩) select,
    StableHlo.binary main_v151 main_v152 main_v153 (Host.divf : (⟨S8192, .f32⟩ : BufTy).Contents (Elt F) → (⟨S8192, .f32⟩ : BufTy).Contents (Elt F) → (⟨S8192, .f32⟩ : BufTy).Contents (Elt F)),
    StableHlo.nullary main_cst_49 (constant S_ .f32 0x00000000#32),
    StableHlo.TRef.unary (.of main_cst_49 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S8192, .f32⟩) (broadcastInDim S8192 ![] bcast_S_S8192),
    StableHlo.TRef.ternary (.of main_v52 : StableHlo.TRef sig ⟨S8192, .i1⟩) (.of main_v153 : StableHlo.TRef sig ⟨S8192, .f32⟩) (.of main_call15_v1 : StableHlo.TRef sig ⟨S8192, .f32⟩) (.of main_v154 : StableHlo.TRef sig ⟨S8192, .f32⟩) select,
    StableHlo.unary main_v73 main_v155 (broadcastInDim S8192x1 ![0] bcast_S8192_S8192x1_0 : (⟨S8192, .f32⟩ : BufTy).Contents (Elt F) → (⟨S8192x1, .f32⟩ : BufTy).Contents (Elt F)),
    StableHlo.unary main_v133 main_v156 (broadcastInDim S8192x1 ![0] bcast_S8192_S8192x1_0 : (⟨S8192, .f32⟩ : BufTy).Contents (Elt F) → (⟨S8192x1, .f32⟩ : BufTy).Contents (Elt F)),
    StableHlo.unary main_v73 main_v157 (broadcastInDim S8192x1 ![0] bcast_S8192_S8192x1_0 : (⟨S8192, .f32⟩ : BufTy).Contents (Elt F) → (⟨S8192x1, .f32⟩ : BufTy).Contents (Elt F)),
    StableHlo.unary main_v73 main_v158 (broadcastInDim S8192x1 ![0] bcast_S8192_S8192x1_0 : (⟨S8192, .f32⟩ : BufTy).Contents (Elt F) → (⟨S8192x1, .f32⟩ : BufTy).Contents (Elt F)),
    StableHlo.unary main_v138 main_v159 (broadcastInDim S8192x1 ![0] bcast_S8192_S8192x1_0 : (⟨S8192, .f32⟩ : BufTy).Contents (Elt F) → (⟨S8192x1, .f32⟩ : BufTy).Contents (Elt F)),
    StableHlo.unary main_v143 main_v160 (broadcastInDim S8192x1 ![0] bcast_S8192_S8192x1_0 : (⟨S8192, .f32⟩ : BufTy).Contents (Elt F) → (⟨S8192x1, .f32⟩ : BufTy).Contents (Elt F)),
    StableHlo.unary main_v154 main_v161 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 6: 34 operations. -/
abbrev kseg6 : List (HloOp τ sig (Elt F)) :=
  [ StableHlo.nary ![main_v155, main_v156, main_v157, main_v158, main_v159, main_v160, main_v161] main_v162 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_50 (constant S_ .f32 0x40000000#32),
    StableHlo.unary main_cst_50 main_v163 (broadcastInDim S8192 ![] bcast_S_S8192 : (⟨S_, .f32⟩ : BufTy).Contents (Elt F) → (⟨S8192, .f32⟩ : BufTy).Contents (Elt F)),
    StableHlo.binary main_v163 main_v31 main_v164 (mulf : (⟨S8192, .f32⟩ : BufTy).Contents (Elt F) → (⟨S8192, .f32⟩ : BufTy).Contents (Elt F) → (⟨S8192, .f32⟩ : BufTy).Contents (Elt F)),
    StableHlo.binary main_v24 main_v164 main_v165 (addf : (⟨S8192, .f32⟩ : BufTy).Contents (Elt F) → (⟨S8192, .f32⟩ : BufTy).Contents (Elt F) → (⟨S8192, .f32⟩ : BufTy).Contents (Elt F)),
    StableHlo.nullary main_cst_51 (constant S_ .f32 0x40000000#32),
    StableHlo.unary main_cst_51 main_v166 (broadcastInDim S8192 ![] bcast_S_S8192 : (⟨S_, .f32⟩ : BufTy).Contents (Elt F) → (⟨S8192, .f32⟩ : BufTy).Contents (Elt F)),
    StableHlo.binary main_v166 main_v34 main_v167 (mulf : (⟨S8192, .f32⟩ : BufTy).Contents (Elt F) → (⟨S8192, .f32⟩ : BufTy).Contents (Elt F) → (⟨S8192, .f32⟩ : BufTy).Contents (Elt F)),
    StableHlo.binary main_v165 main_v167 main_v168 (addf : (⟨S8192, .f32⟩ : BufTy).Contents (Elt F) → (⟨S8192, .f32⟩ : BufTy).Contents (Elt F) → (⟨S8192, .f32⟩ : BufTy).Contents (Elt F)),
    StableHlo.nullary main_cst_52 (constant S_ .f32 0x40000000#32),
    StableHlo.unary main_cst_52 main_v169 (broadcastInDim S8192 ![] bcast_S_S8192 : (⟨S_, .f32⟩ : BufTy).Contents (Elt F) → (⟨S8192, .f32⟩ : BufTy).Contents (Elt F)),
    StableHlo.binary main_v169 main_v31 main_v170 (mulf : (⟨S8192, .f32⟩ : BufTy).Contents (Elt F) → (⟨S8192, .f32⟩ : BufTy).Contents (Elt F) → (⟨S8192, .f32⟩ : BufTy).Contents (Elt F)),
    StableHlo.binary main_v170 main_v24 main_v171 (subf : (⟨S8192, .f32⟩ : BufTy).Contents (Elt F) → (⟨S8192, .f32⟩ : BufTy).Contents (Elt F) → (⟨S8192, .f32⟩ : BufTy).Contents (Elt F)),
    StableHlo.nullary main_cst_53 (constant S_ .f32 0x40800000#32),
    StableHlo.unary main_cst_53 main_v172 (broadcastInDim S8192 ![] bcast_S_S8192 : (⟨S_, .f32⟩ : BufTy).Contents (Elt F) → (⟨S8192, .f32⟩ : BufTy).Contents (Elt F)),
    StableHlo.binary main_v172 main_v25 main_v173 (mulf : (⟨S8192, .f32⟩ : BufTy).Contents (Elt F) → (⟨S8192, .f32⟩ : BufTy).Contents (Elt F) → (⟨S8192, .f32⟩ : BufTy).Contents (Elt F)),
    StableHlo.binary main_v171 main_v173 main_v174 (subf : (⟨S8192, .f32⟩ : BufTy).Contents (Elt F) → (⟨S8192, .f32⟩ : BufTy).Contents (Elt F) → (⟨S8192, .f32⟩ : BufTy).Contents (Elt F)),
    StableHlo.nullary main_cst_54 (constant S_ .f32 0x3F800000#32),
    StableHlo.TRef.unary (.of main_cst_54 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call16_v1 : StableHlo.TRef sig ⟨S8192, .f32⟩) (.of main_v175 : StableHlo.TRef sig ⟨S8192, .f32⟩) select,
    StableHlo.binary main_v174 main_v175 main_v176 (Host.divf : (⟨S8192, .f32⟩ : BufTy).Contents (Elt F) → (⟨S8192, .f32⟩ : BufTy).Contents (Elt F) → (⟨S8192, .f32⟩ : BufTy).Contents (Elt F)),
    StableHlo.nullary main_cst_55 (constant S_ .f32 0x00000000#32),
    StableHlo.TRef.unary (.of main_cst_55 : StableHlo.TRef sig ⟨S_, .f32⟩) (.of main_call17_v0 : StableHlo.TRef sig ⟨S_, .f32⟩) id,
    StableHlo.TRef.unary (.of main_call17_v0 : StableHlo.TRef sig ⟨S_, .f32⟩) (.of main_call17_v1 : StableHlo.TRef sig ⟨S8192, .f32⟩) (broadcastInDim S8192 ![] bcast_S_S8192),
    StableHlo.TRef.ternary (.of main_v60 : StableHlo.TRef sig ⟨S8192, .i1⟩) (.of main_v176 : StableHlo.TRef sig ⟨S8192, .f32⟩) (.of main_call17_v1 : StableHlo.TRef sig ⟨S8192, .f32⟩) (.of main_v177 : StableHlo.TRef sig ⟨S8192, .f32⟩) select,
    StableHlo.nullary main_cst_56 (constant S_ .f32 0x40000000#32),
    StableHlo.unary main_cst_56 main_v178 (broadcastInDim S8192 ![] bcast_S_S8192 : (⟨S_, .f32⟩ : BufTy).Contents (Elt F) → (⟨S8192, .f32⟩ : BufTy).Contents (Elt F)),
    StableHlo.binary main_v178 main_v34 main_v179 (mulf : (⟨S8192, .f32⟩ : BufTy).Contents (Elt F) → (⟨S8192, .f32⟩ : BufTy).Contents (Elt F) → (⟨S8192, .f32⟩ : BufTy).Contents (Elt F)),
    StableHlo.nullary main_cst_57 (constant S_ .f32 0x3F800000#32),
    StableHlo.TRef.unary (.of main_cst_57 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call18_v1 : StableHlo.TRef sig ⟨S8192, .f32⟩) (.of main_v180 : StableHlo.TRef sig ⟨S8192, .f32⟩) select,
    StableHlo.binary main_v179 main_v180 main_v181 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 7: 35 operations. -/
abbrev kseg7 : List (HloOp τ sig (Elt F)) :=
  [ StableHlo.nullary main_cst_58 (constant S_ .f32 0x00000000#32),
    StableHlo.TRef.unary (.of main_cst_58 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S8192, .f32⟩) (broadcastInDim S8192 ![] bcast_S_S8192),
    StableHlo.TRef.ternary (.of main_v60 : StableHlo.TRef sig ⟨S8192, .i1⟩) (.of main_v181 : StableHlo.TRef sig ⟨S8192, .f32⟩) (.of main_call19_v1 : StableHlo.TRef sig ⟨S8192, .f32⟩) (.of main_v182 : StableHlo.TRef sig ⟨S8192, .f32⟩) select,
    StableHlo.nullary main_cst_59 (constant S_ .f32 0x40800000#32),
    StableHlo.unary main_cst_59 main_v183 (broadcastInDim S8192 ![] bcast_S_S8192 : (⟨S_, .f32⟩ : BufTy).Contents (Elt F) → (⟨S8192, .f32⟩ : BufTy).Contents (Elt F)),
    StableHlo.binary main_v183 main_v25 main_v184 (mulf : (⟨S8192, .f32⟩ : BufTy).Contents (Elt F) → (⟨S8192, .f32⟩ : BufTy).Contents (Elt F) → (⟨S8192, .f32⟩ : BufTy).Contents (Elt F)),
    StableHlo.nullary main_cst_60 (constant S_ .f32 0x3F800000#32),
    StableHlo.TRef.unary (.of main_cst_60 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call20_v1 : StableHlo.TRef sig ⟨S8192, .f32⟩) (.of main_v185 : StableHlo.TRef sig ⟨S8192, .f32⟩) select,
    StableHlo.binary main_v184 main_v185 main_v186 (Host.divf : (⟨S8192, .f32⟩ : BufTy).Contents (Elt F) → (⟨S8192, .f32⟩ : BufTy).Contents (Elt F) → (⟨S8192, .f32⟩ : BufTy).Contents (Elt F)),
    StableHlo.nullary main_cst_61 (constant S_ .f32 0x00000000#32),
    StableHlo.TRef.unary (.of main_cst_61 : StableHlo.TRef sig ⟨S_, .f32⟩) (.of main_call21_v0 : StableHlo.TRef sig ⟨S_, .f32⟩) id,
    StableHlo.TRef.unary (.of main_call21_v0 : StableHlo.TRef sig ⟨S_, .f32⟩) (.of main_call21_v1 : StableHlo.TRef sig ⟨S8192, .f32⟩) (broadcastInDim S8192 ![] bcast_S_S8192),
    StableHlo.TRef.ternary (.of main_v60 : StableHlo.TRef sig ⟨S8192, .i1⟩) (.of main_v186 : StableHlo.TRef sig ⟨S8192, .f32⟩) (.of main_call21_v1 : StableHlo.TRef sig ⟨S8192, .f32⟩) (.of main_v187 : StableHlo.TRef sig ⟨S8192, .f32⟩) select,
    StableHlo.nullary main_cst_62 (constant S_ .f32 0x40000000#32),
    StableHlo.unary main_cst_62 main_v188 (broadcastInDim S8192 ![] bcast_S_S8192 : (⟨S_, .f32⟩ : BufTy).Contents (Elt F) → (⟨S8192, .f32⟩ : BufTy).Contents (Elt F)),
    StableHlo.binary main_v188 main_v24 main_v189 (mulf : (⟨S8192, .f32⟩ : BufTy).Contents (Elt F) → (⟨S8192, .f32⟩ : BufTy).Contents (Elt F) → (⟨S8192, .f32⟩ : BufTy).Contents (Elt F)),
    StableHlo.nullary main_cst_63 (constant S_ .f32 0x3F800000#32),
    StableHlo.TRef.unary (.of main_cst_63 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call22_v1 : StableHlo.TRef sig ⟨S8192, .f32⟩) (.of main_v190 : StableHlo.TRef sig ⟨S8192, .f32⟩) select,
    StableHlo.binary main_v189 main_v190 main_v191 (Host.divf : (⟨S8192, .f32⟩ : BufTy).Contents (Elt F) → (⟨S8192, .f32⟩ : BufTy).Contents (Elt F) → (⟨S8192, .f32⟩ : BufTy).Contents (Elt F)),
    StableHlo.nullary main_cst_64 (constant S_ .f32 0x00000000#32),
    StableHlo.TRef.unary (.of main_cst_64 : StableHlo.TRef sig ⟨S_, .f32⟩) (.of main_call23_v0 : StableHlo.TRef sig ⟨S_, .f32⟩) id,
    StableHlo.TRef.unary (.of main_call23_v0 : StableHlo.TRef sig ⟨S_, .f32⟩) (.of main_call23_v1 : StableHlo.TRef sig ⟨S8192, .f32⟩) (broadcastInDim S8192 ![] bcast_S_S8192),
    StableHlo.TRef.ternary (.of main_v60 : StableHlo.TRef sig ⟨S8192, .i1⟩) (.of main_v191 : StableHlo.TRef sig ⟨S8192, .f32⟩) (.of main_call23_v1 : StableHlo.TRef sig ⟨S8192, .f32⟩) (.of main_v192 : StableHlo.TRef sig ⟨S8192, .f32⟩) select,
    StableHlo.unary main_v177 main_v193 (broadcastInDim S8192x1 ![0] bcast_S8192_S8192x1_0 : (⟨S8192, .f32⟩ : BufTy).Contents (Elt F) → (⟨S8192x1, .f32⟩ : BufTy).Contents (Elt F)),
    StableHlo.unary main_v182 main_v194 (broadcastInDim S8192x1 ![0] bcast_S8192_S8192x1_0 : (⟨S8192, .f32⟩ : BufTy).Contents (Elt F) → (⟨S8192x1, .f32⟩ : BufTy).Contents (Elt F)),
    StableHlo.unary main_v73 main_v195 (broadcastInDim S8192x1 ![0] bcast_S8192_S8192x1_0 : (⟨S8192, .f32⟩ : BufTy).Contents (Elt F) → (⟨S8192x1, .f32⟩ : BufTy).Contents (Elt F)),
    StableHlo.unary main_v187 main_v196 (broadcastInDim S8192x1 ![0] bcast_S8192_S8192x1_0 : (⟨S8192, .f32⟩ : BufTy).Contents (Elt F) → (⟨S8192x1, .f32⟩ : BufTy).Contents (Elt F)),
    StableHlo.unary main_v192 main_v197 (broadcastInDim S8192x1 ![0] bcast_S8192_S8192x1_0 : (⟨S8192, .f32⟩ : BufTy).Contents (Elt F) → (⟨S8192x1, .f32⟩ : BufTy).Contents (Elt F)),
    StableHlo.unary main_v73 main_v198 (broadcastInDim S8192x1 ![0] bcast_S8192_S8192x1_0 : (⟨S8192, .f32⟩ : BufTy).Contents (Elt F) → (⟨S8192x1, .f32⟩ : BufTy).Contents (Elt F)),
    StableHlo.unary main_v73 main_v199 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 8: 45 operations. -/
abbrev kseg8 : List (HloOp τ sig (Elt F)) :=
  [ StableHlo.nary ![main_v193, main_v194, main_v195, main_v196, main_v197, main_v198, main_v199] main_v200 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_65 (constant S_ .f32 0x40000000#32),
    StableHlo.unary main_cst_65 main_v201 (broadcastInDim S8192 ![] bcast_S_S8192 : (⟨S_, .f32⟩ : BufTy).Contents (Elt F) → (⟨S8192, .f32⟩ : BufTy).Contents (Elt F)),
    StableHlo.binary main_v201 main_v31 main_v202 (mulf : (⟨S8192, .f32⟩ : BufTy).Contents (Elt F) → (⟨S8192, .f32⟩ : BufTy).Contents (Elt F) → (⟨S8192, .f32⟩ : BufTy).Contents (Elt F)),
    StableHlo.binary main_v24 main_v202 main_v203 (addf : (⟨S8192, .f32⟩ : BufTy).Contents (Elt F) → (⟨S8192, .f32⟩ : BufTy).Contents (Elt F) → (⟨S8192, .f32⟩ : BufTy).Contents (Elt F)),
    StableHlo.nullary main_cst_66 (constant S_ .f32 0x40000000#32),
    StableHlo.unary main_cst_66 main_v204 (broadcastInDim S8192 ![] bcast_S_S8192 : (⟨S_, .f32⟩ : BufTy).Contents (Elt F) → (⟨S8192, .f32⟩ : BufTy).Contents (Elt F)),
    StableHlo.binary main_v204 main_v34 main_v205 (mulf : (⟨S8192, .f32⟩ : BufTy).Contents (Elt F) → (⟨S8192, .f32⟩ : BufTy).Contents (Elt F) → (⟨S8192, .f32⟩ : BufTy).Contents (Elt F)),
    StableHlo.binary main_v203 main_v205 main_v206 (addf : (⟨S8192, .f32⟩ : BufTy).Contents (Elt F) → (⟨S8192, .f32⟩ : BufTy).Contents (Elt F) → (⟨S8192, .f32⟩ : BufTy).Contents (Elt F)),
    StableHlo.nullary main_cst_67 (constant S_ .f32 0x40000000#32),
    StableHlo.unary main_cst_67 main_v207 (broadcastInDim S8192 ![] bcast_S_S8192 : (⟨S_, .f32⟩ : BufTy).Contents (Elt F) → (⟨S8192, .f32⟩ : BufTy).Contents (Elt F)),
    StableHlo.binary main_v207 main_v24 main_v208 (mulf : (⟨S8192, .f32⟩ : BufTy).Contents (Elt F) → (⟨S8192, .f32⟩ : BufTy).Contents (Elt F) → (⟨S8192, .f32⟩ : BufTy).Contents (Elt F)),
    StableHlo.nullary main_cst_68 (constant S_ .f32 0x40800000#32),
    StableHlo.unary main_cst_68 main_v209 (broadcastInDim S8192 ![] bcast_S_S8192 : (⟨S_, .f32⟩ : BufTy).Contents (Elt F) → (⟨S8192, .f32⟩ : BufTy).Contents (Elt F)),
    StableHlo.binary main_v209 main_v31 main_v210 (mulf : (⟨S8192, .f32⟩ : BufTy).Contents (Elt F) → (⟨S8192, .f32⟩ : BufTy).Contents (Elt F) → (⟨S8192, .f32⟩ : BufTy).Contents (Elt F)),
    StableHlo.binary main_v208 main_v210 main_v211 (addf : (⟨S8192, .f32⟩ : BufTy).Contents (Elt F) → (⟨S8192, .f32⟩ : BufTy).Contents (Elt F) → (⟨S8192, .f32⟩ : BufTy).Contents (Elt F)),
    StableHlo.nullary main_cst_69 (constant S_ .f32 0x40800000#32),
    StableHlo.unary main_cst_69 main_v212 (broadcastInDim S8192 ![] bcast_S_S8192 : (⟨S_, .f32⟩ : BufTy).Contents (Elt F) → (⟨S8192, .f32⟩ : BufTy).Contents (Elt F)),
    StableHlo.binary main_v212 main_v34 main_v213 (mulf : (⟨S8192, .f32⟩ : BufTy).Contents (Elt F) → (⟨S8192, .f32⟩ : BufTy).Contents (Elt F) → (⟨S8192, .f32⟩ : BufTy).Contents (Elt F)),
    StableHlo.binary main_v211 main_v213 main_v214 (addf : (⟨S8192, .f32⟩ : BufTy).Contents (Elt F) → (⟨S8192, .f32⟩ : BufTy).Contents (Elt F) → (⟨S8192, .f32⟩ : BufTy).Contents (Elt F)),
    StableHlo.nullary main_cst_70 (constant S_ .f32 0x40000000#32),
    StableHlo.unary main_cst_70 main_v215 (broadcastInDim S8192 ![] bcast_S_S8192 : (⟨S_, .f32⟩ : BufTy).Contents (Elt F) → (⟨S8192, .f32⟩ : BufTy).Contents (Elt F)),
    StableHlo.binary main_v215 main_v34 main_v216 (mulf : (⟨S8192, .f32⟩ : BufTy).Contents (Elt F) → (⟨S8192, .f32⟩ : BufTy).Contents (Elt F) → (⟨S8192, .f32⟩ : BufTy).Contents (Elt F)),
    StableHlo.nullary main_cst_71 (constant S_ .f32 0x3F800000#32),
    StableHlo.TRef.unary (.of main_cst_71 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S8192, .f32⟩) (broadcastInDim S8192 ![] bcast_S_S8192),
    StableHlo.TRef.ternary (.of main_v72 : StableHlo.TRef sig ⟨S8192, .i1⟩) (.of main_v206 : StableHlo.TRef sig ⟨S8192, .f32⟩) (.of main_call24_v1 : StableHlo.TRef sig ⟨S8192, .f32⟩) (.of main_v217 : StableHlo.TRef sig ⟨S8192, .f32⟩) select,
    StableHlo.binary main_v216 main_v217 main_v218 (Host.divf : (⟨S8192, .f32⟩ : BufTy).Contents (Elt F) → (⟨S8192, .f32⟩ : BufTy).Contents (Elt F) → (⟨S8192, .f32⟩ : BufTy).Contents (Elt F)),
    StableHlo.nullary main_cst_72 (constant S_ .f32 0x00000000#32),
    StableHlo.TRef.unary (.of main_cst_72 : StableHlo.TRef sig ⟨S_, .f32⟩) (.of main_call25_v0 : StableHlo.TRef sig ⟨S_, .f32⟩) id,
    StableHlo.TRef.unary (.of main_call25_v0 : StableHlo.TRef sig ⟨S_, .f32⟩) (.of main_call25_v1 : StableHlo.TRef sig ⟨S8192, .f32⟩) (broadcastInDim S8192 ![] bcast_S_S8192),
    StableHlo.TRef.ternary (.of main_v72 : StableHlo.TRef sig ⟨S8192, .i1⟩) (.of main_v218 : StableHlo.TRef sig ⟨S8192, .f32⟩) (.of main_call25_v1 : StableHlo.TRef sig ⟨S8192, .f32⟩) (.of main_v219 : StableHlo.TRef sig ⟨S8192, .f32⟩) select,
    StableHlo.nullary main_cst_73 (constant S_ .f32 0x40000000#32),
    StableHlo.unary main_cst_73 main_v220 (broadcastInDim S8192 ![] bcast_S_S8192 : (⟨S_, .f32⟩ : BufTy).Contents (Elt F) → (⟨S8192, .f32⟩ : BufTy).Contents (Elt F)),
    StableHlo.binary main_v220 main_v31 main_v221 (mulf : (⟨S8192, .f32⟩ : BufTy).Contents (Elt F) → (⟨S8192, .f32⟩ : BufTy).Contents (Elt F) → (⟨S8192, .f32⟩ : BufTy).Contents (Elt F)),
    StableHlo.nullary main_cst_74 (constant S_ .f32 0x40800000#32),
    StableHlo.unary main_cst_74 main_v222 (broadcastInDim S8192 ![] bcast_S_S8192 : (⟨S_, .f32⟩ : BufTy).Contents (Elt F) → (⟨S8192, .f32⟩ : BufTy).Contents (Elt F)),
    StableHlo.binary main_v222 main_v25 main_v223 (mulf : (⟨S8192, .f32⟩ : BufTy).Contents (Elt F) → (⟨S8192, .f32⟩ : BufTy).Contents (Elt F) → (⟨S8192, .f32⟩ : BufTy).Contents (Elt F)),
    StableHlo.binary main_v221 main_v223 main_v224 (addf : (⟨S8192, .f32⟩ : BufTy).Contents (Elt F) → (⟨S8192, .f32⟩ : BufTy).Contents (Elt F) → (⟨S8192, .f32⟩ : BufTy).Contents (Elt F)),
    StableHlo.binary main_v224 main_v24 main_v225 (subf : (⟨S8192, .f32⟩ : BufTy).Contents (Elt F) → (⟨S8192, .f32⟩ : BufTy).Contents (Elt F) → (⟨S8192, .f32⟩ : BufTy).Contents (Elt F)),
    StableHlo.nullary main_cst_75 (constant S_ .f32 0x3F800000#32),
    StableHlo.TRef.unary (.of main_cst_75 : StableHlo.TRef sig ⟨S_, .f32⟩) (.of main_call26_v0 : StableHlo.TRef sig ⟨S_, .f32⟩) id,
    StableHlo.TRef.unary (.of main_call26_v0 : StableHlo.TRef sig ⟨S_, .f32⟩) (.of main_call26_v1 : StableHlo.TRef sig ⟨S8192, .f32⟩) (broadcastInDim S8192 ![] bcast_S_S8192),
    StableHlo.TRef.ternary (.of main_v72 : StableHlo.TRef sig ⟨S8192, .i1⟩) (.of main_v214 : StableHlo.TRef sig ⟨S8192, .f32⟩) (.of main_call26_v1 : StableHlo.TRef sig ⟨S8192, .f32⟩) (.of main_v226 : StableHlo.TRef sig ⟨S8192, .f32⟩) select,
    StableHlo.binary main_v225 main_v226 main_v227 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 9: 45 operations. -/
abbrev kseg9 : List (HloOp τ sig (Elt F)) :=
  [ StableHlo.nullary main_cst_76 (constant S_ .f32 0x00000000#32),
    StableHlo.TRef.unary (.of main_cst_76 : StableHlo.TRef sig ⟨S_, .f32⟩) (.of main_call27_v0 : StableHlo.TRef sig ⟨S_, .f32⟩) id,
    StableHlo.TRef.unary (.of main_call27_v0 : StableHlo.TRef sig ⟨S_, .f32⟩) (.of main_call27_v1 : StableHlo.TRef sig ⟨S8192, .f32⟩) (broadcastInDim S8192 ![] bcast_S_S8192),
    StableHlo.TRef.ternary (.of main_v72 : StableHlo.TRef sig ⟨S8192, .i1⟩) (.of main_v227 : StableHlo.TRef sig ⟨S8192, .f32⟩) (.of main_call27_v1 : StableHlo.TRef sig ⟨S8192, .f32⟩) (.of main_v228 : StableHlo.TRef sig ⟨S8192, .f32⟩) select,
    StableHlo.nullary main_cst_77 (constant S_ .f32 0x40000000#32),
    StableHlo.unary main_cst_77 main_v229 (broadcastInDim S8192 ![] bcast_S_S8192 : (⟨S_, .f32⟩ : BufTy).Contents (Elt F) → (⟨S8192, .f32⟩ : BufTy).Contents (Elt F)),
    StableHlo.binary main_v229 main_v31 main_v230 (mulf : (⟨S8192, .f32⟩ : BufTy).Contents (Elt F) → (⟨S8192, .f32⟩ : BufTy).Contents (Elt F) → (⟨S8192, .f32⟩ : BufTy).Contents (Elt F)),
    StableHlo.binary main_v24 main_v230 main_v231 (addf : (⟨S8192, .f32⟩ : BufTy).Contents (Elt F) → (⟨S8192, .f32⟩ : BufTy).Contents (Elt F) → (⟨S8192, .f32⟩ : BufTy).Contents (Elt F)),
    StableHlo.nullary main_cst_78 (constant S_ .f32 0x40800000#32),
    StableHlo.unary main_cst_78 main_v232 (broadcastInDim S8192 ![] bcast_S_S8192 : (⟨S_, .f32⟩ : BufTy).Contents (Elt F) → (⟨S8192, .f32⟩ : BufTy).Contents (Elt F)),
    StableHlo.binary main_v232 main_v25 main_v233 (mulf : (⟨S8192, .f32⟩ : BufTy).Contents (Elt F) → (⟨S8192, .f32⟩ : BufTy).Contents (Elt F) → (⟨S8192, .f32⟩ : BufTy).Contents (Elt F)),
    StableHlo.binary main_v231 main_v233 main_v234 (subf : (⟨S8192, .f32⟩ : BufTy).Contents (Elt F) → (⟨S8192, .f32⟩ : BufTy).Contents (Elt F) → (⟨S8192, .f32⟩ : BufTy).Contents (Elt F)),
    StableHlo.nullary main_cst_79 (constant S_ .f32 0x3F800000#32),
    StableHlo.TRef.unary (.of main_cst_79 : StableHlo.TRef sig ⟨S_, .f32⟩) (.of main_call28_v0 : StableHlo.TRef sig ⟨S_, .f32⟩) id,
    StableHlo.TRef.unary (.of main_call28_v0 : StableHlo.TRef sig ⟨S_, .f32⟩) (.of main_call28_v1 : StableHlo.TRef sig ⟨S8192, .f32⟩) (broadcastInDim S8192 ![] bcast_S_S8192),
    StableHlo.TRef.ternary (.of main_v72 : StableHlo.TRef sig ⟨S8192, .i1⟩) (.of main_v206 : StableHlo.TRef sig ⟨S8192, .f32⟩) (.of main_call28_v1 : StableHlo.TRef sig ⟨S8192, .f32⟩) (.of main_v235 : StableHlo.TRef sig ⟨S8192, .f32⟩) select,
    StableHlo.binary main_v234 main_v235 main_v236 (Host.divf : (⟨S8192, .f32⟩ : BufTy).Contents (Elt F) → (⟨S8192, .f32⟩ : BufTy).Contents (Elt F) → (⟨S8192, .f32⟩ : BufTy).Contents (Elt F)),
    StableHlo.nullary main_cst_80 (constant S_ .f32 0x00000000#32),
    StableHlo.TRef.unary (.of main_cst_80 : StableHlo.TRef sig ⟨S_, .f32⟩) (.of main_call29_v0 : StableHlo.TRef sig ⟨S_, .f32⟩) id,
    StableHlo.TRef.unary (.of main_call29_v0 : StableHlo.TRef sig ⟨S_, .f32⟩) (.of main_call29_v1 : StableHlo.TRef sig ⟨S8192, .f32⟩) (broadcastInDim S8192 ![] bcast_S_S8192),
    StableHlo.TRef.ternary (.of main_v72 : StableHlo.TRef sig ⟨S8192, .i1⟩) (.of main_v236 : StableHlo.TRef sig ⟨S8192, .f32⟩) (.of main_call29_v1 : StableHlo.TRef sig ⟨S8192, .f32⟩) (.of main_v237 : StableHlo.TRef sig ⟨S8192, .f32⟩) select,
    StableHlo.nullary main_cst_81 (constant S_ .f32 0x40000000#32),
    StableHlo.unary main_cst_81 main_v238 (broadcastInDim S8192 ![] bcast_S_S8192 : (⟨S_, .f32⟩ : BufTy).Contents (Elt F) → (⟨S8192, .f32⟩ : BufTy).Contents (Elt F)),
    StableHlo.binary main_v238 main_v31 main_v239 (mulf : (⟨S8192, .f32⟩ : BufTy).Contents (Elt F) → (⟨S8192, .f32⟩ : BufTy).Contents (Elt F) → (⟨S8192, .f32⟩ : BufTy).Contents (Elt F)),
    StableHlo.binary main_v24 main_v239 main_v240 (subf : (⟨S8192, .f32⟩ : BufTy).Contents (Elt F) → (⟨S8192, .f32⟩ : BufTy).Contents (Elt F) → (⟨S8192, .f32⟩ : BufTy).Contents (Elt F)),
    StableHlo.nullary main_cst_82 (constant S_ .f32 0x40800000#32),
    StableHlo.unary main_cst_82 main_v241 (broadcastInDim S8192 ![] bcast_S_S8192 : (⟨S_, .f32⟩ : BufTy).Contents (Elt F) → (⟨S8192, .f32⟩ : BufTy).Contents (Elt F)),
    StableHlo.binary main_v241 main_v25 main_v242 (mulf : (⟨S8192, .f32⟩ : BufTy).Contents (Elt F) → (⟨S8192, .f32⟩ : BufTy).Contents (Elt F) → (⟨S8192, .f32⟩ : BufTy).Contents (Elt F)),
    StableHlo.binary main_v240 main_v242 main_v243 (addf : (⟨S8192, .f32⟩ : BufTy).Contents (Elt F) → (⟨S8192, .f32⟩ : BufTy).Contents (Elt F) → (⟨S8192, .f32⟩ : BufTy).Contents (Elt F)),
    StableHlo.nullary main_cst_83 (constant S_ .f32 0x3F800000#32),
    StableHlo.TRef.unary (.of main_cst_83 : StableHlo.TRef sig ⟨S_, .f32⟩) (.of main_call30_v0 : StableHlo.TRef sig ⟨S_, .f32⟩) id,
    StableHlo.TRef.unary (.of main_call30_v0 : StableHlo.TRef sig ⟨S_, .f32⟩) (.of main_call30_v1 : StableHlo.TRef sig ⟨S8192, .f32⟩) (broadcastInDim S8192 ![] bcast_S_S8192),
    StableHlo.TRef.ternary (.of main_v72 : StableHlo.TRef sig ⟨S8192, .i1⟩) (.of main_v214 : StableHlo.TRef sig ⟨S8192, .f32⟩) (.of main_call30_v1 : StableHlo.TRef sig ⟨S8192, .f32⟩) (.of main_v244 : StableHlo.TRef sig ⟨S8192, .f32⟩) select,
    StableHlo.binary main_v243 main_v244 main_v245 (Host.divf : (⟨S8192, .f32⟩ : BufTy).Contents (Elt F) → (⟨S8192, .f32⟩ : BufTy).Contents (Elt F) → (⟨S8192, .f32⟩ : BufTy).Contents (Elt F)),
    StableHlo.nullary main_cst_84 (constant S_ .f32 0x00000000#32),
    StableHlo.TRef.unary (.of main_cst_84 : StableHlo.TRef sig ⟨S_, .f32⟩) (.of main_call31_v0 : StableHlo.TRef sig ⟨S_, .f32⟩) id,
    StableHlo.TRef.unary (.of main_call31_v0 : StableHlo.TRef sig ⟨S_, .f32⟩) (.of main_call31_v1 : StableHlo.TRef sig ⟨S8192, .f32⟩) (broadcastInDim S8192 ![] bcast_S_S8192),
    StableHlo.TRef.ternary (.of main_v72 : StableHlo.TRef sig ⟨S8192, .i1⟩) (.of main_v245 : StableHlo.TRef sig ⟨S8192, .f32⟩) (.of main_call31_v1 : StableHlo.TRef sig ⟨S8192, .f32⟩) (.of main_v246 : StableHlo.TRef sig ⟨S8192, .f32⟩) select,
    StableHlo.unary main_v73 main_v247 (broadcastInDim S8192x1 ![0] bcast_S8192_S8192x1_0 : (⟨S8192, .f32⟩ : BufTy).Contents (Elt F) → (⟨S8192x1, .f32⟩ : BufTy).Contents (Elt F)),
    StableHlo.unary main_v219 main_v248 (broadcastInDim S8192x1 ![0] bcast_S8192_S8192x1_0 : (⟨S8192, .f32⟩ : BufTy).Contents (Elt F) → (⟨S8192x1, .f32⟩ : BufTy).Contents (Elt F)),
    StableHlo.unary main_v73 main_v249 (broadcastInDim S8192x1 ![0] bcast_S8192_S8192x1_0 : (⟨S8192, .f32⟩ : BufTy).Contents (Elt F) → (⟨S8192x1, .f32⟩ : BufTy).Contents (Elt F)),
    StableHlo.unary main_v228 main_v250 (broadcastInDim S8192x1 ![0] bcast_S8192_S8192x1_0 : (⟨S8192, .f32⟩ : BufTy).Contents (Elt F) → (⟨S8192x1, .f32⟩ : BufTy).Contents (Elt F)),
    StableHlo.unary main_v237 main_v251 (broadcastInDim S8192x1 ![0] bcast_S8192_S8192x1_0 : (⟨S8192, .f32⟩ : BufTy).Contents (Elt F) → (⟨S8192x1, .f32⟩ : BufTy).Contents (Elt F)),
    StableHlo.unary main_v246 main_v252 (broadcastInDim S8192x1 ![0] bcast_S8192_S8192x1_0 : (⟨S8192, .f32⟩ : BufTy).Contents (Elt F) → (⟨S8192x1, .f32⟩ : BufTy).Contents (Elt F)),
    StableHlo.unary main_v73 main_v253 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 10: 20 operations. -/
abbrev kseg10 : List (HloOp τ sig (Elt F)) :=
  [ StableHlo.nary ![main_v247, main_v248, main_v249, main_v250, main_v251, main_v252, main_v253] main_v254 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.binary main_v112 main_v162 main_v255 (addf : (⟨S8192x7, .f32⟩ : BufTy).Contents (Elt F) → (⟨S8192x7, .f32⟩ : BufTy).Contents (Elt F) → (⟨S8192x7, .f32⟩ : BufTy).Contents (Elt F)),
    StableHlo.binary main_v255 main_v200 main_v256 (addf : (⟨S8192x7, .f32⟩ : BufTy).Contents (Elt F) → (⟨S8192x7, .f32⟩ : BufTy).Contents (Elt F) → (⟨S8192x7, .f32⟩ : BufTy).Contents (Elt F)),
    StableHlo.binary main_v256 main_v254 main_v257 (addf : (⟨S8192x7, .f32⟩ : BufTy).Contents (Elt F) → (⟨S8192x7, .f32⟩ : BufTy).Contents (Elt F) → (⟨S8192x7, .f32⟩ : BufTy).Contents (Elt F)),
    StableHlo.unary main_arg1 main_v258 (Host.log : (⟨S8192x7, .f32⟩ : BufTy).Contents (Elt F) → (⟨S8192x7, .f32⟩ : BufTy).Contents (Elt F)),
    StableHlo.nullary main_cst_85 (constant S_ .f32 0x3F6B3F8E#32),
    StableHlo.unary main_cst_85 main_v259 (broadcastInDim S8192x7 ![] bcast_S_S8192x7 : (⟨S_, .f32⟩ : BufTy).Contents (Elt F) → (⟨S8192x7, .f32⟩ : BufTy).Contents (Elt F)),
    StableHlo.binary main_v259 main_v258 main_v260 (addf : (⟨S8192x7, .f32⟩ : BufTy).Contents (Elt F) → (⟨S8192x7, .f32⟩ : BufTy).Contents (Elt F) → (⟨S8192x7, .f32⟩ : BufTy).Contents (Elt F)),
    StableHlo.binary main_arg0 main_v257 main_v261 (subf : (⟨S8192x7, .f32⟩ : BufTy).Contents (Elt F) → (⟨S8192x7, .f32⟩ : BufTy).Contents (Elt F) → (⟨S8192x7, .f32⟩ : BufTy).Contents (Elt F)),
    StableHlo.binary main_v261 main_v261 main_v262 (mulf : (⟨S8192x7, .f32⟩ : BufTy).Contents (Elt F) → (⟨S8192x7, .f32⟩ : BufTy).Contents (Elt F) → (⟨S8192x7, .f32⟩ : BufTy).Contents (Elt F)),
    StableHlo.binary main_arg1 main_arg1 main_v263 (mulf : (⟨S8192x7, .f32⟩ : BufTy).Contents (Elt F) → (⟨S8192x7, .f32⟩ : BufTy).Contents (Elt F) → (⟨S8192x7, .f32⟩ : BufTy).Contents (Elt F)),
    StableHlo.nullary main_cst_86 (constant S_ .f32 0x40000000#32),
    StableHlo.unary main_cst_86 main_v264 (broadcastInDim S8192x7 ![] bcast_S_S8192x7 : (⟨S_, .f32⟩ : BufTy).Contents (Elt F) → (⟨S8192x7, .f32⟩ : BufTy).Contents (Elt F)),
    StableHlo.binary main_v264 main_v263 main_v265 (mulf : (⟨S8192x7, .f32⟩ : BufTy).Contents (Elt F) → (⟨S8192x7, .f32⟩ : BufTy).Contents (Elt F) → (⟨S8192x7, .f32⟩ : BufTy).Contents (Elt F)),
    StableHlo.binary main_v262 main_v265 main_v266 (Host.divf : (⟨S8192x7, .f32⟩ : BufTy).Contents (Elt F) → (⟨S8192x7, .f32⟩ : BufTy).Contents (Elt F) → (⟨S8192x7, .f32⟩ : BufTy).Contents (Elt F)),
    StableHlo.binary main_v260 main_v266 main_v267 (addf : (⟨S8192x7, .f32⟩ : BufTy).Contents (Elt F) → (⟨S8192x7, .f32⟩ : BufTy).Contents (Elt F) → (⟨S8192x7, .f32⟩ : BufTy).Contents (Elt F)),
    StableHlo.nullary main_cst_87 (constant S_ .f32 0x00000000#32),
    StableHlo.binary main_v267 main_cst_87 main_v268 ((fun x v => Host.reduceAdd x v reducesTo_S8192x7_S_d0_1 h_S_) : (⟨S8192x7, .f32⟩ : BufTy).Contents (Elt F) → (⟨S_, .f32⟩ : BufTy).Contents (Elt F) → (⟨S_, .f32⟩ : BufTy).Contents (Elt F)),
    StableHlo.nullary main_cst_88 (constant S_ .f32 0x46000000#32),
    StableHlo.binary main_v268 main_cst_88 main_v269 (Host.divf : (⟨S_, .f32⟩ : BufTy).Contents (Elt F) → (⟨S_, .f32⟩ : BufTy).Contents (Elt F) → (⟨S_, .f32⟩ : BufTy).Contents (Elt F)) ]

set_option maxRecDepth 65536 in
set_option maxHeartbeats 400000000 in
/-- The stretches before the region, flattened, are the segments in order. -/
theorem flat_eq_ksegs : List.flatten (preOps (F := F)) = kseg0 ++ (kseg1 ++ (kseg2 ++ (kseg3 ++ (kseg4 ++ (kseg5 ++ (kseg6 ++ (kseg7 ++ (kseg8 ++ (kseg9 ++ (kseg10)))))))))) := rfl

end Cert.KernelIdeal.Hand

end
-- ==== Proof.RefSegs.lean ====
/-
  The reference's prior operations (its windows 0 to 5) cut into consecutive segments: the same 424 operations in the
  same order, so the prior's fold is the segments' folds one after the other.
-/
import proofs.«129664_j48773648614415_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Segment 0: 40 operations. -/
abbrev seg0 : List (HloOp τ sig (Elt F)) :=
  [ StableHlo.unary main_arg0 main_v0 ((extractStridedSlice S8192x1 ![0, 0] · slices_S8192x7_S8192x1_0_0) : (⟨S8192x7, .f32⟩ : BufTy).Contents (Elt F) → (⟨S8192x1, .f32⟩ : BufTy).Contents (Elt F)),
    StableHlo.reshape main_v0 main_v1 rfl shapeCasts_S8192x1_S8192,
    StableHlo.unary main_arg0 main_v2 ((extractStridedSlice S8192x1 ![0, 1] · slices_S8192x7_S8192x1_0_1) : (⟨S8192x7, .f32⟩ : BufTy).Contents (Elt F) → (⟨S8192x1, .f32⟩ : BufTy).Contents (Elt F)),
    StableHlo.reshape main_v2 main_v3 rfl shapeCasts_S8192x1_S8192,
    StableHlo.unary main_arg0 main_v4 ((extractStridedSlice S8192x1 ![0, 2] · slices_S8192x7_S8192x1_0_2) : (⟨S8192x7, .f32⟩ : BufTy).Contents (Elt F) → (⟨S8192x1, .f32⟩ : BufTy).Contents (Elt F)),
    StableHlo.reshape main_v4 main_v5 rfl shapeCasts_S8192x1_S8192,
    StableHlo.unary main_arg0 main_v6 ((extractStridedSlice S8192x1 ![0, 3] · slices_S8192x7_S8192x1_0_3) : (⟨S8192x7, .f32⟩ : BufTy).Contents (Elt F) → (⟨S8192x1, .f32⟩ : BufTy).Contents (Elt F)),
    StableHlo.reshape main_v6 main_v7 rfl shapeCasts_S8192x1_S8192,
    StableHlo.unary main_arg0 main_v8 ((extractStridedSlice S8192x1 ![0, 4] · slices_S8192x7_S8192x1_0_4) : (⟨S8192x7, .f32⟩ : BufTy).Contents (Elt F) → (⟨S8192x1, .f32⟩ : BufTy).Contents (Elt F)),
    StableHlo.reshape main_v8 main_v9 rfl shapeCasts_S8192x1_S8192,
    StableHlo.unary main_arg0 main_v10 ((extractStridedSlice S8192x1 ![0, 5] · slices_S8192x7_S8192x1_0_5) : (⟨S8192x7, .f32⟩ : BufTy).Contents (Elt F) → (⟨S8192x1, .f32⟩ : BufTy).Contents (Elt F)),
    StableHlo.reshape main_v10 main_v11 rfl shapeCasts_S8192x1_S8192,
    StableHlo.unary main_arg0 main_v12 ((extractStridedSlice S8192x1 ![0, 6] · slices_S8192x7_S8192x1_0_6) : (⟨S8192x7, .f32⟩ : BufTy).Contents (Elt F) → (⟨S8192x1, .f32⟩ : BufTy).Contents (Elt F)),
    StableHlo.reshape main_v12 main_v13 rfl shapeCasts_S8192x1_S8192,
    StableHlo.nullary main_cst (constant S_ .f32 0x40000000#32),
    StableHlo.unary main_cst main_v14 (broadcastInDim S8192 ![] bcast_S_S8192 : (⟨S_, .f32⟩ : BufTy).Contents (Elt F) → (⟨S8192, .f32⟩ : BufTy).Contents (Elt F)),
    StableHlo.binary main_v14 main_v5 main_v15 (mulf : (⟨S8192, .f32⟩ : BufTy).Contents (Elt F) → (⟨S8192, .f32⟩ : BufTy).Contents (Elt F) → (⟨S8192, .f32⟩ : BufTy).Contents (Elt F)),
    StableHlo.nullary main_cst_0 (constant S_ .f32 0x40000000#32),
    StableHlo.unary main_cst_0 main_v16 (broadcastInDim S8192 ![] bcast_S_S8192 : (⟨S_, .f32⟩ : BufTy).Contents (Elt F) → (⟨S8192, .f32⟩ : BufTy).Contents (Elt F)),
    StableHlo.binary main_v16 main_v9 main_v17 (mulf : (⟨S8192, .f32⟩ : BufTy).Contents (Elt F) → (⟨S8192, .f32⟩ : BufTy).Contents (Elt F) → (⟨S8192, .f32⟩ : BufTy).Contents (Elt F)),
    StableHlo.binary main_v15 main_v17 main_v18 (addf : (⟨S8192, .f32⟩ : BufTy).Contents (Elt F) → (⟨S8192, .f32⟩ : BufTy).Contents (Elt F) → (⟨S8192, .f32⟩ : BufTy).Contents (Elt F)),
    StableHlo.nullary main_cst_1 (constant S_ .f32 0x40400000#32),
    StableHlo.unary main_cst_1 main_v19 (broadcastInDim S8192 ![] bcast_S_S8192 : (⟨S_, .f32⟩ : BufTy).Contents (Elt F) → (⟨S8192, .f32⟩ : BufTy).Contents (Elt F)),
    StableHlo.binary main_v19 main_v13 main_v20 (mulf : (⟨S8192, .f32⟩ : BufTy).Contents (Elt F) → (⟨S8192, .f32⟩ : BufTy).Contents (Elt F) → (⟨S8192, .f32⟩ : BufTy).Contents (Elt F)),
    StableHlo.binary main_v18 main_v20 main_v21 (addf : (⟨S8192, .f32⟩ : BufTy).Contents (Elt F) → (⟨S8192, .f32⟩ : BufTy).Contents (Elt F) → (⟨S8192, .f32⟩ : BufTy).Contents (Elt F)),
    StableHlo.nullary main_cst_2 (constant S_ .f32 0x40800000#32),
    StableHlo.unary main_cst_2 main_v22 (broadcastInDim S8192 ![] bcast_S_S8192 : (⟨S_, .f32⟩ : BufTy).Contents (Elt F) → (⟨S8192, .f32⟩ : BufTy).Contents (Elt F)),
    StableHlo.binary main_v22 main_v11 main_v23 (mulf : (⟨S8192, .f32⟩ : BufTy).Contents (Elt F) → (⟨S8192, .f32⟩ : BufTy).Contents (Elt F) → (⟨S8192, .f32⟩ : BufTy).Contents (Elt F)),
    StableHlo.binary main_v21 main_v23 main_v24 (addf : (⟨S8192, .f32⟩ : BufTy).Contents (Elt F) → (⟨S8192, .f32⟩ : BufTy).Contents (Elt F) → (⟨S8192, .f32⟩ : BufTy).Contents (Elt F)),
    StableHlo.binary main_v7 main_v11 main_v25 (addf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x40000000#32),
    StableHlo.unary main_cst_3 main_v26 (broadcastInDim S8192 ![] bcast_S_S8192 : (⟨S_, .f32⟩ : BufTy).Contents (Elt F) → (⟨S8192, .f32⟩ : BufTy).Contents (Elt F)),
    StableHlo.binary main_v26 main_v1 main_v27 (mulf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x40000000#32),
    StableHlo.unary main_cst_4 main_v28 (broadcastInDim S8192 ![] bcast_S_S8192 : (⟨S_, .f32⟩ : BufTy).Contents (Elt F) → (⟨S8192, .f32⟩ : BufTy).Contents (Elt F)),
    StableHlo.binary main_v28 main_v7 main_v29 (mulf : (⟨S8192, .f32⟩ : BufTy).Contents (Elt F) → (⟨S8192, .f32⟩ : BufTy).Contents (Elt F) → (⟨S8192, .f32⟩ : BufTy).Contents (Elt F)),
    StableHlo.binary main_v27 main_v29 main_v30 (addf : (⟨S8192, .f32⟩ : BufTy).Contents (Elt F) → (⟨S8192, .f32⟩ : BufTy).Contents (Elt F) → (⟨S8192, .f32⟩ : BufTy).Contents (Elt F)),
    StableHlo.binary main_v30 main_v9 main_v31 (addf : (⟨S8192, .f32⟩ : BufTy).Contents (Elt F) → (⟨S8192, .f32⟩ : BufTy).Contents (Elt F) → (⟨S8192, .f32⟩ : BufTy).Contents (Elt F)),
    StableHlo.nullary main_cst_5 (constant S_ .f32 0x40000000#32),
    StableHlo.unary main_cst_5 main_v32 (broadcastInDim S8192 ![] bcast_S_S8192 : (⟨S_, .f32⟩ : BufTy).Contents (Elt F) → (⟨S8192, .f32⟩ : BufTy).Contents (Elt F)) ]

set_option maxRecDepth 8192 in
set_option maxHeartbeats 40000000 in
/-- Segment 1: 40 operations. -/
abbrev seg1 : List (HloOp τ sig (Elt F)) :=
  [ StableHlo.binary main_v32 main_v3 main_v33 (mulf : (⟨S8192, .f32⟩ : BufTy).Contents (Elt F) → (⟨S8192, .f32⟩ : BufTy).Contents (Elt F) → (⟨S8192, .f32⟩ : BufTy).Contents (Elt F)),
    StableHlo.binary main_v33 main_v13 main_v34 (addf : (⟨S8192, .f32⟩ : BufTy).Contents (Elt F) → (⟨S8192, .f32⟩ : BufTy).Contents (Elt F) → (⟨S8192, .f32⟩ : BufTy).Contents (Elt F)),
    StableHlo.nullary main_cst_6 (constant S_ .f32 0x40000000#32),
    StableHlo.unary main_cst_6 main_v35 (broadcastInDim S8192 ![] bcast_S_S8192 : (⟨S_, .f32⟩ : BufTy).Contents (Elt F) → (⟨S8192, .f32⟩ : BufTy).Contents (Elt F)),
    StableHlo.binary main_v35 main_v31 main_v36 (mulf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x40800000#32),
    StableHlo.unary main_cst_7 main_v37 (broadcastInDim S8192 ![] bcast_S_S8192 : (⟨S_, .f32⟩ : BufTy).Contents (Elt F) → (⟨S8192, .f32⟩ : BufTy).Contents (Elt F)),
    StableHlo.binary main_v37 main_v25 main_v38 (mulf : (⟨S8192, .f32⟩ : BufTy).Contents (Elt F) → (⟨S8192, .f32⟩ : BufTy).Contents (Elt F) → (⟨S8192, .f32⟩ : BufTy).Contents (Elt F)),
    StableHlo.binary main_v36 main_v38 main_v39 (addf : (⟨S8192, .f32⟩ : BufTy).Contents (Elt F) → (⟨S8192, .f32⟩ : BufTy).Contents (Elt F) → (⟨S8192, .f32⟩ : BufTy).Contents (Elt F)),
    StableHlo.binary main_v24 main_v39 main_v40 (cmpf .ogt : (⟨S8192, .f32⟩ : BufTy).Contents (Elt F) → (⟨S8192, .f32⟩ : BufTy).Contents (Elt F) → (⟨S8192, .i1⟩ : BufTy).Contents (Elt F)),
    StableHlo.nullary main_cst_8 (constant S_ .f32 0x40400000#32),
    StableHlo.unary main_cst_8 main_v41 (broadcastInDim S8192 ![] bcast_S_S8192 : (⟨S_, .f32⟩ : BufTy).Contents (Elt F) → (⟨S8192, .f32⟩ : BufTy).Contents (Elt F)),
    StableHlo.binary main_v41 main_v34 main_v42 (mulf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x40000000#32),
    StableHlo.unary main_cst_9 main_v43 (broadcastInDim S8192 ![] bcast_S_S8192 : (⟨S_, .f32⟩ : BufTy).Contents (Elt F) → (⟨S8192, .f32⟩ : BufTy).Contents (Elt F)),
    StableHlo.binary main_v43 main_v31 main_v44 (mulf : (⟨S8192, .f32⟩ : BufTy).Contents (Elt F) → (⟨S8192, .f32⟩ : BufTy).Contents (Elt F) → (⟨S8192, .f32⟩ : BufTy).Contents (Elt F)),
    StableHlo.binary main_v24 main_v44 main_v45 (subf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x40800000#32),
    StableHlo.unary main_cst_10 main_v46 (broadcastInDim S8192 ![] bcast_S_S8192 : (⟨S_, .f32⟩ : BufTy).Contents (Elt F) → (⟨S8192, .f32⟩ : BufTy).Contents (Elt F)),
    StableHlo.binary main_v46 main_v25 main_v47 (mulf : (⟨S8192, .f32⟩ : BufTy).Contents (Elt F) → (⟨S8192, .f32⟩ : BufTy).Contents (Elt F) → (⟨S8192, .f32⟩ : BufTy).Contents (Elt F)),
    StableHlo.binary main_v45 main_v47 main_v48 (subf : (⟨S8192, .f32⟩ : BufTy).Contents (Elt F) → (⟨S8192, .f32⟩ : BufTy).Contents (Elt F) → (⟨S8192, .f32⟩ : BufTy).Contents (Elt F)),
    StableHlo.binary main_v42 main_v48 main_v49 (cmpf .olt : (⟨S8192, .f32⟩ : BufTy).Contents (Elt F) → (⟨S8192, .f32⟩ : BufTy).Contents (Elt F) → (⟨S8192, .i1⟩ : BufTy).Contents (Elt F)),
    StableHlo.binary main_v40 main_v49 main_v50 (andi : (⟨S8192, .i1⟩ : BufTy).Contents (Elt F) → (⟨S8192, .i1⟩ : BufTy).Contents (Elt F) → (⟨S8192, .i1⟩ : BufTy).Contents (Elt F)),
    StableHlo.unary main_v50 main_v51 (noti : (⟨S8192, .i1⟩ : BufTy).Contents (Elt F) → (⟨S8192, .i1⟩ : BufTy).Contents (Elt F)),
    StableHlo.binary main_v40 main_v51 main_v52 (andi : (⟨S8192, .i1⟩ : BufTy).Contents (Elt F) → (⟨S8192, .i1⟩ : BufTy).Contents (Elt F) → (⟨S8192, .i1⟩ : BufTy).Contents (Elt F)),
    StableHlo.unary main_v40 main_v53 (noti : (⟨S8192, .i1⟩ : BufTy).Contents (Elt F) → (⟨S8192, .i1⟩ : BufTy).Contents (Elt F)),
    StableHlo.nullary main_cst_11 (constant S_ .f32 0x40000000#32),
    StableHlo.unary main_cst_11 main_v54 (broadcastInDim S8192 ![] bcast_S_S8192 : (⟨S_, .f32⟩ : BufTy).Contents (Elt F) → (⟨S8192, .f32⟩ : BufTy).Contents (Elt F)),
    StableHlo.binary main_v54 main_v31 main_v55 (mulf : (⟨S8192, .f32⟩ : BufTy).Contents (Elt F) → (⟨S8192, .f32⟩ : BufTy).Contents (Elt F) → (⟨S8192, .f32⟩ : BufTy).Contents (Elt F)),
    StableHlo.nullary main_cst_12 (constant S_ .f32 0x40800000#32),
    StableHlo.unary main_cst_12 main_v56 (broadcastInDim S8192 ![] bcast_S_S8192 : (⟨S_, .f32⟩ : BufTy).Contents (Elt F) → (⟨S8192, .f32⟩ : BufTy).Contents (Elt F)),
    StableHlo.binary main_v56 main_v25 main_v57 (mulf : (⟨S8192, .f32⟩ : BufTy).Contents (Elt F) → (⟨S8192, .f32⟩ : BufTy).Contents (Elt F) → (⟨S8192, .f32⟩ : BufTy).Contents (Elt F)),
    StableHlo.binary main_v24 main_v57 main_v58 (addf : (⟨S8192, .f32⟩ : BufTy).Contents (Elt F) → (⟨S8192, .f32⟩ : BufTy).Contents (Elt F) → (⟨S8192, .f32⟩ : BufTy).Contents (Elt F)),
    StableHlo.binary main_v55 main_v58 main_v59 (cmpf .ogt : (⟨S8192, .f32⟩ : BufTy).Contents (Elt F) → (⟨S8192, .f32⟩ : BufTy).Contents (Elt F) → (⟨S8192, .i1⟩ : BufTy).Contents (Elt F)),
    StableHlo.binary main_v53 main_v59 main_v60 (andi : (⟨S8192, .i1⟩ : BufTy).Contents (Elt F) → (⟨S8192, .i1⟩ : BufTy).Contents (Elt F) → (⟨S8192, .i1⟩ : BufTy).Contents (Elt F)),
    StableHlo.unary main_v40 main_v61 (noti : (⟨S8192, .i1⟩ : BufTy).Contents (Elt F) → (⟨S8192, .i1⟩ : BufTy).Contents (Elt F)),
    StableHlo.unary main_v60 main_v62 (noti : (⟨S8192, .i1⟩ : BufTy).Contents (Elt F) → (⟨S8192, .i1⟩ : BufTy).Contents (Elt F)),
    StableHlo.binary main_v61 main_v62 main_v63 (andi : (⟨S8192, .i1⟩ : BufTy).Contents (Elt F) → (⟨S8192, .i1⟩ : BufTy).Contents (Elt F) → (⟨S8192, .i1⟩ : BufTy).Contents (Elt F)),
    StableHlo.binary main_v24 main_v25 main_v64 (addf : (⟨S8192, .f32⟩ : BufTy).Contents (Elt F) → (⟨S8192, .f32⟩ : BufTy).Contents (Elt F) → (⟨S8192, .f32⟩ : BufTy).Contents (Elt F)),
    StableHlo.binary main_v64 main_v31 main_v65 (addf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 2: 40 operations. -/
abbrev seg2 : List (HloOp τ sig (Elt F)) :=
  [ StableHlo.binary main_v65 main_v34 main_v66 (addf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x3F800000#32),
    StableHlo.unary main_cst_13 main_v67 (broadcastInDim S8192 ![] bcast_S_S8192 : (⟨S_, .f32⟩ : BufTy).Contents (Elt F) → (⟨S8192, .f32⟩ : BufTy).Contents (Elt F)),
    StableHlo.binary main_v66 main_v67 main_v68 (subf : (⟨S8192, .f32⟩ : BufTy).Contents (Elt F) → (⟨S8192, .f32⟩ : BufTy).Contents (Elt F) → (⟨S8192, .f32⟩ : BufTy).Contents (Elt F)),
    StableHlo.unary main_v68 main_v69 (Host.absf : (⟨S8192, .f32⟩ : BufTy).Contents (Elt F) → (⟨S8192, .f32⟩ : BufTy).Contents (Elt F)),
    StableHlo.nullary main_cst_14 (constant S_ .f32 0x3A83126F#32),
    StableHlo.unary main_cst_14 main_v70 (broadcastInDim S8192 ![] bcast_S_S8192 : (⟨S_, .f32⟩ : BufTy).Contents (Elt F) → (⟨S8192, .f32⟩ : BufTy).Contents (Elt F)),
    StableHlo.binary main_v69 main_v70 main_v71 (cmpf .olt : (⟨S8192, .f32⟩ : BufTy).Contents (Elt F) → (⟨S8192, .f32⟩ : BufTy).Contents (Elt F) → (⟨S8192, .i1⟩ : BufTy).Contents (Elt F)),
    StableHlo.binary main_v63 main_v71 main_v72 (andi : (⟨S8192, .i1⟩ : BufTy).Contents (Elt F) → (⟨S8192, .i1⟩ : BufTy).Contents (Elt F) → (⟨S8192, .i1⟩ : BufTy).Contents (Elt F)),
    StableHlo.nullary main_cst_15 (constant S_ .f32 0x00000000#32),
    StableHlo.unary main_cst_15 main_v73 (broadcastInDim S8192 ![] bcast_S_S8192 : (⟨S_, .f32⟩ : BufTy).Contents (Elt F) → (⟨S8192, .f32⟩ : BufTy).Contents (Elt F)),
    StableHlo.binary main_v24 main_v34 main_v74 (subf : (⟨S8192, .f32⟩ : BufTy).Contents (Elt F) → (⟨S8192, .f32⟩ : BufTy).Contents (Elt F) → (⟨S8192, .f32⟩ : BufTy).Contents (Elt F)),
    StableHlo.nullary main_cst_16 (constant S_ .f32 0x40000000#32),
    StableHlo.unary main_cst_16 main_v75 (broadcastInDim S8192 ![] bcast_S_S8192 : (⟨S_, .f32⟩ : BufTy).Contents (Elt F) → (⟨S8192, .f32⟩ : BufTy).Contents (Elt F)),
    StableHlo.binary main_v75 main_v25 main_v76 (mulf : (⟨S8192, .f32⟩ : BufTy).Contents (Elt F) → (⟨S8192, .f32⟩ : BufTy).Contents (Elt F) → (⟨S8192, .f32⟩ : BufTy).Contents (Elt F)),
    StableHlo.binary main_v74 main_v76 main_v77 (subf : (⟨S8192, .f32⟩ : BufTy).Contents (Elt F) → (⟨S8192, .f32⟩ : BufTy).Contents (Elt F) → (⟨S8192, .f32⟩ : BufTy).Contents (Elt F)),
    StableHlo.nullary main_cst_17 (constant S_ .f32 0x40000000#32),
    StableHlo.unary main_cst_17 main_v78 (broadcastInDim S8192 ![] bcast_S_S8192 : (⟨S_, .f32⟩ : BufTy).Contents (Elt F) → (⟨S8192, .f32⟩ : BufTy).Contents (Elt F)),
    StableHlo.binary main_v78 main_v31 main_v79 (mulf : (⟨S8192, .f32⟩ : BufTy).Contents (Elt F) → (⟨S8192, .f32⟩ : BufTy).Contents (Elt F) → (⟨S8192, .f32⟩ : BufTy).Contents (Elt F)),
    StableHlo.binary main_v24 main_v79 main_v80 (subf : (⟨S8192, .f32⟩ : BufTy).Contents (Elt F) → (⟨S8192, .f32⟩ : BufTy).Contents (Elt F) → (⟨S8192, .f32⟩ : BufTy).Contents (Elt F)),
    StableHlo.nullary main_cst_18 (constant S_ .f32 0x40800000#32),
    StableHlo.unary main_cst_18 main_v81 (broadcastInDim S8192 ![] bcast_S_S8192 : (⟨S_, .f32⟩ : BufTy).Contents (Elt F) → (⟨S8192, .f32⟩ : BufTy).Contents (Elt F)),
    StableHlo.binary main_v81 main_v25 main_v82 (mulf : (⟨S8192, .f32⟩ : BufTy).Contents (Elt F) → (⟨S8192, .f32⟩ : BufTy).Contents (Elt F) → (⟨S8192, .f32⟩ : BufTy).Contents (Elt F)),
    StableHlo.binary main_v80 main_v82 main_v83 (subf : (⟨S8192, .f32⟩ : BufTy).Contents (Elt F) → (⟨S8192, .f32⟩ : BufTy).Contents (Elt F) → (⟨S8192, .f32⟩ : BufTy).Contents (Elt F)),
    StableHlo.nullary main_cst_19 (constant S_ .f32 0x40400000#32),
    StableHlo.unary main_cst_19 main_v84 (broadcastInDim S8192 ![] bcast_S_S8192 : (⟨S_, .f32⟩ : BufTy).Contents (Elt F) → (⟨S8192, .f32⟩ : BufTy).Contents (Elt F)),
    StableHlo.binary main_v84 main_v34 main_v85 (mulf : (⟨S8192, .f32⟩ : BufTy).Contents (Elt F) → (⟨S8192, .f32⟩ : BufTy).Contents (Elt F) → (⟨S8192, .f32⟩ : BufTy).Contents (Elt F)),
    StableHlo.binary main_v83 main_v85 main_v86 (subf : (⟨S8192, .f32⟩ : BufTy).Contents (Elt F) → (⟨S8192, .f32⟩ : BufTy).Contents (Elt F) → (⟨S8192, .f32⟩ : BufTy).Contents (Elt F)),
    StableHlo.nullary main_cst_20 (constant S_ .f32 0x3F800000#32),
    StableHlo.TRef.unary (.of main_cst_20 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call0_v1 : StableHlo.TRef sig ⟨S8192, .f32⟩) (.of main_v87 : StableHlo.TRef sig ⟨S8192, .f32⟩) select,
    StableHlo.binary main_v86 main_v87 main_v88 (Host.divf : (⟨S8192, .f32⟩ : BufTy).Contents (Elt F) → (⟨S8192, .f32⟩ : BufTy).Contents (Elt F) → (⟨S8192, .f32⟩ : BufTy).Contents (Elt F)),
    StableHlo.nullary main_cst_21 (constant S_ .f32 0x00000000#32),
    StableHlo.TRef.unary (.of main_cst_21 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8192, .f32⟩) (broadcastInDim S8192 ![] bcast_S_S8192),
    StableHlo.TRef.ternary (.of main_v50 : StableHlo.TRef sig ⟨S8192, .i1⟩) (.of main_v88 : StableHlo.TRef sig ⟨S8192, .f32⟩) (.of main_call1_v1 : StableHlo.TRef sig ⟨S8192, .f32⟩) (.of main_v89 : StableHlo.TRef sig ⟨S8192, .f32⟩) select,
    StableHlo.nullary main_cst_22 (constant S_ .f32 0x40000000#32),
    StableHlo.unary main_cst_22 main_v90 (broadcastInDim S8192 ![] bcast_S_S8192 : (⟨S_, .f32⟩ : BufTy).Contents (Elt F) → (⟨S8192, .f32⟩ : BufTy).Contents (Elt F)),
    StableHlo.binary main_v90 main_v31 main_v91 (mulf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 3: 40 operations. -/
abbrev seg3 : List (HloOp τ sig (Elt F)) :=
  [ StableHlo.nullary main_cst_23 (constant S_ .f32 0x3F800000#32),
    StableHlo.TRef.unary (.of main_cst_23 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call2_v1 : StableHlo.TRef sig ⟨S8192, .f32⟩) (.of main_v92 : StableHlo.TRef sig ⟨S8192, .f32⟩) select,
    StableHlo.binary main_v91 main_v92 main_v93 (Host.divf : (⟨S8192, .f32⟩ : BufTy).Contents (Elt F) → (⟨S8192, .f32⟩ : BufTy).Contents (Elt F) → (⟨S8192, .f32⟩ : BufTy).Contents (Elt F)),
    StableHlo.nullary main_cst_24 (constant S_ .f32 0x00000000#32),
    StableHlo.TRef.unary (.of main_cst_24 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8192, .f32⟩) (broadcastInDim S8192 ![] bcast_S_S8192),
    StableHlo.TRef.ternary (.of main_v50 : StableHlo.TRef sig ⟨S8192, .i1⟩) (.of main_v93 : StableHlo.TRef sig ⟨S8192, .f32⟩) (.of main_call3_v1 : StableHlo.TRef sig ⟨S8192, .f32⟩) (.of main_v94 : StableHlo.TRef sig ⟨S8192, .f32⟩) select,
    StableHlo.nullary main_cst_25 (constant S_ .f32 0x40000000#32),
    StableHlo.unary main_cst_25 main_v95 (broadcastInDim S8192 ![] bcast_S_S8192 : (⟨S_, .f32⟩ : BufTy).Contents (Elt F) → (⟨S8192, .f32⟩ : BufTy).Contents (Elt F)),
    StableHlo.binary main_v95 main_v25 main_v96 (mulf : (⟨S8192, .f32⟩ : BufTy).Contents (Elt F) → (⟨S8192, .f32⟩ : BufTy).Contents (Elt F) → (⟨S8192, .f32⟩ : BufTy).Contents (Elt F)),
    StableHlo.nullary main_cst_26 (constant S_ .f32 0x3F800000#32),
    StableHlo.TRef.unary (.of main_cst_26 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call4_v1 : StableHlo.TRef sig ⟨S8192, .f32⟩) (.of main_v97 : StableHlo.TRef sig ⟨S8192, .f32⟩) select,
    StableHlo.binary main_v96 main_v97 main_v98 (Host.divf : (⟨S8192, .f32⟩ : BufTy).Contents (Elt F) → (⟨S8192, .f32⟩ : BufTy).Contents (Elt F) → (⟨S8192, .f32⟩ : BufTy).Contents (Elt F)),
    StableHlo.nullary main_cst_27 (constant S_ .f32 0x00000000#32),
    StableHlo.TRef.unary (.of main_cst_27 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S8192, .f32⟩) (broadcastInDim S8192 ![] bcast_S_S8192),
    StableHlo.TRef.ternary (.of main_v50 : StableHlo.TRef sig ⟨S8192, .i1⟩) (.of main_v98 : StableHlo.TRef sig ⟨S8192, .f32⟩) (.of main_call5_v1 : StableHlo.TRef sig ⟨S8192, .f32⟩) (.of main_v99 : StableHlo.TRef sig ⟨S8192, .f32⟩) select,
    StableHlo.nullary main_cst_28 (constant S_ .f32 0x40000000#32),
    StableHlo.unary main_cst_28 main_v100 (broadcastInDim S8192 ![] bcast_S_S8192 : (⟨S_, .f32⟩ : BufTy).Contents (Elt F) → (⟨S8192, .f32⟩ : BufTy).Contents (Elt F)),
    StableHlo.binary main_v100 main_v34 main_v101 (mulf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x3F800000#32),
    StableHlo.TRef.unary (.of main_cst_29 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S8192, .f32⟩) (broadcastInDim S8192 ![] bcast_S_S8192),
    StableHlo.TRef.ternary (.of main_v50 : StableHlo.TRef sig ⟨S8192, .i1⟩) (.of main_v77 : StableHlo.TRef sig ⟨S8192, .f32⟩) (.of main_call6_v1 : StableHlo.TRef sig ⟨S8192, .f32⟩) (.of main_v102 : StableHlo.TRef sig ⟨S8192, .f32⟩) select,
    StableHlo.binary main_v101 main_v102 main_v103 (Host.divf : (⟨S8192, .f32⟩ : BufTy).Contents (Elt F) → (⟨S8192, .f32⟩ : BufTy).Contents (Elt F) → (⟨S8192, .f32⟩ : BufTy).Contents (Elt F)),
    StableHlo.nullary main_cst_30 (constant S_ .f32 0x00000000#32),
    StableHlo.TRef.unary (.of main_cst_30 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S8192, .f32⟩) (broadcastInDim S8192 ![] bcast_S_S8192),
    StableHlo.TRef.ternary (.of main_v50 : StableHlo.TRef sig ⟨S8192, .i1⟩) (.of main_v103 : StableHlo.TRef sig ⟨S8192, .f32⟩) (.of main_call7_v1 : StableHlo.TRef sig ⟨S8192, .f32⟩) (.of main_v104 : StableHlo.TRef sig ⟨S8192, .f32⟩) select,
    StableHlo.unary main_v73 main_v105 (broadcastInDim S8192x1 ![0] bcast_S8192_S8192x1_0 : (⟨S8192, .f32⟩ : BufTy).Contents (Elt F) → (⟨S8192x1, .f32⟩ : BufTy).Contents (Elt F)),
    StableHlo.unary main_v73 main_v106 (broadcastInDim S8192x1 ![0] bcast_S8192_S8192x1_0 : (⟨S8192, .f32⟩ : BufTy).Contents (Elt F) → (⟨S8192x1, .f32⟩ : BufTy).Contents (Elt F)),
    StableHlo.unary main_v89 main_v107 (broadcastInDim S8192x1 ![0] bcast_S8192_S8192x1_0 : (⟨S8192, .f32⟩ : BufTy).Contents (Elt F) → (⟨S8192x1, .f32⟩ : BufTy).Contents (Elt F)),
    StableHlo.unary main_v73 main_v108 (broadcastInDim S8192x1 ![0] bcast_S8192_S8192x1_0 : (⟨S8192, .f32⟩ : BufTy).Contents (Elt F) → (⟨S8192x1, .f32⟩ : BufTy).Contents (Elt F)),
    StableHlo.unary main_v94 main_v109 (broadcastInDim S8192x1 ![0] bcast_S8192_S8192x1_0 : (⟨S8192, .f32⟩ : BufTy).Contents (Elt F) → (⟨S8192x1, .f32⟩ : BufTy).Contents (Elt F)),
    StableHlo.unary main_v99 main_v110 (broadcastInDim S8192x1 ![0] bcast_S8192_S8192x1_0 : (⟨S8192, .f32⟩ : BufTy).Contents (Elt F) → (⟨S8192x1, .f32⟩ : BufTy).Contents (Elt F)),
    StableHlo.unary main_v104 main_v111 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 4: 42 operations. -/
abbrev seg4 : List (HloOp τ sig (Elt F)) :=
  [ StableHlo.nary ![main_v105, main_v106, main_v107, main_v108, main_v109, main_v110, main_v111] main_v112 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_31 (constant S_ .f32 0x40000000#32),
    StableHlo.unary main_cst_31 main_v113 (broadcastInDim S8192 ![] bcast_S_S8192 : (⟨S_, .f32⟩ : BufTy).Contents (Elt F) → (⟨S8192, .f32⟩ : BufTy).Contents (Elt F)),
    StableHlo.binary main_v113 main_v25 main_v114 (mulf : (⟨S8192, .f32⟩ : BufTy).Contents (Elt F) → (⟨S8192, .f32⟩ : BufTy).Contents (Elt F) → (⟨S8192, .f32⟩ : BufTy).Contents (Elt F)),
    StableHlo.binary main_v24 main_v114 main_v115 (addf : (⟨S8192, .f32⟩ : BufTy).Contents (Elt F) → (⟨S8192, .f32⟩ : BufTy).Contents (Elt F) → (⟨S8192, .f32⟩ : BufTy).Contents (Elt F)),
    StableHlo.nullary main_cst_32 (constant S_ .f32 0x40400000#32),
    StableHlo.unary main_cst_32 main_v116 (broadcastInDim S8192 ![] bcast_S_S8192 : (⟨S_, .f32⟩ : BufTy).Contents (Elt F) → (⟨S8192, .f32⟩ : BufTy).Contents (Elt F)),
    StableHlo.binary main_v116 main_v34 main_v117 (mulf : (⟨S8192, .f32⟩ : BufTy).Contents (Elt F) → (⟨S8192, .f32⟩ : BufTy).Contents (Elt F) → (⟨S8192, .f32⟩ : BufTy).Contents (Elt F)),
    StableHlo.binary main_v115 main_v117 main_v118 (addf : (⟨S8192, .f32⟩ : BufTy).Contents (Elt F) → (⟨S8192, .f32⟩ : BufTy).Contents (Elt F) → (⟨S8192, .f32⟩ : BufTy).Contents (Elt F)),
    StableHlo.nullary main_cst_33 (constant S_ .f32 0x40800000#32),
    StableHlo.unary main_cst_33 main_v119 (broadcastInDim S8192 ![] bcast_S_S8192 : (⟨S_, .f32⟩ : BufTy).Contents (Elt F) → (⟨S8192, .f32⟩ : BufTy).Contents (Elt F)),
    StableHlo.binary main_v119 main_v31 main_v120 (mulf : (⟨S8192, .f32⟩ : BufTy).Contents (Elt F) → (⟨S8192, .f32⟩ : BufTy).Contents (Elt F) → (⟨S8192, .f32⟩ : BufTy).Contents (Elt F)),
    StableHlo.binary main_v118 main_v120 main_v121 (addf : (⟨S8192, .f32⟩ : BufTy).Contents (Elt F) → (⟨S8192, .f32⟩ : BufTy).Contents (Elt F) → (⟨S8192, .f32⟩ : BufTy).Contents (Elt F)),
    StableHlo.nullary main_cst_34 (constant S_ .f32 0x40400000#32),
    StableHlo.unary main_cst_34 main_v122 (broadcastInDim S8192 ![] bcast_S_S8192 : (⟨S_, .f32⟩ : BufTy).Contents (Elt F) → (⟨S8192, .f32⟩ : BufTy).Contents (Elt F)),
    StableHlo.binary main_v122 main_v34 main_v123 (mulf : (⟨S8192, .f32⟩ : BufTy).Contents (Elt F) → (⟨S8192, .f32⟩ : BufTy).Contents (Elt F) → (⟨S8192, .f32⟩ : BufTy).Contents (Elt F)),
    StableHlo.nullary main_cst_35 (constant S_ .f32 0x40800000#32),
    StableHlo.unary main_cst_35 main_v124 (broadcastInDim S8192 ![] bcast_S_S8192 : (⟨S_, .f32⟩ : BufTy).Contents (Elt F) → (⟨S8192, .f32⟩ : BufTy).Contents (Elt F)),
    StableHlo.binary main_v124 main_v25 main_v125 (mulf : (⟨S8192, .f32⟩ : BufTy).Contents (Elt F) → (⟨S8192, .f32⟩ : BufTy).Contents (Elt F) → (⟨S8192, .f32⟩ : BufTy).Contents (Elt F)),
    StableHlo.binary main_v123 main_v125 main_v126 (addf : (⟨S8192, .f32⟩ : BufTy).Contents (Elt F) → (⟨S8192, .f32⟩ : BufTy).Contents (Elt F) → (⟨S8192, .f32⟩ : BufTy).Contents (Elt F)),
    StableHlo.nullary main_cst_36 (constant S_ .f32 0x40000000#32),
    StableHlo.unary main_cst_36 main_v127 (broadcastInDim S8192 ![] bcast_S_S8192 : (⟨S_, .f32⟩ : BufTy).Contents (Elt F) → (⟨S8192, .f32⟩ : BufTy).Contents (Elt F)),
    StableHlo.binary main_v127 main_v31 main_v128 (mulf : (⟨S8192, .f32⟩ : BufTy).Contents (Elt F) → (⟨S8192, .f32⟩ : BufTy).Contents (Elt F) → (⟨S8192, .f32⟩ : BufTy).Contents (Elt F)),
    StableHlo.binary main_v126 main_v128 main_v129 (addf : (⟨S8192, .f32⟩ : BufTy).Contents (Elt F) → (⟨S8192, .f32⟩ : BufTy).Contents (Elt F) → (⟨S8192, .f32⟩ : BufTy).Contents (Elt F)),
    StableHlo.binary main_v129 main_v24 main_v130 (subf : (⟨S8192, .f32⟩ : BufTy).Contents (Elt F) → (⟨S8192, .f32⟩ : BufTy).Contents (Elt F) → (⟨S8192, .f32⟩ : BufTy).Contents (Elt F)),
    StableHlo.nullary main_cst_37 (constant S_ .f32 0x3F800000#32),
    StableHlo.TRef.unary (.of main_cst_37 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call8_v1 : StableHlo.TRef sig ⟨S8192, .f32⟩) (.of main_v131 : StableHlo.TRef sig ⟨S8192, .f32⟩) select,
    StableHlo.binary main_v130 main_v131 main_v132 (Host.divf : (⟨S8192, .f32⟩ : BufTy).Contents (Elt F) → (⟨S8192, .f32⟩ : BufTy).Contents (Elt F) → (⟨S8192, .f32⟩ : BufTy).Contents (Elt F)),
    StableHlo.nullary main_cst_38 (constant S_ .f32 0x00000000#32),
    StableHlo.TRef.unary (.of main_cst_38 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S8192, .f32⟩) (broadcastInDim S8192 ![] bcast_S_S8192),
    StableHlo.TRef.ternary (.of main_v52 : StableHlo.TRef sig ⟨S8192, .i1⟩) (.of main_v132 : StableHlo.TRef sig ⟨S8192, .f32⟩) (.of main_call9_v1 : StableHlo.TRef sig ⟨S8192, .f32⟩) (.of main_v133 : StableHlo.TRef sig ⟨S8192, .f32⟩) select,
    StableHlo.nullary main_cst_39 (constant S_ .f32 0x40C00000#32),
    StableHlo.unary main_cst_39 main_v134 (broadcastInDim S8192 ![] bcast_S_S8192 : (⟨S_, .f32⟩ : BufTy).Contents (Elt F) → (⟨S8192, .f32⟩ : BufTy).Contents (Elt F)),
    StableHlo.binary main_v134 main_v31 main_v135 (mulf : (⟨S8192, .f32⟩ : BufTy).Contents (Elt F) → (⟨S8192, .f32⟩ : BufTy).Contents (Elt F) → (⟨S8192, .f32⟩ : BufTy).Contents (Elt F)),
    StableHlo.nullary main_cst_40 (constant S_ .f32 0x3F800000#32),
    StableHlo.TRef.unary (.of main_cst_40 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call10_v1 : StableHlo.TRef sig ⟨S8192, .f32⟩) (.of main_v136 : StableHlo.TRef sig ⟨S8192, .f32⟩) select,
    StableHlo.binary main_v135 main_v136 main_v137 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 5: 43 operations. -/
abbrev seg5 : List (HloOp τ sig (Elt F)) :=
  [ StableHlo.nullary main_cst_41 (constant S_ .f32 0x00000000#32),
    StableHlo.TRef.unary (.of main_cst_41 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S8192, .f32⟩) (broadcastInDim S8192 ![] bcast_S_S8192),
    StableHlo.TRef.ternary (.of main_v52 : StableHlo.TRef sig ⟨S8192, .i1⟩) (.of main_v137 : StableHlo.TRef sig ⟨S8192, .f32⟩) (.of main_call11_v1 : StableHlo.TRef sig ⟨S8192, .f32⟩) (.of main_v138 : StableHlo.TRef sig ⟨S8192, .f32⟩) select,
    StableHlo.nullary main_cst_42 (constant S_ .f32 0x40C00000#32),
    StableHlo.unary main_cst_42 main_v139 (broadcastInDim S8192 ![] bcast_S_S8192 : (⟨S_, .f32⟩ : BufTy).Contents (Elt F) → (⟨S8192, .f32⟩ : BufTy).Contents (Elt F)),
    StableHlo.binary main_v139 main_v25 main_v140 (mulf : (⟨S8192, .f32⟩ : BufTy).Contents (Elt F) → (⟨S8192, .f32⟩ : BufTy).Contents (Elt F) → (⟨S8192, .f32⟩ : BufTy).Contents (Elt F)),
    StableHlo.nullary main_cst_43 (constant S_ .f32 0x3F800000#32),
    StableHlo.TRef.unary (.of main_cst_43 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call12_v1 : StableHlo.TRef sig ⟨S8192, .f32⟩) (.of main_v141 : StableHlo.TRef sig ⟨S8192, .f32⟩) select,
    StableHlo.binary main_v140 main_v141 main_v142 (Host.divf : (⟨S8192, .f32⟩ : BufTy).Contents (Elt F) → (⟨S8192, .f32⟩ : BufTy).Contents (Elt F) → (⟨S8192, .f32⟩ : BufTy).Contents (Elt F)),
    StableHlo.nullary main_cst_44 (constant S_ .f32 0x00000000#32),
    StableHlo.TRef.unary (.of main_cst_44 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S8192, .f32⟩) (broadcastInDim S8192 ![] bcast_S_S8192),
    StableHlo.TRef.ternary (.of main_v52 : StableHlo.TRef sig ⟨S8192, .i1⟩) (.of main_v142 : StableHlo.TRef sig ⟨S8192, .f32⟩) (.of main_call13_v1 : StableHlo.TRef sig ⟨S8192, .f32⟩) (.of main_v143 : StableHlo.TRef sig ⟨S8192, .f32⟩) select,
    StableHlo.nullary main_cst_45 (constant S_ .f32 0x40000000#32),
    StableHlo.unary main_cst_45 main_v144 (broadcastInDim S8192 ![] bcast_S_S8192 : (⟨S_, .f32⟩ : BufTy).Contents (Elt F) → (⟨S8192, .f32⟩ : BufTy).Contents (Elt F)),
    StableHlo.binary main_v144 main_v24 main_v145 (mulf : (⟨S8192, .f32⟩ : BufTy).Contents (Elt F) → (⟨S8192, .f32⟩ : BufTy).Contents (Elt F) → (⟨S8192, .f32⟩ : BufTy).Contents (Elt F)),
    StableHlo.nullary main_cst_46 (constant S_ .f32 0x41000000#32),
    StableHlo.unary main_cst_46 main_v146 (broadcastInDim S8192 ![] bcast_S_S8192 : (⟨S_, .f32⟩ : BufTy).Contents (Elt F) → (⟨S8192, .f32⟩ : BufTy).Contents (Elt F)),
    StableHlo.binary main_v146 main_v25 main_v147 (mulf : (⟨S8192, .f32⟩ : BufTy).Contents (Elt F) → (⟨S8192, .f32⟩ : BufTy).Contents (Elt F) → (⟨S8192, .f32⟩ : BufTy).Contents (Elt F)),
    StableHlo.binary main_v145 main_v147 main_v148 (subf : (⟨S8192, .f32⟩ : BufTy).Contents (Elt F) → (⟨S8192, .f32⟩ : BufTy).Contents (Elt F) → (⟨S8192, .f32⟩ : BufTy).Contents (Elt F)),
    StableHlo.nullary main_cst_47 (constant S_ .f32 0x40800000#32),
    StableHlo.unary main_cst_47 main_v149 (broadcastInDim S8192 ![] bcast_S_S8192 : (⟨S_, .f32⟩ : BufTy).Contents (Elt F) → (⟨S8192, .f32⟩ : BufTy).Contents (Elt F)),
    StableHlo.binary main_v149 main_v31 main_v150 (mulf : (⟨S8192, .f32⟩ : BufTy).Contents (Elt F) → (⟨S8192, .f32⟩ : BufTy).Contents (Elt F) → (⟨S8192, .f32⟩ : BufTy).Contents (Elt F)),
    StableHlo.binary main_v148 main_v150 main_v151 (subf : (⟨S8192, .f32⟩ : BufTy).Contents (Elt F) → (⟨S8192, .f32⟩ : BufTy).Contents (Elt F) → (⟨S8192, .f32⟩ : BufTy).Contents (Elt F)),
    StableHlo.nullary main_cst_48 (constant S_ .f32 0x3F800000#32),
    StableHlo.TRef.unary (.of main_cst_48 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S8192, .f32⟩) (broadcastInDim S8192 ![] bcast_S_S8192),
    StableHlo.TRef.ternary (.of main_v52 : StableHlo.TRef sig ⟨S8192, .i1⟩) (.of main_v121 : StableHlo.TRef sig ⟨S8192, .f32⟩) (.of main_call14_v1 : StableHlo.TRef sig ⟨S8192, .f32⟩) (.of main_v152 : StableHlo.TRef sig ⟨S8192, .f32⟩) select,
    StableHlo.binary main_v151 main_v152 main_v153 (Host.divf : (⟨S8192, .f32⟩ : BufTy).Contents (Elt F) → (⟨S8192, .f32⟩ : BufTy).Contents (Elt F) → (⟨S8192, .f32⟩ : BufTy).Contents (Elt F)),
    StableHlo.nullary main_cst_49 (constant S_ .f32 0x00000000#32),
    StableHlo.TRef.unary (.of main_cst_49 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S8192, .f32⟩) (broadcastInDim S8192 ![] bcast_S_S8192),
    StableHlo.TRef.ternary (.of main_v52 : StableHlo.TRef sig ⟨S8192, .i1⟩) (.of main_v153 : StableHlo.TRef sig ⟨S8192, .f32⟩) (.of main_call15_v1 : StableHlo.TRef sig ⟨S8192, .f32⟩) (.of main_v154 : StableHlo.TRef sig ⟨S8192, .f32⟩) select,
    StableHlo.unary main_v73 main_v155 (broadcastInDim S8192x1 ![0] bcast_S8192_S8192x1_0 : (⟨S8192, .f32⟩ : BufTy).Contents (Elt F) → (⟨S8192x1, .f32⟩ : BufTy).Contents (Elt F)),
    StableHlo.unary main_v133 main_v156 (broadcastInDim S8192x1 ![0] bcast_S8192_S8192x1_0 : (⟨S8192, .f32⟩ : BufTy).Contents (Elt F) → (⟨S8192x1, .f32⟩ : BufTy).Contents (Elt F)),
    StableHlo.unary main_v73 main_v157 (broadcastInDim S8192x1 ![0] bcast_S8192_S8192x1_0 : (⟨S8192, .f32⟩ : BufTy).Contents (Elt F) → (⟨S8192x1, .f32⟩ : BufTy).Contents (Elt F)),
    StableHlo.unary main_v73 main_v158 (broadcastInDim S8192x1 ![0] bcast_S8192_S8192x1_0 : (⟨S8192, .f32⟩ : BufTy).Contents (Elt F) → (⟨S8192x1, .f32⟩ : BufTy).Contents (Elt F)),
    StableHlo.unary main_v138 main_v159 (broadcastInDim S8192x1 ![0] bcast_S8192_S8192x1_0 : (⟨S8192, .f32⟩ : BufTy).Contents (Elt F) → (⟨S8192x1, .f32⟩ : BufTy).Contents (Elt F)),
    StableHlo.unary main_v143 main_v160 (broadcastInDim S8192x1 ![0] bcast_S8192_S8192x1_0 : (⟨S8192, .f32⟩ : BufTy).Contents (Elt F) → (⟨S8192x1, .f32⟩ : BufTy).Contents (Elt F)),
    StableHlo.unary main_v154 main_v161 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 6: 34 operations. -/
abbrev seg6 : List (HloOp τ sig (Elt F)) :=
  [ StableHlo.nary ![main_v155, main_v156, main_v157, main_v158, main_v159, main_v160, main_v161] main_v162 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_50 (constant S_ .f32 0x40000000#32),
    StableHlo.unary main_cst_50 main_v163 (broadcastInDim S8192 ![] bcast_S_S8192 : (⟨S_, .f32⟩ : BufTy).Contents (Elt F) → (⟨S8192, .f32⟩ : BufTy).Contents (Elt F)),
    StableHlo.binary main_v163 main_v31 main_v164 (mulf : (⟨S8192, .f32⟩ : BufTy).Contents (Elt F) → (⟨S8192, .f32⟩ : BufTy).Contents (Elt F) → (⟨S8192, .f32⟩ : BufTy).Contents (Elt F)),
    StableHlo.binary main_v24 main_v164 main_v165 (addf : (⟨S8192, .f32⟩ : BufTy).Contents (Elt F) → (⟨S8192, .f32⟩ : BufTy).Contents (Elt F) → (⟨S8192, .f32⟩ : BufTy).Contents (Elt F)),
    StableHlo.nullary main_cst_51 (constant S_ .f32 0x40000000#32),
    StableHlo.unary main_cst_51 main_v166 (broadcastInDim S8192 ![] bcast_S_S8192 : (⟨S_, .f32⟩ : BufTy).Contents (Elt F) → (⟨S8192, .f32⟩ : BufTy).Contents (Elt F)),
    StableHlo.binary main_v166 main_v34 main_v167 (mulf : (⟨S8192, .f32⟩ : BufTy).Contents (Elt F) → (⟨S8192, .f32⟩ : BufTy).Contents (Elt F) → (⟨S8192, .f32⟩ : BufTy).Contents (Elt F)),
    StableHlo.binary main_v165 main_v167 main_v168 (addf : (⟨S8192, .f32⟩ : BufTy).Contents (Elt F) → (⟨S8192, .f32⟩ : BufTy).Contents (Elt F) → (⟨S8192, .f32⟩ : BufTy).Contents (Elt F)),
    StableHlo.nullary main_cst_52 (constant S_ .f32 0x40000000#32),
    StableHlo.unary main_cst_52 main_v169 (broadcastInDim S8192 ![] bcast_S_S8192 : (⟨S_, .f32⟩ : BufTy).Contents (Elt F) → (⟨S8192, .f32⟩ : BufTy).Contents (Elt F)),
    StableHlo.binary main_v169 main_v31 main_v170 (mulf : (⟨S8192, .f32⟩ : BufTy).Contents (Elt F) → (⟨S8192, .f32⟩ : BufTy).Contents (Elt F) → (⟨S8192, .f32⟩ : BufTy).Contents (Elt F)),
    StableHlo.binary main_v170 main_v24 main_v171 (subf : (⟨S8192, .f32⟩ : BufTy).Contents (Elt F) → (⟨S8192, .f32⟩ : BufTy).Contents (Elt F) → (⟨S8192, .f32⟩ : BufTy).Contents (Elt F)),
    StableHlo.nullary main_cst_53 (constant S_ .f32 0x40800000#32),
    StableHlo.unary main_cst_53 main_v172 (broadcastInDim S8192 ![] bcast_S_S8192 : (⟨S_, .f32⟩ : BufTy).Contents (Elt F) → (⟨S8192, .f32⟩ : BufTy).Contents (Elt F)),
    StableHlo.binary main_v172 main_v25 main_v173 (mulf : (⟨S8192, .f32⟩ : BufTy).Contents (Elt F) → (⟨S8192, .f32⟩ : BufTy).Contents (Elt F) → (⟨S8192, .f32⟩ : BufTy).Contents (Elt F)),
    StableHlo.binary main_v171 main_v173 main_v174 (subf : (⟨S8192, .f32⟩ : BufTy).Contents (Elt F) → (⟨S8192, .f32⟩ : BufTy).Contents (Elt F) → (⟨S8192, .f32⟩ : BufTy).Contents (Elt F)),
    StableHlo.nullary main_cst_54 (constant S_ .f32 0x3F800000#32),
    StableHlo.TRef.unary (.of main_cst_54 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call16_v1 : StableHlo.TRef sig ⟨S8192, .f32⟩) (.of main_v175 : StableHlo.TRef sig ⟨S8192, .f32⟩) select,
    StableHlo.binary main_v174 main_v175 main_v176 (Host.divf : (⟨S8192, .f32⟩ : BufTy).Contents (Elt F) → (⟨S8192, .f32⟩ : BufTy).Contents (Elt F) → (⟨S8192, .f32⟩ : BufTy).Contents (Elt F)),
    StableHlo.nullary main_cst_55 (constant S_ .f32 0x00000000#32),
    StableHlo.TRef.unary (.of main_cst_55 : StableHlo.TRef sig ⟨S_, .f32⟩) (.of main_call17_v0 : StableHlo.TRef sig ⟨S_, .f32⟩) id,
    StableHlo.TRef.unary (.of main_call17_v0 : StableHlo.TRef sig ⟨S_, .f32⟩) (.of main_call17_v1 : StableHlo.TRef sig ⟨S8192, .f32⟩) (broadcastInDim S8192 ![] bcast_S_S8192),
    StableHlo.TRef.ternary (.of main_v60 : StableHlo.TRef sig ⟨S8192, .i1⟩) (.of main_v176 : StableHlo.TRef sig ⟨S8192, .f32⟩) (.of main_call17_v1 : StableHlo.TRef sig ⟨S8192, .f32⟩) (.of main_v177 : StableHlo.TRef sig ⟨S8192, .f32⟩) select,
    StableHlo.nullary main_cst_56 (constant S_ .f32 0x40000000#32),
    StableHlo.unary main_cst_56 main_v178 (broadcastInDim S8192 ![] bcast_S_S8192 : (⟨S_, .f32⟩ : BufTy).Contents (Elt F) → (⟨S8192, .f32⟩ : BufTy).Contents (Elt F)),
    StableHlo.binary main_v178 main_v34 main_v179 (mulf : (⟨S8192, .f32⟩ : BufTy).Contents (Elt F) → (⟨S8192, .f32⟩ : BufTy).Contents (Elt F) → (⟨S8192, .f32⟩ : BufTy).Contents (Elt F)),
    StableHlo.nullary main_cst_57 (constant S_ .f32 0x3F800000#32),
    StableHlo.TRef.unary (.of main_cst_57 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call18_v1 : StableHlo.TRef sig ⟨S8192, .f32⟩) (.of main_v180 : StableHlo.TRef sig ⟨S8192, .f32⟩) select,
    StableHlo.binary main_v179 main_v180 main_v181 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 7: 35 operations. -/
abbrev seg7 : List (HloOp τ sig (Elt F)) :=
  [ StableHlo.nullary main_cst_58 (constant S_ .f32 0x00000000#32),
    StableHlo.TRef.unary (.of main_cst_58 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S8192, .f32⟩) (broadcastInDim S8192 ![] bcast_S_S8192),
    StableHlo.TRef.ternary (.of main_v60 : StableHlo.TRef sig ⟨S8192, .i1⟩) (.of main_v181 : StableHlo.TRef sig ⟨S8192, .f32⟩) (.of main_call19_v1 : StableHlo.TRef sig ⟨S8192, .f32⟩) (.of main_v182 : StableHlo.TRef sig ⟨S8192, .f32⟩) select,
    StableHlo.nullary main_cst_59 (constant S_ .f32 0x40800000#32),
    StableHlo.unary main_cst_59 main_v183 (broadcastInDim S8192 ![] bcast_S_S8192 : (⟨S_, .f32⟩ : BufTy).Contents (Elt F) → (⟨S8192, .f32⟩ : BufTy).Contents (Elt F)),
    StableHlo.binary main_v183 main_v25 main_v184 (mulf : (⟨S8192, .f32⟩ : BufTy).Contents (Elt F) → (⟨S8192, .f32⟩ : BufTy).Contents (Elt F) → (⟨S8192, .f32⟩ : BufTy).Contents (Elt F)),
    StableHlo.nullary main_cst_60 (constant S_ .f32 0x3F800000#32),
    StableHlo.TRef.unary (.of main_cst_60 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call20_v1 : StableHlo.TRef sig ⟨S8192, .f32⟩) (.of main_v185 : StableHlo.TRef sig ⟨S8192, .f32⟩) select,
    StableHlo.binary main_v184 main_v185 main_v186 (Host.divf : (⟨S8192, .f32⟩ : BufTy).Contents (Elt F) → (⟨S8192, .f32⟩ : BufTy).Contents (Elt F) → (⟨S8192, .f32⟩ : BufTy).Contents (Elt F)),
    StableHlo.nullary main_cst_61 (constant S_ .f32 0x00000000#32),
    StableHlo.TRef.unary (.of main_cst_61 : StableHlo.TRef sig ⟨S_, .f32⟩) (.of main_call21_v0 : StableHlo.TRef sig ⟨S_, .f32⟩) id,
    StableHlo.TRef.unary (.of main_call21_v0 : StableHlo.TRef sig ⟨S_, .f32⟩) (.of main_call21_v1 : StableHlo.TRef sig ⟨S8192, .f32⟩) (broadcastInDim S8192 ![] bcast_S_S8192),
    StableHlo.TRef.ternary (.of main_v60 : StableHlo.TRef sig ⟨S8192, .i1⟩) (.of main_v186 : StableHlo.TRef sig ⟨S8192, .f32⟩) (.of main_call21_v1 : StableHlo.TRef sig ⟨S8192, .f32⟩) (.of main_v187 : StableHlo.TRef sig ⟨S8192, .f32⟩) select,
    StableHlo.nullary main_cst_62 (constant S_ .f32 0x40000000#32),
    StableHlo.unary main_cst_62 main_v188 (broadcastInDim S8192 ![] bcast_S_S8192 : (⟨S_, .f32⟩ : BufTy).Contents (Elt F) → (⟨S8192, .f32⟩ : BufTy).Contents (Elt F)),
    StableHlo.binary main_v188 main_v24 main_v189 (mulf : (⟨S8192, .f32⟩ : BufTy).Contents (Elt F) → (⟨S8192, .f32⟩ : BufTy).Contents (Elt F) → (⟨S8192, .f32⟩ : BufTy).Contents (Elt F)),
    StableHlo.nullary main_cst_63 (constant S_ .f32 0x3F800000#32),
    StableHlo.TRef.unary (.of main_cst_63 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S8192, .f32⟩) (broadcastInDim S8192 ![] bcast_S_S8192),
    StableHlo.TRef.ternary (.of main_v60 : StableHlo.TRef sig ⟨S8192, .i1⟩) (.of main_v168 : StableHlo.TRef sig ⟨S8192, .f32⟩) (.of main_call22_v1 : StableHlo.TRef sig ⟨S8192, .f32⟩) (.of main_v190 : StableHlo.TRef sig ⟨S8192, .f32⟩) select,
    StableHlo.binary main_v189 main_v190 main_v191 (Host.divf : (⟨S8192, .f32⟩ : BufTy).Contents (Elt F) → (⟨S8192, .f32⟩ : BufTy).Contents (Elt F) → (⟨S8192, .f32⟩ : BufTy).Contents (Elt F)),
    StableHlo.nullary main_cst_64 (constant S_ .f32 0x00000000#32),
    StableHlo.TRef.unary (.of main_cst_64 : StableHlo.TRef sig ⟨S_, .f32⟩) (.of main_call23_v0 : StableHlo.TRef sig ⟨S_, .f32⟩) id,
    StableHlo.TRef.unary (.of main_call23_v0 : StableHlo.TRef sig ⟨S_, .f32⟩) (.of main_call23_v1 : StableHlo.TRef sig ⟨S8192, .f32⟩) (broadcastInDim S8192 ![] bcast_S_S8192),
    StableHlo.TRef.ternary (.of main_v60 : StableHlo.TRef sig ⟨S8192, .i1⟩) (.of main_v191 : StableHlo.TRef sig ⟨S8192, .f32⟩) (.of main_call23_v1 : StableHlo.TRef sig ⟨S8192, .f32⟩) (.of main_v192 : StableHlo.TRef sig ⟨S8192, .f32⟩) select,
    StableHlo.unary main_v177 main_v193 (broadcastInDim S8192x1 ![0] bcast_S8192_S8192x1_0 : (⟨S8192, .f32⟩ : BufTy).Contents (Elt F) → (⟨S8192x1, .f32⟩ : BufTy).Contents (Elt F)),
    StableHlo.unary main_v182 main_v194 (broadcastInDim S8192x1 ![0] bcast_S8192_S8192x1_0 : (⟨S8192, .f32⟩ : BufTy).Contents (Elt F) → (⟨S8192x1, .f32⟩ : BufTy).Contents (Elt F)),
    StableHlo.unary main_v73 main_v195 (broadcastInDim S8192x1 ![0] bcast_S8192_S8192x1_0 : (⟨S8192, .f32⟩ : BufTy).Contents (Elt F) → (⟨S8192x1, .f32⟩ : BufTy).Contents (Elt F)),
    StableHlo.unary main_v187 main_v196 (broadcastInDim S8192x1 ![0] bcast_S8192_S8192x1_0 : (⟨S8192, .f32⟩ : BufTy).Contents (Elt F) → (⟨S8192x1, .f32⟩ : BufTy).Contents (Elt F)),
    StableHlo.unary main_v192 main_v197 (broadcastInDim S8192x1 ![0] bcast_S8192_S8192x1_0 : (⟨S8192, .f32⟩ : BufTy).Contents (Elt F) → (⟨S8192x1, .f32⟩ : BufTy).Contents (Elt F)),
    StableHlo.unary main_v73 main_v198 (broadcastInDim S8192x1 ![0] bcast_S8192_S8192x1_0 : (⟨S8192, .f32⟩ : BufTy).Contents (Elt F) → (⟨S8192x1, .f32⟩ : BufTy).Contents (Elt F)),
    StableHlo.unary main_v73 main_v199 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 8: 45 operations. -/
abbrev seg8 : List (HloOp τ sig (Elt F)) :=
  [ StableHlo.nary ![main_v193, main_v194, main_v195, main_v196, main_v197, main_v198, main_v199] main_v200 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.nullary main_cst_65 (constant S_ .f32 0x40000000#32),
    StableHlo.unary main_cst_65 main_v201 (broadcastInDim S8192 ![] bcast_S_S8192 : (⟨S_, .f32⟩ : BufTy).Contents (Elt F) → (⟨S8192, .f32⟩ : BufTy).Contents (Elt F)),
    StableHlo.binary main_v201 main_v31 main_v202 (mulf : (⟨S8192, .f32⟩ : BufTy).Contents (Elt F) → (⟨S8192, .f32⟩ : BufTy).Contents (Elt F) → (⟨S8192, .f32⟩ : BufTy).Contents (Elt F)),
    StableHlo.binary main_v24 main_v202 main_v203 (addf : (⟨S8192, .f32⟩ : BufTy).Contents (Elt F) → (⟨S8192, .f32⟩ : BufTy).Contents (Elt F) → (⟨S8192, .f32⟩ : BufTy).Contents (Elt F)),
    StableHlo.nullary main_cst_66 (constant S_ .f32 0x40000000#32),
    StableHlo.unary main_cst_66 main_v204 (broadcastInDim S8192 ![] bcast_S_S8192 : (⟨S_, .f32⟩ : BufTy).Contents (Elt F) → (⟨S8192, .f32⟩ : BufTy).Contents (Elt F)),
    StableHlo.binary main_v204 main_v34 main_v205 (mulf : (⟨S8192, .f32⟩ : BufTy).Contents (Elt F) → (⟨S8192, .f32⟩ : BufTy).Contents (Elt F) → (⟨S8192, .f32⟩ : BufTy).Contents (Elt F)),
    StableHlo.binary main_v203 main_v205 main_v206 (addf : (⟨S8192, .f32⟩ : BufTy).Contents (Elt F) → (⟨S8192, .f32⟩ : BufTy).Contents (Elt F) → (⟨S8192, .f32⟩ : BufTy).Contents (Elt F)),
    StableHlo.nullary main_cst_67 (constant S_ .f32 0x40000000#32),
    StableHlo.unary main_cst_67 main_v207 (broadcastInDim S8192 ![] bcast_S_S8192 : (⟨S_, .f32⟩ : BufTy).Contents (Elt F) → (⟨S8192, .f32⟩ : BufTy).Contents (Elt F)),
    StableHlo.binary main_v207 main_v24 main_v208 (mulf : (⟨S8192, .f32⟩ : BufTy).Contents (Elt F) → (⟨S8192, .f32⟩ : BufTy).Contents (Elt F) → (⟨S8192, .f32⟩ : BufTy).Contents (Elt F)),
    StableHlo.nullary main_cst_68 (constant S_ .f32 0x40800000#32),
    StableHlo.unary main_cst_68 main_v209 (broadcastInDim S8192 ![] bcast_S_S8192 : (⟨S_, .f32⟩ : BufTy).Contents (Elt F) → (⟨S8192, .f32⟩ : BufTy).Contents (Elt F)),
    StableHlo.binary main_v209 main_v31 main_v210 (mulf : (⟨S8192, .f32⟩ : BufTy).Contents (Elt F) → (⟨S8192, .f32⟩ : BufTy).Contents (Elt F) → (⟨S8192, .f32⟩ : BufTy).Contents (Elt F)),
    StableHlo.binary main_v208 main_v210 main_v211 (addf : (⟨S8192, .f32⟩ : BufTy).Contents (Elt F) → (⟨S8192, .f32⟩ : BufTy).Contents (Elt F) → (⟨S8192, .f32⟩ : BufTy).Contents (Elt F)),
    StableHlo.nullary main_cst_69 (constant S_ .f32 0x40800000#32),
    StableHlo.unary main_cst_69 main_v212 (broadcastInDim S8192 ![] bcast_S_S8192 : (⟨S_, .f32⟩ : BufTy).Contents (Elt F) → (⟨S8192, .f32⟩ : BufTy).Contents (Elt F)),
    StableHlo.binary main_v212 main_v34 main_v213 (mulf : (⟨S8192, .f32⟩ : BufTy).Contents (Elt F) → (⟨S8192, .f32⟩ : BufTy).Contents (Elt F) → (⟨S8192, .f32⟩ : BufTy).Contents (Elt F)),
    StableHlo.binary main_v211 main_v213 main_v214 (addf : (⟨S8192, .f32⟩ : BufTy).Contents (Elt F) → (⟨S8192, .f32⟩ : BufTy).Contents (Elt F) → (⟨S8192, .f32⟩ : BufTy).Contents (Elt F)),
    StableHlo.nullary main_cst_70 (constant S_ .f32 0x40000000#32),
    StableHlo.unary main_cst_70 main_v215 (broadcastInDim S8192 ![] bcast_S_S8192 : (⟨S_, .f32⟩ : BufTy).Contents (Elt F) → (⟨S8192, .f32⟩ : BufTy).Contents (Elt F)),
    StableHlo.binary main_v215 main_v34 main_v216 (mulf : (⟨S8192, .f32⟩ : BufTy).Contents (Elt F) → (⟨S8192, .f32⟩ : BufTy).Contents (Elt F) → (⟨S8192, .f32⟩ : BufTy).Contents (Elt F)),
    StableHlo.nullary main_cst_71 (constant S_ .f32 0x3F800000#32),
    StableHlo.TRef.unary (.of main_cst_71 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S8192, .f32⟩) (broadcastInDim S8192 ![] bcast_S_S8192),
    StableHlo.TRef.ternary (.of main_v72 : StableHlo.TRef sig ⟨S8192, .i1⟩) (.of main_v206 : StableHlo.TRef sig ⟨S8192, .f32⟩) (.of main_call24_v1 : StableHlo.TRef sig ⟨S8192, .f32⟩) (.of main_v217 : StableHlo.TRef sig ⟨S8192, .f32⟩) select,
    StableHlo.binary main_v216 main_v217 main_v218 (Host.divf : (⟨S8192, .f32⟩ : BufTy).Contents (Elt F) → (⟨S8192, .f32⟩ : BufTy).Contents (Elt F) → (⟨S8192, .f32⟩ : BufTy).Contents (Elt F)),
    StableHlo.nullary main_cst_72 (constant S_ .f32 0x00000000#32),
    StableHlo.TRef.unary (.of main_cst_72 : StableHlo.TRef sig ⟨S_, .f32⟩) (.of main_call25_v0 : StableHlo.TRef sig ⟨S_, .f32⟩) id,
    StableHlo.TRef.unary (.of main_call25_v0 : StableHlo.TRef sig ⟨S_, .f32⟩) (.of main_call25_v1 : StableHlo.TRef sig ⟨S8192, .f32⟩) (broadcastInDim S8192 ![] bcast_S_S8192),
    StableHlo.TRef.ternary (.of main_v72 : StableHlo.TRef sig ⟨S8192, .i1⟩) (.of main_v218 : StableHlo.TRef sig ⟨S8192, .f32⟩) (.of main_call25_v1 : StableHlo.TRef sig ⟨S8192, .f32⟩) (.of main_v219 : StableHlo.TRef sig ⟨S8192, .f32⟩) select,
    StableHlo.nullary main_cst_73 (constant S_ .f32 0x40000000#32),
    StableHlo.unary main_cst_73 main_v220 (broadcastInDim S8192 ![] bcast_S_S8192 : (⟨S_, .f32⟩ : BufTy).Contents (Elt F) → (⟨S8192, .f32⟩ : BufTy).Contents (Elt F)),
    StableHlo.binary main_v220 main_v31 main_v221 (mulf : (⟨S8192, .f32⟩ : BufTy).Contents (Elt F) → (⟨S8192, .f32⟩ : BufTy).Contents (Elt F) → (⟨S8192, .f32⟩ : BufTy).Contents (Elt F)),
    StableHlo.nullary main_cst_74 (constant S_ .f32 0x40800000#32),
    StableHlo.unary main_cst_74 main_v222 (broadcastInDim S8192 ![] bcast_S_S8192 : (⟨S_, .f32⟩ : BufTy).Contents (Elt F) → (⟨S8192, .f32⟩ : BufTy).Contents (Elt F)),
    StableHlo.binary main_v222 main_v25 main_v223 (mulf : (⟨S8192, .f32⟩ : BufTy).Contents (Elt F) → (⟨S8192, .f32⟩ : BufTy).Contents (Elt F) → (⟨S8192, .f32⟩ : BufTy).Contents (Elt F)),
    StableHlo.binary main_v221 main_v223 main_v224 (addf : (⟨S8192, .f32⟩ : BufTy).Contents (Elt F) → (⟨S8192, .f32⟩ : BufTy).Contents (Elt F) → (⟨S8192, .f32⟩ : BufTy).Contents (Elt F)),
    StableHlo.binary main_v224 main_v24 main_v225 (subf : (⟨S8192, .f32⟩ : BufTy).Contents (Elt F) → (⟨S8192, .f32⟩ : BufTy).Contents (Elt F) → (⟨S8192, .f32⟩ : BufTy).Contents (Elt F)),
    StableHlo.nullary main_cst_75 (constant S_ .f32 0x3F800000#32),
    StableHlo.TRef.unary (.of main_cst_75 : StableHlo.TRef sig ⟨S_, .f32⟩) (.of main_call26_v0 : StableHlo.TRef sig ⟨S_, .f32⟩) id,
    StableHlo.TRef.unary (.of main_call26_v0 : StableHlo.TRef sig ⟨S_, .f32⟩) (.of main_call26_v1 : StableHlo.TRef sig ⟨S8192, .f32⟩) (broadcastInDim S8192 ![] bcast_S_S8192),
    StableHlo.TRef.ternary (.of main_v72 : StableHlo.TRef sig ⟨S8192, .i1⟩) (.of main_v214 : StableHlo.TRef sig ⟨S8192, .f32⟩) (.of main_call26_v1 : StableHlo.TRef sig ⟨S8192, .f32⟩) (.of main_v226 : StableHlo.TRef sig ⟨S8192, .f32⟩) select,
    StableHlo.binary main_v225 main_v226 main_v227 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 40000000 in
/-- Segment 9: 45 operations. -/
abbrev seg9 : List (HloOp τ sig (Elt F)) :=
  [ StableHlo.nullary main_cst_76 (constant S_ .f32 0x00000000#32),
    StableHlo.TRef.unary (.of main_cst_76 : StableHlo.TRef sig ⟨S_, .f32⟩) (.of main_call27_v0 : StableHlo.TRef sig ⟨S_, .f32⟩) id,
    StableHlo.TRef.unary (.of main_call27_v0 : StableHlo.TRef sig ⟨S_, .f32⟩) (.of main_call27_v1 : StableHlo.TRef sig ⟨S8192, .f32⟩) (broadcastInDim S8192 ![] bcast_S_S8192),
    StableHlo.TRef.ternary (.of main_v72 : StableHlo.TRef sig ⟨S8192, .i1⟩) (.of main_v227 : StableHlo.TRef sig ⟨S8192, .f32⟩) (.of main_call27_v1 : StableHlo.TRef sig ⟨S8192, .f32⟩) (.of main_v228 : StableHlo.TRef sig ⟨S8192, .f32⟩) select,
    StableHlo.nullary main_cst_77 (constant S_ .f32 0x40000000#32),
    StableHlo.unary main_cst_77 main_v229 (broadcastInDim S8192 ![] bcast_S_S8192 : (⟨S_, .f32⟩ : BufTy).Contents (Elt F) → (⟨S8192, .f32⟩ : BufTy).Contents (Elt F)),
    StableHlo.binary main_v229 main_v31 main_v230 (mulf : (⟨S8192, .f32⟩ : BufTy).Contents (Elt F) → (⟨S8192, .f32⟩ : BufTy).Contents (Elt F) → (⟨S8192, .f32⟩ : BufTy).Contents (Elt F)),
    StableHlo.binary main_v24 main_v230 main_v231 (addf : (⟨S8192, .f32⟩ : BufTy).Contents (Elt F) → (⟨S8192, .f32⟩ : BufTy).Contents (Elt F) → (⟨S8192, .f32⟩ : BufTy).Contents (Elt F)),
    StableHlo.nullary main_cst_78 (constant S_ .f32 0x40800000#32),
    StableHlo.unary main_cst_78 main_v232 (broadcastInDim S8192 ![] bcast_S_S8192 : (⟨S_, .f32⟩ : BufTy).Contents (Elt F) → (⟨S8192, .f32⟩ : BufTy).Contents (Elt F)),
    StableHlo.binary main_v232 main_v25 main_v233 (mulf : (⟨S8192, .f32⟩ : BufTy).Contents (Elt F) → (⟨S8192, .f32⟩ : BufTy).Contents (Elt F) → (⟨S8192, .f32⟩ : BufTy).Contents (Elt F)),
    StableHlo.binary main_v231 main_v233 main_v234 (subf : (⟨S8192, .f32⟩ : BufTy).Contents (Elt F) → (⟨S8192, .f32⟩ : BufTy).Contents (Elt F) → (⟨S8192, .f32⟩ : BufTy).Contents (Elt F)),
    StableHlo.nullary main_cst_79 (constant S_ .f32 0x3F800000#32),
    StableHlo.TRef.unary (.of main_cst_79 : StableHlo.TRef sig ⟨S_, .f32⟩) (.of main_call28_v0 : StableHlo.TRef sig ⟨S_, .f32⟩) id,
    StableHlo.TRef.unary (.of main_call28_v0 : StableHlo.TRef sig ⟨S_, .f32⟩) (.of main_call28_v1 : StableHlo.TRef sig ⟨S8192, .f32⟩) (broadcastInDim S8192 ![] bcast_S_S8192),
    StableHlo.TRef.ternary (.of main_v72 : StableHlo.TRef sig ⟨S8192, .i1⟩) (.of main_v206 : StableHlo.TRef sig ⟨S8192, .f32⟩) (.of main_call28_v1 : StableHlo.TRef sig ⟨S8192, .f32⟩) (.of main_v235 : StableHlo.TRef sig ⟨S8192, .f32⟩) select,
    StableHlo.binary main_v234 main_v235 main_v236 (Host.divf : (⟨S8192, .f32⟩ : BufTy).Contents (Elt F) → (⟨S8192, .f32⟩ : BufTy).Contents (Elt F) → (⟨S8192, .f32⟩ : BufTy).Contents (Elt F)),
    StableHlo.nullary main_cst_80 (constant S_ .f32 0x00000000#32),
    StableHlo.TRef.unary (.of main_cst_80 : StableHlo.TRef sig ⟨S_, .f32⟩) (.of main_call29_v0 : StableHlo.TRef sig ⟨S_, .f32⟩) id,
    StableHlo.TRef.unary (.of main_call29_v0 : StableHlo.TRef sig ⟨S_, .f32⟩) (.of main_call29_v1 : StableHlo.TRef sig ⟨S8192, .f32⟩) (broadcastInDim S8192 ![] bcast_S_S8192),
    StableHlo.TRef.ternary (.of main_v72 : StableHlo.TRef sig ⟨S8192, .i1⟩) (.of main_v236 : StableHlo.TRef sig ⟨S8192, .f32⟩) (.of main_call29_v1 : StableHlo.TRef sig ⟨S8192, .f32⟩) (.of main_v237 : StableHlo.TRef sig ⟨S8192, .f32⟩) select,
    StableHlo.nullary main_cst_81 (constant S_ .f32 0x40000000#32),
    StableHlo.unary main_cst_81 main_v238 (broadcastInDim S8192 ![] bcast_S_S8192 : (⟨S_, .f32⟩ : BufTy).Contents (Elt F) → (⟨S8192, .f32⟩ : BufTy).Contents (Elt F)),
    StableHlo.binary main_v238 main_v31 main_v239 (mulf : (⟨S8192, .f32⟩ : BufTy).Contents (Elt F) → (⟨S8192, .f32⟩ : BufTy).Contents (Elt F) → (⟨S8192, .f32⟩ : BufTy).Contents (Elt F)),
    StableHlo.binary main_v24 main_v239 main_v240 (subf : (⟨S8192, .f32⟩ : BufTy).Contents (Elt F) → (⟨S8192, .f32⟩ : BufTy).Contents (Elt F) → (⟨S8192, .f32⟩ : BufTy).Contents (Elt F)),
    StableHlo.nullary main_cst_82 (constant S_ .f32 0x40800000#32),
    StableHlo.unary main_cst_82 main_v241 (broadcastInDim S8192 ![] bcast_S_S8192 : (⟨S_, .f32⟩ : BufTy).Contents (Elt F) → (⟨S8192, .f32⟩ : BufTy).Contents (Elt F)),
    StableHlo.binary main_v241 main_v25 main_v242 (mulf : (⟨S8192, .f32⟩ : BufTy).Contents (Elt F) → (⟨S8192, .f32⟩ : BufTy).Contents (Elt F) → (⟨S8192, .f32⟩ : BufTy).Contents (Elt F)),
    StableHlo.binary main_v240 main_v242 main_v243 (addf : (⟨S8192, .f32⟩ : BufTy).Contents (Elt F) → (⟨S8192, .f32⟩ : BufTy).Contents (Elt F) → (⟨S8192, .f32⟩ : BufTy).Contents (Elt F)),
    StableHlo.nullary main_cst_83 (constant S_ .f32 0x3F800000#32),
    StableHlo.TRef.unary (.of main_cst_83 : StableHlo.TRef sig ⟨S_, .f32⟩) (.of main_call30_v0 : StableHlo.TRef sig ⟨S_, .f32⟩) id,
    StableHlo.TRef.unary (.of main_call30_v0 : StableHlo.TRef sig ⟨S_, .f32⟩) (.of main_call30_v1 : StableHlo.TRef sig ⟨S8192, .f32⟩) (broadcastInDim S8192 ![] bcast_S_S8192),
    StableHlo.TRef.ternary (.of main_v72 : StableHlo.TRef sig ⟨S8192, .i1⟩) (.of main_v214 : StableHlo.TRef sig ⟨S8192, .f32⟩) (.of main_call30_v1 : StableHlo.TRef sig ⟨S8192, .f32⟩) (.of main_v244 : StableHlo.TRef sig ⟨S8192, .f32⟩) select,
    StableHlo.binary main_v243 main_v244 main_v245 (Host.divf : (⟨S8192, .f32⟩ : BufTy).Contents (Elt F) → (⟨S8192, .f32⟩ : BufTy).Contents (Elt F) → (⟨S8192, .f32⟩ : BufTy).Contents (Elt F)),
    StableHlo.nullary main_cst_84 (constant S_ .f32 0x00000000#32),
    StableHlo.TRef.unary (.of main_cst_84 : StableHlo.TRef sig ⟨S_, .f32⟩) (.of main_call31_v0 : StableHlo.TRef sig ⟨S_, .f32⟩) id,
    StableHlo.TRef.unary (.of main_call31_v0 : StableHlo.TRef sig ⟨S_, .f32⟩) (.of main_call31_v1 : StableHlo.TRef sig ⟨S8192, .f32⟩) (broadcastInDim S8192 ![] bcast_S_S8192),
    StableHlo.TRef.ternary (.of main_v72 : StableHlo.TRef sig ⟨S8192, .i1⟩) (.of main_v245 : StableHlo.TRef sig ⟨S8192, .f32⟩) (.of main_call31_v1 : StableHlo.TRef sig ⟨S8192, .f32⟩) (.of main_v246 : StableHlo.TRef sig ⟨S8192, .f32⟩) select,
    StableHlo.unary main_v73 main_v247 (broadcastInDim S8192x1 ![0] bcast_S8192_S8192x1_0 : (⟨S8192, .f32⟩ : BufTy).Contents (Elt F) → (⟨S8192x1, .f32⟩ : BufTy).Contents (Elt F)),
    StableHlo.unary main_v219 main_v248 (broadcastInDim S8192x1 ![0] bcast_S8192_S8192x1_0 : (⟨S8192, .f32⟩ : BufTy).Contents (Elt F) → (⟨S8192x1, .f32⟩ : BufTy).Contents (Elt F)),
    StableHlo.unary main_v73 main_v249 (broadcastInDim S8192x1 ![0] bcast_S8192_S8192x1_0 : (⟨S8192, .f32⟩ : BufTy).Contents (Elt F) → (⟨S8192x1, .f32⟩ : BufTy).Contents (Elt F)),
    StableHlo.unary main_v228 main_v250 (broadcastInDim S8192x1 ![0] bcast_S8192_S8192x1_0 : (⟨S8192, .f32⟩ : BufTy).Contents (Elt F) → (⟨S8192x1, .f32⟩ : BufTy).Contents (Elt F)),
    StableHlo.unary main_v237 main_v251 (broadcastInDim S8192x1 ![0] bcast_S8192_S8192x1_0 : (⟨S8192, .f32⟩ : BufTy).Contents (Elt F) → (⟨S8192x1, .f32⟩ : BufTy).Contents (Elt F)),
    StableHlo.unary main_v246 main_v252 (broadcastInDim S8192x1 ![0] bcast_S8192_S8192x1_0 : (⟨S8192, .f32⟩ : BufTy).Contents (Elt F) → (⟨S8192x1, .f32⟩ : BufTy).Contents (Elt F)),
    StableHlo.unary main_v73 main_v253 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 40000000 in
/-- Segment 10: 20 operations. -/
abbrev seg10 : List (HloOp τ sig (Elt F)) :=
  [ StableHlo.nary ![main_v247, main_v248, main_v249, main_v250, main_v251, main_v252, main_v253] main_v254 (fun u => concatenate S8192x7 1 [⟨S8192x1, u 0⟩, ⟨S8192x1, u 1⟩, ⟨S8192x1, u 2⟩, ⟨S8192x1, u 3⟩, ⟨S8192x1, u 4⟩, ⟨S8192x1, u 5⟩, ⟨S8192x1, u 6⟩] concatenates_S8192x1_S8192x1_S8192x1_S8192x1_S8192x1_S8192x1_S8192x1_S8192x7_d1),
    StableHlo.binary main_v112 main_v162 main_v255 (addf : (⟨S8192x7, .f32⟩ : BufTy).Contents (Elt F) → (⟨S8192x7, .f32⟩ : BufTy).Contents (Elt F) → (⟨S8192x7, .f32⟩ : BufTy).Contents (Elt F)),
    StableHlo.binary main_v255 main_v200 main_v256 (addf : (⟨S8192x7, .f32⟩ : BufTy).Contents (Elt F) → (⟨S8192x7, .f32⟩ : BufTy).Contents (Elt F) → (⟨S8192x7, .f32⟩ : BufTy).Contents (Elt F)),
    StableHlo.binary main_v256 main_v254 main_v257 (addf : (⟨S8192x7, .f32⟩ : BufTy).Contents (Elt F) → (⟨S8192x7, .f32⟩ : BufTy).Contents (Elt F) → (⟨S8192x7, .f32⟩ : BufTy).Contents (Elt F)),
    StableHlo.unary main_arg1 main_v258 (Host.log : (⟨S8192x7, .f32⟩ : BufTy).Contents (Elt F) → (⟨S8192x7, .f32⟩ : BufTy).Contents (Elt F)),
    StableHlo.nullary main_cst_85 (constant S_ .f32 0x3F6B3F8E#32),
    StableHlo.unary main_cst_85 main_v259 (broadcastInDim S8192x7 ![] bcast_S_S8192x7 : (⟨S_, .f32⟩ : BufTy).Contents (Elt F) → (⟨S8192x7, .f32⟩ : BufTy).Contents (Elt F)),
    StableHlo.binary main_v259 main_v258 main_v260 (addf : (⟨S8192x7, .f32⟩ : BufTy).Contents (Elt F) → (⟨S8192x7, .f32⟩ : BufTy).Contents (Elt F) → (⟨S8192x7, .f32⟩ : BufTy).Contents (Elt F)),
    StableHlo.binary main_arg0 main_v257 main_v261 (subf : (⟨S8192x7, .f32⟩ : BufTy).Contents (Elt F) → (⟨S8192x7, .f32⟩ : BufTy).Contents (Elt F) → (⟨S8192x7, .f32⟩ : BufTy).Contents (Elt F)),
    StableHlo.binary main_v261 main_v261 main_v262 (mulf : (⟨S8192x7, .f32⟩ : BufTy).Contents (Elt F) → (⟨S8192x7, .f32⟩ : BufTy).Contents (Elt F) → (⟨S8192x7, .f32⟩ : BufTy).Contents (Elt F)),
    StableHlo.binary main_arg1 main_arg1 main_v263 (mulf : (⟨S8192x7, .f32⟩ : BufTy).Contents (Elt F) → (⟨S8192x7, .f32⟩ : BufTy).Contents (Elt F) → (⟨S8192x7, .f32⟩ : BufTy).Contents (Elt F)),
    StableHlo.nullary main_cst_86 (constant S_ .f32 0x40000000#32),
    StableHlo.unary main_cst_86 main_v264 (broadcastInDim S8192x7 ![] bcast_S_S8192x7 : (⟨S_, .f32⟩ : BufTy).Contents (Elt F) → (⟨S8192x7, .f32⟩ : BufTy).Contents (Elt F)),
    StableHlo.binary main_v264 main_v263 main_v265 (mulf : (⟨S8192x7, .f32⟩ : BufTy).Contents (Elt F) → (⟨S8192x7, .f32⟩ : BufTy).Contents (Elt F) → (⟨S8192x7, .f32⟩ : BufTy).Contents (Elt F)),
    StableHlo.binary main_v262 main_v265 main_v266 (Host.divf : (⟨S8192x7, .f32⟩ : BufTy).Contents (Elt F) → (⟨S8192x7, .f32⟩ : BufTy).Contents (Elt F) → (⟨S8192x7, .f32⟩ : BufTy).Contents (Elt F)),
    StableHlo.binary main_v260 main_v266 main_v267 (addf : (⟨S8192x7, .f32⟩ : BufTy).Contents (Elt F) → (⟨S8192x7, .f32⟩ : BufTy).Contents (Elt F) → (⟨S8192x7, .f32⟩ : BufTy).Contents (Elt F)),
    StableHlo.nullary main_cst_87 (constant S_ .f32 0x00000000#32),
    StableHlo.binary main_v267 main_cst_87 main_v268 ((fun x v => Host.reduceAdd x v reducesTo_S8192x7_S_d0_1 h_S_) : (⟨S8192x7, .f32⟩ : BufTy).Contents (Elt F) → (⟨S_, .f32⟩ : BufTy).Contents (Elt F) → (⟨S_, .f32⟩ : BufTy).Contents (Elt F)),
    StableHlo.nullary main_cst_88 (constant S_ .f32 0x46000000#32),
    StableHlo.binary main_v268 main_cst_88 main_v269 (Host.divf : (⟨S_, .f32⟩ : BufTy).Contents (Elt F) → (⟨S_, .f32⟩ : BufTy).Contents (Elt F) → (⟨S_, .f32⟩ : BufTy).Contents (Elt F)) ]

set_option maxRecDepth 65536 in
set_option maxHeartbeats 40000000 in
/-- The prior's operations are the segments' in order. -/
theorem priorOps_eq_segs : (priorOps : List (HloOp τ sig (Elt F))) = seg0 ++ (seg1 ++ (seg2 ++ (seg3 ++ (seg4 ++ (seg5 ++ (seg6 ++ (seg7 ++ (seg8 ++ (seg9 ++ (seg10)))))))))) := rfl

end Cert.ReferenceIdeal.Hand

end
-- ==== Proof.PriorSeg0.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 0: 2 buffers read from before it, 8 read after it. -/
theorem seg0_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    : after Cert.ReferenceIdeal.Hand.seg0 VR (Proc.devRef .tc Cert.ReferenceIdeal.main_arg0) = after Cert.KernelIdeal.Hand.kseg0 VK (Proc.devRef .tc Cert.KernelIdeal.main_arg0)
      ∧ after Cert.ReferenceIdeal.Hand.seg0 VR (Proc.devRef .tc Cert.ReferenceIdeal.main_arg1) = after Cert.KernelIdeal.Hand.kseg0 VK (Proc.devRef .tc Cert.KernelIdeal.main_arg1)
      ∧ after Cert.ReferenceIdeal.Hand.seg0 VR (Proc.devRef .tc Cert.ReferenceIdeal.main_v3) = after Cert.KernelIdeal.Hand.kseg0 VK (Proc.devRef .tc Cert.KernelIdeal.main_v3)
      ∧ after Cert.ReferenceIdeal.Hand.seg0 VR (Proc.devRef .tc Cert.ReferenceIdeal.main_v13) = after Cert.KernelIdeal.Hand.kseg0 VK (Proc.devRef .tc Cert.KernelIdeal.main_v13)
      ∧ after Cert.ReferenceIdeal.Hand.seg0 VR (Proc.devRef .tc Cert.ReferenceIdeal.main_v24) = after Cert.KernelIdeal.Hand.kseg0 VK (Proc.devRef .tc Cert.KernelIdeal.main_v24)
      ∧ after Cert.ReferenceIdeal.Hand.seg0 VR (Proc.devRef .tc Cert.ReferenceIdeal.main_v25) = after Cert.KernelIdeal.Hand.kseg0 VK (Proc.devRef .tc Cert.KernelIdeal.main_v25)
      ∧ after Cert.ReferenceIdeal.Hand.seg0 VR (Proc.devRef .tc Cert.ReferenceIdeal.main_v31) = after Cert.KernelIdeal.Hand.kseg0 VK (Proc.devRef .tc Cert.KernelIdeal.main_v31)
      ∧ after Cert.ReferenceIdeal.Hand.seg0 VR (Proc.devRef .tc Cert.ReferenceIdeal.main_v32) = after Cert.KernelIdeal.Hand.kseg0 VK (Proc.devRef .tc Cert.KernelIdeal.main_v32) := by
  refine ⟨?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try rfl

end Cert.Proof.Prior

end
-- ==== Proof.PriorSeg1.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 1: 8 buffers read from before it, 11 read after it. -/
theorem seg1_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v3 : VR (Proc.devRef .tc Cert.ReferenceIdeal.main_v3) = VK (Proc.devRef .tc Cert.KernelIdeal.main_v3))
    (h_main_v13 : VR (Proc.devRef .tc Cert.ReferenceIdeal.main_v13) = VK (Proc.devRef .tc Cert.KernelIdeal.main_v13))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v32 : VR (Proc.devRef .tc Cert.ReferenceIdeal.main_v32) = VK (Proc.devRef .tc Cert.KernelIdeal.main_v32))
    : after Cert.ReferenceIdeal.Hand.seg1 VR (Proc.devRef .tc Cert.ReferenceIdeal.main_arg0) = after Cert.KernelIdeal.Hand.kseg1 VK (Proc.devRef .tc Cert.KernelIdeal.main_arg0)
      ∧ after Cert.ReferenceIdeal.Hand.seg1 VR (Proc.devRef .tc Cert.ReferenceIdeal.main_arg1) = after Cert.KernelIdeal.Hand.kseg1 VK (Proc.devRef .tc Cert.KernelIdeal.main_arg1)
      ∧ after Cert.ReferenceIdeal.Hand.seg1 VR (Proc.devRef .tc Cert.ReferenceIdeal.main_v24) = after Cert.KernelIdeal.Hand.kseg1 VK (Proc.devRef .tc Cert.KernelIdeal.main_v24)
      ∧ after Cert.ReferenceIdeal.Hand.seg1 VR (Proc.devRef .tc Cert.ReferenceIdeal.main_v25) = after Cert.KernelIdeal.Hand.kseg1 VK (Proc.devRef .tc Cert.KernelIdeal.main_v25)
      ∧ after Cert.ReferenceIdeal.Hand.seg1 VR (Proc.devRef .tc Cert.ReferenceIdeal.main_v31) = after Cert.KernelIdeal.Hand.kseg1 VK (Proc.devRef .tc Cert.KernelIdeal.main_v31)
      ∧ after Cert.ReferenceIdeal.Hand.seg1 VR (Proc.devRef .tc Cert.ReferenceIdeal.main_v34) = after Cert.KernelIdeal.Hand.kseg1 VK (Proc.devRef .tc Cert.KernelIdeal.main_v34)
      ∧ after Cert.ReferenceIdeal.Hand.seg1 VR (Proc.devRef .tc Cert.ReferenceIdeal.main_v50) = after Cert.KernelIdeal.Hand.kseg1 VK (Proc.devRef .tc Cert.KernelIdeal.main_v50)
      ∧ after Cert.ReferenceIdeal.Hand.seg1 VR (Proc.devRef .tc Cert.ReferenceIdeal.main_v52) = after Cert.KernelIdeal.Hand.kseg1 VK (Proc.devRef .tc Cert.KernelIdeal.main_v52)
      ∧ after Cert.ReferenceIdeal.Hand.seg1 VR (Proc.devRef .tc Cert.ReferenceIdeal.main_v60) = after Cert.KernelIdeal.Hand.kseg1 VK (Proc.devRef .tc Cert.KernelIdeal.main_v60)
      ∧ after Cert.ReferenceIdeal.Hand.seg1 VR (Proc.devRef .tc Cert.ReferenceIdeal.main_v63) = after Cert.KernelIdeal.Hand.kseg1 VK (Proc.devRef .tc Cert.KernelIdeal.main_v63)
      ∧ after Cert.ReferenceIdeal.Hand.seg1 VR (Proc.devRef .tc Cert.ReferenceIdeal.main_v65) = after Cert.KernelIdeal.Hand.kseg1 VK (Proc.devRef .tc Cert.KernelIdeal.main_v65) := by
  refine ⟨?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v3) = a at h_main_v3 ⊢; subst h_main_v3)
    try (generalize VR (Proc.devRef .tc Cert.ReferenceIdeal.main_v13) = a at h_main_v13 ⊢; subst h_main_v13)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v32) = a at h_main_v32 ⊢; subst h_main_v32)
    try rfl

end Cert.Proof.Prior

end
-- ==== Proof.PriorSeg2.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 2: 11 buffers read from before it, 14 read after it. -/
theorem seg2_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v50 : VR (Proc.devRef .tc Cert.ReferenceIdeal.main_v50) = VK (Proc.devRef .tc Cert.KernelIdeal.main_v50))
    (h_main_v52 : VR (Proc.devRef .tc Cert.ReferenceIdeal.main_v52) = VK (Proc.devRef .tc Cert.KernelIdeal.main_v52))
    (h_main_v60 : VR (Proc.devRef .tc Cert.ReferenceIdeal.main_v60) = VK (Proc.devRef .tc Cert.KernelIdeal.main_v60))
    (h_main_v63 : VR (Proc.devRef .tc Cert.ReferenceIdeal.main_v63) = VK (Proc.devRef .tc Cert.KernelIdeal.main_v63))
    (h_main_v65 : VR (Proc.devRef .tc Cert.ReferenceIdeal.main_v65) = VK (Proc.devRef .tc Cert.KernelIdeal.main_v65))
    : after Cert.ReferenceIdeal.Hand.seg2 VR (Proc.devRef .tc Cert.ReferenceIdeal.main_arg0) = after Cert.KernelIdeal.Hand.kseg2 VK (Proc.devRef .tc Cert.KernelIdeal.main_arg0)
      ∧ after Cert.ReferenceIdeal.Hand.seg2 VR (Proc.devRef .tc Cert.ReferenceIdeal.main_arg1) = after Cert.KernelIdeal.Hand.kseg2 VK (Proc.devRef .tc Cert.KernelIdeal.main_arg1)
      ∧ after Cert.ReferenceIdeal.Hand.seg2 VR (Proc.devRef .tc Cert.ReferenceIdeal.main_v24) = after Cert.KernelIdeal.Hand.kseg2 VK (Proc.devRef .tc Cert.KernelIdeal.main_v24)
      ∧ after Cert.ReferenceIdeal.Hand.seg2 VR (Proc.devRef .tc Cert.ReferenceIdeal.main_v25) = after Cert.KernelIdeal.Hand.kseg2 VK (Proc.devRef .tc Cert.KernelIdeal.main_v25)
      ∧ after Cert.ReferenceIdeal.Hand.seg2 VR (Proc.devRef .tc Cert.ReferenceIdeal.main_v31) = after Cert.KernelIdeal.Hand.kseg2 VK (Proc.devRef .tc Cert.KernelIdeal.main_v31)
      ∧ after Cert.ReferenceIdeal.Hand.seg2 VR (Proc.devRef .tc Cert.ReferenceIdeal.main_v34) = after Cert.KernelIdeal.Hand.kseg2 VK (Proc.devRef .tc Cert.KernelIdeal.main_v34)
      ∧ after Cert.ReferenceIdeal.Hand.seg2 VR (Proc.devRef .tc Cert.ReferenceIdeal.main_v50) = after Cert.KernelIdeal.Hand.kseg2 VK (Proc.devRef .tc Cert.KernelIdeal.main_v50)
      ∧ after Cert.ReferenceIdeal.Hand.seg2 VR (Proc.devRef .tc Cert.ReferenceIdeal.main_v52) = after Cert.KernelIdeal.Hand.kseg2 VK (Proc.devRef .tc Cert.KernelIdeal.main_v52)
      ∧ after Cert.ReferenceIdeal.Hand.seg2 VR (Proc.devRef .tc Cert.ReferenceIdeal.main_v60) = after Cert.KernelIdeal.Hand.kseg2 VK (Proc.devRef .tc Cert.KernelIdeal.main_v60)
      ∧ after Cert.ReferenceIdeal.Hand.seg2 VR (Proc.devRef .tc Cert.ReferenceIdeal.main_v72) = after Cert.KernelIdeal.Hand.kseg2 VK (Proc.devRef .tc Cert.KernelIdeal.main_v72)
      ∧ after Cert.ReferenceIdeal.Hand.seg2 VR (Proc.devRef .tc Cert.ReferenceIdeal.main_v73) = after Cert.KernelIdeal.Hand.kseg2 VK (Proc.devRef .tc Cert.KernelIdeal.main_v73)
      ∧ after Cert.ReferenceIdeal.Hand.seg2 VR (Proc.devRef .tc Cert.ReferenceIdeal.main_v77) = after Cert.KernelIdeal.Hand.kseg2 VK (Proc.devRef .tc Cert.KernelIdeal.main_v77)
      ∧ after Cert.ReferenceIdeal.Hand.seg2 VR (Proc.devRef .tc Cert.ReferenceIdeal.main_v89) = after Cert.KernelIdeal.Hand.kseg2 VK (Proc.devRef .tc Cert.KernelIdeal.main_v89)
      ∧ after Cert.ReferenceIdeal.Hand.seg2 VR (Proc.devRef .tc Cert.ReferenceIdeal.main_v91) = after Cert.KernelIdeal.Hand.kseg2 VK (Proc.devRef .tc Cert.KernelIdeal.main_v91) := by
  refine ⟨?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v50) = a at h_main_v50 ⊢; subst h_main_v50)
    try (generalize VR (Proc.devRef .tc Cert.ReferenceIdeal.main_v52) = a at h_main_v52 ⊢; subst h_main_v52)
    try (generalize VR (Proc.devRef .tc Cert.ReferenceIdeal.main_v60) = a at h_main_v60 ⊢; subst h_main_v60)
    try (generalize VR (Proc.devRef .tc Cert.ReferenceIdeal.main_v63) = a at h_main_v63 ⊢; subst h_main_v63)
    try (generalize VR (Proc.devRef .tc Cert.ReferenceIdeal.main_v65) = a at h_main_v65 ⊢; subst h_main_v65)
    try rfl

end Cert.Proof.Prior

end
-- ==== Proof.PriorSeg3.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 3: 14 buffers read from before it, 17 read after it. -/
theorem seg3_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v50 : VR (Proc.devRef .tc Cert.ReferenceIdeal.main_v50) = VK (Proc.devRef .tc Cert.KernelIdeal.main_v50))
    (h_main_v52 : VR (Proc.devRef .tc Cert.ReferenceIdeal.main_v52) = VK (Proc.devRef .tc Cert.KernelIdeal.main_v52))
    (h_main_v60 : VR (Proc.devRef .tc Cert.ReferenceIdeal.main_v60) = VK (Proc.devRef .tc Cert.KernelIdeal.main_v60))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v77 : VR (Proc.devRef .tc Cert.ReferenceIdeal.main_v77) = VK (Proc.devRef .tc Cert.KernelIdeal.main_v77))
    (h_main_v89 : VR (Proc.devRef .tc Cert.ReferenceIdeal.main_v89) = VK (Proc.devRef .tc Cert.KernelIdeal.main_v89))
    (h_main_v91 : VR (Proc.devRef .tc Cert.ReferenceIdeal.main_v91) = VK (Proc.devRef .tc Cert.KernelIdeal.main_v91))
    : after Cert.ReferenceIdeal.Hand.seg3 VR (Proc.devRef .tc Cert.ReferenceIdeal.main_arg0) = after Cert.KernelIdeal.Hand.kseg3 VK (Proc.devRef .tc Cert.KernelIdeal.main_arg0)
      ∧ after Cert.ReferenceIdeal.Hand.seg3 VR (Proc.devRef .tc Cert.ReferenceIdeal.main_arg1) = after Cert.KernelIdeal.Hand.kseg3 VK (Proc.devRef .tc Cert.KernelIdeal.main_arg1)
      ∧ after Cert.ReferenceIdeal.Hand.seg3 VR (Proc.devRef .tc Cert.ReferenceIdeal.main_v24) = after Cert.KernelIdeal.Hand.kseg3 VK (Proc.devRef .tc Cert.KernelIdeal.main_v24)
      ∧ after Cert.ReferenceIdeal.Hand.seg3 VR (Proc.devRef .tc Cert.ReferenceIdeal.main_v25) = after Cert.KernelIdeal.Hand.kseg3 VK (Proc.devRef .tc Cert.KernelIdeal.main_v25)
      ∧ after Cert.ReferenceIdeal.Hand.seg3 VR (Proc.devRef .tc Cert.ReferenceIdeal.main_v31) = after Cert.KernelIdeal.Hand.kseg3 VK (Proc.devRef .tc Cert.KernelIdeal.main_v31)
      ∧ after Cert.ReferenceIdeal.Hand.seg3 VR (Proc.devRef .tc Cert.ReferenceIdeal.main_v34) = after Cert.KernelIdeal.Hand.kseg3 VK (Proc.devRef .tc Cert.KernelIdeal.main_v34)
      ∧ after Cert.ReferenceIdeal.Hand.seg3 VR (Proc.devRef .tc Cert.ReferenceIdeal.main_v52) = after Cert.KernelIdeal.Hand.kseg3 VK (Proc.devRef .tc Cert.KernelIdeal.main_v52)
      ∧ after Cert.ReferenceIdeal.Hand.seg3 VR (Proc.devRef .tc Cert.ReferenceIdeal.main_v60) = after Cert.KernelIdeal.Hand.kseg3 VK (Proc.devRef .tc Cert.KernelIdeal.main_v60)
      ∧ after Cert.ReferenceIdeal.Hand.seg3 VR (Proc.devRef .tc Cert.ReferenceIdeal.main_v72) = after Cert.KernelIdeal.Hand.kseg3 VK (Proc.devRef .tc Cert.KernelIdeal.main_v72)
      ∧ after Cert.ReferenceIdeal.Hand.seg3 VR (Proc.devRef .tc Cert.ReferenceIdeal.main_v73) = after Cert.KernelIdeal.Hand.kseg3 VK (Proc.devRef .tc Cert.KernelIdeal.main_v73)
      ∧ after Cert.ReferenceIdeal.Hand.seg3 VR (Proc.devRef .tc Cert.ReferenceIdeal.main_v105) = after Cert.KernelIdeal.Hand.kseg3 VK (Proc.devRef .tc Cert.KernelIdeal.main_v105)
      ∧ after Cert.ReferenceIdeal.Hand.seg3 VR (Proc.devRef .tc Cert.ReferenceIdeal.main_v106) = after Cert.KernelIdeal.Hand.kseg3 VK (Proc.devRef .tc Cert.KernelIdeal.main_v106)
      ∧ after Cert.ReferenceIdeal.Hand.seg3 VR (Proc.devRef .tc Cert.ReferenceIdeal.main_v107) = after Cert.KernelIdeal.Hand.kseg3 VK (Proc.devRef .tc Cert.KernelIdeal.main_v107)
      ∧ after Cert.ReferenceIdeal.Hand.seg3 VR (Proc.devRef .tc Cert.ReferenceIdeal.main_v108) = after Cert.KernelIdeal.Hand.kseg3 VK (Proc.devRef .tc Cert.KernelIdeal.main_v108)
      ∧ after Cert.ReferenceIdeal.Hand.seg3 VR (Proc.devRef .tc Cert.ReferenceIdeal.main_v109) = after Cert.KernelIdeal.Hand.kseg3 VK (Proc.devRef .tc Cert.KernelIdeal.main_v109)
      ∧ after Cert.ReferenceIdeal.Hand.seg3 VR (Proc.devRef .tc Cert.ReferenceIdeal.main_v110) = after Cert.KernelIdeal.Hand.kseg3 VK (Proc.devRef .tc Cert.KernelIdeal.main_v110)
      ∧ after Cert.ReferenceIdeal.Hand.seg3 VR (Proc.devRef .tc Cert.ReferenceIdeal.main_v111) = after Cert.KernelIdeal.Hand.kseg3 VK (Proc.devRef .tc Cert.KernelIdeal.main_v111) := by
  refine ⟨?_, ?_, ?_, ?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v50) = a at h_main_v50 ⊢; subst h_main_v50)
    try (generalize VR (Proc.devRef .tc Cert.ReferenceIdeal.main_v52) = a at h_main_v52 ⊢; subst h_main_v52)
    try (generalize VR (Proc.devRef .tc Cert.ReferenceIdeal.main_v60) = a at h_main_v60 ⊢; subst h_main_v60)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v77) = a at h_main_v77 ⊢; subst h_main_v77)
    try (generalize VR (Proc.devRef .tc Cert.ReferenceIdeal.main_v89) = a at h_main_v89 ⊢; subst h_main_v89)
    try (generalize VR (Proc.devRef .tc Cert.ReferenceIdeal.main_v91) = a at h_main_v91 ⊢; subst h_main_v91)
    try rfl

end Cert.Proof.Prior

end
-- ==== Proof.PriorSeg4.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 4: 17 buffers read from before it, 14 read after it. -/
theorem seg4_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v52 : VR (Proc.devRef .tc Cert.ReferenceIdeal.main_v52) = VK (Proc.devRef .tc Cert.KernelIdeal.main_v52))
    (h_main_v60 : VR (Proc.devRef .tc Cert.ReferenceIdeal.main_v60) = VK (Proc.devRef .tc Cert.KernelIdeal.main_v60))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v105 : VR (Proc.devRef .tc Cert.ReferenceIdeal.main_v105) = VK (Proc.devRef .tc Cert.KernelIdeal.main_v105))
    (h_main_v106 : VR (Proc.devRef .tc Cert.ReferenceIdeal.main_v106) = VK (Proc.devRef .tc Cert.KernelIdeal.main_v106))
    (h_main_v107 : VR (Proc.devRef .tc Cert.ReferenceIdeal.main_v107) = VK (Proc.devRef .tc Cert.KernelIdeal.main_v107))
    (h_main_v108 : VR (Proc.devRef .tc Cert.ReferenceIdeal.main_v108) = VK (Proc.devRef .tc Cert.KernelIdeal.main_v108))
    (h_main_v109 : VR (Proc.devRef .tc Cert.ReferenceIdeal.main_v109) = VK (Proc.devRef .tc Cert.KernelIdeal.main_v109))
    (h_main_v110 : VR (Proc.devRef .tc Cert.ReferenceIdeal.main_v110) = VK (Proc.devRef .tc Cert.KernelIdeal.main_v110))
    (h_main_v111 : VR (Proc.devRef .tc Cert.ReferenceIdeal.main_v111) = VK (Proc.devRef .tc Cert.KernelIdeal.main_v111))
    : after Cert.ReferenceIdeal.Hand.seg4 VR (Proc.devRef .tc Cert.ReferenceIdeal.main_arg0) = after Cert.KernelIdeal.Hand.kseg4 VK (Proc.devRef .tc Cert.KernelIdeal.main_arg0)
      ∧ after Cert.ReferenceIdeal.Hand.seg4 VR (Proc.devRef .tc Cert.ReferenceIdeal.main_arg1) = after Cert.KernelIdeal.Hand.kseg4 VK (Proc.devRef .tc Cert.KernelIdeal.main_arg1)
      ∧ after Cert.ReferenceIdeal.Hand.seg4 VR (Proc.devRef .tc Cert.ReferenceIdeal.main_v24) = after Cert.KernelIdeal.Hand.kseg4 VK (Proc.devRef .tc Cert.KernelIdeal.main_v24)
      ∧ after Cert.ReferenceIdeal.Hand.seg4 VR (Proc.devRef .tc Cert.ReferenceIdeal.main_v25) = after Cert.KernelIdeal.Hand.kseg4 VK (Proc.devRef .tc Cert.KernelIdeal.main_v25)
      ∧ after Cert.ReferenceIdeal.Hand.seg4 VR (Proc.devRef .tc Cert.ReferenceIdeal.main_v31) = after Cert.KernelIdeal.Hand.kseg4 VK (Proc.devRef .tc Cert.KernelIdeal.main_v31)
      ∧ after Cert.ReferenceIdeal.Hand.seg4 VR (Proc.devRef .tc Cert.ReferenceIdeal.main_v34) = after Cert.KernelIdeal.Hand.kseg4 VK (Proc.devRef .tc Cert.KernelIdeal.main_v34)
      ∧ after Cert.ReferenceIdeal.Hand.seg4 VR (Proc.devRef .tc Cert.ReferenceIdeal.main_v52) = after Cert.KernelIdeal.Hand.kseg4 VK (Proc.devRef .tc Cert.KernelIdeal.main_v52)
      ∧ after Cert.ReferenceIdeal.Hand.seg4 VR (Proc.devRef .tc Cert.ReferenceIdeal.main_v60) = after Cert.KernelIdeal.Hand.kseg4 VK (Proc.devRef .tc Cert.KernelIdeal.main_v60)
      ∧ after Cert.ReferenceIdeal.Hand.seg4 VR (Proc.devRef .tc Cert.ReferenceIdeal.main_v72) = after Cert.KernelIdeal.Hand.kseg4 VK (Proc.devRef .tc Cert.KernelIdeal.main_v72)
      ∧ after Cert.ReferenceIdeal.Hand.seg4 VR (Proc.devRef .tc Cert.ReferenceIdeal.main_v73) = after Cert.KernelIdeal.Hand.kseg4 VK (Proc.devRef .tc Cert.KernelIdeal.main_v73)
      ∧ after Cert.ReferenceIdeal.Hand.seg4 VR (Proc.devRef .tc Cert.ReferenceIdeal.main_v112) = after Cert.KernelIdeal.Hand.kseg4 VK (Proc.devRef .tc Cert.KernelIdeal.main_v112)
      ∧ after Cert.ReferenceIdeal.Hand.seg4 VR (Proc.devRef .tc Cert.ReferenceIdeal.main_v121) = after Cert.KernelIdeal.Hand.kseg4 VK (Proc.devRef .tc Cert.KernelIdeal.main_v121)
      ∧ after Cert.ReferenceIdeal.Hand.seg4 VR (Proc.devRef .tc Cert.ReferenceIdeal.main_v133) = after Cert.KernelIdeal.Hand.kseg4 VK (Proc.devRef .tc Cert.KernelIdeal.main_v133)
      ∧ after Cert.ReferenceIdeal.Hand.seg4 VR (Proc.devRef .tc Cert.ReferenceIdeal.main_v137) = after Cert.KernelIdeal.Hand.kseg4 VK (Proc.devRef .tc Cert.KernelIdeal.main_v137) := by
  refine ⟨?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v52) = a at h_main_v52 ⊢; subst h_main_v52)
    try (generalize VR (Proc.devRef .tc Cert.ReferenceIdeal.main_v60) = a at h_main_v60 ⊢; subst h_main_v60)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v105) = a at h_main_v105 ⊢; subst h_main_v105)
    try (generalize VR (Proc.devRef .tc Cert.ReferenceIdeal.main_v106) = a at h_main_v106 ⊢; subst h_main_v106)
    try (generalize VR (Proc.devRef .tc Cert.ReferenceIdeal.main_v107) = a at h_main_v107 ⊢; subst h_main_v107)
    try (generalize VR (Proc.devRef .tc Cert.ReferenceIdeal.main_v108) = a at h_main_v108 ⊢; subst h_main_v108)
    try (generalize VR (Proc.devRef .tc Cert.ReferenceIdeal.main_v109) = a at h_main_v109 ⊢; subst h_main_v109)
    try (generalize VR (Proc.devRef .tc Cert.ReferenceIdeal.main_v110) = a at h_main_v110 ⊢; subst h_main_v110)
    try (generalize VR (Proc.devRef .tc Cert.ReferenceIdeal.main_v111) = a at h_main_v111 ⊢; subst h_main_v111)
    try rfl

end Cert.Proof.Prior

end
-- ==== Proof.PriorSeg5.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 5: 14 buffers read from before it, 17 read after it. -/
theorem seg5_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v52 : VR (Proc.devRef .tc Cert.ReferenceIdeal.main_v52) = VK (Proc.devRef .tc Cert.KernelIdeal.main_v52))
    (h_main_v60 : VR (Proc.devRef .tc Cert.ReferenceIdeal.main_v60) = VK (Proc.devRef .tc Cert.KernelIdeal.main_v60))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v112 : VR (Proc.devRef .tc Cert.ReferenceIdeal.main_v112) = VK (Proc.devRef .tc Cert.KernelIdeal.main_v112))
    (h_main_v121 : VR (Proc.devRef .tc Cert.ReferenceIdeal.main_v121) = VK (Proc.devRef .tc Cert.KernelIdeal.main_v121))
    (h_main_v133 : VR (Proc.devRef .tc Cert.ReferenceIdeal.main_v133) = VK (Proc.devRef .tc Cert.KernelIdeal.main_v133))
    (h_main_v137 : VR (Proc.devRef .tc Cert.ReferenceIdeal.main_v137) = VK (Proc.devRef .tc Cert.KernelIdeal.main_v137))
    : after Cert.ReferenceIdeal.Hand.seg5 VR (Proc.devRef .tc Cert.ReferenceIdeal.main_arg0) = after Cert.KernelIdeal.Hand.kseg5 VK (Proc.devRef .tc Cert.KernelIdeal.main_arg0)
      ∧ after Cert.ReferenceIdeal.Hand.seg5 VR (Proc.devRef .tc Cert.ReferenceIdeal.main_arg1) = after Cert.KernelIdeal.Hand.kseg5 VK (Proc.devRef .tc Cert.KernelIdeal.main_arg1)
      ∧ after Cert.ReferenceIdeal.Hand.seg5 VR (Proc.devRef .tc Cert.ReferenceIdeal.main_v24) = after Cert.KernelIdeal.Hand.kseg5 VK (Proc.devRef .tc Cert.KernelIdeal.main_v24)
      ∧ after Cert.ReferenceIdeal.Hand.seg5 VR (Proc.devRef .tc Cert.ReferenceIdeal.main_v25) = after Cert.KernelIdeal.Hand.kseg5 VK (Proc.devRef .tc Cert.KernelIdeal.main_v25)
      ∧ after Cert.ReferenceIdeal.Hand.seg5 VR (Proc.devRef .tc Cert.ReferenceIdeal.main_v31) = after Cert.KernelIdeal.Hand.kseg5 VK (Proc.devRef .tc Cert.KernelIdeal.main_v31)
      ∧ after Cert.ReferenceIdeal.Hand.seg5 VR (Proc.devRef .tc Cert.ReferenceIdeal.main_v34) = after Cert.KernelIdeal.Hand.kseg5 VK (Proc.devRef .tc Cert.KernelIdeal.main_v34)
      ∧ after Cert.ReferenceIdeal.Hand.seg5 VR (Proc.devRef .tc Cert.ReferenceIdeal.main_v60) = after Cert.KernelIdeal.Hand.kseg5 VK (Proc.devRef .tc Cert.KernelIdeal.main_v60)
      ∧ after Cert.ReferenceIdeal.Hand.seg5 VR (Proc.devRef .tc Cert.ReferenceIdeal.main_v72) = after Cert.KernelIdeal.Hand.kseg5 VK (Proc.devRef .tc Cert.KernelIdeal.main_v72)
      ∧ after Cert.ReferenceIdeal.Hand.seg5 VR (Proc.devRef .tc Cert.ReferenceIdeal.main_v73) = after Cert.KernelIdeal.Hand.kseg5 VK (Proc.devRef .tc Cert.KernelIdeal.main_v73)
      ∧ after Cert.ReferenceIdeal.Hand.seg5 VR (Proc.devRef .tc Cert.ReferenceIdeal.main_v112) = after Cert.KernelIdeal.Hand.kseg5 VK (Proc.devRef .tc Cert.KernelIdeal.main_v112)
      ∧ after Cert.ReferenceIdeal.Hand.seg5 VR (Proc.devRef .tc Cert.ReferenceIdeal.main_v155) = after Cert.KernelIdeal.Hand.kseg5 VK (Proc.devRef .tc Cert.KernelIdeal.main_v155)
      ∧ after Cert.ReferenceIdeal.Hand.seg5 VR (Proc.devRef .tc Cert.ReferenceIdeal.main_v156) = after Cert.KernelIdeal.Hand.kseg5 VK (Proc.devRef .tc Cert.KernelIdeal.main_v156)
      ∧ after Cert.ReferenceIdeal.Hand.seg5 VR (Proc.devRef .tc Cert.ReferenceIdeal.main_v157) = after Cert.KernelIdeal.Hand.kseg5 VK (Proc.devRef .tc Cert.KernelIdeal.main_v157)
      ∧ after Cert.ReferenceIdeal.Hand.seg5 VR (Proc.devRef .tc Cert.ReferenceIdeal.main_v158) = after Cert.KernelIdeal.Hand.kseg5 VK (Proc.devRef .tc Cert.KernelIdeal.main_v158)
      ∧ after Cert.ReferenceIdeal.Hand.seg5 VR (Proc.devRef .tc Cert.ReferenceIdeal.main_v159) = after Cert.KernelIdeal.Hand.kseg5 VK (Proc.devRef .tc Cert.KernelIdeal.main_v159)
      ∧ after Cert.ReferenceIdeal.Hand.seg5 VR (Proc.devRef .tc Cert.ReferenceIdeal.main_v160) = after Cert.KernelIdeal.Hand.kseg5 VK (Proc.devRef .tc Cert.KernelIdeal.main_v160)
      ∧ after Cert.ReferenceIdeal.Hand.seg5 VR (Proc.devRef .tc Cert.ReferenceIdeal.main_v161) = after Cert.KernelIdeal.Hand.kseg5 VK (Proc.devRef .tc Cert.KernelIdeal.main_v161) := by
  refine ⟨?_, ?_, ?_, ?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v52) = a at h_main_v52 ⊢; subst h_main_v52)
    try (generalize VR (Proc.devRef .tc Cert.ReferenceIdeal.main_v60) = a at h_main_v60 ⊢; subst h_main_v60)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v112) = a at h_main_v112 ⊢; subst h_main_v112)
    try (generalize VR (Proc.devRef .tc Cert.ReferenceIdeal.main_v121) = a at h_main_v121 ⊢; subst h_main_v121)
    try (generalize VR (Proc.devRef .tc Cert.ReferenceIdeal.main_v133) = a at h_main_v133 ⊢; subst h_main_v133)
    try (generalize VR (Proc.devRef .tc Cert.ReferenceIdeal.main_v137) = a at h_main_v137 ⊢; subst h_main_v137)
    try rfl

end Cert.Proof.Prior

end
-- ==== Proof.PriorSeg6.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 6: 17 buffers read from before it, 14 read after it. -/
theorem seg6_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v60 : VR (Proc.devRef .tc Cert.ReferenceIdeal.main_v60) = VK (Proc.devRef .tc Cert.KernelIdeal.main_v60))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v112 : VR (Proc.devRef .tc Cert.ReferenceIdeal.main_v112) = VK (Proc.devRef .tc Cert.KernelIdeal.main_v112))
    (h_main_v155 : VR (Proc.devRef .tc Cert.ReferenceIdeal.main_v155) = VK (Proc.devRef .tc Cert.KernelIdeal.main_v155))
    (h_main_v156 : VR (Proc.devRef .tc Cert.ReferenceIdeal.main_v156) = VK (Proc.devRef .tc Cert.KernelIdeal.main_v156))
    (h_main_v157 : VR (Proc.devRef .tc Cert.ReferenceIdeal.main_v157) = VK (Proc.devRef .tc Cert.KernelIdeal.main_v157))
    (h_main_v158 : VR (Proc.devRef .tc Cert.ReferenceIdeal.main_v158) = VK (Proc.devRef .tc Cert.KernelIdeal.main_v158))
    (h_main_v159 : VR (Proc.devRef .tc Cert.ReferenceIdeal.main_v159) = VK (Proc.devRef .tc Cert.KernelIdeal.main_v159))
    (h_main_v160 : VR (Proc.devRef .tc Cert.ReferenceIdeal.main_v160) = VK (Proc.devRef .tc Cert.KernelIdeal.main_v160))
    (h_main_v161 : VR (Proc.devRef .tc Cert.ReferenceIdeal.main_v161) = VK (Proc.devRef .tc Cert.KernelIdeal.main_v161))
    : after Cert.ReferenceIdeal.Hand.seg6 VR (Proc.devRef .tc Cert.ReferenceIdeal.main_arg0) = after Cert.KernelIdeal.Hand.kseg6 VK (Proc.devRef .tc Cert.KernelIdeal.main_arg0)
      ∧ after Cert.ReferenceIdeal.Hand.seg6 VR (Proc.devRef .tc Cert.ReferenceIdeal.main_arg1) = after Cert.KernelIdeal.Hand.kseg6 VK (Proc.devRef .tc Cert.KernelIdeal.main_arg1)
      ∧ after Cert.ReferenceIdeal.Hand.seg6 VR (Proc.devRef .tc Cert.ReferenceIdeal.main_v24) = after Cert.KernelIdeal.Hand.kseg6 VK (Proc.devRef .tc Cert.KernelIdeal.main_v24)
      ∧ after Cert.ReferenceIdeal.Hand.seg6 VR (Proc.devRef .tc Cert.ReferenceIdeal.main_v25) = after Cert.KernelIdeal.Hand.kseg6 VK (Proc.devRef .tc Cert.KernelIdeal.main_v25)
      ∧ after Cert.ReferenceIdeal.Hand.seg6 VR (Proc.devRef .tc Cert.ReferenceIdeal.main_v31) = after Cert.KernelIdeal.Hand.kseg6 VK (Proc.devRef .tc Cert.KernelIdeal.main_v31)
      ∧ after Cert.ReferenceIdeal.Hand.seg6 VR (Proc.devRef .tc Cert.ReferenceIdeal.main_v34) = after Cert.KernelIdeal.Hand.kseg6 VK (Proc.devRef .tc Cert.KernelIdeal.main_v34)
      ∧ after Cert.ReferenceIdeal.Hand.seg6 VR (Proc.devRef .tc Cert.ReferenceIdeal.main_v60) = after Cert.KernelIdeal.Hand.kseg6 VK (Proc.devRef .tc Cert.KernelIdeal.main_v60)
      ∧ after Cert.ReferenceIdeal.Hand.seg6 VR (Proc.devRef .tc Cert.ReferenceIdeal.main_v72) = after Cert.KernelIdeal.Hand.kseg6 VK (Proc.devRef .tc Cert.KernelIdeal.main_v72)
      ∧ after Cert.ReferenceIdeal.Hand.seg6 VR (Proc.devRef .tc Cert.ReferenceIdeal.main_v73) = after Cert.KernelIdeal.Hand.kseg6 VK (Proc.devRef .tc Cert.KernelIdeal.main_v73)
      ∧ after Cert.ReferenceIdeal.Hand.seg6 VR (Proc.devRef .tc Cert.ReferenceIdeal.main_v112) = after Cert.KernelIdeal.Hand.kseg6 VK (Proc.devRef .tc Cert.KernelIdeal.main_v112)
      ∧ after Cert.ReferenceIdeal.Hand.seg6 VR (Proc.devRef .tc Cert.ReferenceIdeal.main_v162) = after Cert.KernelIdeal.Hand.kseg6 VK (Proc.devRef .tc Cert.KernelIdeal.main_v162)
      ∧ after Cert.ReferenceIdeal.Hand.seg6 VR (Proc.devRef .tc Cert.ReferenceIdeal.main_v168) = after Cert.KernelIdeal.Hand.kseg6 VK (Proc.devRef .tc Cert.KernelIdeal.main_v168)
      ∧ after Cert.ReferenceIdeal.Hand.seg6 VR (Proc.devRef .tc Cert.ReferenceIdeal.main_v177) = after Cert.KernelIdeal.Hand.kseg6 VK (Proc.devRef .tc Cert.KernelIdeal.main_v177)
      ∧ after Cert.ReferenceIdeal.Hand.seg6 VR (Proc.devRef .tc Cert.ReferenceIdeal.main_v181) = after Cert.KernelIdeal.Hand.kseg6 VK (Proc.devRef .tc Cert.KernelIdeal.main_v181) := by
  refine ⟨?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v60) = a at h_main_v60 ⊢; subst h_main_v60)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v112) = a at h_main_v112 ⊢; subst h_main_v112)
    try (generalize VR (Proc.devRef .tc Cert.ReferenceIdeal.main_v155) = a at h_main_v155 ⊢; subst h_main_v155)
    try (generalize VR (Proc.devRef .tc Cert.ReferenceIdeal.main_v156) = a at h_main_v156 ⊢; subst h_main_v156)
    try (generalize VR (Proc.devRef .tc Cert.ReferenceIdeal.main_v157) = a at h_main_v157 ⊢; subst h_main_v157)
    try (generalize VR (Proc.devRef .tc Cert.ReferenceIdeal.main_v158) = a at h_main_v158 ⊢; subst h_main_v158)
    try (generalize VR (Proc.devRef .tc Cert.ReferenceIdeal.main_v159) = a at h_main_v159 ⊢; subst h_main_v159)
    try (generalize VR (Proc.devRef .tc Cert.ReferenceIdeal.main_v160) = a at h_main_v160 ⊢; subst h_main_v160)
    try (generalize VR (Proc.devRef .tc Cert.ReferenceIdeal.main_v161) = a at h_main_v161 ⊢; subst h_main_v161)
    try rfl

end Cert.Proof.Prior

end
-- ==== Proof.PriorSeg7.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 7: 14 buffers read from before it, 17 read after it. -/
theorem seg7_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v60 : VR (Proc.devRef .tc Cert.ReferenceIdeal.main_v60) = VK (Proc.devRef .tc Cert.KernelIdeal.main_v60))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v112 : VR (Proc.devRef .tc Cert.ReferenceIdeal.main_v112) = VK (Proc.devRef .tc Cert.KernelIdeal.main_v112))
    (h_main_v162 : VR (Proc.devRef .tc Cert.ReferenceIdeal.main_v162) = VK (Proc.devRef .tc Cert.KernelIdeal.main_v162))
    (h_main_v168 : VR (Proc.devRef .tc Cert.ReferenceIdeal.main_v168) = VK (Proc.devRef .tc Cert.KernelIdeal.main_v168))
    (h_main_v177 : VR (Proc.devRef .tc Cert.ReferenceIdeal.main_v177) = VK (Proc.devRef .tc Cert.KernelIdeal.main_v177))
    (h_main_v181 : VR (Proc.devRef .tc Cert.ReferenceIdeal.main_v181) = VK (Proc.devRef .tc Cert.KernelIdeal.main_v181))
    : after Cert.ReferenceIdeal.Hand.seg7 VR (Proc.devRef .tc Cert.ReferenceIdeal.main_arg0) = after Cert.KernelIdeal.Hand.kseg7 VK (Proc.devRef .tc Cert.KernelIdeal.main_arg0)
      ∧ after Cert.ReferenceIdeal.Hand.seg7 VR (Proc.devRef .tc Cert.ReferenceIdeal.main_arg1) = after Cert.KernelIdeal.Hand.kseg7 VK (Proc.devRef .tc Cert.KernelIdeal.main_arg1)
      ∧ after Cert.ReferenceIdeal.Hand.seg7 VR (Proc.devRef .tc Cert.ReferenceIdeal.main_v24) = after Cert.KernelIdeal.Hand.kseg7 VK (Proc.devRef .tc Cert.KernelIdeal.main_v24)
      ∧ after Cert.ReferenceIdeal.Hand.seg7 VR (Proc.devRef .tc Cert.ReferenceIdeal.main_v25) = after Cert.KernelIdeal.Hand.kseg7 VK (Proc.devRef .tc Cert.KernelIdeal.main_v25)
      ∧ after Cert.ReferenceIdeal.Hand.seg7 VR (Proc.devRef .tc Cert.ReferenceIdeal.main_v31) = after Cert.KernelIdeal.Hand.kseg7 VK (Proc.devRef .tc Cert.KernelIdeal.main_v31)
      ∧ after Cert.ReferenceIdeal.Hand.seg7 VR (Proc.devRef .tc Cert.ReferenceIdeal.main_v34) = after Cert.KernelIdeal.Hand.kseg7 VK (Proc.devRef .tc Cert.KernelIdeal.main_v34)
      ∧ after Cert.ReferenceIdeal.Hand.seg7 VR (Proc.devRef .tc Cert.ReferenceIdeal.main_v72) = after Cert.KernelIdeal.Hand.kseg7 VK (Proc.devRef .tc Cert.KernelIdeal.main_v72)
      ∧ after Cert.ReferenceIdeal.Hand.seg7 VR (Proc.devRef .tc Cert.ReferenceIdeal.main_v73) = after Cert.KernelIdeal.Hand.kseg7 VK (Proc.devRef .tc Cert.KernelIdeal.main_v73)
      ∧ after Cert.ReferenceIdeal.Hand.seg7 VR (Proc.devRef .tc Cert.ReferenceIdeal.main_v112) = after Cert.KernelIdeal.Hand.kseg7 VK (Proc.devRef .tc Cert.KernelIdeal.main_v112)
      ∧ after Cert.ReferenceIdeal.Hand.seg7 VR (Proc.devRef .tc Cert.ReferenceIdeal.main_v162) = after Cert.KernelIdeal.Hand.kseg7 VK (Proc.devRef .tc Cert.KernelIdeal.main_v162)
      ∧ after Cert.ReferenceIdeal.Hand.seg7 VR (Proc.devRef .tc Cert.ReferenceIdeal.main_v193) = after Cert.KernelIdeal.Hand.kseg7 VK (Proc.devRef .tc Cert.KernelIdeal.main_v193)
      ∧ after Cert.ReferenceIdeal.Hand.seg7 VR (Proc.devRef .tc Cert.ReferenceIdeal.main_v194) = after Cert.KernelIdeal.Hand.kseg7 VK (Proc.devRef .tc Cert.KernelIdeal.main_v194)
      ∧ after Cert.ReferenceIdeal.Hand.seg7 VR (Proc.devRef .tc Cert.ReferenceIdeal.main_v195) = after Cert.KernelIdeal.Hand.kseg7 VK (Proc.devRef .tc Cert.KernelIdeal.main_v195)
      ∧ after Cert.ReferenceIdeal.Hand.seg7 VR (Proc.devRef .tc Cert.ReferenceIdeal.main_v196) = after Cert.KernelIdeal.Hand.kseg7 VK (Proc.devRef .tc Cert.KernelIdeal.main_v196)
      ∧ after Cert.ReferenceIdeal.Hand.seg7 VR (Proc.devRef .tc Cert.ReferenceIdeal.main_v197) = after Cert.KernelIdeal.Hand.kseg7 VK (Proc.devRef .tc Cert.KernelIdeal.main_v197)
      ∧ after Cert.ReferenceIdeal.Hand.seg7 VR (Proc.devRef .tc Cert.ReferenceIdeal.main_v198) = after Cert.KernelIdeal.Hand.kseg7 VK (Proc.devRef .tc Cert.KernelIdeal.main_v198)
      ∧ after Cert.ReferenceIdeal.Hand.seg7 VR (Proc.devRef .tc Cert.ReferenceIdeal.main_v199) = after Cert.KernelIdeal.Hand.kseg7 VK (Proc.devRef .tc Cert.KernelIdeal.main_v199) := by
  refine ⟨?_, ?_, ?_, ?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v60) = a at h_main_v60 ⊢; subst h_main_v60)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v112) = a at h_main_v112 ⊢; subst h_main_v112)
    try (generalize VR (Proc.devRef .tc Cert.ReferenceIdeal.main_v162) = a at h_main_v162 ⊢; subst h_main_v162)
    try (generalize VR (Proc.devRef .tc Cert.ReferenceIdeal.main_v168) = a at h_main_v168 ⊢; subst h_main_v168)
    try (generalize VR (Proc.devRef .tc Cert.ReferenceIdeal.main_v177) = a at h_main_v177 ⊢; subst h_main_v177)
    try (generalize VR (Proc.devRef .tc Cert.ReferenceIdeal.main_v181) = a at h_main_v181 ⊢; subst h_main_v181)
    try rfl

end Cert.Proof.Prior

end
-- ==== Proof.PriorSeg8.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 8: 17 buffers read from before it, 14 read after it. -/
theorem seg8_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v34 : VR (Proc.devRef .tc Cert.ReferenceIdeal.main_v34) = VK (Proc.devRef .tc Cert.KernelIdeal.main_v34))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v112 : VR (Proc.devRef .tc Cert.ReferenceIdeal.main_v112) = VK (Proc.devRef .tc Cert.KernelIdeal.main_v112))
    (h_main_v162 : VR (Proc.devRef .tc Cert.ReferenceIdeal.main_v162) = VK (Proc.devRef .tc Cert.KernelIdeal.main_v162))
    (h_main_v193 : VR (Proc.devRef .tc Cert.ReferenceIdeal.main_v193) = VK (Proc.devRef .tc Cert.KernelIdeal.main_v193))
    (h_main_v194 : VR (Proc.devRef .tc Cert.ReferenceIdeal.main_v194) = VK (Proc.devRef .tc Cert.KernelIdeal.main_v194))
    (h_main_v195 : VR (Proc.devRef .tc Cert.ReferenceIdeal.main_v195) = VK (Proc.devRef .tc Cert.KernelIdeal.main_v195))
    (h_main_v196 : VR (Proc.devRef .tc Cert.ReferenceIdeal.main_v196) = VK (Proc.devRef .tc Cert.KernelIdeal.main_v196))
    (h_main_v197 : VR (Proc.devRef .tc Cert.ReferenceIdeal.main_v197) = VK (Proc.devRef .tc Cert.KernelIdeal.main_v197))
    (h_main_v198 : VR (Proc.devRef .tc Cert.ReferenceIdeal.main_v198) = VK (Proc.devRef .tc Cert.KernelIdeal.main_v198))
    (h_main_v199 : VR (Proc.devRef .tc Cert.ReferenceIdeal.main_v199) = VK (Proc.devRef .tc Cert.KernelIdeal.main_v199))
    : after Cert.ReferenceIdeal.Hand.seg8 VR (Proc.devRef .tc Cert.ReferenceIdeal.main_arg0) = after Cert.KernelIdeal.Hand.kseg8 VK (Proc.devRef .tc Cert.KernelIdeal.main_arg0)
      ∧ after Cert.ReferenceIdeal.Hand.seg8 VR (Proc.devRef .tc Cert.ReferenceIdeal.main_arg1) = after Cert.KernelIdeal.Hand.kseg8 VK (Proc.devRef .tc Cert.KernelIdeal.main_arg1)
      ∧ after Cert.ReferenceIdeal.Hand.seg8 VR (Proc.devRef .tc Cert.ReferenceIdeal.main_v24) = after Cert.KernelIdeal.Hand.kseg8 VK (Proc.devRef .tc Cert.KernelIdeal.main_v24)
      ∧ after Cert.ReferenceIdeal.Hand.seg8 VR (Proc.devRef .tc Cert.ReferenceIdeal.main_v25) = after Cert.KernelIdeal.Hand.kseg8 VK (Proc.devRef .tc Cert.KernelIdeal.main_v25)
      ∧ after Cert.ReferenceIdeal.Hand.seg8 VR (Proc.devRef .tc Cert.ReferenceIdeal.main_v31) = after Cert.KernelIdeal.Hand.kseg8 VK (Proc.devRef .tc Cert.KernelIdeal.main_v31)
      ∧ after Cert.ReferenceIdeal.Hand.seg8 VR (Proc.devRef .tc Cert.ReferenceIdeal.main_v72) = after Cert.KernelIdeal.Hand.kseg8 VK (Proc.devRef .tc Cert.KernelIdeal.main_v72)
      ∧ after Cert.ReferenceIdeal.Hand.seg8 VR (Proc.devRef .tc Cert.ReferenceIdeal.main_v73) = after Cert.KernelIdeal.Hand.kseg8 VK (Proc.devRef .tc Cert.KernelIdeal.main_v73)
      ∧ after Cert.ReferenceIdeal.Hand.seg8 VR (Proc.devRef .tc Cert.ReferenceIdeal.main_v112) = after Cert.KernelIdeal.Hand.kseg8 VK (Proc.devRef .tc Cert.KernelIdeal.main_v112)
      ∧ after Cert.ReferenceIdeal.Hand.seg8 VR (Proc.devRef .tc Cert.ReferenceIdeal.main_v162) = after Cert.KernelIdeal.Hand.kseg8 VK (Proc.devRef .tc Cert.KernelIdeal.main_v162)
      ∧ after Cert.ReferenceIdeal.Hand.seg8 VR (Proc.devRef .tc Cert.ReferenceIdeal.main_v200) = after Cert.KernelIdeal.Hand.kseg8 VK (Proc.devRef .tc Cert.KernelIdeal.main_v200)
      ∧ after Cert.ReferenceIdeal.Hand.seg8 VR (Proc.devRef .tc Cert.ReferenceIdeal.main_v206) = after Cert.KernelIdeal.Hand.kseg8 VK (Proc.devRef .tc Cert.KernelIdeal.main_v206)
      ∧ after Cert.ReferenceIdeal.Hand.seg8 VR (Proc.devRef .tc Cert.ReferenceIdeal.main_v214) = after Cert.KernelIdeal.Hand.kseg8 VK (Proc.devRef .tc Cert.KernelIdeal.main_v214)
      ∧ after Cert.ReferenceIdeal.Hand.seg8 VR (Proc.devRef .tc Cert.ReferenceIdeal.main_v219) = after Cert.KernelIdeal.Hand.kseg8 VK (Proc.devRef .tc Cert.KernelIdeal.main_v219)
      ∧ after Cert.ReferenceIdeal.Hand.seg8 VR (Proc.devRef .tc Cert.ReferenceIdeal.main_v227) = after Cert.KernelIdeal.Hand.kseg8 VK (Proc.devRef .tc Cert.KernelIdeal.main_v227) := by
  refine ⟨?_, ?_, ?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v34) = a at h_main_v34 ⊢; subst h_main_v34)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v112) = a at h_main_v112 ⊢; subst h_main_v112)
    try (generalize VR (Proc.devRef .tc Cert.ReferenceIdeal.main_v162) = a at h_main_v162 ⊢; subst h_main_v162)
    try (generalize VR (Proc.devRef .tc Cert.ReferenceIdeal.main_v193) = a at h_main_v193 ⊢; subst h_main_v193)
    try (generalize VR (Proc.devRef .tc Cert.ReferenceIdeal.main_v194) = a at h_main_v194 ⊢; subst h_main_v194)
    try (generalize VR (Proc.devRef .tc Cert.ReferenceIdeal.main_v195) = a at h_main_v195 ⊢; subst h_main_v195)
    try (generalize VR (Proc.devRef .tc Cert.ReferenceIdeal.main_v196) = a at h_main_v196 ⊢; subst h_main_v196)
    try (generalize VR (Proc.devRef .tc Cert.ReferenceIdeal.main_v197) = a at h_main_v197 ⊢; subst h_main_v197)
    try (generalize VR (Proc.devRef .tc Cert.ReferenceIdeal.main_v198) = a at h_main_v198 ⊢; subst h_main_v198)
    try (generalize VR (Proc.devRef .tc Cert.ReferenceIdeal.main_v199) = a at h_main_v199 ⊢; subst h_main_v199)
    try rfl

end Cert.Proof.Prior

end
-- ==== Proof.PriorSeg9.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 9: 14 buffers read from before it, 12 read after it. -/
theorem seg9_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v24 : VR (Proc.devRef .tc Cert.ReferenceIdeal.main_v24) = VK (Proc.devRef .tc Cert.KernelIdeal.main_v24))
    (h_main_v25 : VR (Proc.devRef .tc Cert.ReferenceIdeal.main_v25) = VK (Proc.devRef .tc Cert.KernelIdeal.main_v25))
    (h_main_v31 : VR (Proc.devRef .tc Cert.ReferenceIdeal.main_v31) = VK (Proc.devRef .tc Cert.KernelIdeal.main_v31))
    (h_main_v72 : VR (Proc.devRef .tc Cert.ReferenceIdeal.main_v72) = VK (Proc.devRef .tc Cert.KernelIdeal.main_v72))
    (h_main_v73 : VR (Proc.devRef .tc Cert.ReferenceIdeal.main_v73) = VK (Proc.devRef .tc Cert.KernelIdeal.main_v73))
    (h_main_v112 : VR (Proc.devRef .tc Cert.ReferenceIdeal.main_v112) = VK (Proc.devRef .tc Cert.KernelIdeal.main_v112))
    (h_main_v162 : VR (Proc.devRef .tc Cert.ReferenceIdeal.main_v162) = VK (Proc.devRef .tc Cert.KernelIdeal.main_v162))
    (h_main_v200 : VR (Proc.devRef .tc Cert.ReferenceIdeal.main_v200) = VK (Proc.devRef .tc Cert.KernelIdeal.main_v200))
    (h_main_v206 : VR (Proc.devRef .tc Cert.ReferenceIdeal.main_v206) = VK (Proc.devRef .tc Cert.KernelIdeal.main_v206))
    (h_main_v214 : VR (Proc.devRef .tc Cert.ReferenceIdeal.main_v214) = VK (Proc.devRef .tc Cert.KernelIdeal.main_v214))
    (h_main_v219 : VR (Proc.devRef .tc Cert.ReferenceIdeal.main_v219) = VK (Proc.devRef .tc Cert.KernelIdeal.main_v219))
    (h_main_v227 : VR (Proc.devRef .tc Cert.ReferenceIdeal.main_v227) = VK (Proc.devRef .tc Cert.KernelIdeal.main_v227))
    : after Cert.ReferenceIdeal.Hand.seg9 VR (Proc.devRef .tc Cert.ReferenceIdeal.main_arg0) = after Cert.KernelIdeal.Hand.kseg9 VK (Proc.devRef .tc Cert.KernelIdeal.main_arg0)
      ∧ after Cert.ReferenceIdeal.Hand.seg9 VR (Proc.devRef .tc Cert.ReferenceIdeal.main_arg1) = after Cert.KernelIdeal.Hand.kseg9 VK (Proc.devRef .tc Cert.KernelIdeal.main_arg1)
      ∧ after Cert.ReferenceIdeal.Hand.seg9 VR (Proc.devRef .tc Cert.ReferenceIdeal.main_v112) = after Cert.KernelIdeal.Hand.kseg9 VK (Proc.devRef .tc Cert.KernelIdeal.main_v112)
      ∧ after Cert.ReferenceIdeal.Hand.seg9 VR (Proc.devRef .tc Cert.ReferenceIdeal.main_v162) = after Cert.KernelIdeal.Hand.kseg9 VK (Proc.devRef .tc Cert.KernelIdeal.main_v162)
      ∧ after Cert.ReferenceIdeal.Hand.seg9 VR (Proc.devRef .tc Cert.ReferenceIdeal.main_v200) = after Cert.KernelIdeal.Hand.kseg9 VK (Proc.devRef .tc Cert.KernelIdeal.main_v200)
      ∧ after Cert.ReferenceIdeal.Hand.seg9 VR (Proc.devRef .tc Cert.ReferenceIdeal.main_v247) = after Cert.KernelIdeal.Hand.kseg9 VK (Proc.devRef .tc Cert.KernelIdeal.main_v247)
      ∧ after Cert.ReferenceIdeal.Hand.seg9 VR (Proc.devRef .tc Cert.ReferenceIdeal.main_v248) = after Cert.KernelIdeal.Hand.kseg9 VK (Proc.devRef .tc Cert.KernelIdeal.main_v248)
      ∧ after Cert.ReferenceIdeal.Hand.seg9 VR (Proc.devRef .tc Cert.ReferenceIdeal.main_v249) = after Cert.KernelIdeal.Hand.kseg9 VK (Proc.devRef .tc Cert.KernelIdeal.main_v249)
      ∧ after Cert.ReferenceIdeal.Hand.seg9 VR (Proc.devRef .tc Cert.ReferenceIdeal.main_v250) = after Cert.KernelIdeal.Hand.kseg9 VK (Proc.devRef .tc Cert.KernelIdeal.main_v250)
      ∧ after Cert.ReferenceIdeal.Hand.seg9 VR (Proc.devRef .tc Cert.ReferenceIdeal.main_v251) = after Cert.KernelIdeal.Hand.kseg9 VK (Proc.devRef .tc Cert.KernelIdeal.main_v251)
      ∧ after Cert.ReferenceIdeal.Hand.seg9 VR (Proc.devRef .tc Cert.ReferenceIdeal.main_v252) = after Cert.KernelIdeal.Hand.kseg9 VK (Proc.devRef .tc Cert.KernelIdeal.main_v252)
      ∧ after Cert.ReferenceIdeal.Hand.seg9 VR (Proc.devRef .tc Cert.ReferenceIdeal.main_v253) = after Cert.KernelIdeal.Hand.kseg9 VK (Proc.devRef .tc Cert.KernelIdeal.main_v253) := by
  refine ⟨?_, ?_, ?_, ?_, ?_, ?_, ?_, ?_, ?_, ?_, ?_, ?_⟩
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v24) = a at h_main_v24 ⊢; subst h_main_v24)
    try (generalize VR (Proc.devRef .tc Cert.ReferenceIdeal.main_v25) = a at h_main_v25 ⊢; subst h_main_v25)
    try (generalize VR (Proc.devRef .tc Cert.ReferenceIdeal.main_v31) = a at h_main_v31 ⊢; subst h_main_v31)
    try (generalize VR (Proc.devRef .tc Cert.ReferenceIdeal.main_v72) = a at h_main_v72 ⊢; subst h_main_v72)
    try (generalize VR (Proc.devRef .tc Cert.ReferenceIdeal.main_v73) = a at h_main_v73 ⊢; subst h_main_v73)
    try (generalize VR (Proc.devRef .tc Cert.ReferenceIdeal.main_v112) = a at h_main_v112 ⊢; subst h_main_v112)
    try (generalize VR (Proc.devRef .tc Cert.ReferenceIdeal.main_v162) = a at h_main_v162 ⊢; subst h_main_v162)
    try (generalize VR (Proc.devRef .tc Cert.ReferenceIdeal.main_v200) = a at h_main_v200 ⊢; subst h_main_v200)
    try (generalize VR (Proc.devRef .tc Cert.ReferenceIdeal.main_v206) = a at h_main_v206 ⊢; subst h_main_v206)
    try (generalize VR (Proc.devRef .tc Cert.ReferenceIdeal.main_v214) = a at h_main_v214 ⊢; subst h_main_v214)
    try (generalize VR (Proc.devRef .tc Cert.ReferenceIdeal.main_v219) = a at h_main_v219 ⊢; subst h_main_v219)
    try (generalize VR (Proc.devRef .tc Cert.ReferenceIdeal.main_v227) = a at h_main_v227 ⊢; subst h_main_v227)
    try rfl

end Cert.Proof.Prior

end
-- ==== Proof.PriorSeg10.lean ====
/-
  The two programs' prior operations compared over one segment. From contents that agree on the buffers the segment
  reads from before it, the two programs' folds over the segment agree on the buffers read after it: each such buffer's
  value is evaluated on both sides as a term of the buffers read, and the two terms are one.
-/
import proofs.«129664_j48773648614415_1_alg».proof.Proof.KerSegs
import proofs.«129664_j48773648614415_1_alg».proof.Proof.RefSegs
import Idealize.ShloMosaic.PureOps.Ideal

set_option maxRecDepth 65536

noncomputable section

namespace Cert.Proof.Prior

open Idealize.ShloMosaic Idealize.ShloMosaic.TcCoe Idealize.SL.Sem Idealize.ShloMosaic.StableHlo

set_option maxHeartbeats 2000000000 in
/-- Segment 10: 12 buffers read from before it, 1 read after it. -/
theorem seg10_sim (VR : Valuation Cert.ReferenceIdeal.τ Cert.ReferenceIdeal.sig (Elt Ideal)) (VK : Valuation Cert.KernelIdeal.τ Cert.KernelIdeal.sig (Elt Ideal))
    (h_main_arg0 : VR (Proc.devRef .tc Cert.ReferenceIdeal.main_arg0) = VK (Proc.devRef .tc Cert.KernelIdeal.main_arg0))
    (h_main_arg1 : VR (Proc.devRef .tc Cert.ReferenceIdeal.main_arg1) = VK (Proc.devRef .tc Cert.KernelIdeal.main_arg1))
    (h_main_v112 : VR (Proc.devRef .tc Cert.ReferenceIdeal.main_v112) = VK (Proc.devRef .tc Cert.KernelIdeal.main_v112))
    (h_main_v162 : VR (Proc.devRef .tc Cert.ReferenceIdeal.main_v162) = VK (Proc.devRef .tc Cert.KernelIdeal.main_v162))
    (h_main_v200 : VR (Proc.devRef .tc Cert.ReferenceIdeal.main_v200) = VK (Proc.devRef .tc Cert.KernelIdeal.main_v200))
    (h_main_v247 : VR (Proc.devRef .tc Cert.ReferenceIdeal.main_v247) = VK (Proc.devRef .tc Cert.KernelIdeal.main_v247))
    (h_main_v248 : VR (Proc.devRef .tc Cert.ReferenceIdeal.main_v248) = VK (Proc.devRef .tc Cert.KernelIdeal.main_v248))
    (h_main_v249 : VR (Proc.devRef .tc Cert.ReferenceIdeal.main_v249) = VK (Proc.devRef .tc Cert.KernelIdeal.main_v249))
    (h_main_v250 : VR (Proc.devRef .tc Cert.ReferenceIdeal.main_v250) = VK (Proc.devRef .tc Cert.KernelIdeal.main_v250))
    (h_main_v251 : VR (Proc.devRef .tc Cert.ReferenceIdeal.main_v251) = VK (Proc.devRef .tc Cert.KernelIdeal.main_v251))
    (h_main_v252 : VR (Proc.devRef .tc Cert.ReferenceIdeal.main_v252) = VK (Proc.devRef .tc Cert.KernelIdeal.main_v252))
    (h_main_v253 : VR (Proc.devRef .tc Cert.ReferenceIdeal.main_v253) = VK (Proc.devRef .tc Cert.KernelIdeal.main_v253))
    : after Cert.ReferenceIdeal.Hand.seg10 VR (Proc.devRef .tc Cert.ReferenceIdeal.main_v269) = after Cert.KernelIdeal.Hand.kseg10 VK (Proc.devRef .tc Cert.KernelIdeal.main_v269) := by
  all_goals
    simp (disch := decide) only [after_cons, after_nil, nullary_result', unary_result', binary_result', ternary_result',
      quaternary_result', reshape_result', nary_result', unaryIndexed_result', binaryIndexed_result',
      nullary_result_ne', unary_result_ne', binary_result_ne', ternary_result_ne', quaternary_result_ne', reshape_result_ne',
      nary_result_ne', unaryIndexed_result_ne', binaryIndexed_result_ne', Matrix.cons_val]
    try (generalize VR (Proc.devRef .tc Cert.ReferenceIdeal.main_arg0) = a at h_main_arg0 ⊢; subst h_main_arg0)
    try (generalize VR (Proc.devRef .tc Cert.ReferenceIdeal.main_arg1) = a at h_main_arg1 ⊢; subst h_main_arg1)
    try (generalize VR (Proc.devRef .tc Cert.ReferenceIdeal.main_v112) = a at h_main_v112 ⊢; subst h_main_v112)
    try (generalize VR (Proc.devRef .tc Cert.ReferenceIdeal.main_v162) = a at h_main_v162 ⊢; subst h_main_v162)
    try (generalize VR (Proc.devRef .tc Cert.ReferenceIdeal.main_v200) = a at h_main_v200 ⊢; subst h_main_v200)
    try (generalize VR (Proc.devRef .tc Cert.ReferenceIdeal.main_v247) = a at h_main_v247 ⊢; subst h_main_v247)
    try (generalize VR (Proc.devRef .tc Cert.ReferenceIdeal.main_v248) = a at h_main_v248 ⊢; subst h_main_v248)
    try (generalize VR (Proc.devRef .tc Cert.ReferenceIdeal.main_v249) = a at h_main_v249 ⊢; subst h_main_v249)
    try (generalize VR (Proc.devRef .tc Cert.ReferenceIdeal.main_v250) = a at h_main_v250 ⊢; subst h_main_v250)
    try (generalize VR (Proc.devRef .tc Cert.ReferenceIdeal.main_v251) = a at h_main_v251 ⊢; subst h_main_v251)
    try (generalize VR (Proc.devRef .tc Cert.ReferenceIdeal.main_v252) = a at h_main_v252 ⊢; subst h_main_v252)
    try (generalize VR (Proc.devRef .tc Cert.ReferenceIdeal.main_v253) = a at h_main_v253 ⊢; subst h_main_v253)
    try rfl

end Cert.Proof.Prior

end
-- ==== Proof.PriorBridge.lean ====
/-
  The prior term is one function of the two [8192, 7] arrays in both programs: the kernel program computes it by 360
  host operations before its region, the reference by the same operations; cut into the same segments, the two folds
  agree after each segment on every buffer read later (PriorSegs), hence at the end on the prior's buffer.
-/
import proofs.«129664_j48773648614415_1_alg».proof.Proof.PriorSeg0
import proofs.«129664_j48773648614415_1_alg».proof.Proof.PriorSeg1
import proofs.«129664_j48773648614415_1_alg».proof.Proof.PriorSeg2
import proofs.«129664_j48773648614415_1_alg».proof.Proof.PriorSeg3
import proofs.«129664_j48773648614415_1_alg».proof.Proof.PriorSeg4
import proofs.«129664_j48773648614415_1_alg».proof.Proof.PriorSeg5
import proofs.«129664_j48773648614415_1_alg».proof.Proof.PriorSeg6
import proofs.«129664_j48773648614415_1_alg».proof.Proof.PriorSeg7
import proofs.«129664_j48773648614415_1_alg».proof.Proof.PriorSeg8
import proofs.«129664_j48773648614415_1_alg».proof.Proof.PriorSeg9
import proofs.«129664_j48773648614415_1_alg».proof.Proof.PriorSeg10

set_option maxRecDepth 65536

noncomputable section

namespace Cert.Proof.Prior

open Idealize.ShloMosaic Idealize.ShloMosaic.TcCoe Idealize.SL.Sem Idealize.ShloMosaic.StableHlo

set_option maxHeartbeats 400000000 in
/-- From contents that agree on the two [8192, 7] arrays, the reference's fold and the kernel program's fold hold the
    same prior term. -/
theorem prior_eq_of (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1)) :
    after Cert.ReferenceIdeal.Hand.priorOps VR (Proc.devRef .tc Cert.ReferenceIdeal.main_v269)
      = after (List.flatten Cert.KernelIdeal.Hand.preOps) VK (Proc.devRef .tc Cert.KernelIdeal.main_v269) := by
  rw [Cert.ReferenceIdeal.Hand.priorOps_eq_segs, Cert.KernelIdeal.Hand.flat_eq_ksegs]
  rw [StableHlo.after_append Cert.ReferenceIdeal.Hand.seg0 _ _, StableHlo.after_append Cert.ReferenceIdeal.Hand.seg1 _ _, StableHlo.after_append Cert.ReferenceIdeal.Hand.seg2 _ _, StableHlo.after_append Cert.ReferenceIdeal.Hand.seg3 _ _, StableHlo.after_append Cert.ReferenceIdeal.Hand.seg4 _ _, StableHlo.after_append Cert.ReferenceIdeal.Hand.seg5 _ _, StableHlo.after_append Cert.ReferenceIdeal.Hand.seg6 _ _, StableHlo.after_append Cert.ReferenceIdeal.Hand.seg7 _ _, StableHlo.after_append Cert.ReferenceIdeal.Hand.seg8 _ _, StableHlo.after_append Cert.ReferenceIdeal.Hand.seg9 _ _]
  rw [StableHlo.after_append Cert.KernelIdeal.Hand.kseg0 _ _, StableHlo.after_append Cert.KernelIdeal.Hand.kseg1 _ _, StableHlo.after_append Cert.KernelIdeal.Hand.kseg2 _ _, StableHlo.after_append Cert.KernelIdeal.Hand.kseg3 _ _, StableHlo.after_append Cert.KernelIdeal.Hand.kseg4 _ _, StableHlo.after_append Cert.KernelIdeal.Hand.kseg5 _ _, StableHlo.after_append Cert.KernelIdeal.Hand.kseg6 _ _, StableHlo.after_append Cert.KernelIdeal.Hand.kseg7 _ _, StableHlo.after_append Cert.KernelIdeal.Hand.kseg8 _ _, StableHlo.after_append Cert.KernelIdeal.Hand.kseg9 _ _]
  obtain ⟨g0_0, g0_1, g0_2, g0_3, g0_4, g0_5, g0_6, g0_7⟩ := seg0_sim (VR) (VK) h0 h1
  obtain ⟨g1_0, g1_1, g1_2, g1_3, g1_4, g1_5, g1_6, g1_7, g1_8, g1_9, g1_10⟩ := seg1_sim (after Cert.ReferenceIdeal.Hand.seg0 (VR)) (after Cert.KernelIdeal.Hand.kseg0 (VK)) g0_0 g0_1 g0_2 g0_3 g0_4 g0_5 g0_6 g0_7
  obtain ⟨g2_0, g2_1, g2_2, g2_3, g2_4, g2_5, g2_6, g2_7, g2_8, g2_9, g2_10, g2_11, g2_12, g2_13⟩ := seg2_sim (after Cert.ReferenceIdeal.Hand.seg1 (after Cert.ReferenceIdeal.Hand.seg0 (VR))) (after Cert.KernelIdeal.Hand.kseg1 (after Cert.KernelIdeal.Hand.kseg0 (VK))) g1_0 g1_1 g1_2 g1_3 g1_4 g1_5 g1_6 g1_7 g1_8 g1_9 g1_10
  obtain ⟨g3_0, g3_1, g3_2, g3_3, g3_4, g3_5, g3_6, g3_7, g3_8, g3_9, g3_10, g3_11, g3_12, g3_13, g3_14, g3_15, g3_16⟩ := seg3_sim (after Cert.ReferenceIdeal.Hand.seg2 (after Cert.ReferenceIdeal.Hand.seg1 (after Cert.ReferenceIdeal.Hand.seg0 (VR)))) (after Cert.KernelIdeal.Hand.kseg2 (after Cert.KernelIdeal.Hand.kseg1 (after Cert.KernelIdeal.Hand.kseg0 (VK)))) g2_0 g2_1 g2_2 g2_3 g2_4 g2_5 g2_6 g2_7 g2_8 g2_9 g2_10 g2_11 g2_12 g2_13
  obtain ⟨g4_0, g4_1, g4_2, g4_3, g4_4, g4_5, g4_6, g4_7, g4_8, g4_9, g4_10, g4_11, g4_12, g4_13⟩ := seg4_sim (after Cert.ReferenceIdeal.Hand.seg3 (after Cert.ReferenceIdeal.Hand.seg2 (after Cert.ReferenceIdeal.Hand.seg1 (after Cert.ReferenceIdeal.Hand.seg0 (VR))))) (after Cert.KernelIdeal.Hand.kseg3 (after Cert.KernelIdeal.Hand.kseg2 (after Cert.KernelIdeal.Hand.kseg1 (after Cert.KernelIdeal.Hand.kseg0 (VK))))) g3_0 g3_1 g3_2 g3_3 g3_4 g3_5 g3_6 g3_7 g3_8 g3_9 g3_10 g3_11 g3_12 g3_13 g3_14 g3_15 g3_16
  obtain ⟨g5_0, g5_1, g5_2, g5_3, g5_4, g5_5, g5_6, g5_7, g5_8, g5_9, g5_10, g5_11, g5_12, g5_13, g5_14, g5_15, g5_16⟩ := seg5_sim (after Cert.ReferenceIdeal.Hand.seg4 (after Cert.ReferenceIdeal.Hand.seg3 (after Cert.ReferenceIdeal.Hand.seg2 (after Cert.ReferenceIdeal.Hand.seg1 (after Cert.ReferenceIdeal.Hand.seg0 (VR)))))) (after Cert.KernelIdeal.Hand.kseg4 (after Cert.KernelIdeal.Hand.kseg3 (after Cert.KernelIdeal.Hand.kseg2 (after Cert.KernelIdeal.Hand.kseg1 (after Cert.KernelIdeal.Hand.kseg0 (VK)))))) g4_0 g4_1 g4_2 g4_3 g4_4 g4_5 g4_6 g4_7 g4_8 g4_9 g4_10 g4_11 g4_12 g4_13
  obtain ⟨g6_0, g6_1, g6_2, g6_3, g6_4, g6_5, g6_6, g6_7, g6_8, g6_9, g6_10, g6_11, g6_12, g6_13⟩ := seg6_sim (after Cert.ReferenceIdeal.Hand.seg5 (after Cert.ReferenceIdeal.Hand.seg4 (after Cert.ReferenceIdeal.Hand.seg3 (after Cert.ReferenceIdeal.Hand.seg2 (after Cert.ReferenceIdeal.Hand.seg1 (after Cert.ReferenceIdeal.Hand.seg0 (VR))))))) (after Cert.KernelIdeal.Hand.kseg5 (after Cert.KernelIdeal.Hand.kseg4 (after Cert.KernelIdeal.Hand.kseg3 (after Cert.KernelIdeal.Hand.kseg2 (after Cert.KernelIdeal.Hand.kseg1 (after Cert.KernelIdeal.Hand.kseg0 (VK))))))) g5_0 g5_1 g5_2 g5_3 g5_4 g5_5 g5_6 g5_7 g5_8 g5_9 g5_10 g5_11 g5_12 g5_13 g5_14 g5_15 g5_16
  obtain ⟨g7_0, g7_1, g7_2, g7_3, g7_4, g7_5, g7_6, g7_7, g7_8, g7_9, g7_10, g7_11, g7_12, g7_13, g7_14, g7_15, g7_16⟩ := seg7_sim (after Cert.ReferenceIdeal.Hand.seg6 (after Cert.ReferenceIdeal.Hand.seg5 (after Cert.ReferenceIdeal.Hand.seg4 (after Cert.ReferenceIdeal.Hand.seg3 (after Cert.ReferenceIdeal.Hand.seg2 (after Cert.ReferenceIdeal.Hand.seg1 (after Cert.ReferenceIdeal.Hand.seg0 (VR)))))))) (after Cert.KernelIdeal.Hand.kseg6 (after Cert.KernelIdeal.Hand.kseg5 (after Cert.KernelIdeal.Hand.kseg4 (after Cert.KernelIdeal.Hand.kseg3 (after Cert.KernelIdeal.Hand.kseg2 (after Cert.KernelIdeal.Hand.kseg1 (after Cert.KernelIdeal.Hand.kseg0 (VK)))))))) g6_0 g6_1 g6_2 g6_3 g6_4 g6_5 g6_6 g6_7 g6_8 g6_9 g6_10 g6_11 g6_12 g6_13
  obtain ⟨g8_0, g8_1, g8_2, g8_3, g8_4, g8_5, g8_6, g8_7, g8_8, g8_9, g8_10, g8_11, g8_12, g8_13⟩ := seg8_sim (after Cert.ReferenceIdeal.Hand.seg7 (after Cert.ReferenceIdeal.Hand.seg6 (after Cert.ReferenceIdeal.Hand.seg5 (after Cert.ReferenceIdeal.Hand.seg4 (after Cert.ReferenceIdeal.Hand.seg3 (after Cert.ReferenceIdeal.Hand.seg2 (after Cert.ReferenceIdeal.Hand.seg1 (after Cert.ReferenceIdeal.Hand.seg0 (VR))))))))) (after Cert.KernelIdeal.Hand.kseg7 (after Cert.KernelIdeal.Hand.kseg6 (after Cert.KernelIdeal.Hand.kseg5 (after Cert.KernelIdeal.Hand.kseg4 (after Cert.KernelIdeal.Hand.kseg3 (after Cert.KernelIdeal.Hand.kseg2 (after Cert.KernelIdeal.Hand.kseg1 (after Cert.KernelIdeal.Hand.kseg0 (VK))))))))) g7_0 g7_1 g7_2 g7_3 g7_4 g7_5 g7_6 g7_7 g7_8 g7_9 g7_10 g7_11 g7_12 g7_13 g7_14 g7_15 g7_16
  obtain ⟨g9_0, g9_1, g9_2, g9_3, g9_4, g9_5, g9_6, g9_7, g9_8, g9_9, g9_10, g9_11⟩ := seg9_sim (after Cert.ReferenceIdeal.Hand.seg8 (after Cert.ReferenceIdeal.Hand.seg7 (after Cert.ReferenceIdeal.Hand.seg6 (after Cert.ReferenceIdeal.Hand.seg5 (after Cert.ReferenceIdeal.Hand.seg4 (after Cert.ReferenceIdeal.Hand.seg3 (after Cert.ReferenceIdeal.Hand.seg2 (after Cert.ReferenceIdeal.Hand.seg1 (after Cert.ReferenceIdeal.Hand.seg0 (VR)))))))))) (after Cert.KernelIdeal.Hand.kseg8 (after Cert.KernelIdeal.Hand.kseg7 (after Cert.KernelIdeal.Hand.kseg6 (after Cert.KernelIdeal.Hand.kseg5 (after Cert.KernelIdeal.Hand.kseg4 (after Cert.KernelIdeal.Hand.kseg3 (after Cert.KernelIdeal.Hand.kseg2 (after Cert.KernelIdeal.Hand.kseg1 (after Cert.KernelIdeal.Hand.kseg0 (VK)))))))))) g8_0 g8_1 g8_2 g8_3 g8_4 g8_5 g8_6 g8_7 g8_8 g8_9 g8_10 g8_11 g8_12 g8_13
  exact seg10_sim (after Cert.ReferenceIdeal.Hand.seg9 (after Cert.ReferenceIdeal.Hand.seg8 (after Cert.ReferenceIdeal.Hand.seg7 (after Cert.ReferenceIdeal.Hand.seg6 (after Cert.ReferenceIdeal.Hand.seg5 (after Cert.ReferenceIdeal.Hand.seg4 (after Cert.ReferenceIdeal.Hand.seg3 (after Cert.ReferenceIdeal.Hand.seg2 (after Cert.ReferenceIdeal.Hand.seg1 (after Cert.ReferenceIdeal.Hand.seg0 (VR))))))))))) (after Cert.KernelIdeal.Hand.kseg9 (after Cert.KernelIdeal.Hand.kseg8 (after Cert.KernelIdeal.Hand.kseg7 (after Cert.KernelIdeal.Hand.kseg6 (after Cert.KernelIdeal.Hand.kseg5 (after Cert.KernelIdeal.Hand.kseg4 (after Cert.KernelIdeal.Hand.kseg3 (after Cert.KernelIdeal.Hand.kseg2 (after Cert.KernelIdeal.Hand.kseg1 (after Cert.KernelIdeal.Hand.kseg0 (VK))))))))))) g9_0 g9_1 g9_2 g9_3 g9_4 g9_5 g9_6 g9_7 g9_8 g9_9 g9_10 g9_11

end Cert.Proof.Prior

end
-- ==== Proof.ValueBridge.lean ====
/-
  The two programs end with the same result. The reference's result buffer holds
    ( rowsum((a₂ - a₃)·(a₂ - a₃)) / 4096 ) / 0.02 + prior
  and the kernel program's
    ( column of row means, as a vector ) / 0.02 + prior ;
  the column of row means as a vector IS the row sums over 4096 (Mse.column_eq), and the prior term is one function of
  the two [8192, 7] arrays in both programs (Prior.prior_eq_of); the arguments agree by hypothesis.
-/
import proofs.«129664_j48773648614415_1_alg».proof.Proof.FrameRunIdeal
import proofs.«129664_j48773648614415_1_alg».proof.Proof.KernelResult
import proofs.«129664_j48773648614415_1_alg».proof.Proof.RefValue
import proofs.«129664_j48773648614415_1_alg».proof.Proof.MseBridge
import proofs.«129664_j48773648614415_1_alg».proof.Proof.PriorBridge

set_option maxRecDepth 16384

noncomputable section

namespace Cert.Proof.Value

open Idealize.ShloMosaic Idealize.ShloMosaic.TcCoe Idealize.SL.Sem Idealize.ShloMosaic.StableHlo

/-- From memories that agree on the four arguments, the reference's result buffer after its run is the kernel
    program's after its own. -/
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.ReferenceIdeal.Hand.allOps (launchContents m' c) (Proc.devRef .tc Cert.ReferenceIdeal.main_v278)
      = Pipeline.afterTail₀ Cert.KernelIdeal.cfgs (Cert.KernelIdeal.Hand.dats (F := Ideal) m) 0 (Cert.KernelIdeal.Hand.V0 m)
          [Cert.KernelIdeal.Gen.hostOps1] c Cert.KernelIdeal.main_v275 := by
  have hp : Cert.ReferenceIdeal.Hand.prior (F := Ideal) m' c = Cert.KernelIdeal.Hand.V m c Cert.KernelIdeal.main_v269 :=
    Cert.Proof.Prior.prior_eq_of (launchContents m' c) (fun b => m (c, b)) h0 h1
  have hcol := Cert.Proof.Mse.column_eq (Cert.KernelIdeal.Hand.V m c Cert.KernelIdeal.main_arg2)
    (Cert.KernelIdeal.Hand.V m c Cert.KernelIdeal.main_arg3) Cert.KernelIdeal.Facts₀.shapeCasts_S8192x1_S8192
    Cert.ReferenceIdeal.Facts₀.reducesTo_S8192x4096_S8192_d1 Cert.ReferenceIdeal.Facts₀.h_S_ Cert.ReferenceIdeal.Facts₀.bcast_S_S8192
  rw [Cert.KernelIdeal.Hand.V_main_arg2, Cert.KernelIdeal.Hand.V_main_arg3] at hcol
  refine (Cert.ReferenceIdeal.Hand.result_eq (F := Ideal) m' c).trans (Eq.trans ?_ (Cert.KernelIdeal.Result.result_eq m c).symm)
  rw [hp, h2, h3, Cert.KernelIdeal.Hand.V_main_arg2, Cert.KernelIdeal.Hand.V_main_arg3]
  exact congrArg (fun x => addf (F := Ideal) (Host.divf (F := Ideal) x _) _) hcol.symm

end Cert.Proof.Value

end
-- ==== Proof.lean ====
/-
  The claim: a kernel taking row means of squared differences, inside its host program, against the reference program.
  Both programs compute
      posterior[r] = ( (1/4096) · Σₖ (yReal[r,k] − ySim[r,k])² ) / 0.02 + prior(predAbun, sigmaPrior),
  the prior term by the same 360 host operations on the two [8192, 7] arrays. They differ only in where the row means
  are taken: the kernel program takes them in a region of 16 grid points, each reading 512 rows of the two
  [8192, 4096] arrays and writing 512 rows of an [8192, 1] column (a lane sum, a cast to a column, a division by the
  constant 4096), then recasts the column as a vector; the reference sums the rows on the host from the initial value 0
  and divides by 4096. At the extended reals 0 + s = s and every other operation is the same function on both sides, so
  the results are equal entry by entry; no finiteness of the inputs is used.

  The frames: the kernel program (at both readings of the float type) runs its host operations, launches the region —
  whose body loads the two input blocks, computes, and overwrites the output block whole — and runs six more host
  operations, none writing an argument; the reference is one straight line of 436 host operations on a signature that
  scopes nothing. The ideal pass rewrote nothing, so the idealized kernel program is the printed one read at the
  extended reals.
-/
import proofs.«129664_j48773648614415_1_alg».proof.Defs
import proofs.«129664_j48773648614415_1_alg».proof.Proof.Gen.Kernel
import proofs.«129664_j48773648614415_1_alg».proof.Proof.Gen.Kernel.Skeleton
import proofs.«129664_j48773648614415_1_alg».proof.Proof.Gen.Kernel.Launch
import proofs.«129664_j48773648614415_1_alg».proof.Proof.Gen.Kernel.Points
import proofs.«129664_j48773648614415_1_alg».proof.Proof.Gen.KernelIdeal
import proofs.«129664_j48773648614415_1_alg».proof.Proof.Gen.KernelIdeal.Skeleton
import proofs.«129664_j48773648614415_1_alg».proof.Proof.Gen.KernelIdeal.Launch
import proofs.«129664_j48773648614415_1_alg».proof.Proof.Gen.KernelIdeal.Points
import proofs.«129664_j48773648614415_1_alg».proof.Proof.Gen.ReferenceIdeal
import proofs.«129664_j48773648614415_1_alg».proof.Proof.Gen.Pre_finite_inputs
import proofs.«129664_j48773648614415_1_alg».proof.Proof.FrameRunBits
import proofs.«129664_j48773648614415_1_alg».proof.Proof.FrameRunIdeal
import proofs.«129664_j48773648614415_1_alg».proof.Proof.KernelRun
import proofs.«129664_j48773648614415_1_alg».proof.Proof.RefValue
import proofs.«129664_j48773648614415_1_alg».proof.Proof.ValueBridge
import Idealize.ShloMosaic.Adequacy
import Idealize.ShloMosaic.Init

noncomputable section

namespace Cert.Proof

open Idealize.ShloMosaic Idealize.SL.Sem Idealize.ShloMosaic.StableHlo

/-- The kernel program as printed terminates, faults nowhere and leaves its arguments unchanged. -/
theorem frame_bits : @Cert.frame_Kernel Cert.Kernel.Gen.facts Cert.Pre_finite_inputs.Gen.facts :=
  fun m ρ _ => Cert.Kernel.Hand.frame m ρ

/-- The same program read at the extended reals. -/
theorem frame_ideal : @Cert.frame_KernelIdeal Cert.KernelIdeal.Gen.facts Cert.Pre_finite_inputs.Gen.facts :=
  fun m ρ _ => Cert.KernelIdeal.Hand.frame m ρ

/-- The reference terminates and leaves its arguments unchanged. -/
theorem frame_ref : @Cert.frame_ReferenceIdeal Cert.ReferenceIdeal.Gen.facts Cert.Pre_finite_inputs.Gen.facts :=
  fun m ρ _ => Cert.ReferenceIdeal.Hand.frame m ρ

/-- From memories agreeing on the arguments both programs run to the end with equal results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Pipeline.afterTail₀ Cert.KernelIdeal.cfgs (Cert.KernelIdeal.Hand.dats (F := Ideal) m) 0
      (Cert.KernelIdeal.Hand.V0 m) [Cert.KernelIdeal.Gen.hostOps1] c Cert.KernelIdeal.main_v275,
    Cert.KernelIdeal.Result.run_named m ρ, ?_⟩
  refine (θ_run Cert.ReferenceIdeal.defs _ _).mono (fun r h c => ⟨?_, ?_⟩) (Cert.ReferenceIdeal.Hand.run (F := Ideal) m' ρ')
  · exact (h c Cert.ReferenceIdeal.main_v278).trans
      (Cert.Proof.Value.value_eq m m' c (hagree c).1 (hagree c).2.1 (hagree c).2.2.1 (hagree c).2.2.2)
  · exact ⟨(h c Cert.ReferenceIdeal.main_arg0).trans (Cert.ReferenceIdeal.Hand.allOps_keeps (launchContents m' c)).1,
      (h c Cert.ReferenceIdeal.main_arg1).trans (Cert.ReferenceIdeal.Hand.allOps_keeps (launchContents m' c)).2.1,
      (h c Cert.ReferenceIdeal.main_arg2).trans (Cert.ReferenceIdeal.Hand.allOps_keeps (launchContents m' c)).2.2.1,
      (h c Cert.ReferenceIdeal.main_arg3).trans (Cert.ReferenceIdeal.Hand.allOps_keeps (launchContents m' c)).2.2.2⟩

theorem claim : Cert.Claim :=
  ⟨Cert.Kernel.Gen.facts, Cert.KernelIdeal.Gen.facts, Cert.ReferenceIdeal.Gen.facts, Cert.Pre_finite_inputs.Gen.facts,
    frame_bits, frame_ideal, frame_ref, trivial, algebraic⟩

end Cert.Proof

end
